-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x512 : Shape := ⟨2, ![100000, 512]⟩
abbrev S100000 : Shape := ⟨1, ![100000]⟩
abbrev S1600000 : Shape := ⟨1, ![1600000]⟩
abbrev S512x64 : Shape := ⟨2, ![512, 64]⟩
abbrev S64x64x512 : Shape := ⟨3, ![64, 64, 512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64x64x512 : S_.BroadcastsInDim S64x64x512 (![] : Fin 0 → Fin S64x64x512.rank)
  reducesTo_S64x64x512_S_d0_1_2 : S64x64x512.ReducesTo [0, 1, 2] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg2 : IVec S1600000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .sle main_arg2 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  main_v20

def fn {F : FTy → Type} [FloatOps F] (main_arg0 : FVec F S100000x512 .f32) (main_arg1 : IVec S100000 1) (main_arg2 : IVec S1600000 32) (main_arg3 : FVec F S512x64 .f32) (main_arg4 : FVec F S64x64x512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg3
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64x64x512 .f32 := Host.absf main_arg4
  let main_cst_2 : FVec F S_ .f32 := constant S_ .f32 0x7F800000#32
  let main_v10 : FVec F S64x64x512 .f32 := broadcastInDim S64x64x512 ![] bcast_S_S64x64x512 main_cst_2
  let main_v11 : IVec S64x64x512 1 := cmpf .olt main_v9 main_v10
  let main_c_3 : IVec S_ 1 := constantI S_ 1 1#1
  let main_v12 : IVec S_ 1 := (fun x v => Host.reduce IntOp.andi x v reducesTo_S64x64x512_S_d0_1_2 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg2 main_v14
  let main_c_5 : IVec S_ 32 := constantI S_ 32 63#32
  fn_part1 (F := F) main_arg2 main_v13 main_v15 main_c_5
-- ==== Kernel.lean ====
abbrev S100000x512 : Shape := ⟨2, ![100000, 512]⟩
abbrev S100000 : Shape := ⟨1, ![100000]⟩
abbrev S1600000 : Shape := ⟨1, ![1600000]⟩
abbrev S512x64 : Shape := ⟨2, ![512, 64]⟩
abbrev S64x64x512 : Shape := ⟨3, ![64, 64, 512]⟩
abbrev S32x64x128 : Shape := ⟨3, ![32, 64, 128]⟩
abbrev S50000 : Shape := ⟨1, ![50000]⟩
abbrev S64x128 : Shape := ⟨2, ![64, 128]⟩
abbrev S_ : Shape := ⟨0, ![]⟩
abbrev S16 : Shape := ⟨1, ![16]⟩
abbrev S10000 : Shape := ⟨1, ![10000]⟩
abbrev S1x16 : Shape := ⟨2, ![1, 16]⟩
abbrev S1x64x128 : Shape := ⟨3, ![1, 64, 128]⟩
abbrev S20x1x5000 : Shape := ⟨3, ![20, 1, 5000]⟩
abbrev S5000x512 : Shape := ⟨2, ![5000, 512]⟩
abbrev S1x1x5000 : Shape := ⟨3, ![1, 1, 5000]⟩
abbrev S64x512 : Shape := ⟨2, ![64, 512]⟩
abbrev S64 : Shape := ⟨1, ![64]⟩
abbrev S64x1 : Shape := ⟨2, ![64, 1]⟩
abbrev S1x64x1 : Shape := ⟨3, ![1, 64, 1]⟩
abbrev S1 : Shape := ⟨1, ![1]⟩
abbrev S1x1x1 : Shape := ⟨3, ![1, 1, 1]⟩
abbrev S64x1x1 : Shape := ⟨3, ![64, 1, 1]⟩
abbrev S5000x64 : Shape := ⟨2, ![5000, 64]⟩
abbrev S1x5000 : Shape := ⟨2, ![1, 5000]⟩
abbrev S5000x1 : Shape := ⟨2, ![5000, 1]⟩

abbrev nBuf : Table → Nat
  | .hbm => 11
  | .local .tc .vmem => 10
  | .local .scVector .vmem => 2
  | _ => 0

abbrev bufTy : (tb : Table) → Fin (nBuf tb) → BufTy
  | .hbm, ⟨0, _⟩ => ⟨S100000x512, .f32⟩
  | .hbm, ⟨1, _⟩ => ⟨S100000, .i1⟩
  | .hbm, ⟨2, _⟩ => ⟨S1600000, .i32⟩
  | .hbm, ⟨3, _⟩ => ⟨S512x64, .f32⟩
  | .hbm, ⟨4, _⟩ => ⟨S64x64x512, .f32⟩
  | .hbm, ⟨5, _⟩ => ⟨S32x64x128, .f32⟩
  | .hbm, ⟨6, _⟩ => ⟨S512x64, .bf16⟩
  | .hbm, ⟨7, _⟩ => ⟨S64x64x512, .bf16⟩
  | .hbm, ⟨8, _⟩ => ⟨S20x1x5000, .i1⟩
  | .hbm, ⟨9, _⟩ => ⟨S20x1x5000, .i32⟩
  | .hbm, ⟨10, _⟩ => ⟨S100000x512, .f32⟩
  | .local .tc .vmem, ⟨0, _⟩ => ⟨S5000x512, .f32⟩
  | .local .tc .vmem, ⟨1, _⟩ => ⟨S5000x512, .f32⟩
  | .local .tc .vmem, ⟨2, _⟩ => ⟨S1x1x5000, .i32⟩
  | .local .tc .vmem, ⟨3, _⟩ => ⟨S1x1x5000, .i32⟩
  | .local .tc .vmem, ⟨4, _⟩ => ⟨S512x64, .bf16⟩
  | .local .tc .vmem, ⟨5, _⟩ => ⟨S32x64x128, .f32⟩
  | .local .tc .vmem, ⟨6, _⟩ => ⟨S64x64x512, .bf16⟩
  | .local .tc .vmem, ⟨7, _⟩ => ⟨S5000x512, .f32⟩
  | .local .tc .vmem, ⟨8, _⟩ => ⟨S5000x512, .f32⟩
  | .local .tc .vmem, ⟨9, _⟩ => ⟨S64x512, .bf16⟩
  | .local .scVector .vmem, ⟨0, _⟩ => ⟨S50000, .i32⟩
  | .local .scVector .vmem, ⟨1, _⟩ => ⟨S64x128, .f32⟩
  | _, _ => ⟨S100000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg2_scv : Ref sig .scVector := ⟨.hbm, 2, rfl⟩
abbrev main_v0_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc1_scratch0 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let v4 : BitVec 32 := Scalar.addi v2 c0_i32
  ![v4.toNat]
@[reducible] def k0_t1_loop : Scf.Loop 32 :=
  let c0_i32_11 : BitVec 32 := 0#32
  let c64_i32 : BitVec 32 := 64#32
  let v29 : BitVec 32 := Scalar.addi c0_i32_11 c64_i32
  let c1_i32 : BitVec 32 := 1#32
  ⟨c0_i32_11, v29, c1_i32⟩
def k0_off2 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let v57 : Index := Scalar.indexCast arg11
  let c0 : Index := 0#32
  ![v57.toNat, 0]
def k0_off3 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let v59 : Index := Scalar.indexCast arg11
  let c16 : Index := 16#32
  ![v59.toNat, 16]
def k0_off4 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let v61 : Index := Scalar.indexCast arg11
  let c32 : Index := 32#32
  ![v61.toNat, 32]
def k0_off5 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let v63 : Index := Scalar.indexCast arg11
  let c48 : Index := 48#32
  ![v63.toNat, 48]
def k0_off6 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let v65 : Index := Scalar.indexCast arg11
  let c64 : Index := 64#32
  ![v65.toNat, 64]
def k0_off7 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let v67 : Index := Scalar.indexCast arg11
  let c80 : Index := 80#32
  ![v67.toNat, 80]
def k0_off8 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let v69 : Index := Scalar.indexCast arg11
  let c96 : Index := 96#32
  ![v69.toNat, 96]
def k0_off9 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let v71 : Index := Scalar.indexCast arg11
  let c112 : Index := 112#32
  ![v71.toNat, 112]
@[reducible] def k0_t2_loop : Scf.Loop 32 :=
  let c0_i32_17 : BitVec 32 := 0#32
  let c25_i32 : BitVec 32 := 25#32
  let v36 : BitVec 32 := Scalar.addi c0_i32_17 c25_i32
  let c1_i32_18 : BitVec 32 := 1#32
  ⟨c0_i32_17, v36, c1_i32_18⟩
def k0_off10 (k0_t2 : Fin k0_t2_loop.trips) : Fin 1 → Nat :=
  let c0_i32_49 : BitVec 32 := 0#32
  let c0_i32_17 : BitVec 32 := 0#32
  let c1_i32_18 : BitVec 32 := 1#32
  let arg11 : BitVec 32 := Scf.iv c0_i32_17 c1_i32_18 k0_t2
  let c25_i32_48 : BitVec 32 := 25#32
  let v57 : BitVec 32 := Scalar.muli arg11 c25_i32_48
  let v58 : BitVec 32 := Scalar.addi c0_i32_49 v57
  let c0_i32_50 : BitVec 32 := 0#32
  let v59 : BitVec 32 := Scalar.addi v58 c0_i32_50
  let c16_i32 : BitVec 32 := 16#32
  let v60 : BitVec 32 := Scalar.muli v59 c16_i32
  let v61 : Index := Scalar.indexCast v60
  ![v61.toNat]

def k0_chk1 (v30 : IVec S16 32) (v62 : IVec S16 32) : Prop :=
  (∀ a x, ((![v62, v30] : Fin 2 → IVec S16 32) a x).toNat < S64x128.size a)
instance k0_chk1.dec : ∀ (v30 : IVec S16 32) (v62 : IVec S16 32), Decidable (k0_chk1 v30 v62) := fun v30 v62 => decidable_of_iff' _ (Iff.of_eq (k0_chk1.eq_1 v30 v62))
theorem k0_idx1_inb : ∀ (v30 : IVec S16 32) (v62 : IVec S16 32) (k0_hw1 : k0_chk1 v30 v62), ∀ a x, ((![v62, v30] : Fin 2 → IVec S16 32) a x).toNat < S64x128.size a := fun v30 v62 k0_hw1 => k0_hw1
def k0_off11 (k0_t2 : Fin k0_t2_loop.trips) : Fin 1 → Nat :=
  let c0_i32_52 : BitVec 32 := 0#32
  let c0_i32_17 : BitVec 32 := 0#32
  let c1_i32_18 : BitVec 32 := 1#32
  let arg11 : BitVec 32 := Scf.iv c0_i32_17 c1_i32_18 k0_t2
  let c25_i32_51 : BitVec 32 := 25#32
  let v63 : BitVec 32 := Scalar.muli arg11 c25_i32_51
  let v64 : BitVec 32 := Scalar.addi c0_i32_52 v63
  let c1_i32_53 : BitVec 32 := 1#32
  let v65 : BitVec 32 := Scalar.addi v64 c1_i32_53
  let c16_i32_54 : BitVec 32 := 16#32
  let v66 : BitVec 32 := Scalar.muli v65 c16_i32_54
  let v67 : Index := Scalar.indexCast v66
  ![v67.toNat]

def k0_chk2 (v30 : IVec S16 32) (v68 : IVec S16 32) : Prop :=
  (∀ a x, ((![v68, v30] : Fin 2 → IVec S16 32) a x).toNat < S64x128.size a)
instance k0_chk2.dec : ∀ (v30 : IVec S16 32) (v68 : IVec S16 32), Decidable (k0_chk2 v30 v68) := fun v30 v68 => decidable_of_iff' _ (Iff.of_eq (k0_chk2.eq_1 v30 v68))
theorem k0_idx2_inb : ∀ (v30 : IVec S16 32) (v68 : IVec S16 32) (k0_hw2 : k0_chk2 v30 v68), ∀ a x, ((![v68, v30] : Fin 2 → IVec S16 32) a x).toNat < S64x128.size a := fun v30 v68 k0_hw2 => k0_hw2
def k0_off12 (k0_t2 : Fin k0_t2_loop.trips) : Fin 1 → Nat :=
  let c0_i32_56 : BitVec 32 := 0#32
  let c0_i32_17 : BitVec 32 := 0#32
  let c1_i32_18 : BitVec 32 := 1#32
  let arg11 : BitVec 32 := Scf.iv c0_i32_17 c1_i32_18 k0_t2
  let c25_i32_55 : BitVec 32 := 25#32
  let v69 : BitVec 32 := Scalar.muli arg11 c25_i32_55
  let v70 : BitVec 32 := Scalar.addi c0_i32_56 v69
  let c2_i32_57 : BitVec 32 := 2#32
  let v71 : BitVec 32 := Scalar.addi v70 c2_i32_57
  let c16_i32_58 : BitVec 32 := 16#32
  let v72 : BitVec 32 := Scalar.muli v71 c16_i32_58
  let v73 : Index := Scalar.indexCast v72
  ![v73.toNat]

def k0_chk3 (v30 : IVec S16 32) (v74 : IVec S16 32) : Prop :=
  (∀ a x, ((![v74, v30] : Fin 2 → IVec S16 32) a x).toNat < S64x128.size a)
instance k0_chk3.dec : ∀ (v30 : IVec S16 32) (v74 : IVec S16 32), Decidable (k0_chk3 v30 v74) := fun v30 v74 => decidable_of_iff' _ (Iff.of_eq (k0_chk3.eq_1 v30 v74))
theorem k0_idx3_inb : ∀ (v30 : IVec S16 32) (v74 : IVec S16 32) (k0_hw3 : k0_chk3 v30 v74), ∀ a x, ((![v74, v30] : Fin 2 → IVec S16 32) a x).toNat < S64x128.size a := fun v30 v74 k0_hw3 => k0_hw3
def k0_off13 (k0_t2 : Fin k0_t2_loop.trips) : Fin 1 → Nat :=
  let c0_i32_60 : BitVec 32 := 0#32
  let c0_i32_17 : BitVec 32 := 0#32
  let c1_i32_18 : BitVec 32 := 1#32
  let arg11 : BitVec 32 := Scf.iv c0_i32_17 c1_i32_18 k0_t2
  let c25_i32_59 : BitVec 32 := 25#32
  let v75 : BitVec 32 := Scalar.muli arg11 c25_i32_59
  let v76 : BitVec 32 := Scalar.addi c0_i32_60 v75
  let c3_i32 : BitVec 32 := 3#32
  let v77 : BitVec 32 := Scalar.addi v76 c3_i32
  let c16_i32_61 : BitVec 32 := 16#32
  let v78 : BitVec 32 := Scalar.muli v77 c16_i32_61
  let v79 : Index := Scalar.indexCast v78
  ![v79.toNat]

def k0_chk4 (v30 : IVec S16 32) (v80 : IVec S16 32) : Prop :=
  (∀ a x, ((![v80, v30] : Fin 2 → IVec S16 32) a x).toNat < S64x128.size a)
instance k0_chk4.dec : ∀ (v30 : IVec S16 32) (v80 : IVec S16 32), Decidable (k0_chk4 v30 v80) := fun v30 v80 => decidable_of_iff' _ (Iff.of_eq (k0_chk4.eq_1 v30 v80))
theorem k0_idx4_inb : ∀ (v30 : IVec S16 32) (v80 : IVec S16 32) (k0_hw4 : k0_chk4 v30 v80), ∀ a x, ((![v80, v30] : Fin 2 → IVec S16 32) a x).toNat < S64x128.size a := fun v30 v80 k0_hw4 => k0_hw4
def k0_off14 (k0_t2 : Fin k0_t2_loop.trips) : Fin 1 → Nat :=
  let c0_i32_63 : BitVec 32 := 0#32
  let c0_i32_17 : BitVec 32 := 0#32
  let c1_i32_18 : BitVec 32 := 1#32
  let arg11 : BitVec 32 := Scf.iv c0_i32_17 c1_i32_18 k0_t2
  let c25_i32_62 : BitVec 32 := 25#32
  let v81 : BitVec 32 := Scalar.muli arg11 c25_i32_62
  let v82 : BitVec 32 := Scalar.addi c0_i32_63 v81
  let c4_i32 : BitVec 32 := 4#32
  let v83 : BitVec 32 := Scalar.addi v82 c4_i32
  let c16_i32_64 : BitVec 32 := 16#32
  let v84 : BitVec 32 := Scalar.muli v83 c16_i32_64
  let v85 : Index := Scalar.indexCast v84
  ![v85.toNat]

def k0_chk5 (v30 : IVec S16 32) (v86 : IVec S16 32) : Prop :=
  (∀ a x, ((![v86, v30] : Fin 2 → IVec S16 32) a x).toNat < S64x128.size a)
instance k0_chk5.dec : ∀ (v30 : IVec S16 32) (v86 : IVec S16 32), Decidable (k0_chk5 v30 v86) := fun v30 v86 => decidable_of_iff' _ (Iff.of_eq (k0_chk5.eq_1 v30 v86))
theorem k0_idx5_inb : ∀ (v30 : IVec S16 32) (v86 : IVec S16 32) (k0_hw5 : k0_chk5 v30 v86), ∀ a x, ((![v86, v30] : Fin 2 → IVec S16 32) a x).toNat < S64x128.size a := fun v30 v86 k0_hw5 => k0_hw5
def k0_off15 (k0_t2 : Fin k0_t2_loop.trips) : Fin 1 → Nat :=
  let c0_i32_66 : BitVec 32 := 0#32
  let c0_i32_17 : BitVec 32 := 0#32
  let c1_i32_18 : BitVec 32 := 1#32
  let arg11 : BitVec 32 := Scf.iv c0_i32_17 c1_i32_18 k0_t2
  let c25_i32_65 : BitVec 32 := 25#32
  let v87 : BitVec 32 := Scalar.muli arg11 c25_i32_65
  let v88 : BitVec 32 := Scalar.addi c0_i32_66 v87
  let c5_i32 : BitVec 32 := 5#32
  let v89 : BitVec 32 := Scalar.addi v88 c5_i32
  let c16_i32_67 : BitVec 32 := 16#32
  let v90 : BitVec 32 := Scalar.muli v89 c16_i32_67
  let v91 : Index := Scalar.indexCast v90
  ![v91.toNat]

def k0_chk6 (v30 : IVec S16 32) (v92 : IVec S16 32) : Prop :=
  (∀ a x, ((![v92, v30] : Fin 2 → IVec S16 32) a x).toNat < S64x128.size a)
instance k0_chk6.dec : ∀ (v30 : IVec S16 32) (v92 : IVec S16 32), Decidable (k0_chk6 v30 v92) := fun v30 v92 => decidable_of_iff' _ (Iff.of_eq (k0_chk6.eq_1 v30 v92))
theorem k0_idx6_inb : ∀ (v30 : IVec S16 32) (v92 : IVec S16 32) (k0_hw6 : k0_chk6 v30 v92), ∀ a x, ((![v92, v30] : Fin 2 → IVec S16 32) a x).toNat < S64x128.size a := fun v30 v92 k0_hw6 => k0_hw6
def k0_off16 (k0_t2 : Fin k0_t2_loop.trips) : Fin 1 → Nat :=
  let c0_i32_69 : BitVec 32 := 0#32
  let c0_i32_17 : BitVec 32 := 0#32
  let c1_i32_18 : BitVec 32 := 1#32
  let arg11 : BitVec 32 := Scf.iv c0_i32_17 c1_i32_18 k0_t2
  let c25_i32_68 : BitVec 32 := 25#32
  let v93 : BitVec 32 := Scalar.muli arg11 c25_i32_68
  let v94 : BitVec 32 := Scalar.addi c0_i32_69 v93
  let c6_i32 : BitVec 32 := 6#32
  let v95 : BitVec 32 := Scalar.addi v94 c6_i32
  let c16_i32_70 : BitVec 32 := 16#32
  let v96 : BitVec 32 := Scalar.muli v95 c16_i32_70
  let v97 : Index := Scalar.indexCast v96
  ![v97.toNat]

def k0_chk7 (v30 : IVec S16 32) (v98 : IVec S16 32) : Prop :=
  (∀ a x, ((![v98, v30] : Fin 2 → IVec S16 32) a x).toNat < S64x128.size a)
instance k0_chk7.dec : ∀ (v30 : IVec S16 32) (v98 : IVec S16 32), Decidable (k0_chk7 v30 v98) := fun v30 v98 => decidable_of_iff' _ (Iff.of_eq (k0_chk7.eq_1 v30 v98))
theorem k0_idx7_inb : ∀ (v30 : IVec S16 32) (v98 : IVec S16 32) (k0_hw7 : k0_chk7 v30 v98), ∀ a x, ((![v98, v30] : Fin 2 → IVec S16 32) a x).toNat < S64x128.size a := fun v30 v98 k0_hw7 => k0_hw7
def k0_off17 (k0_t2 : Fin k0_t2_loop.trips) : Fin 1 → Nat :=
  let c0_i32_72 : BitVec 32 := 0#32
  let c0_i32_17 : BitVec 32 := 0#32
  let c1_i32_18 : BitVec 32 := 1#32
  let arg11 : BitVec 32 := Scf.iv c0_i32_17 c1_i32_18 k0_t2
  let c25_i32_71 : BitVec 32 := 25#32
  let v99 : BitVec 32 := Scalar.muli arg11 c25_i32_71
  let v100 : BitVec 32 := Scalar.addi c0_i32_72 v99
  let c7_i32 : BitVec 32 := 7#32
  let v101 : BitVec 32 := Scalar.addi v100 c7_i32
  let c16_i32_73 : BitVec 32 := 16#32
  let v102 : BitVec 32 := Scalar.muli v101 c16_i32_73
  let v103 : Index := Scalar.indexCast v102
  ![v103.toNat]

def k0_chk8 (v30 : IVec S16 32) (v104 : IVec S16 32) : Prop :=
  (∀ a x, ((![v104, v30] : Fin 2 → IVec S16 32) a x).toNat < S64x128.size a)
instance k0_chk8.dec : ∀ (v30 : IVec S16 32) (v104 : IVec S16 32), Decidable (k0_chk8 v30 v104) := fun v30 v104 => decidable_of_iff' _ (Iff.of_eq (k0_chk8.eq_1 v30 v104))
theorem k0_idx8_inb : ∀ (v30 : IVec S16 32) (v104 : IVec S16 32) (k0_hw8 : k0_chk8 v30 v104), ∀ a x, ((![v104, v30] : Fin 2 → IVec S16 32) a x).toNat < S64x128.size a := fun v30 v104 k0_hw8 => k0_hw8
def k0_off18 (k0_t2 : Fin k0_t2_loop.trips) : Fin 1 → Nat :=
  let c0_i32_75 : BitVec 32 := 0#32
  let c0_i32_17 : BitVec 32 := 0#32
  let c1_i32_18 : BitVec 32 := 1#32
  let arg11 : BitVec 32 := Scf.iv c0_i32_17 c1_i32_18 k0_t2
  let c25_i32_74 : BitVec 32 := 25#32
  let v105 : BitVec 32 := Scalar.muli arg11 c25_i32_74
  let v106 : BitVec 32 := Scalar.addi c0_i32_75 v105
  let c8_i32 : BitVec 32 := 8#32
  let v107 : BitVec 32 := Scalar.addi v106 c8_i32
  let c16_i32_76 : BitVec 32 := 16#32
  let v108 : BitVec 32 := Scalar.muli v107 c16_i32_76
  let v109 : Index := Scalar.indexCast v108
  ![v109.toNat]

def k0_chk9 (v30 : IVec S16 32) (v110 : IVec S16 32) : Prop :=
  (∀ a x, ((![v110, v30] : Fin 2 → IVec S16 32) a x).toNat < S64x128.size a)
instance k0_chk9.dec : ∀ (v30 : IVec S16 32) (v110 : IVec S16 32), Decidable (k0_chk9 v30 v110) := fun v30 v110 => decidable_of_iff' _ (Iff.of_eq (k0_chk9.eq_1 v30 v110))
theorem k0_idx9_inb : ∀ (v30 : IVec S16 32) (v110 : IVec S16 32) (k0_hw9 : k0_chk9 v30 v110), ∀ a x, ((![v110, v30] : Fin 2 → IVec S16 32) a x).toNat < S64x128.size a := fun v30 v110 k0_hw9 => k0_hw9
def k0_off19 (k0_t2 : Fin k0_t2_loop.trips) : Fin 1 → Nat :=
  let c0_i32_78 : BitVec 32 := 0#32
  let c0_i32_17 : BitVec 32 := 0#32
  let c1_i32_18 : BitVec 32 := 1#32
  let arg11 : BitVec 32 := Scf.iv c0_i32_17 c1_i32_18 k0_t2
  let c25_i32_77 : BitVec 32 := 25#32
  let v111 : BitVec 32 := Scalar.muli arg11 c25_i32_77
  let v112 : BitVec 32 := Scalar.addi c0_i32_78 v111
  let c9_i32 : BitVec 32 := 9#32
  let v113 : BitVec 32 := Scalar.addi v112 c9_i32
  let c16_i32_79 : BitVec 32 := 16#32
  let v114 : BitVec 32 := Scalar.muli v113 c16_i32_79
  let v115 : Index := Scalar.indexCast v114
  ![v115.toNat]

def k0_chk10 (v30 : IVec S16 32) (v116 : IVec S16 32) : Prop :=
  (∀ a x, ((![v116, v30] : Fin 2 → IVec S16 32) a x).toNat < S64x128.size a)
instance k0_chk10.dec : ∀ (v30 : IVec S16 32) (v116 : IVec S16 32), Decidable (k0_chk10 v30 v116) := fun v30 v116 => decidable_of_iff' _ (Iff.of_eq (k0_chk10.eq_1 v30 v116))
theorem k0_idx10_inb : ∀ (v30 : IVec S16 32) (v116 : IVec S16 32) (k0_hw10 : k0_chk10 v30 v116), ∀ a x, ((![v116, v30] : Fin 2 → IVec S16 32) a x).toNat < S64x128.size a := fun v30 v116 k0_hw10 => k0_hw10
def k0_off20 (k0_t2 : Fin k0_t2_loop.trips) : Fin 1 → Nat :=
  let c0_i32_81 : BitVec 32 := 0#32
  let c0_i32_17 : BitVec 32 := 0#32
  let c1_i32_18 : BitVec 32 := 1#32
  let arg11 : BitVec 32 := Scf.iv c0_i32_17 c1_i32_18 k0_t2
  let c25_i32_80 : BitVec 32 := 25#32
  let v117 : BitVec 32 := Scalar.muli arg11 c25_i32_80
  let v118 : BitVec 32 := Scalar.addi c0_i32_81 v117
  let c10_i32 : BitVec 32 := 10#32
  let v119 : BitVec 32 := Scalar.addi v118 c10_i32
  let c16_i32_82 : BitVec 32 := 16#32
  let v120 : BitVec 32 := Scalar.muli v119 c16_i32_82
  let v121 : Index := Scalar.indexCast v120
  ![v121.toNat]

def k0_chk11 (v30 : IVec S16 32) (v122 : IVec S16 32) : Prop :=
  (∀ a x, ((![v122, v30] : Fin 2 → IVec S16 32) a x).toNat < S64x128.size a)
instance k0_chk11.dec : ∀ (v30 : IVec S16 32) (v122 : IVec S16 32), Decidable (k0_chk11 v30 v122) := fun v30 v122 => decidable_of_iff' _ (Iff.of_eq (k0_chk11.eq_1 v30 v122))
theorem k0_idx11_inb : ∀ (v30 : IVec S16 32) (v122 : IVec S16 32) (k0_hw11 : k0_chk11 v30 v122), ∀ a x, ((![v122, v30] : Fin 2 → IVec S16 32) a x).toNat < S64x128.size a := fun v30 v122 k0_hw11 => k0_hw11
def k0_off21 (k0_t2 : Fin k0_t2_loop.trips) : Fin 1 → Nat :=
  let c0_i32_84 : BitVec 32 := 0#32
  let c0_i32_17 : BitVec 32 := 0#32
  let c1_i32_18 : BitVec 32 := 1#32
  let arg11 : BitVec 32 := Scf.iv c0_i32_17 c1_i32_18 k0_t2
  let c25_i32_83 : BitVec 32 := 25#32
  let v123 : BitVec 32 := Scalar.muli arg11 c25_i32_83
  let v124 : BitVec 32 := Scalar.addi c0_i32_84 v123
  let c11_i32 : BitVec 32 := 11#32
  let v125 : BitVec 32 := Scalar.addi v124 c11_i32
  let c16_i32_85 : BitVec 32 := 16#32
  let v126 : BitVec 32 := Scalar.muli v125 c16_i32_85
  let v127 : Index := Scalar.indexCast v126
  ![v127.toNat]

def k0_chk12 (v30 : IVec S16 32) (v128 : IVec S16 32) : Prop :=
  (∀ a x, ((![v128, v30] : Fin 2 → IVec S16 32) a x).toNat < S64x128.size a)
instance k0_chk12.dec : ∀ (v30 : IVec S16 32) (v128 : IVec S16 32), Decidable (k0_chk12 v30 v128) := fun v30 v128 => decidable_of_iff' _ (Iff.of_eq (k0_chk12.eq_1 v30 v128))
theorem k0_idx12_inb : ∀ (v30 : IVec S16 32) (v128 : IVec S16 32) (k0_hw12 : k0_chk12 v30 v128), ∀ a x, ((![v128, v30] : Fin 2 → IVec S16 32) a x).toNat < S64x128.size a := fun v30 v128 k0_hw12 => k0_hw12
def k0_off22 (k0_t2 : Fin k0_t2_loop.trips) : Fin 1 → Nat :=
  let c0_i32_87 : BitVec 32 := 0#32
  let c0_i32_17 : BitVec 32 := 0#32
  let c1_i32_18 : BitVec 32 := 1#32
  let arg11 : BitVec 32 := Scf.iv c0_i32_17 c1_i32_18 k0_t2
  let c25_i32_86 : BitVec 32 := 25#32
  let v129 : BitVec 32 := Scalar.muli arg11 c25_i32_86
  let v130 : BitVec 32 := Scalar.addi c0_i32_87 v129
  let c12_i32 : BitVec 32 := 12#32
  let v131 : BitVec 32 := Scalar.addi v130 c12_i32
  let c16_i32_88 : BitVec 32 := 16#32
  let v132 : BitVec 32 := Scalar.muli v131 c16_i32_88
  let v133 : Index := Scalar.indexCast v132
  ![v133.toNat]

def k0_chk13 (v30 : IVec S16 32) (v134 : IVec S16 32) : Prop :=
  (∀ a x, ((![v134, v30] : Fin 2 → IVec S16 32) a x).toNat < S64x128.size a)
instance k0_chk13.dec : ∀ (v30 : IVec S16 32) (v134 : IVec S16 32), Decidable (k0_chk13 v30 v134) := fun v30 v134 => decidable_of_iff' _ (Iff.of_eq (k0_chk13.eq_1 v30 v134))
theorem k0_idx13_inb : ∀ (v30 : IVec S16 32) (v134 : IVec S16 32) (k0_hw13 : k0_chk13 v30 v134), ∀ a x, ((![v134, v30] : Fin 2 → IVec S16 32) a x).toNat < S64x128.size a := fun v30 v134 k0_hw13 => k0_hw13
def k0_off23 (k0_t2 : Fin k0_t2_loop.trips) : Fin 1 → Nat :=
  let c0_i32_90 : BitVec 32 := 0#32
  let c0_i32_17 : BitVec 32 := 0#32
  let c1_i32_18 : BitVec 32 := 1#32
  let arg11 : BitVec 32 := Scf.iv c0_i32_17 c1_i32_18 k0_t2
  let c25_i32_89 : BitVec 32 := 25#32
  let v135 : BitVec 32 := Scalar.muli arg11 c25_i32_89
  let v136 : BitVec 32 := Scalar.addi c0_i32_90 v135
  let c13_i32 : BitVec 32 := 13#32
  let v137 : BitVec 32 := Scalar.addi v136 c13_i32
  let c16_i32_91 : BitVec 32 := 16#32
  let v138 : BitVec 32 := Scalar.muli v137 c16_i32_91
  let v139 : Index := Scalar.indexCast v138
  ![v139.toNat]

def k0_chk14 (v30 : IVec S16 32) (v140 : IVec S16 32) : Prop :=
  (∀ a x, ((![v140, v30] : Fin 2 → IVec S16 32) a x).toNat < S64x128.size a)
instance k0_chk14.dec : ∀ (v30 : IVec S16 32) (v140 : IVec S16 32), Decidable (k0_chk14 v30 v140) := fun v30 v140 => decidable_of_iff' _ (Iff.of_eq (k0_chk14.eq_1 v30 v140))
theorem k0_idx14_inb : ∀ (v30 : IVec S16 32) (v140 : IVec S16 32) (k0_hw14 : k0_chk14 v30 v140), ∀ a x, ((![v140, v30] : Fin 2 → IVec S16 32) a x).toNat < S64x128.size a := fun v30 v140 k0_hw14 => k0_hw14
def k0_off24 (k0_t2 : Fin k0_t2_loop.trips) : Fin 1 → Nat :=
  let c0_i32_93 : BitVec 32 := 0#32
  let c0_i32_17 : BitVec 32 := 0#32
  let c1_i32_18 : BitVec 32 := 1#32
  let arg11 : BitVec 32 := Scf.iv c0_i32_17 c1_i32_18 k0_t2
  let c25_i32_92 : BitVec 32 := 25#32
  let v141 : BitVec 32 := Scalar.muli arg11 c25_i32_92
  let v142 : BitVec 32 := Scalar.addi c0_i32_93 v141
  let c14_i32 : BitVec 32 := 14#32
  let v143 : BitVec 32 := Scalar.addi v142 c14_i32
  let c16_i32_94 : BitVec 32 := 16#32
  let v144 : BitVec 32 := Scalar.muli v143 c16_i32_94
  let v145 : Index := Scalar.indexCast v144
  ![v145.toNat]

def k0_chk15 (v30 : IVec S16 32) (v146 : IVec S16 32) : Prop :=
  (∀ a x, ((![v146, v30] : Fin 2 → IVec S16 32) a x).toNat < S64x128.size a)
instance k0_chk15.dec : ∀ (v30 : IVec S16 32) (v146 : IVec S16 32), Decidable (k0_chk15 v30 v146) := fun v30 v146 => decidable_of_iff' _ (Iff.of_eq (k0_chk15.eq_1 v30 v146))
theorem k0_idx15_inb : ∀ (v30 : IVec S16 32) (v146 : IVec S16 32) (k0_hw15 : k0_chk15 v30 v146), ∀ a x, ((![v146, v30] : Fin 2 → IVec S16 32) a x).toNat < S64x128.size a := fun v30 v146 k0_hw15 => k0_hw15
def k0_off25 (k0_t2 : Fin k0_t2_loop.trips) : Fin 1 → Nat :=
  let c0_i32_96 : BitVec 32 := 0#32
  let c0_i32_17 : BitVec 32 := 0#32
  let c1_i32_18 : BitVec 32 := 1#32
  let arg11 : BitVec 32 := Scf.iv c0_i32_17 c1_i32_18 k0_t2
  let c25_i32_95 : BitVec 32 := 25#32
  let v147 : BitVec 32 := Scalar.muli arg11 c25_i32_95
  let v148 : BitVec 32 := Scalar.addi c0_i32_96 v147
  let c15_i32 : BitVec 32 := 15#32
  let v149 : BitVec 32 := Scalar.addi v148 c15_i32
  let c16_i32_97 : BitVec 32 := 16#32
  let v150 : BitVec 32 := Scalar.muli v149 c16_i32_97
  let v151 : Index := Scalar.indexCast v150
  ![v151.toNat]

def k0_chk16 (v30 : IVec S16 32) (v152 : IVec S16 32) : Prop :=
  (∀ a x, ((![v152, v30] : Fin 2 → IVec S16 32) a x).toNat < S64x128.size a)
instance k0_chk16.dec : ∀ (v30 : IVec S16 32) (v152 : IVec S16 32), Decidable (k0_chk16 v30 v152) := fun v30 v152 => decidable_of_iff' _ (Iff.of_eq (k0_chk16.eq_1 v30 v152))
theorem k0_idx16_inb : ∀ (v30 : IVec S16 32) (v152 : IVec S16 32) (k0_hw16 : k0_chk16 v30 v152), ∀ a x, ((![v152, v30] : Fin 2 → IVec S16 32) a x).toNat < S64x128.size a := fun v30 v152 k0_hw16 => k0_hw16
def k0_off26 (k0_t2 : Fin k0_t2_loop.trips) : Fin 1 → Nat :=
  let c0_i32_99 : BitVec 32 := 0#32
  let c0_i32_17 : BitVec 32 := 0#32
  let c1_i32_18 : BitVec 32 := 1#32
  let arg11 : BitVec 32 := Scf.iv c0_i32_17 c1_i32_18 k0_t2
  let c25_i32_98 : BitVec 32 := 25#32
  let v153 : BitVec 32 := Scalar.muli arg11 c25_i32_98
  let v154 : BitVec 32 := Scalar.addi c0_i32_99 v153
  let c16_i32_100 : BitVec 32 := 16#32
  let v155 : BitVec 32 := Scalar.addi v154 c16_i32_100
  let c16_i32_101 : BitVec 32 := 16#32
  let v156 : BitVec 32 := Scalar.muli v155 c16_i32_101
  let v157 : Index := Scalar.indexCast v156
  ![v157.toNat]

def k0_chk17 (v30 : IVec S16 32) (v158 : IVec S16 32) : Prop :=
  (∀ a x, ((![v158, v30] : Fin 2 → IVec S16 32) a x).toNat < S64x128.size a)
instance k0_chk17.dec : ∀ (v30 : IVec S16 32) (v158 : IVec S16 32), Decidable (k0_chk17 v30 v158) := fun v30 v158 => decidable_of_iff' _ (Iff.of_eq (k0_chk17.eq_1 v30 v158))
theorem k0_idx17_inb : ∀ (v30 : IVec S16 32) (v158 : IVec S16 32) (k0_hw17 : k0_chk17 v30 v158), ∀ a x, ((![v158, v30] : Fin 2 → IVec S16 32) a x).toNat < S64x128.size a := fun v30 v158 k0_hw17 => k0_hw17
def k0_off27 (k0_t2 : Fin k0_t2_loop.trips) : Fin 1 → Nat :=
  let c0_i32_103 : BitVec 32 := 0#32
  let c0_i32_17 : BitVec 32 := 0#32
  let c1_i32_18 : BitVec 32 := 1#32
  let arg11 : BitVec 32 := Scf.iv c0_i32_17 c1_i32_18 k0_t2
  let c25_i32_102 : BitVec 32 := 25#32
  let v159 : BitVec 32 := Scalar.muli arg11 c25_i32_102
  let v160 : BitVec 32 := Scalar.addi c0_i32_103 v159
  let c17_i32 : BitVec 32 := 17#32
  let v161 : BitVec 32 := Scalar.addi v160 c17_i32
  let c16_i32_104 : BitVec 32 := 16#32
  let v162 : BitVec 32 := Scalar.muli v161 c16_i32_104
  let v163 : Index := Scalar.indexCast v162
  ![v163.toNat]

def k0_chk18 (v30 : IVec S16 32) (v164 : IVec S16 32) : Prop :=
  (∀ a x, ((![v164, v30] : Fin 2 → IVec S16 32) a x).toNat < S64x128.size a)
instance k0_chk18.dec : ∀ (v30 : IVec S16 32) (v164 : IVec S16 32), Decidable (k0_chk18 v30 v164) := fun v30 v164 => decidable_of_iff' _ (Iff.of_eq (k0_chk18.eq_1 v30 v164))
theorem k0_idx18_inb : ∀ (v30 : IVec S16 32) (v164 : IVec S16 32) (k0_hw18 : k0_chk18 v30 v164), ∀ a x, ((![v164, v30] : Fin 2 → IVec S16 32) a x).toNat < S64x128.size a := fun v30 v164 k0_hw18 => k0_hw18
def k0_off28 (k0_t2 : Fin k0_t2_loop.trips) : Fin 1 → Nat :=
  let c0_i32_106 : BitVec 32 := 0#32
  let c0_i32_17 : BitVec 32 := 0#32
  let c1_i32_18 : BitVec 32 := 1#32
  let arg11 : BitVec 32 := Scf.iv c0_i32_17 c1_i32_18 k0_t2
  let c25_i32_105 : BitVec 32 := 25#32
  let v165 : BitVec 32 := Scalar.muli arg11 c25_i32_105
  let v166 : BitVec 32 := Scalar.addi c0_i32_106 v165
  let c18_i32 : BitVec 32 := 18#32
  let v167 : BitVec 32 := Scalar.addi v166 c18_i32
  let c16_i32_107 : BitVec 32 := 16#32
  let v168 : BitVec 32 := Scalar.muli v167 c16_i32_107
  let v169 : Index := Scalar.indexCast v168
  ![v169.toNat]

def k0_chk19 (v30 : IVec S16 32) (v170 : IVec S16 32) : Prop :=
  (∀ a x, ((![v170, v30] : Fin 2 → IVec S16 32) a x).toNat < S64x128.size a)
instance k0_chk19.dec : ∀ (v30 : IVec S16 32) (v170 : IVec S16 32), Decidable (k0_chk19 v30 v170) := fun v30 v170 => decidable_of_iff' _ (Iff.of_eq (k0_chk19.eq_1 v30 v170))
theorem k0_idx19_inb : ∀ (v30 : IVec S16 32) (v170 : IVec S16 32) (k0_hw19 : k0_chk19 v30 v170), ∀ a x, ((![v170, v30] : Fin 2 → IVec S16 32) a x).toNat < S64x128.size a := fun v30 v170 k0_hw19 => k0_hw19
def k0_off29 (k0_t2 : Fin k0_t2_loop.trips) : Fin 1 → Nat :=
  let c0_i32_109 : BitVec 32 := 0#32
  let c0_i32_17 : BitVec 32 := 0#32
  let c1_i32_18 : BitVec 32 := 1#32
  let arg11 : BitVec 32 := Scf.iv c0_i32_17 c1_i32_18 k0_t2
  let c25_i32_108 : BitVec 32 := 25#32
  let v171 : BitVec 32 := Scalar.muli arg11 c25_i32_108
  let v172 : BitVec 32 := Scalar.addi c0_i32_109 v171
  let c19_i32 : BitVec 32 := 19#32
  let v173 : BitVec 32 := Scalar.addi v172 c19_i32
  let c16_i32_110 : BitVec 32 := 16#32
  let v174 : BitVec 32 := Scalar.muli v173 c16_i32_110
  let v175 : Index := Scalar.indexCast v174
  ![v175.toNat]

def k0_chk20 (v30 : IVec S16 32) (v176 : IVec S16 32) : Prop :=
  (∀ a x, ((![v176, v30] : Fin 2 → IVec S16 32) a x).toNat < S64x128.size a)
instance k0_chk20.dec : ∀ (v30 : IVec S16 32) (v176 : IVec S16 32), Decidable (k0_chk20 v30 v176) := fun v30 v176 => decidable_of_iff' _ (Iff.of_eq (k0_chk20.eq_1 v30 v176))
theorem k0_idx20_inb : ∀ (v30 : IVec S16 32) (v176 : IVec S16 32) (k0_hw20 : k0_chk20 v30 v176), ∀ a x, ((![v176, v30] : Fin 2 → IVec S16 32) a x).toNat < S64x128.size a := fun v30 v176 k0_hw20 => k0_hw20
def k0_off30 (k0_t2 : Fin k0_t2_loop.trips) : Fin 1 → Nat :=
  let c0_i32_112 : BitVec 32 := 0#32
  let c0_i32_17 : BitVec 32 := 0#32
  let c1_i32_18 : BitVec 32 := 1#32
  let arg11 : BitVec 32 := Scf.iv c0_i32_17 c1_i32_18 k0_t2
  let c25_i32_111 : BitVec 32 := 25#32
  let v177 : BitVec 32 := Scalar.muli arg11 c25_i32_111
  let v178 : BitVec 32 := Scalar.addi c0_i32_112 v177
  let c20_i32 : BitVec 32 := 20#32
  let v179 : BitVec 32 := Scalar.addi v178 c20_i32
  let c16_i32_113 : BitVec 32 := 16#32
  let v180 : BitVec 32 := Scalar.muli v179 c16_i32_113
  let v181 : Index := Scalar.indexCast v180
  ![v181.toNat]

def k0_chk21 (v30 : IVec S16 32) (v182 : IVec S16 32) : Prop :=
  (∀ a x, ((![v182, v30] : Fin 2 → IVec S16 32) a x).toNat < S64x128.size a)
instance k0_chk21.dec : ∀ (v30 : IVec S16 32) (v182 : IVec S16 32), Decidable (k0_chk21 v30 v182) := fun v30 v182 => decidable_of_iff' _ (Iff.of_eq (k0_chk21.eq_1 v30 v182))
theorem k0_idx21_inb : ∀ (v30 : IVec S16 32) (v182 : IVec S16 32) (k0_hw21 : k0_chk21 v30 v182), ∀ a x, ((![v182, v30] : Fin 2 → IVec S16 32) a x).toNat < S64x128.size a := fun v30 v182 k0_hw21 => k0_hw21
def k0_off31 (k0_t2 : Fin k0_t2_loop.trips) : Fin 1 → Nat :=
  let c0_i32_115 : BitVec 32 := 0#32
  let c0_i32_17 : BitVec 32 := 0#32
  let c1_i32_18 : BitVec 32 := 1#32
  let arg11 : BitVec 32 := Scf.iv c0_i32_17 c1_i32_18 k0_t2
  let c25_i32_114 : BitVec 32 := 25#32
  let v183 : BitVec 32 := Scalar.muli arg11 c25_i32_114
  let v184 : BitVec 32 := Scalar.addi c0_i32_115 v183
  let c21_i32 : BitVec 32 := 21#32
  let v185 : BitVec 32 := Scalar.addi v184 c21_i32
  let c16_i32_116 : BitVec 32 := 16#32
  let v186 : BitVec 32 := Scalar.muli v185 c16_i32_116
  let v187 : Index := Scalar.indexCast v186
  ![v187.toNat]

def k0_chk22 (v30 : IVec S16 32) (v188 : IVec S16 32) : Prop :=
  (∀ a x, ((![v188, v30] : Fin 2 → IVec S16 32) a x).toNat < S64x128.size a)
instance k0_chk22.dec : ∀ (v30 : IVec S16 32) (v188 : IVec S16 32), Decidable (k0_chk22 v30 v188) := fun v30 v188 => decidable_of_iff' _ (Iff.of_eq (k0_chk22.eq_1 v30 v188))
theorem k0_idx22_inb : ∀ (v30 : IVec S16 32) (v188 : IVec S16 32) (k0_hw22 : k0_chk22 v30 v188), ∀ a x, ((![v188, v30] : Fin 2 → IVec S16 32) a x).toNat < S64x128.size a := fun v30 v188 k0_hw22 => k0_hw22
def k0_off32 (k0_t2 : Fin k0_t2_loop.trips) : Fin 1 → Nat :=
  let c0_i32_118 : BitVec 32 := 0#32
  let c0_i32_17 : BitVec 32 := 0#32
  let c1_i32_18 : BitVec 32 := 1#32
  let arg11 : BitVec 32 := Scf.iv c0_i32_17 c1_i32_18 k0_t2
  let c25_i32_117 : BitVec 32 := 25#32
  let v189 : BitVec 32 := Scalar.muli arg11 c25_i32_117
  let v190 : BitVec 32 := Scalar.addi c0_i32_118 v189
  let c22_i32 : BitVec 32 := 22#32
  let v191 : BitVec 32 := Scalar.addi v190 c22_i32
  let c16_i32_119 : BitVec 32 := 16#32
  let v192 : BitVec 32 := Scalar.muli v191 c16_i32_119
  let v193 : Index := Scalar.indexCast v192
  ![v193.toNat]

def k0_chk23 (v30 : IVec S16 32) (v194 : IVec S16 32) : Prop :=
  (∀ a x, ((![v194, v30] : Fin 2 → IVec S16 32) a x).toNat < S64x128.size a)
instance k0_chk23.dec : ∀ (v30 : IVec S16 32) (v194 : IVec S16 32), Decidable (k0_chk23 v30 v194) := fun v30 v194 => decidable_of_iff' _ (Iff.of_eq (k0_chk23.eq_1 v30 v194))
theorem k0_idx23_inb : ∀ (v30 : IVec S16 32) (v194 : IVec S16 32) (k0_hw23 : k0_chk23 v30 v194), ∀ a x, ((![v194, v30] : Fin 2 → IVec S16 32) a x).toNat < S64x128.size a := fun v30 v194 k0_hw23 => k0_hw23
def k0_off33 (k0_t2 : Fin k0_t2_loop.trips) : Fin 1 → Nat :=
  let c0_i32_121 : BitVec 32 := 0#32
  let c0_i32_17 : BitVec 32 := 0#32
  let c1_i32_18 : BitVec 32 := 1#32
  let arg11 : BitVec 32 := Scf.iv c0_i32_17 c1_i32_18 k0_t2
  let c25_i32_120 : BitVec 32 := 25#32
  let v195 : BitVec 32 := Scalar.muli arg11 c25_i32_120
  let v196 : BitVec 32 := Scalar.addi c0_i32_121 v195
  let c23_i32 : BitVec 32 := 23#32
  let v197 : BitVec 32 := Scalar.addi v196 c23_i32
  let c16_i32_122 : BitVec 32 := 16#32
  let v198 : BitVec 32 := Scalar.muli v197 c16_i32_122
  let v199 : Index := Scalar.indexCast v198
  ![v199.toNat]

def k0_chk24 (v30 : IVec S16 32) (v200 : IVec S16 32) : Prop :=
  (∀ a x, ((![v200, v30] : Fin 2 → IVec S16 32) a x).toNat < S64x128.size a)
instance k0_chk24.dec : ∀ (v30 : IVec S16 32) (v200 : IVec S16 32), Decidable (k0_chk24 v30 v200) := fun v30 v200 => decidable_of_iff' _ (Iff.of_eq (k0_chk24.eq_1 v30 v200))
theorem k0_idx24_inb : ∀ (v30 : IVec S16 32) (v200 : IVec S16 32) (k0_hw24 : k0_chk24 v30 v200), ∀ a x, ((![v200, v30] : Fin 2 → IVec S16 32) a x).toNat < S64x128.size a := fun v30 v200 k0_hw24 => k0_hw24
def k0_off34 (k0_t2 : Fin k0_t2_loop.trips) : Fin 1 → Nat :=
  let c0_i32_124 : BitVec 32 := 0#32
  let c0_i32_17 : BitVec 32 := 0#32
  let c1_i32_18 : BitVec 32 := 1#32
  let arg11 : BitVec 32 := Scf.iv c0_i32_17 c1_i32_18 k0_t2
  let c25_i32_123 : BitVec 32 := 25#32
  let v201 : BitVec 32 := Scalar.muli arg11 c25_i32_123
  let v202 : BitVec 32 := Scalar.addi c0_i32_124 v201
  let c24_i32 : BitVec 32 := 24#32
  let v203 : BitVec 32 := Scalar.addi v202 c24_i32
  let c16_i32_125 : BitVec 32 := 16#32
  let v204 : BitVec 32 := Scalar.muli v203 c16_i32_125
  let v205 : Index := Scalar.indexCast v204
  ![v205.toNat]

def k0_chk25 (v30 : IVec S16 32) (v206 : IVec S16 32) : Prop :=
  (∀ a x, ((![v206, v30] : Fin 2 → IVec S16 32) a x).toNat < S64x128.size a)
instance k0_chk25.dec : ∀ (v30 : IVec S16 32) (v206 : IVec S16 32), Decidable (k0_chk25 v30 v206) := fun v30 v206 => decidable_of_iff' _ (Iff.of_eq (k0_chk25.eq_1 v30 v206))
theorem k0_idx25_inb : ∀ (v30 : IVec S16 32) (v206 : IVec S16 32) (k0_hw25 : k0_chk25 v30 v206), ∀ a x, ((![v206, v30] : Fin 2 → IVec S16 32) a x).toNat < S64x128.size a := fun v30 v206 k0_hw25 => k0_hw25
def k0_off35 (i : grid0.Coords) (c10000_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let v9 : BitVec 32 := Scalar.addi v2 c10000_i32
  ![v9.toNat]
@[reducible] def k0_t3_loop : Scf.Loop 32 :=
  let c0_i32_23 : BitVec 32 := 0#32
  let c25_i32_24 : BitVec 32 := 25#32
  let v41 : BitVec 32 := Scalar.addi c0_i32_23 c25_i32_24
  let c1_i32_25 : BitVec 32 := 1#32
  ⟨c0_i32_23, v41, c1_i32_25⟩
def k0_off36 (k0_t3 : Fin k0_t3_loop.trips) : Fin 1 → Nat :=
  let c625_i32 : BitVec 32 := 625#32
  let c0_i32_23 : BitVec 32 := 0#32
  let c1_i32_25 : BitVec 32 := 1#32
  let arg11 : BitVec 32 := Scf.iv c0_i32_23 c1_i32_25 k0_t3
  let c25_i32_48 : BitVec 32 := 25#32
  let v57 : BitVec 32 := Scalar.muli arg11 c25_i32_48
  let v58 : BitVec 32 := Scalar.addi c625_i32 v57
  let c0_i32_49 : BitVec 32 := 0#32
  let v59 : BitVec 32 := Scalar.addi v58 c0_i32_49
  let c16_i32 : BitVec 32 := 16#32
  let v60 : BitVec 32 := Scalar.muli v59 c16_i32
  let v61 : Index := Scalar.indexCast v60
  ![v61.toNat]

def k0_chk26 (v30 : IVec S16 32) (v62 : IVec S16 32) : Prop :=
  (∀ a x, ((![v62, v30] : Fin 2 → IVec S16 32) a x).toNat < S64x128.size a)
instance k0_chk26.dec : ∀ (v30 : IVec S16 32) (v62 : IVec S16 32), Decidable (k0_chk26 v30 v62) := fun v30 v62 => decidable_of_iff' _ (Iff.of_eq (k0_chk26.eq_1 v30 v62))
theorem k0_idx26_inb : ∀ (v30 : IVec S16 32) (v62 : IVec S16 32) (k0_hw26 : k0_chk26 v30 v62), ∀ a x, ((![v62, v30] : Fin 2 → IVec S16 32) a x).toNat < S64x128.size a := fun v30 v62 k0_hw26 => k0_hw26
def k0_off37 (k0_t3 : Fin k0_t3_loop.trips) : Fin 1 → Nat :=
  let c625_i32_51 : BitVec 32 := 625#32
  let c0_i32_23 : BitVec 32 := 0#32
  let c1_i32_25 : BitVec 32 := 1#32
  let arg11 : BitVec 32 := Scf.iv c0_i32_23 c1_i32_25 k0_t3
  let c25_i32_50 : BitVec 32 := 25#32
  let v63 : BitVec 32 := Scalar.muli arg11 c25_i32_50
  let v64 : BitVec 32 := Scalar.addi c625_i32_51 v63
  let c1_i32_52 : BitVec 32 := 1#32
  let v65 : BitVec 32 := Scalar.addi v64 c1_i32_52
  let c16_i32_53 : BitVec 32 := 16#32
  let v66 : BitVec 32 := Scalar.muli v65 c16_i32_53
  let v67 : Index := Scalar.indexCast v66
  ![v67.toNat]

def k0_chk27 (v30 : IVec S16 32) (v68 : IVec S16 32) : Prop :=
  (∀ a x, ((![v68, v30] : Fin 2 → IVec S16 32) a x).toNat < S64x128.size a)
instance k0_chk27.dec : ∀ (v30 : IVec S16 32) (v68 : IVec S16 32), Decidable (k0_chk27 v30 v68) := fun v30 v68 => decidable_of_iff' _ (Iff.of_eq (k0_chk27.eq_1 v30 v68))
theorem k0_idx27_inb : ∀ (v30 : IVec S16 32) (v68 : IVec S16 32) (k0_hw27 : k0_chk27 v30 v68), ∀ a x, ((![v68, v30] : Fin 2 → IVec S16 32) a x).toNat < S64x128.size a := fun v30 v68 k0_hw27 => k0_hw27
def k0_off38 (k0_t3 : Fin k0_t3_loop.trips) : Fin 1 → Nat :=
  let c625_i32_55 : BitVec 32 := 625#32
  let c0_i32_23 : BitVec 32 := 0#32
  let c1_i32_25 : BitVec 32 := 1#32
  let arg11 : BitVec 32 := Scf.iv c0_i32_23 c1_i32_25 k0_t3
  let c25_i32_54 : BitVec 32 := 25#32
  let v69 : BitVec 32 := Scalar.muli arg11 c25_i32_54
  let v70 : BitVec 32 := Scalar.addi c625_i32_55 v69
  let c2_i32_56 : BitVec 32 := 2#32
  let v71 : BitVec 32 := Scalar.addi v70 c2_i32_56
  let c16_i32_57 : BitVec 32 := 16#32
  let v72 : BitVec 32 := Scalar.muli v71 c16_i32_57
  let v73 : Index := Scalar.indexCast v72
  ![v73.toNat]

def k0_chk28 (v30 : IVec S16 32) (v74 : IVec S16 32) : Prop :=
  (∀ a x, ((![v74, v30] : Fin 2 → IVec S16 32) a x).toNat < S64x128.size a)
instance k0_chk28.dec : ∀ (v30 : IVec S16 32) (v74 : IVec S16 32), Decidable (k0_chk28 v30 v74) := fun v30 v74 => decidable_of_iff' _ (Iff.of_eq (k0_chk28.eq_1 v30 v74))
theorem k0_idx28_inb : ∀ (v30 : IVec S16 32) (v74 : IVec S16 32) (k0_hw28 : k0_chk28 v30 v74), ∀ a x, ((![v74, v30] : Fin 2 → IVec S16 32) a x).toNat < S64x128.size a := fun v30 v74 k0_hw28 => k0_hw28
def k0_off39 (k0_t3 : Fin k0_t3_loop.trips) : Fin 1 → Nat :=
  let c625_i32_59 : BitVec 32 := 625#32
  let c0_i32_23 : BitVec 32 := 0#32
  let c1_i32_25 : BitVec 32 := 1#32
  let arg11 : BitVec 32 := Scf.iv c0_i32_23 c1_i32_25 k0_t3
  let c25_i32_58 : BitVec 32 := 25#32
  let v75 : BitVec 32 := Scalar.muli arg11 c25_i32_58
  let v76 : BitVec 32 := Scalar.addi c625_i32_59 v75
  let c3_i32 : BitVec 32 := 3#32
  let v77 : BitVec 32 := Scalar.addi v76 c3_i32
  let c16_i32_60 : BitVec 32 := 16#32
  let v78 : BitVec 32 := Scalar.muli v77 c16_i32_60
  let v79 : Index := Scalar.indexCast v78
  ![v79.toNat]

def k0_chk29 (v30 : IVec S16 32) (v80 : IVec S16 32) : Prop :=
  (∀ a x, ((![v80, v30] : Fin 2 → IVec S16 32) a x).toNat < S64x128.size a)
instance k0_chk29.dec : ∀ (v30 : IVec S16 32) (v80 : IVec S16 32), Decidable (k0_chk29 v30 v80) := fun v30 v80 => decidable_of_iff' _ (Iff.of_eq (k0_chk29.eq_1 v30 v80))
theorem k0_idx29_inb : ∀ (v30 : IVec S16 32) (v80 : IVec S16 32) (k0_hw29 : k0_chk29 v30 v80), ∀ a x, ((![v80, v30] : Fin 2 → IVec S16 32) a x).toNat < S64x128.size a := fun v30 v80 k0_hw29 => k0_hw29
def k0_off40 (k0_t3 : Fin k0_t3_loop.trips) : Fin 1 → Nat :=
  let c625_i32_62 : BitVec 32 := 625#32
  let c0_i32_23 : BitVec 32 := 0#32
  let c1_i32_25 : BitVec 32 := 1#32
  let arg11 : BitVec 32 := Scf.iv c0_i32_23 c1_i32_25 k0_t3
  let c25_i32_61 : BitVec 32 := 25#32
  let v81 : BitVec 32 := Scalar.muli arg11 c25_i32_61
  let v82 : BitVec 32 := Scalar.addi c625_i32_62 v81
  let c4_i32 : BitVec 32 := 4#32
  let v83 : BitVec 32 := Scalar.addi v82 c4_i32
  let c16_i32_63 : BitVec 32 := 16#32
  let v84 : BitVec 32 := Scalar.muli v83 c16_i32_63
  let v85 : Index := Scalar.indexCast v84
  ![v85.toNat]

def k0_chk30 (v30 : IVec S16 32) (v86 : IVec S16 32) : Prop :=
  (∀ a x, ((![v86, v30] : Fin 2 → IVec S16 32) a x).toNat < S64x128.size a)
instance k0_chk30.dec : ∀ (v30 : IVec S16 32) (v86 : IVec S16 32), Decidable (k0_chk30 v30 v86) := fun v30 v86 => decidable_of_iff' _ (Iff.of_eq (k0_chk30.eq_1 v30 v86))
theorem k0_idx30_inb : ∀ (v30 : IVec S16 32) (v86 : IVec S16 32) (k0_hw30 : k0_chk30 v30 v86), ∀ a x, ((![v86, v30] : Fin 2 → IVec S16 32) a x).toNat < S64x128.size a := fun v30 v86 k0_hw30 => k0_hw30
def k0_off41 (k0_t3 : Fin k0_t3_loop.trips) : Fin 1 → Nat :=
  let c625_i32_65 : BitVec 32 := 625#32
  let c0_i32_23 : BitVec 32 := 0#32
  let c1_i32_25 : BitVec 32 := 1#32
  let arg11 : BitVec 32 := Scf.iv c0_i32_23 c1_i32_25 k0_t3
  let c25_i32_64 : BitVec 32 := 25#32
  let v87 : BitVec 32 := Scalar.muli arg11 c25_i32_64
  let v88 : BitVec 32 := Scalar.addi c625_i32_65 v87
  let c5_i32 : BitVec 32 := 5#32
  let v89 : BitVec 32 := Scalar.addi v88 c5_i32
  let c16_i32_66 : BitVec 32 := 16#32
  let v90 : BitVec 32 := Scalar.muli v89 c16_i32_66
  let v91 : Index := Scalar.indexCast v90
  ![v91.toNat]

def k0_chk31 (v30 : IVec S16 32) (v92 : IVec S16 32) : Prop :=
  (∀ a x, ((![v92, v30] : Fin 2 → IVec S16 32) a x).toNat < S64x128.size a)
instance k0_chk31.dec : ∀ (v30 : IVec S16 32) (v92 : IVec S16 32), Decidable (k0_chk31 v30 v92) := fun v30 v92 => decidable_of_iff' _ (Iff.of_eq (k0_chk31.eq_1 v30 v92))
theorem k0_idx31_inb : ∀ (v30 : IVec S16 32) (v92 : IVec S16 32) (k0_hw31 : k0_chk31 v30 v92), ∀ a x, ((![v92, v30] : Fin 2 → IVec S16 32) a x).toNat < S64x128.size a := fun v30 v92 k0_hw31 => k0_hw31
def k0_off42 (k0_t3 : Fin k0_t3_loop.trips) : Fin 1 → Nat :=
  let c625_i32_68 : BitVec 32 := 625#32
  let c0_i32_23 : BitVec 32 := 0#32
  let c1_i32_25 : BitVec 32 := 1#32
  let arg11 : BitVec 32 := Scf.iv c0_i32_23 c1_i32_25 k0_t3
  let c25_i32_67 : BitVec 32 := 25#32
  let v93 : BitVec 32 := Scalar.muli arg11 c25_i32_67
  let v94 : BitVec 32 := Scalar.addi c625_i32_68 v93
  let c6_i32 : BitVec 32 := 6#32
  let v95 : BitVec 32 := Scalar.addi v94 c6_i32
  let c16_i32_69 : BitVec 32 := 16#32
  let v96 : BitVec 32 := Scalar.muli v95 c16_i32_69
  let v97 : Index := Scalar.indexCast v96
  ![v97.toNat]

def k0_chk32 (v30 : IVec S16 32) (v98 : IVec S16 32) : Prop :=
  (∀ a x, ((![v98, v30] : Fin 2 → IVec S16 32) a x).toNat < S64x128.size a)
instance k0_chk32.dec : ∀ (v30 : IVec S16 32) (v98 : IVec S16 32), Decidable (k0_chk32 v30 v98) := fun v30 v98 => decidable_of_iff' _ (Iff.of_eq (k0_chk32.eq_1 v30 v98))
theorem k0_idx32_inb : ∀ (v30 : IVec S16 32) (v98 : IVec S16 32) (k0_hw32 : k0_chk32 v30 v98), ∀ a x, ((![v98, v30] : Fin 2 → IVec S16 32) a x).toNat < S64x128.size a := fun v30 v98 k0_hw32 => k0_hw32
def k0_off43 (k0_t3 : Fin k0_t3_loop.trips) : Fin 1 → Nat :=
  let c625_i32_71 : BitVec 32 := 625#32
  let c0_i32_23 : BitVec 32 := 0#32
  let c1_i32_25 : BitVec 32 := 1#32
  let arg11 : BitVec 32 := Scf.iv c0_i32_23 c1_i32_25 k0_t3
  let c25_i32_70 : BitVec 32 := 25#32
  let v99 : BitVec 32 := Scalar.muli arg11 c25_i32_70
  let v100 : BitVec 32 := Scalar.addi c625_i32_71 v99
  let c7_i32 : BitVec 32 := 7#32
  let v101 : BitVec 32 := Scalar.addi v100 c7_i32
  let c16_i32_72 : BitVec 32 := 16#32
  let v102 : BitVec 32 := Scalar.muli v101 c16_i32_72
  let v103 : Index := Scalar.indexCast v102
  ![v103.toNat]

def k0_chk33 (v30 : IVec S16 32) (v104 : IVec S16 32) : Prop :=
  (∀ a x, ((![v104, v30] : Fin 2 → IVec S16 32) a x).toNat < S64x128.size a)
instance k0_chk33.dec : ∀ (v30 : IVec S16 32) (v104 : IVec S16 32), Decidable (k0_chk33 v30 v104) := fun v30 v104 => decidable_of_iff' _ (Iff.of_eq (k0_chk33.eq_1 v30 v104))
theorem k0_idx33_inb : ∀ (v30 : IVec S16 32) (v104 : IVec S16 32) (k0_hw33 : k0_chk33 v30 v104), ∀ a x, ((![v104, v30] : Fin 2 → IVec S16 32) a x).toNat < S64x128.size a := fun v30 v104 k0_hw33 => k0_hw33
def k0_off44 (k0_t3 : Fin k0_t3_loop.trips) : Fin 1 → Nat :=
  let c625_i32_74 : BitVec 32 := 625#32
  let c0_i32_23 : BitVec 32 := 0#32
  let c1_i32_25 : BitVec 32 := 1#32
  let arg11 : BitVec 32 := Scf.iv c0_i32_23 c1_i32_25 k0_t3
  let c25_i32_73 : BitVec 32 := 25#32
  let v105 : BitVec 32 := Scalar.muli arg11 c25_i32_73
  let v106 : BitVec 32 := Scalar.addi c625_i32_74 v105
  let c8_i32 : BitVec 32 := 8#32
  let v107 : BitVec 32 := Scalar.addi v106 c8_i32
  let c16_i32_75 : BitVec 32 := 16#32
  let v108 : BitVec 32 := Scalar.muli v107 c16_i32_75
  let v109 : Index := Scalar.indexCast v108
  ![v109.toNat]

def k0_chk34 (v30 : IVec S16 32) (v110 : IVec S16 32) : Prop :=
  (∀ a x, ((![v110, v30] : Fin 2 → IVec S16 32) a x).toNat < S64x128.size a)
instance k0_chk34.dec : ∀ (v30 : IVec S16 32) (v110 : IVec S16 32), Decidable (k0_chk34 v30 v110) := fun v30 v110 => decidable_of_iff' _ (Iff.of_eq (k0_chk34.eq_1 v30 v110))
theorem k0_idx34_inb : ∀ (v30 : IVec S16 32) (v110 : IVec S16 32) (k0_hw34 : k0_chk34 v30 v110), ∀ a x, ((![v110, v30] : Fin 2 → IVec S16 32) a x).toNat < S64x128.size a := fun v30 v110 k0_hw34 => k0_hw34
def k0_off45 (k0_t3 : Fin k0_t3_loop.trips) : Fin 1 → Nat :=
  let c625_i32_77 : BitVec 32 := 625#32
  let c0_i32_23 : BitVec 32 := 0#32
  let c1_i32_25 : BitVec 32 := 1#32
  let arg11 : BitVec 32 := Scf.iv c0_i32_23 c1_i32_25 k0_t3
  let c25_i32_76 : BitVec 32 := 25#32
  let v111 : BitVec 32 := Scalar.muli arg11 c25_i32_76
  let v112 : BitVec 32 := Scalar.addi c625_i32_77 v111
  let c9_i32 : BitVec 32 := 9#32
  let v113 : BitVec 32 := Scalar.addi v112 c9_i32
  let c16_i32_78 : BitVec 32 := 16#32
  let v114 : BitVec 32 := Scalar.muli v113 c16_i32_78
  let v115 : Index := Scalar.indexCast v114
  ![v115.toNat]

def k0_chk35 (v30 : IVec S16 32) (v116 : IVec S16 32) : Prop :=
  (∀ a x, ((![v116, v30] : Fin 2 → IVec S16 32) a x).toNat < S64x128.size a)
instance k0_chk35.dec : ∀ (v30 : IVec S16 32) (v116 : IVec S16 32), Decidable (k0_chk35 v30 v116) := fun v30 v116 => decidable_of_iff' _ (Iff.of_eq (k0_chk35.eq_1 v30 v116))
theorem k0_idx35_inb : ∀ (v30 : IVec S16 32) (v116 : IVec S16 32) (k0_hw35 : k0_chk35 v30 v116), ∀ a x, ((![v116, v30] : Fin 2 → IVec S16 32) a x).toNat < S64x128.size a := fun v30 v116 k0_hw35 => k0_hw35
def k0_off46 (k0_t3 : Fin k0_t3_loop.trips) : Fin 1 → Nat :=
  let c625_i32_80 : BitVec 32 := 625#32
  let c0_i32_23 : BitVec 32 := 0#32
  let c1_i32_25 : BitVec 32 := 1#32
  let arg11 : BitVec 32 := Scf.iv c0_i32_23 c1_i32_25 k0_t3
  let c25_i32_79 : BitVec 32 := 25#32
  let v117 : BitVec 32 := Scalar.muli arg11 c25_i32_79
  let v118 : BitVec 32 := Scalar.addi c625_i32_80 v117
  let c10_i32 : BitVec 32 := 10#32
  let v119 : BitVec 32 := Scalar.addi v118 c10_i32
  let c16_i32_81 : BitVec 32 := 16#32
  let v120 : BitVec 32 := Scalar.muli v119 c16_i32_81
  let v121 : Index := Scalar.indexCast v120
  ![v121.toNat]

def k0_chk36 (v30 : IVec S16 32) (v122 : IVec S16 32) : Prop :=
  (∀ a x, ((![v122, v30] : Fin 2 → IVec S16 32) a x).toNat < S64x128.size a)
instance k0_chk36.dec : ∀ (v30 : IVec S16 32) (v122 : IVec S16 32), Decidable (k0_chk36 v30 v122) := fun v30 v122 => decidable_of_iff' _ (Iff.of_eq (k0_chk36.eq_1 v30 v122))
theorem k0_idx36_inb : ∀ (v30 : IVec S16 32) (v122 : IVec S16 32) (k0_hw36 : k0_chk36 v30 v122), ∀ a x, ((![v122, v30] : Fin 2 → IVec S16 32) a x).toNat < S64x128.size a := fun v30 v122 k0_hw36 => k0_hw36
def k0_off47 (k0_t3 : Fin k0_t3_loop.trips) : Fin 1 → Nat :=
  let c625_i32_83 : BitVec 32 := 625#32
  let c0_i32_23 : BitVec 32 := 0#32
  let c1_i32_25 : BitVec 32 := 1#32
  let arg11 : BitVec 32 := Scf.iv c0_i32_23 c1_i32_25 k0_t3
  let c25_i32_82 : BitVec 32 := 25#32
  let v123 : BitVec 32 := Scalar.muli arg11 c25_i32_82
  let v124 : BitVec 32 := Scalar.addi c625_i32_83 v123
  let c11_i32 : BitVec 32 := 11#32
  let v125 : BitVec 32 := Scalar.addi v124 c11_i32
  let c16_i32_84 : BitVec 32 := 16#32
  let v126 : BitVec 32 := Scalar.muli v125 c16_i32_84
  let v127 : Index := Scalar.indexCast v126
  ![v127.toNat]

def k0_chk37 (v30 : IVec S16 32) (v128 : IVec S16 32) : Prop :=
  (∀ a x, ((![v128, v30] : Fin 2 → IVec S16 32) a x).toNat < S64x128.size a)
instance k0_chk37.dec : ∀ (v30 : IVec S16 32) (v128 : IVec S16 32), Decidable (k0_chk37 v30 v128) := fun v30 v128 => decidable_of_iff' _ (Iff.of_eq (k0_chk37.eq_1 v30 v128))
theorem k0_idx37_inb : ∀ (v30 : IVec S16 32) (v128 : IVec S16 32) (k0_hw37 : k0_chk37 v30 v128), ∀ a x, ((![v128, v30] : Fin 2 → IVec S16 32) a x).toNat < S64x128.size a := fun v30 v128 k0_hw37 => k0_hw37
def k0_off48 (k0_t3 : Fin k0_t3_loop.trips) : Fin 1 → Nat :=
  let c625_i32_86 : BitVec 32 := 625#32
  let c0_i32_23 : BitVec 32 := 0#32
  let c1_i32_25 : BitVec 32 := 1#32
  let arg11 : BitVec 32 := Scf.iv c0_i32_23 c1_i32_25 k0_t3
  let c25_i32_85 : BitVec 32 := 25#32
  let v129 : BitVec 32 := Scalar.muli arg11 c25_i32_85
  let v130 : BitVec 32 := Scalar.addi c625_i32_86 v129
  let c12_i32 : BitVec 32 := 12#32
  let v131 : BitVec 32 := Scalar.addi v130 c12_i32
  let c16_i32_87 : BitVec 32 := 16#32
  let v132 : BitVec 32 := Scalar.muli v131 c16_i32_87
  let v133 : Index := Scalar.indexCast v132
  ![v133.toNat]

def k0_chk38 (v30 : IVec S16 32) (v134 : IVec S16 32) : Prop :=
  (∀ a x, ((![v134, v30] : Fin 2 → IVec S16 32) a x).toNat < S64x128.size a)
instance k0_chk38.dec : ∀ (v30 : IVec S16 32) (v134 : IVec S16 32), Decidable (k0_chk38 v30 v134) := fun v30 v134 => decidable_of_iff' _ (Iff.of_eq (k0_chk38.eq_1 v30 v134))
theorem k0_idx38_inb : ∀ (v30 : IVec S16 32) (v134 : IVec S16 32) (k0_hw38 : k0_chk38 v30 v134), ∀ a x, ((![v134, v30] : Fin 2 → IVec S16 32) a x).toNat < S64x128.size a := fun v30 v134 k0_hw38 => k0_hw38
def k0_off49 (k0_t3 : Fin k0_t3_loop.trips) : Fin 1 → Nat :=
  let c625_i32_89 : BitVec 32 := 625#32
  let c0_i32_23 : BitVec 32 := 0#32
  let c1_i32_25 : BitVec 32 := 1#32
  let arg11 : BitVec 32 := Scf.iv c0_i32_23 c1_i32_25 k0_t3
  let c25_i32_88 : BitVec 32 := 25#32
  let v135 : BitVec 32 := Scalar.muli arg11 c25_i32_88
  let v136 : BitVec 32 := Scalar.addi c625_i32_89 v135
  let c13_i32 : BitVec 32 := 13#32
  let v137 : BitVec 32 := Scalar.addi v136 c13_i32
  let c16_i32_90 : BitVec 32 := 16#32
  let v138 : BitVec 32 := Scalar.muli v137 c16_i32_90
  let v139 : Index := Scalar.indexCast v138
  ![v139.toNat]

def k0_chk39 (v30 : IVec S16 32) (v140 : IVec S16 32) : Prop :=
  (∀ a x, ((![v140, v30] : Fin 2 → IVec S16 32) a x).toNat < S64x128.size a)
instance k0_chk39.dec : ∀ (v30 : IVec S16 32) (v140 : IVec S16 32), Decidable (k0_chk39 v30 v140) := fun v30 v140 => decidable_of_iff' _ (Iff.of_eq (k0_chk39.eq_1 v30 v140))
theorem k0_idx39_inb : ∀ (v30 : IVec S16 32) (v140 : IVec S16 32) (k0_hw39 : k0_chk39 v30 v140), ∀ a x, ((![v140, v30] : Fin 2 → IVec S16 32) a x).toNat < S64x128.size a := fun v30 v140 k0_hw39 => k0_hw39
def k0_off50 (k0_t3 : Fin k0_t3_loop.trips) : Fin 1 → Nat :=
  let c625_i32_92 : BitVec 32 := 625#32
  let c0_i32_23 : BitVec 32 := 0#32
  let c1_i32_25 : BitVec 32 := 1#32
  let arg11 : BitVec 32 := Scf.iv c0_i32_23 c1_i32_25 k0_t3
  let c25_i32_91 : BitVec 32 := 25#32
  let v141 : BitVec 32 := Scalar.muli arg11 c25_i32_91
  let v142 : BitVec 32 := Scalar.addi c625_i32_92 v141
  let c14_i32 : BitVec 32 := 14#32
  let v143 : BitVec 32 := Scalar.addi v142 c14_i32
  let c16_i32_93 : BitVec 32 := 16#32
  let v144 : BitVec 32 := Scalar.muli v143 c16_i32_93
  let v145 : Index := Scalar.indexCast v144
  ![v145.toNat]

def k0_chk40 (v30 : IVec S16 32) (v146 : IVec S16 32) : Prop :=
  (∀ a x, ((![v146, v30] : Fin 2 → IVec S16 32) a x).toNat < S64x128.size a)
instance k0_chk40.dec : ∀ (v30 : IVec S16 32) (v146 : IVec S16 32), Decidable (k0_chk40 v30 v146) := fun v30 v146 => decidable_of_iff' _ (Iff.of_eq (k0_chk40.eq_1 v30 v146))
theorem k0_idx40_inb : ∀ (v30 : IVec S16 32) (v146 : IVec S16 32) (k0_hw40 : k0_chk40 v30 v146), ∀ a x, ((![v146, v30] : Fin 2 → IVec S16 32) a x).toNat < S64x128.size a := fun v30 v146 k0_hw40 => k0_hw40
def k0_off51 (k0_t3 : Fin k0_t3_loop.trips) : Fin 1 → Nat :=
  let c625_i32_95 : BitVec 32 := 625#32
  let c0_i32_23 : BitVec 32 := 0#32
  let c1_i32_25 : BitVec 32 := 1#32
  let arg11 : BitVec 32 := Scf.iv c0_i32_23 c1_i32_25 k0_t3
  let c25_i32_94 : BitVec 32 := 25#32
  let v147 : BitVec 32 := Scalar.muli arg11 c25_i32_94
  let v148 : BitVec 32 := Scalar.addi c625_i32_95 v147
  let c15_i32 : BitVec 32 := 15#32
  let v149 : BitVec 32 := Scalar.addi v148 c15_i32
  let c16_i32_96 : BitVec 32 := 16#32
  let v150 : BitVec 32 := Scalar.muli v149 c16_i32_96
  let v151 : Index := Scalar.indexCast v150
  ![v151.toNat]

def k0_chk41 (v30 : IVec S16 32) (v152 : IVec S16 32) : Prop :=
  (∀ a x, ((![v152, v30] : Fin 2 → IVec S16 32) a x).toNat < S64x128.size a)
instance k0_chk41.dec : ∀ (v30 : IVec S16 32) (v152 : IVec S16 32), Decidable (k0_chk41 v30 v152) := fun v30 v152 => decidable_of_iff' _ (Iff.of_eq (k0_chk41.eq_1 v30 v152))
theorem k0_idx41_inb : ∀ (v30 : IVec S16 32) (v152 : IVec S16 32) (k0_hw41 : k0_chk41 v30 v152), ∀ a x, ((![v152, v30] : Fin 2 → IVec S16 32) a x).toNat < S64x128.size a := fun v30 v152 k0_hw41 => k0_hw41
def k0_off52 (k0_t3 : Fin k0_t3_loop.trips) : Fin 1 → Nat :=
  let c625_i32_98 : BitVec 32 := 625#32
  let c0_i32_23 : BitVec 32 := 0#32
  let c1_i32_25 : BitVec 32 := 1#32
  let arg11 : BitVec 32 := Scf.iv c0_i32_23 c1_i32_25 k0_t3
  let c25_i32_97 : BitVec 32 := 25#32
  let v153 : BitVec 32 := Scalar.muli arg11 c25_i32_97
  let v154 : BitVec 32 := Scalar.addi c625_i32_98 v153
  let c16_i32_99 : BitVec 32 := 16#32
  let v155 : BitVec 32 := Scalar.addi v154 c16_i32_99
  let c16_i32_100 : BitVec 32 := 16#32
  let v156 : BitVec 32 := Scalar.muli v155 c16_i32_100
  let v157 : Index := Scalar.indexCast v156
  ![v157.toNat]

def k0_chk42 (v30 : IVec S16 32) (v158 : IVec S16 32) : Prop :=
  (∀ a x, ((![v158, v30] : Fin 2 → IVec S16 32) a x).toNat < S64x128.size a)
instance k0_chk42.dec : ∀ (v30 : IVec S16 32) (v158 : IVec S16 32), Decidable (k0_chk42 v30 v158) := fun v30 v158 => decidable_of_iff' _ (Iff.of_eq (k0_chk42.eq_1 v30 v158))
theorem k0_idx42_inb : ∀ (v30 : IVec S16 32) (v158 : IVec S16 32) (k0_hw42 : k0_chk42 v30 v158), ∀ a x, ((![v158, v30] : Fin 2 → IVec S16 32) a x).toNat < S64x128.size a := fun v30 v158 k0_hw42 => k0_hw42
def k0_off53 (k0_t3 : Fin k0_t3_loop.trips) : Fin 1 → Nat :=
  let c625_i32_102 : BitVec 32 := 625#32
  let c0_i32_23 : BitVec 32 := 0#32
  let c1_i32_25 : BitVec 32 := 1#32
  let arg11 : BitVec 32 := Scf.iv c0_i32_23 c1_i32_25 k0_t3
  let c25_i32_101 : BitVec 32 := 25#32
  let v159 : BitVec 32 := Scalar.muli arg11 c25_i32_101
  let v160 : BitVec 32 := Scalar.addi c625_i32_102 v159
  let c17_i32 : BitVec 32 := 17#32
  let v161 : BitVec 32 := Scalar.addi v160 c17_i32
  let c16_i32_103 : BitVec 32 := 16#32
  let v162 : BitVec 32 := Scalar.muli v161 c16_i32_103
  let v163 : Index := Scalar.indexCast v162
  ![v163.toNat]

def k0_chk43 (v30 : IVec S16 32) (v164 : IVec S16 32) : Prop :=
  (∀ a x, ((![v164, v30] : Fin 2 → IVec S16 32) a x).toNat < S64x128.size a)
instance k0_chk43.dec : ∀ (v30 : IVec S16 32) (v164 : IVec S16 32), Decidable (k0_chk43 v30 v164) := fun v30 v164 => decidable_of_iff' _ (Iff.of_eq (k0_chk43.eq_1 v30 v164))
theorem k0_idx43_inb : ∀ (v30 : IVec S16 32) (v164 : IVec S16 32) (k0_hw43 : k0_chk43 v30 v164), ∀ a x, ((![v164, v30] : Fin 2 → IVec S16 32) a x).toNat < S64x128.size a := fun v30 v164 k0_hw43 => k0_hw43
def k0_off54 (k0_t3 : Fin k0_t3_loop.trips) : Fin 1 → Nat :=
  let c625_i32_105 : BitVec 32 := 625#32
  let c0_i32_23 : BitVec 32 := 0#32
  let c1_i32_25 : BitVec 32 := 1#32
  let arg11 : BitVec 32 := Scf.iv c0_i32_23 c1_i32_25 k0_t3
  let c25_i32_104 : BitVec 32 := 25#32
  let v165 : BitVec 32 := Scalar.muli arg11 c25_i32_104
  let v166 : BitVec 32 := Scalar.addi c625_i32_105 v165
  let c18_i32 : BitVec 32 := 18#32
  let v167 : BitVec 32 := Scalar.addi v166 c18_i32
  let c16_i32_106 : BitVec 32 := 16#32
  let v168 : BitVec 32 := Scalar.muli v167 c16_i32_106
  let v169 : Index := Scalar.indexCast v168
  ![v169.toNat]

def k0_chk44 (v30 : IVec S16 32) (v170 : IVec S16 32) : Prop :=
  (∀ a x, ((![v170, v30] : Fin 2 → IVec S16 32) a x).toNat < S64x128.size a)
instance k0_chk44.dec : ∀ (v30 : IVec S16 32) (v170 : IVec S16 32), Decidable (k0_chk44 v30 v170) := fun v30 v170 => decidable_of_iff' _ (Iff.of_eq (k0_chk44.eq_1 v30 v170))
theorem k0_idx44_inb : ∀ (v30 : IVec S16 32) (v170 : IVec S16 32) (k0_hw44 : k0_chk44 v30 v170), ∀ a x, ((![v170, v30] : Fin 2 → IVec S16 32) a x).toNat < S64x128.size a := fun v30 v170 k0_hw44 => k0_hw44
def k0_off55 (k0_t3 : Fin k0_t3_loop.trips) : Fin 1 → Nat :=
  let c625_i32_108 : BitVec 32 := 625#32
  let c0_i32_23 : BitVec 32 := 0#32
  let c1_i32_25 : BitVec 32 := 1#32
  let arg11 : BitVec 32 := Scf.iv c0_i32_23 c1_i32_25 k0_t3
  let c25_i32_107 : BitVec 32 := 25#32
  let v171 : BitVec 32 := Scalar.muli arg11 c25_i32_107
  let v172 : BitVec 32 := Scalar.addi c625_i32_108 v171
  let c19_i32 : BitVec 32 := 19#32
  let v173 : BitVec 32 := Scalar.addi v172 c19_i32
  let c16_i32_109 : BitVec 32 := 16#32
  let v174 : BitVec 32 := Scalar.muli v173 c16_i32_109
  let v175 : Index := Scalar.indexCast v174
  ![v175.toNat]

def k0_chk45 (v30 : IVec S16 32) (v176 : IVec S16 32) : Prop :=
  (∀ a x, ((![v176, v30] : Fin 2 → IVec S16 32) a x).toNat < S64x128.size a)
instance k0_chk45.dec : ∀ (v30 : IVec S16 32) (v176 : IVec S16 32), Decidable (k0_chk45 v30 v176) := fun v30 v176 => decidable_of_iff' _ (Iff.of_eq (k0_chk45.eq_1 v30 v176))
theorem k0_idx45_inb : ∀ (v30 : IVec S16 32) (v176 : IVec S16 32) (k0_hw45 : k0_chk45 v30 v176), ∀ a x, ((![v176, v30] : Fin 2 → IVec S16 32) a x).toNat < S64x128.size a := fun v30 v176 k0_hw45 => k0_hw45
def k0_off56 (k0_t3 : Fin k0_t3_loop.trips) : Fin 1 → Nat :=
  let c625_i32_111 : BitVec 32 := 625#32
  let c0_i32_23 : BitVec 32 := 0#32
  let c1_i32_25 : BitVec 32 := 1#32
  let arg11 : BitVec 32 := Scf.iv c0_i32_23 c1_i32_25 k0_t3
  let c25_i32_110 : BitVec 32 := 25#32
  let v177 : BitVec 32 := Scalar.muli arg11 c25_i32_110
  let v178 : BitVec 32 := Scalar.addi c625_i32_111 v177
  let c20_i32 : BitVec 32 := 20#32
  let v179 : BitVec 32 := Scalar.addi v178 c20_i32
  let c16_i32_112 : BitVec 32 := 16#32
  let v180 : BitVec 32 := Scalar.muli v179 c16_i32_112
  let v181 : Index := Scalar.indexCast v180
  ![v181.toNat]

def k0_chk46 (v30 : IVec S16 32) (v182 : IVec S16 32) : Prop :=
  (∀ a x, ((![v182, v30] : Fin 2 → IVec S16 32) a x).toNat < S64x128.size a)
instance k0_chk46.dec : ∀ (v30 : IVec S16 32) (v182 : IVec S16 32), Decidable (k0_chk46 v30 v182) := fun v30 v182 => decidable_of_iff' _ (Iff.of_eq (k0_chk46.eq_1 v30 v182))
theorem k0_idx46_inb : ∀ (v30 : IVec S16 32) (v182 : IVec S16 32) (k0_hw46 : k0_chk46 v30 v182), ∀ a x, ((![v182, v30] : Fin 2 → IVec S16 32) a x).toNat < S64x128.size a := fun v30 v182 k0_hw46 => k0_hw46
def k0_off57 (k0_t3 : Fin k0_t3_loop.trips) : Fin 1 → Nat :=
  let c625_i32_114 : BitVec 32 := 625#32
  let c0_i32_23 : BitVec 32 := 0#32
  let c1_i32_25 : BitVec 32 := 1#32
  let arg11 : BitVec 32 := Scf.iv c0_i32_23 c1_i32_25 k0_t3
  let c25_i32_113 : BitVec 32 := 25#32
  let v183 : BitVec 32 := Scalar.muli arg11 c25_i32_113
  let v184 : BitVec 32 := Scalar.addi c625_i32_114 v183
  let c21_i32 : BitVec 32 := 21#32
  let v185 : BitVec 32 := Scalar.addi v184 c21_i32
  let c16_i32_115 : BitVec 32 := 16#32
  let v186 : BitVec 32 := Scalar.muli v185 c16_i32_115
  let v187 : Index := Scalar.indexCast v186
  ![v187.toNat]

def k0_chk47 (v30 : IVec S16 32) (v188 : IVec S16 32) : Prop :=
  (∀ a x, ((![v188, v30] : Fin 2 → IVec S16 32) a x).toNat < S64x128.size a)
instance k0_chk47.dec : ∀ (v30 : IVec S16 32) (v188 : IVec S16 32), Decidable (k0_chk47 v30 v188) := fun v30 v188 => decidable_of_iff' _ (Iff.of_eq (k0_chk47.eq_1 v30 v188))
theorem k0_idx47_inb : ∀ (v30 : IVec S16 32) (v188 : IVec S16 32) (k0_hw47 : k0_chk47 v30 v188), ∀ a x, ((![v188, v30] : Fin 2 → IVec S16 32) a x).toNat < S64x128.size a := fun v30 v188 k0_hw47 => k0_hw47
def k0_off58 (k0_t3 : Fin k0_t3_loop.trips) : Fin 1 → Nat :=
  let c625_i32_117 : BitVec 32 := 625#32
  let c0_i32_23 : BitVec 32 := 0#32
  let c1_i32_25 : BitVec 32 := 1#32
  let arg11 : BitVec 32 := Scf.iv c0_i32_23 c1_i32_25 k0_t3
  let c25_i32_116 : BitVec 32 := 25#32
  let v189 : BitVec 32 := Scalar.muli arg11 c25_i32_116
  let v190 : BitVec 32 := Scalar.addi c625_i32_117 v189
  let c22_i32 : BitVec 32 := 22#32
  let v191 : BitVec 32 := Scalar.addi v190 c22_i32
  let c16_i32_118 : BitVec 32 := 16#32
  let v192 : BitVec 32 := Scalar.muli v191 c16_i32_118
  let v193 : Index := Scalar.indexCast v192
  ![v193.toNat]

def k0_chk48 (v30 : IVec S16 32) (v194 : IVec S16 32) : Prop :=
  (∀ a x, ((![v194, v30] : Fin 2 → IVec S16 32) a x).toNat < S64x128.size a)
instance k0_chk48.dec : ∀ (v30 : IVec S16 32) (v194 : IVec S16 32), Decidable (k0_chk48 v30 v194) := fun v30 v194 => decidable_of_iff' _ (Iff.of_eq (k0_chk48.eq_1 v30 v194))
theorem k0_idx48_inb : ∀ (v30 : IVec S16 32) (v194 : IVec S16 32) (k0_hw48 : k0_chk48 v30 v194), ∀ a x, ((![v194, v30] : Fin 2 → IVec S16 32) a x).toNat < S64x128.size a := fun v30 v194 k0_hw48 => k0_hw48
def k0_off59 (k0_t3 : Fin k0_t3_loop.trips) : Fin 1 → Nat :=
  let c625_i32_120 : BitVec 32 := 625#32
  let c0_i32_23 : BitVec 32 := 0#32
  let c1_i32_25 : BitVec 32 := 1#32
  let arg11 : BitVec 32 := Scf.iv c0_i32_23 c1_i32_25 k0_t3
  let c25_i32_119 : BitVec 32 := 25#32
  let v195 : BitVec 32 := Scalar.muli arg11 c25_i32_119
  let v196 : BitVec 32 := Scalar.addi c625_i32_120 v195
  let c23_i32 : BitVec 32 := 23#32
  let v197 : BitVec 32 := Scalar.addi v196 c23_i32
  let c16_i32_121 : BitVec 32 := 16#32
  let v198 : BitVec 32 := Scalar.muli v197 c16_i32_121
  let v199 : Index := Scalar.indexCast v198
  ![v199.toNat]

def k0_chk49 (v30 : IVec S16 32) (v200 : IVec S16 32) : Prop :=
  (∀ a x, ((![v200, v30] : Fin 2 → IVec S16 32) a x).toNat < S64x128.size a)
instance k0_chk49.dec : ∀ (v30 : IVec S16 32) (v200 : IVec S16 32), Decidable (k0_chk49 v30 v200) := fun v30 v200 => decidable_of_iff' _ (Iff.of_eq (k0_chk49.eq_1 v30 v200))
theorem k0_idx49_inb : ∀ (v30 : IVec S16 32) (v200 : IVec S16 32) (k0_hw49 : k0_chk49 v30 v200), ∀ a x, ((![v200, v30] : Fin 2 → IVec S16 32) a x).toNat < S64x128.size a := fun v30 v200 k0_hw49 => k0_hw49
def k0_off60 (k0_t3 : Fin k0_t3_loop.trips) : Fin 1 → Nat :=
  let c625_i32_123 : BitVec 32 := 625#32
  let c0_i32_23 : BitVec 32 := 0#32
  let c1_i32_25 : BitVec 32 := 1#32
  let arg11 : BitVec 32 := Scf.iv c0_i32_23 c1_i32_25 k0_t3
  let c25_i32_122 : BitVec 32 := 25#32
  let v201 : BitVec 32 := Scalar.muli arg11 c25_i32_122
  let v202 : BitVec 32 := Scalar.addi c625_i32_123 v201
  let c24_i32 : BitVec 32 := 24#32
  let v203 : BitVec 32 := Scalar.addi v202 c24_i32
  let c16_i32_124 : BitVec 32 := 16#32
  let v204 : BitVec 32 := Scalar.muli v203 c16_i32_124
  let v205 : Index := Scalar.indexCast v204
  ![v205.toNat]

def k0_chk50 (v30 : IVec S16 32) (v206 : IVec S16 32) : Prop :=
  (∀ a x, ((![v206, v30] : Fin 2 → IVec S16 32) a x).toNat < S64x128.size a)
instance k0_chk50.dec : ∀ (v30 : IVec S16 32) (v206 : IVec S16 32), Decidable (k0_chk50 v30 v206) := fun v30 v206 => decidable_of_iff' _ (Iff.of_eq (k0_chk50.eq_1 v30 v206))
theorem k0_idx50_inb : ∀ (v30 : IVec S16 32) (v206 : IVec S16 32) (k0_hw50 : k0_chk50 v30 v206), ∀ a x, ((![v206, v30] : Fin 2 → IVec S16 32) a x).toNat < S64x128.size a := fun v30 v206 k0_hw50 => k0_hw50
@[reducible] def k0_t4_loop : Scf.Loop 32 :=
  let c0_i32_30 : BitVec 32 := 0#32
  let c25_i32_31 : BitVec 32 := 25#32
  let v46 : BitVec 32 := Scalar.addi c0_i32_30 c25_i32_31
  let c1_i32_32 : BitVec 32 := 1#32
  ⟨c0_i32_30, v46, c1_i32_32⟩
def k0_off61 (k0_t4 : Fin k0_t4_loop.trips) : Fin 1 → Nat :=
  let c1250_i32 : BitVec 32 := 1250#32
  let c0_i32_30 : BitVec 32 := 0#32
  let c1_i32_32 : BitVec 32 := 1#32
  let arg11 : BitVec 32 := Scf.iv c0_i32_30 c1_i32_32 k0_t4
  let c25_i32_48 : BitVec 32 := 25#32
  let v57 : BitVec 32 := Scalar.muli arg11 c25_i32_48
  let v58 : BitVec 32 := Scalar.addi c1250_i32 v57
  let c0_i32_49 : BitVec 32 := 0#32
  let v59 : BitVec 32 := Scalar.addi v58 c0_i32_49
  let c16_i32 : BitVec 32 := 16#32
  let v60 : BitVec 32 := Scalar.muli v59 c16_i32
  let v61 : Index := Scalar.indexCast v60
  ![v61.toNat]

def k0_chk51 (v30 : IVec S16 32) (v62 : IVec S16 32) : Prop :=
  (∀ a x, ((![v62, v30] : Fin 2 → IVec S16 32) a x).toNat < S64x128.size a)
instance k0_chk51.dec : ∀ (v30 : IVec S16 32) (v62 : IVec S16 32), Decidable (k0_chk51 v30 v62) := fun v30 v62 => decidable_of_iff' _ (Iff.of_eq (k0_chk51.eq_1 v30 v62))
theorem k0_idx51_inb : ∀ (v30 : IVec S16 32) (v62 : IVec S16 32) (k0_hw51 : k0_chk51 v30 v62), ∀ a x, ((![v62, v30] : Fin 2 → IVec S16 32) a x).toNat < S64x128.size a := fun v30 v62 k0_hw51 => k0_hw51
def k0_off62 (k0_t4 : Fin k0_t4_loop.trips) : Fin 1 → Nat :=
  let c1250_i32_51 : BitVec 32 := 1250#32
  let c0_i32_30 : BitVec 32 := 0#32
  let c1_i32_32 : BitVec 32 := 1#32
  let arg11 : BitVec 32 := Scf.iv c0_i32_30 c1_i32_32 k0_t4
  let c25_i32_50 : BitVec 32 := 25#32
  let v63 : BitVec 32 := Scalar.muli arg11 c25_i32_50
  let v64 : BitVec 32 := Scalar.addi c1250_i32_51 v63
  let c1_i32_52 : BitVec 32 := 1#32
  let v65 : BitVec 32 := Scalar.addi v64 c1_i32_52
  let c16_i32_53 : BitVec 32 := 16#32
  let v66 : BitVec 32 := Scalar.muli v65 c16_i32_53
  let v67 : Index := Scalar.indexCast v66
  ![v67.toNat]

def k0_chk52 (v30 : IVec S16 32) (v68 : IVec S16 32) : Prop :=
  (∀ a x, ((![v68, v30] : Fin 2 → IVec S16 32) a x).toNat < S64x128.size a)
instance k0_chk52.dec : ∀ (v30 : IVec S16 32) (v68 : IVec S16 32), Decidable (k0_chk52 v30 v68) := fun v30 v68 => decidable_of_iff' _ (Iff.of_eq (k0_chk52.eq_1 v30 v68))
theorem k0_idx52_inb : ∀ (v30 : IVec S16 32) (v68 : IVec S16 32) (k0_hw52 : k0_chk52 v30 v68), ∀ a x, ((![v68, v30] : Fin 2 → IVec S16 32) a x).toNat < S64x128.size a := fun v30 v68 k0_hw52 => k0_hw52
def k0_off63 (k0_t4 : Fin k0_t4_loop.trips) : Fin 1 → Nat :=
  let c1250_i32_55 : BitVec 32 := 1250#32
  let c0_i32_30 : BitVec 32 := 0#32
  let c1_i32_32 : BitVec 32 := 1#32
  let arg11 : BitVec 32 := Scf.iv c0_i32_30 c1_i32_32 k0_t4
  let c25_i32_54 : BitVec 32 := 25#32
  let v69 : BitVec 32 := Scalar.muli arg11 c25_i32_54
  let v70 : BitVec 32 := Scalar.addi c1250_i32_55 v69
  let c2_i32_56 : BitVec 32 := 2#32
  let v71 : BitVec 32 := Scalar.addi v70 c2_i32_56
  let c16_i32_57 : BitVec 32 := 16#32
  let v72 : BitVec 32 := Scalar.muli v71 c16_i32_57
  let v73 : Index := Scalar.indexCast v72
  ![v73.toNat]

def k0_chk53 (v30 : IVec S16 32) (v74 : IVec S16 32) : Prop :=
  (∀ a x, ((![v74, v30] : Fin 2 → IVec S16 32) a x).toNat < S64x128.size a)
instance k0_chk53.dec : ∀ (v30 : IVec S16 32) (v74 : IVec S16 32), Decidable (k0_chk53 v30 v74) := fun v30 v74 => decidable_of_iff' _ (Iff.of_eq (k0_chk53.eq_1 v30 v74))
theorem k0_idx53_inb : ∀ (v30 : IVec S16 32) (v74 : IVec S16 32) (k0_hw53 : k0_chk53 v30 v74), ∀ a x, ((![v74, v30] : Fin 2 → IVec S16 32) a x).toNat < S64x128.size a := fun v30 v74 k0_hw53 => k0_hw53
def k0_off64 (k0_t4 : Fin k0_t4_loop.trips) : Fin 1 → Nat :=
  let c1250_i32_59 : BitVec 32 := 1250#32
  let c0_i32_30 : BitVec 32 := 0#32
  let c1_i32_32 : BitVec 32 := 1#32
  let arg11 : BitVec 32 := Scf.iv c0_i32_30 c1_i32_32 k0_t4
  let c25_i32_58 : BitVec 32 := 25#32
  let v75 : BitVec 32 := Scalar.muli arg11 c25_i32_58
  let v76 : BitVec 32 := Scalar.addi c1250_i32_59 v75
  let c3_i32 : BitVec 32 := 3#32
  let v77 : BitVec 32 := Scalar.addi v76 c3_i32
  let c16_i32_60 : BitVec 32 := 16#32
  let v78 : BitVec 32 := Scalar.muli v77 c16_i32_60
  let v79 : Index := Scalar.indexCast v78
  ![v79.toNat]

def k0_chk54 (v30 : IVec S16 32) (v80 : IVec S16 32) : Prop :=
  (∀ a x, ((![v80, v30] : Fin 2 → IVec S16 32) a x).toNat < S64x128.size a)
instance k0_chk54.dec : ∀ (v30 : IVec S16 32) (v80 : IVec S16 32), Decidable (k0_chk54 v30 v80) := fun v30 v80 => decidable_of_iff' _ (Iff.of_eq (k0_chk54.eq_1 v30 v80))
theorem k0_idx54_inb : ∀ (v30 : IVec S16 32) (v80 : IVec S16 32) (k0_hw54 : k0_chk54 v30 v80), ∀ a x, ((![v80, v30] : Fin 2 → IVec S16 32) a x).toNat < S64x128.size a := fun v30 v80 k0_hw54 => k0_hw54
def k0_off65 (k0_t4 : Fin k0_t4_loop.trips) : Fin 1 → Nat :=
  let c1250_i32_62 : BitVec 32 := 1250#32
  let c0_i32_30 : BitVec 32 := 0#32
  let c1_i32_32 : BitVec 32 := 1#32
  let arg11 : BitVec 32 := Scf.iv c0_i32_30 c1_i32_32 k0_t4
  let c25_i32_61 : BitVec 32 := 25#32
  let v81 : BitVec 32 := Scalar.muli arg11 c25_i32_61
  let v82 : BitVec 32 := Scalar.addi c1250_i32_62 v81
  let c4_i32 : BitVec 32 := 4#32
  let v83 : BitVec 32 := Scalar.addi v82 c4_i32
  let c16_i32_63 : BitVec 32 := 16#32
  let v84 : BitVec 32 := Scalar.muli v83 c16_i32_63
  let v85 : Index := Scalar.indexCast v84
  ![v85.toNat]

def k0_chk55 (v30 : IVec S16 32) (v86 : IVec S16 32) : Prop :=
  (∀ a x, ((![v86, v30] : Fin 2 → IVec S16 32) a x).toNat < S64x128.size a)
instance k0_chk55.dec : ∀ (v30 : IVec S16 32) (v86 : IVec S16 32), Decidable (k0_chk55 v30 v86) := fun v30 v86 => decidable_of_iff' _ (Iff.of_eq (k0_chk55.eq_1 v30 v86))
theorem k0_idx55_inb : ∀ (v30 : IVec S16 32) (v86 : IVec S16 32) (k0_hw55 : k0_chk55 v30 v86), ∀ a x, ((![v86, v30] : Fin 2 → IVec S16 32) a x).toNat < S64x128.size a := fun v30 v86 k0_hw55 => k0_hw55
def k0_off66 (k0_t4 : Fin k0_t4_loop.trips) : Fin 1 → Nat :=
  let c1250_i32_65 : BitVec 32 := 1250#32
  let c0_i32_30 : BitVec 32 := 0#32
  let c1_i32_32 : BitVec 32 := 1#32
  let arg11 : BitVec 32 := Scf.iv c0_i32_30 c1_i32_32 k0_t4
  let c25_i32_64 : BitVec 32 := 25#32
  let v87 : BitVec 32 := Scalar.muli arg11 c25_i32_64
  let v88 : BitVec 32 := Scalar.addi c1250_i32_65 v87
  let c5_i32 : BitVec 32 := 5#32
  let v89 : BitVec 32 := Scalar.addi v88 c5_i32
  let c16_i32_66 : BitVec 32 := 16#32
  let v90 : BitVec 32 := Scalar.muli v89 c16_i32_66
  let v91 : Index := Scalar.indexCast v90
  ![v91.toNat]

def k0_chk56 (v30 : IVec S16 32) (v92 : IVec S16 32) : Prop :=
  (∀ a x, ((![v92, v30] : Fin 2 → IVec S16 32) a x).toNat < S64x128.size a)
instance k0_chk56.dec : ∀ (v30 : IVec S16 32) (v92 : IVec S16 32), Decidable (k0_chk56 v30 v92) := fun v30 v92 => decidable_of_iff' _ (Iff.of_eq (k0_chk56.eq_1 v30 v92))
theorem k0_idx56_inb : ∀ (v30 : IVec S16 32) (v92 : IVec S16 32) (k0_hw56 : k0_chk56 v30 v92), ∀ a x, ((![v92, v30] : Fin 2 → IVec S16 32) a x).toNat < S64x128.size a := fun v30 v92 k0_hw56 => k0_hw56
def k0_off67 (k0_t4 : Fin k0_t4_loop.trips) : Fin 1 → Nat :=
  let c1250_i32_68 : BitVec 32 := 1250#32
  let c0_i32_30 : BitVec 32 := 0#32
  let c1_i32_32 : BitVec 32 := 1#32
  let arg11 : BitVec 32 := Scf.iv c0_i32_30 c1_i32_32 k0_t4
  let c25_i32_67 : BitVec 32 := 25#32
  let v93 : BitVec 32 := Scalar.muli arg11 c25_i32_67
  let v94 : BitVec 32 := Scalar.addi c1250_i32_68 v93
  let c6_i32 : BitVec 32 := 6#32
  let v95 : BitVec 32 := Scalar.addi v94 c6_i32
  let c16_i32_69 : BitVec 32 := 16#32
  let v96 : BitVec 32 := Scalar.muli v95 c16_i32_69
  let v97 : Index := Scalar.indexCast v96
  ![v97.toNat]

def k0_chk57 (v30 : IVec S16 32) (v98 : IVec S16 32) : Prop :=
  (∀ a x, ((![v98, v30] : Fin 2 → IVec S16 32) a x).toNat < S64x128.size a)
instance k0_chk57.dec : ∀ (v30 : IVec S16 32) (v98 : IVec S16 32), Decidable (k0_chk57 v30 v98) := fun v30 v98 => decidable_of_iff' _ (Iff.of_eq (k0_chk57.eq_1 v30 v98))
theorem k0_idx57_inb : ∀ (v30 : IVec S16 32) (v98 : IVec S16 32) (k0_hw57 : k0_chk57 v30 v98), ∀ a x, ((![v98, v30] : Fin 2 → IVec S16 32) a x).toNat < S64x128.size a := fun v30 v98 k0_hw57 => k0_hw57
def k0_off68 (k0_t4 : Fin k0_t4_loop.trips) : Fin 1 → Nat :=
  let c1250_i32_71 : BitVec 32 := 1250#32
  let c0_i32_30 : BitVec 32 := 0#32
  let c1_i32_32 : BitVec 32 := 1#32
  let arg11 : BitVec 32 := Scf.iv c0_i32_30 c1_i32_32 k0_t4
  let c25_i32_70 : BitVec 32 := 25#32
  let v99 : BitVec 32 := Scalar.muli arg11 c25_i32_70
  let v100 : BitVec 32 := Scalar.addi c1250_i32_71 v99
  let c7_i32 : BitVec 32 := 7#32
  let v101 : BitVec 32 := Scalar.addi v100 c7_i32
  let c16_i32_72 : BitVec 32 := 16#32
  let v102 : BitVec 32 := Scalar.muli v101 c16_i32_72
  let v103 : Index := Scalar.indexCast v102
  ![v103.toNat]

def k0_chk58 (v30 : IVec S16 32) (v104 : IVec S16 32) : Prop :=
  (∀ a x, ((![v104, v30] : Fin 2 → IVec S16 32) a x).toNat < S64x128.size a)
instance k0_chk58.dec : ∀ (v30 : IVec S16 32) (v104 : IVec S16 32), Decidable (k0_chk58 v30 v104) := fun v30 v104 => decidable_of_iff' _ (Iff.of_eq (k0_chk58.eq_1 v30 v104))
theorem k0_idx58_inb : ∀ (v30 : IVec S16 32) (v104 : IVec S16 32) (k0_hw58 : k0_chk58 v30 v104), ∀ a x, ((![v104, v30] : Fin 2 → IVec S16 32) a x).toNat < S64x128.size a := fun v30 v104 k0_hw58 => k0_hw58
def k0_off69 (k0_t4 : Fin k0_t4_loop.trips) : Fin 1 → Nat :=
  let c1250_i32_74 : BitVec 32 := 1250#32
  let c0_i32_30 : BitVec 32 := 0#32
  let c1_i32_32 : BitVec 32 := 1#32
  let arg11 : BitVec 32 := Scf.iv c0_i32_30 c1_i32_32 k0_t4
  let c25_i32_73 : BitVec 32 := 25#32
  let v105 : BitVec 32 := Scalar.muli arg11 c25_i32_73
  let v106 : BitVec 32 := Scalar.addi c1250_i32_74 v105
  let c8_i32 : BitVec 32 := 8#32
  let v107 : BitVec 32 := Scalar.addi v106 c8_i32
  let c16_i32_75 : BitVec 32 := 16#32
  let v108 : BitVec 32 := Scalar.muli v107 c16_i32_75
  let v109 : Index := Scalar.indexCast v108
  ![v109.toNat]

def k0_chk59 (v30 : IVec S16 32) (v110 : IVec S16 32) : Prop :=
  (∀ a x, ((![v110, v30] : Fin 2 → IVec S16 32) a x).toNat < S64x128.size a)
instance k0_chk59.dec : ∀ (v30 : IVec S16 32) (v110 : IVec S16 32), Decidable (k0_chk59 v30 v110) := fun v30 v110 => decidable_of_iff' _ (Iff.of_eq (k0_chk59.eq_1 v30 v110))
theorem k0_idx59_inb : ∀ (v30 : IVec S16 32) (v110 : IVec S16 32) (k0_hw59 : k0_chk59 v30 v110), ∀ a x, ((![v110, v30] : Fin 2 → IVec S16 32) a x).toNat < S64x128.size a := fun v30 v110 k0_hw59 => k0_hw59
def k0_off70 (k0_t4 : Fin k0_t4_loop.trips) : Fin 1 → Nat :=
  let c1250_i32_77 : BitVec 32 := 1250#32
  let c0_i32_30 : BitVec 32 := 0#32
  let c1_i32_32 : BitVec 32 := 1#32
  let arg11 : BitVec 32 := Scf.iv c0_i32_30 c1_i32_32 k0_t4
  let c25_i32_76 : BitVec 32 := 25#32
  let v111 : BitVec 32 := Scalar.muli arg11 c25_i32_76
  let v112 : BitVec 32 := Scalar.addi c1250_i32_77 v111
  let c9_i32 : BitVec 32 := 9#32
  let v113 : BitVec 32 := Scalar.addi v112 c9_i32
  let c16_i32_78 : BitVec 32 := 16#32
  let v114 : BitVec 32 := Scalar.muli v113 c16_i32_78
  let v115 : Index := Scalar.indexCast v114
  ![v115.toNat]

def k0_chk60 (v30 : IVec S16 32) (v116 : IVec S16 32) : Prop :=
  (∀ a x, ((![v116, v30] : Fin 2 → IVec S16 32) a x).toNat < S64x128.size a)
instance k0_chk60.dec : ∀ (v30 : IVec S16 32) (v116 : IVec S16 32), Decidable (k0_chk60 v30 v116) := fun v30 v116 => decidable_of_iff' _ (Iff.of_eq (k0_chk60.eq_1 v30 v116))
theorem k0_idx60_inb : ∀ (v30 : IVec S16 32) (v116 : IVec S16 32) (k0_hw60 : k0_chk60 v30 v116), ∀ a x, ((![v116, v30] : Fin 2 → IVec S16 32) a x).toNat < S64x128.size a := fun v30 v116 k0_hw60 => k0_hw60
def k0_off71 (k0_t4 : Fin k0_t4_loop.trips) : Fin 1 → Nat :=
  let c1250_i32_80 : BitVec 32 := 1250#32
  let c0_i32_30 : BitVec 32 := 0#32
  let c1_i32_32 : BitVec 32 := 1#32
  let arg11 : BitVec 32 := Scf.iv c0_i32_30 c1_i32_32 k0_t4
  let c25_i32_79 : BitVec 32 := 25#32
  let v117 : BitVec 32 := Scalar.muli arg11 c25_i32_79
  let v118 : BitVec 32 := Scalar.addi c1250_i32_80 v117
  let c10_i32 : BitVec 32 := 10#32
  let v119 : BitVec 32 := Scalar.addi v118 c10_i32
  let c16_i32_81 : BitVec 32 := 16#32
  let v120 : BitVec 32 := Scalar.muli v119 c16_i32_81
  let v121 : Index := Scalar.indexCast v120
  ![v121.toNat]

def k0_chk61 (v30 : IVec S16 32) (v122 : IVec S16 32) : Prop :=
  (∀ a x, ((![v122, v30] : Fin 2 → IVec S16 32) a x).toNat < S64x128.size a)
instance k0_chk61.dec : ∀ (v30 : IVec S16 32) (v122 : IVec S16 32), Decidable (k0_chk61 v30 v122) := fun v30 v122 => decidable_of_iff' _ (Iff.of_eq (k0_chk61.eq_1 v30 v122))
theorem k0_idx61_inb : ∀ (v30 : IVec S16 32) (v122 : IVec S16 32) (k0_hw61 : k0_chk61 v30 v122), ∀ a x, ((![v122, v30] : Fin 2 → IVec S16 32) a x).toNat < S64x128.size a := fun v30 v122 k0_hw61 => k0_hw61
def k0_off72 (k0_t4 : Fin k0_t4_loop.trips) : Fin 1 → Nat :=
  let c1250_i32_83 : BitVec 32 := 1250#32
  let c0_i32_30 : BitVec 32 := 0#32
  let c1_i32_32 : BitVec 32 := 1#32
  let arg11 : BitVec 32 := Scf.iv c0_i32_30 c1_i32_32 k0_t4
  let c25_i32_82 : BitVec 32 := 25#32
  let v123 : BitVec 32 := Scalar.muli arg11 c25_i32_82
  let v124 : BitVec 32 := Scalar.addi c1250_i32_83 v123
  let c11_i32 : BitVec 32 := 11#32
  let v125 : BitVec 32 := Scalar.addi v124 c11_i32
  let c16_i32_84 : BitVec 32 := 16#32
  let v126 : BitVec 32 := Scalar.muli v125 c16_i32_84
  let v127 : Index := Scalar.indexCast v126
  ![v127.toNat]

def k0_chk62 (v30 : IVec S16 32) (v128 : IVec S16 32) : Prop :=
  (∀ a x, ((![v128, v30] : Fin 2 → IVec S16 32) a x).toNat < S64x128.size a)
instance k0_chk62.dec : ∀ (v30 : IVec S16 32) (v128 : IVec S16 32), Decidable (k0_chk62 v30 v128) := fun v30 v128 => decidable_of_iff' _ (Iff.of_eq (k0_chk62.eq_1 v30 v128))
theorem k0_idx62_inb : ∀ (v30 : IVec S16 32) (v128 : IVec S16 32) (k0_hw62 : k0_chk62 v30 v128), ∀ a x, ((![v128, v30] : Fin 2 → IVec S16 32) a x).toNat < S64x128.size a := fun v30 v128 k0_hw62 => k0_hw62
def k0_off73 (k0_t4 : Fin k0_t4_loop.trips) : Fin 1 → Nat :=
  let c1250_i32_86 : BitVec 32 := 1250#32
  let c0_i32_30 : BitVec 32 := 0#32
  let c1_i32_32 : BitVec 32 := 1#32
  let arg11 : BitVec 32 := Scf.iv c0_i32_30 c1_i32_32 k0_t4
  let c25_i32_85 : BitVec 32 := 25#32
  let v129 : BitVec 32 := Scalar.muli arg11 c25_i32_85
  let v130 : BitVec 32 := Scalar.addi c1250_i32_86 v129
  let c12_i32 : BitVec 32 := 12#32
  let v131 : BitVec 32 := Scalar.addi v130 c12_i32
  let c16_i32_87 : BitVec 32 := 16#32
  let v132 : BitVec 32 := Scalar.muli v131 c16_i32_87
  let v133 : Index := Scalar.indexCast v132
  ![v133.toNat]

def k0_chk63 (v30 : IVec S16 32) (v134 : IVec S16 32) : Prop :=
  (∀ a x, ((![v134, v30] : Fin 2 → IVec S16 32) a x).toNat < S64x128.size a)
instance k0_chk63.dec : ∀ (v30 : IVec S16 32) (v134 : IVec S16 32), Decidable (k0_chk63 v30 v134) := fun v30 v134 => decidable_of_iff' _ (Iff.of_eq (k0_chk63.eq_1 v30 v134))
theorem k0_idx63_inb : ∀ (v30 : IVec S16 32) (v134 : IVec S16 32) (k0_hw63 : k0_chk63 v30 v134), ∀ a x, ((![v134, v30] : Fin 2 → IVec S16 32) a x).toNat < S64x128.size a := fun v30 v134 k0_hw63 => k0_hw63
def k0_off74 (k0_t4 : Fin k0_t4_loop.trips) : Fin 1 → Nat :=
  let c1250_i32_89 : BitVec 32 := 1250#32
  let c0_i32_30 : BitVec 32 := 0#32
  let c1_i32_32 : BitVec 32 := 1#32
  let arg11 : BitVec 32 := Scf.iv c0_i32_30 c1_i32_32 k0_t4
  let c25_i32_88 : BitVec 32 := 25#32
  let v135 : BitVec 32 := Scalar.muli arg11 c25_i32_88
  let v136 : BitVec 32 := Scalar.addi c1250_i32_89 v135
  let c13_i32 : BitVec 32 := 13#32
  let v137 : BitVec 32 := Scalar.addi v136 c13_i32
  let c16_i32_90 : BitVec 32 := 16#32
  let v138 : BitVec 32 := Scalar.muli v137 c16_i32_90
  let v139 : Index := Scalar.indexCast v138
  ![v139.toNat]

def k0_chk64 (v30 : IVec S16 32) (v140 : IVec S16 32) : Prop :=
  (∀ a x, ((![v140, v30] : Fin 2 → IVec S16 32) a x).toNat < S64x128.size a)
instance k0_chk64.dec : ∀ (v30 : IVec S16 32) (v140 : IVec S16 32), Decidable (k0_chk64 v30 v140) := fun v30 v140 => decidable_of_iff' _ (Iff.of_eq (k0_chk64.eq_1 v30 v140))
theorem k0_idx64_inb : ∀ (v30 : IVec S16 32) (v140 : IVec S16 32) (k0_hw64 : k0_chk64 v30 v140), ∀ a x, ((![v140, v30] : Fin 2 → IVec S16 32) a x).toNat < S64x128.size a := fun v30 v140 k0_hw64 => k0_hw64
def k0_off75 (k0_t4 : Fin k0_t4_loop.trips) : Fin 1 → Nat :=
  let c1250_i32_92 : BitVec 32 := 1250#32
  let c0_i32_30 : BitVec 32 := 0#32
  let c1_i32_32 : BitVec 32 := 1#32
  let arg11 : BitVec 32 := Scf.iv c0_i32_30 c1_i32_32 k0_t4
  let c25_i32_91 : BitVec 32 := 25#32
  let v141 : BitVec 32 := Scalar.muli arg11 c25_i32_91
  let v142 : BitVec 32 := Scalar.addi c1250_i32_92 v141
  let c14_i32 : BitVec 32 := 14#32
  let v143 : BitVec 32 := Scalar.addi v142 c14_i32
  let c16_i32_93 : BitVec 32 := 16#32
  let v144 : BitVec 32 := Scalar.muli v143 c16_i32_93
  let v145 : Index := Scalar.indexCast v144
  ![v145.toNat]

def k0_chk65 (v30 : IVec S16 32) (v146 : IVec S16 32) : Prop :=
  (∀ a x, ((![v146, v30] : Fin 2 → IVec S16 32) a x).toNat < S64x128.size a)
instance k0_chk65.dec : ∀ (v30 : IVec S16 32) (v146 : IVec S16 32), Decidable (k0_chk65 v30 v146) := fun v30 v146 => decidable_of_iff' _ (Iff.of_eq (k0_chk65.eq_1 v30 v146))
theorem k0_idx65_inb : ∀ (v30 : IVec S16 32) (v146 : IVec S16 32) (k0_hw65 : k0_chk65 v30 v146), ∀ a x, ((![v146, v30] : Fin 2 → IVec S16 32) a x).toNat < S64x128.size a := fun v30 v146 k0_hw65 => k0_hw65
def k0_off76 (k0_t4 : Fin k0_t4_loop.trips) : Fin 1 → Nat :=
  let c1250_i32_95 : BitVec 32 := 1250#32
  let c0_i32_30 : BitVec 32 := 0#32
  let c1_i32_32 : BitVec 32 := 1#32
  let arg11 : BitVec 32 := Scf.iv c0_i32_30 c1_i32_32 k0_t4
  let c25_i32_94 : BitVec 32 := 25#32
  let v147 : BitVec 32 := Scalar.muli arg11 c25_i32_94
  let v148 : BitVec 32 := Scalar.addi c1250_i32_95 v147
  let c15_i32 : BitVec 32 := 15#32
  let v149 : BitVec 32 := Scalar.addi v148 c15_i32
  let c16_i32_96 : BitVec 32 := 16#32
  let v150 : BitVec 32 := Scalar.muli v149 c16_i32_96
  let v151 : Index := Scalar.indexCast v150
  ![v151.toNat]

def k0_chk66 (v30 : IVec S16 32) (v152 : IVec S16 32) : Prop :=
  (∀ a x, ((![v152, v30] : Fin 2 → IVec S16 32) a x).toNat < S64x128.size a)
instance k0_chk66.dec : ∀ (v30 : IVec S16 32) (v152 : IVec S16 32), Decidable (k0_chk66 v30 v152) := fun v30 v152 => decidable_of_iff' _ (Iff.of_eq (k0_chk66.eq_1 v30 v152))
theorem k0_idx66_inb : ∀ (v30 : IVec S16 32) (v152 : IVec S16 32) (k0_hw66 : k0_chk66 v30 v152), ∀ a x, ((![v152, v30] : Fin 2 → IVec S16 32) a x).toNat < S64x128.size a := fun v30 v152 k0_hw66 => k0_hw66
def k0_off77 (k0_t4 : Fin k0_t4_loop.trips) : Fin 1 → Nat :=
  let c1250_i32_98 : BitVec 32 := 1250#32
  let c0_i32_30 : BitVec 32 := 0#32
  let c1_i32_32 : BitVec 32 := 1#32
  let arg11 : BitVec 32 := Scf.iv c0_i32_30 c1_i32_32 k0_t4
  let c25_i32_97 : BitVec 32 := 25#32
  let v153 : BitVec 32 := Scalar.muli arg11 c25_i32_97
  let v154 : BitVec 32 := Scalar.addi c1250_i32_98 v153
  let c16_i32_99 : BitVec 32 := 16#32
  let v155 : BitVec 32 := Scalar.addi v154 c16_i32_99
  let c16_i32_100 : BitVec 32 := 16#32
  let v156 : BitVec 32 := Scalar.muli v155 c16_i32_100
  let v157 : Index := Scalar.indexCast v156
  ![v157.toNat]

def k0_chk67 (v30 : IVec S16 32) (v158 : IVec S16 32) : Prop :=
  (∀ a x, ((![v158, v30] : Fin 2 → IVec S16 32) a x).toNat < S64x128.size a)
instance k0_chk67.dec : ∀ (v30 : IVec S16 32) (v158 : IVec S16 32), Decidable (k0_chk67 v30 v158) := fun v30 v158 => decidable_of_iff' _ (Iff.of_eq (k0_chk67.eq_1 v30 v158))
theorem k0_idx67_inb : ∀ (v30 : IVec S16 32) (v158 : IVec S16 32) (k0_hw67 : k0_chk67 v30 v158), ∀ a x, ((![v158, v30] : Fin 2 → IVec S16 32) a x).toNat < S64x128.size a := fun v30 v158 k0_hw67 => k0_hw67
def k0_off78 (k0_t4 : Fin k0_t4_loop.trips) : Fin 1 → Nat :=
  let c1250_i32_102 : BitVec 32 := 1250#32
  let c0_i32_30 : BitVec 32 := 0#32
  let c1_i32_32 : BitVec 32 := 1#32
  let arg11 : BitVec 32 := Scf.iv c0_i32_30 c1_i32_32 k0_t4
  let c25_i32_101 : BitVec 32 := 25#32
  let v159 : BitVec 32 := Scalar.muli arg11 c25_i32_101
  let v160 : BitVec 32 := Scalar.addi c1250_i32_102 v159
  let c17_i32 : BitVec 32 := 17#32
  let v161 : BitVec 32 := Scalar.addi v160 c17_i32
  let c16_i32_103 : BitVec 32 := 16#32
  let v162 : BitVec 32 := Scalar.muli v161 c16_i32_103
  let v163 : Index := Scalar.indexCast v162
  ![v163.toNat]

def k0_chk68 (v30 : IVec S16 32) (v164 : IVec S16 32) : Prop :=
  (∀ a x, ((![v164, v30] : Fin 2 → IVec S16 32) a x).toNat < S64x128.size a)
instance k0_chk68.dec : ∀ (v30 : IVec S16 32) (v164 : IVec S16 32), Decidable (k0_chk68 v30 v164) := fun v30 v164 => decidable_of_iff' _ (Iff.of_eq (k0_chk68.eq_1 v30 v164))
theorem k0_idx68_inb : ∀ (v30 : IVec S16 32) (v164 : IVec S16 32) (k0_hw68 : k0_chk68 v30 v164), ∀ a x, ((![v164, v30] : Fin 2 → IVec S16 32) a x).toNat < S64x128.size a := fun v30 v164 k0_hw68 => k0_hw68
def k0_off79 (k0_t4 : Fin k0_t4_loop.trips) : Fin 1 → Nat :=
  let c1250_i32_105 : BitVec 32 := 1250#32
  let c0_i32_30 : BitVec 32 := 0#32
  let c1_i32_32 : BitVec 32 := 1#32
  let arg11 : BitVec 32 := Scf.iv c0_i32_30 c1_i32_32 k0_t4
  let c25_i32_104 : BitVec 32 := 25#32
  let v165 : BitVec 32 := Scalar.muli arg11 c25_i32_104
  let v166 : BitVec 32 := Scalar.addi c1250_i32_105 v165
  let c18_i32 : BitVec 32 := 18#32
  let v167 : BitVec 32 := Scalar.addi v166 c18_i32
  let c16_i32_106 : BitVec 32 := 16#32
  let v168 : BitVec 32 := Scalar.muli v167 c16_i32_106
  let v169 : Index := Scalar.indexCast v168
  ![v169.toNat]

def k0_chk69 (v30 : IVec S16 32) (v170 : IVec S16 32) : Prop :=
  (∀ a x, ((![v170, v30] : Fin 2 → IVec S16 32) a x).toNat < S64x128.size a)
instance k0_chk69.dec : ∀ (v30 : IVec S16 32) (v170 : IVec S16 32), Decidable (k0_chk69 v30 v170) := fun v30 v170 => decidable_of_iff' _ (Iff.of_eq (k0_chk69.eq_1 v30 v170))
theorem k0_idx69_inb : ∀ (v30 : IVec S16 32) (v170 : IVec S16 32) (k0_hw69 : k0_chk69 v30 v170), ∀ a x, ((![v170, v30] : Fin 2 → IVec S16 32) a x).toNat < S64x128.size a := fun v30 v170 k0_hw69 => k0_hw69
def k0_off80 (k0_t4 : Fin k0_t4_loop.trips) : Fin 1 → Nat :=
  let c1250_i32_108 : BitVec 32 := 1250#32
  let c0_i32_30 : BitVec 32 := 0#32
  let c1_i32_32 : BitVec 32 := 1#32
  let arg11 : BitVec 32 := Scf.iv c0_i32_30 c1_i32_32 k0_t4
  let c25_i32_107 : BitVec 32 := 25#32
  let v171 : BitVec 32 := Scalar.muli arg11 c25_i32_107
  let v172 : BitVec 32 := Scalar.addi c1250_i32_108 v171
  let c19_i32 : BitVec 32 := 19#32
  let v173 : BitVec 32 := Scalar.addi v172 c19_i32
  let c16_i32_109 : BitVec 32 := 16#32
  let v174 : BitVec 32 := Scalar.muli v173 c16_i32_109
  let v175 : Index := Scalar.indexCast v174
  ![v175.toNat]

def k0_chk70 (v30 : IVec S16 32) (v176 : IVec S16 32) : Prop :=
  (∀ a x, ((![v176, v30] : Fin 2 → IVec S16 32) a x).toNat < S64x128.size a)
instance k0_chk70.dec : ∀ (v30 : IVec S16 32) (v176 : IVec S16 32), Decidable (k0_chk70 v30 v176) := fun v30 v176 => decidable_of_iff' _ (Iff.of_eq (k0_chk70.eq_1 v30 v176))
theorem k0_idx70_inb : ∀ (v30 : IVec S16 32) (v176 : IVec S16 32) (k0_hw70 : k0_chk70 v30 v176), ∀ a x, ((![v176, v30] : Fin 2 → IVec S16 32) a x).toNat < S64x128.size a := fun v30 v176 k0_hw70 => k0_hw70
def k0_off81 (k0_t4 : Fin k0_t4_loop.trips) : Fin 1 → Nat :=
  let c1250_i32_111 : BitVec 32 := 1250#32
  let c0_i32_30 : BitVec 32 := 0#32
  let c1_i32_32 : BitVec 32 := 1#32
  let arg11 : BitVec 32 := Scf.iv c0_i32_30 c1_i32_32 k0_t4
  let c25_i32_110 : BitVec 32 := 25#32
  let v177 : BitVec 32 := Scalar.muli arg11 c25_i32_110
  let v178 : BitVec 32 := Scalar.addi c1250_i32_111 v177
  let c20_i32 : BitVec 32 := 20#32
  let v179 : BitVec 32 := Scalar.addi v178 c20_i32
  let c16_i32_112 : BitVec 32 := 16#32
  let v180 : BitVec 32 := Scalar.muli v179 c16_i32_112
  let v181 : Index := Scalar.indexCast v180
  ![v181.toNat]

def k0_chk71 (v30 : IVec S16 32) (v182 : IVec S16 32) : Prop :=
  (∀ a x, ((![v182, v30] : Fin 2 → IVec S16 32) a x).toNat < S64x128.size a)
instance k0_chk71.dec : ∀ (v30 : IVec S16 32) (v182 : IVec S16 32), Decidable (k0_chk71 v30 v182) := fun v30 v182 => decidable_of_iff' _ (Iff.of_eq (k0_chk71.eq_1 v30 v182))
theorem k0_idx71_inb : ∀ (v30 : IVec S16 32) (v182 : IVec S16 32) (k0_hw71 : k0_chk71 v30 v182), ∀ a x, ((![v182, v30] : Fin 2 → IVec S16 32) a x).toNat < S64x128.size a := fun v30 v182 k0_hw71 => k0_hw71
def k0_off82 (k0_t4 : Fin k0_t4_loop.trips) : Fin 1 → Nat :=
  let c1250_i32_114 : BitVec 32 := 1250#32
  let c0_i32_30 : BitVec 32 := 0#32
  let c1_i32_32 : BitVec 32 := 1#32
  let arg11 : BitVec 32 := Scf.iv c0_i32_30 c1_i32_32 k0_t4
  let c25_i32_113 : BitVec 32 := 25#32
  let v183 : BitVec 32 := Scalar.muli arg11 c25_i32_113
  let v184 : BitVec 32 := Scalar.addi c1250_i32_114 v183
  let c21_i32 : BitVec 32 := 21#32
  let v185 : BitVec 32 := Scalar.addi v184 c21_i32
  let c16_i32_115 : BitVec 32 := 16#32
  let v186 : BitVec 32 := Scalar.muli v185 c16_i32_115
  let v187 : Index := Scalar.indexCast v186
  ![v187.toNat]

def k0_chk72 (v30 : IVec S16 32) (v188 : IVec S16 32) : Prop :=
  (∀ a x, ((![v188, v30] : Fin 2 → IVec S16 32) a x).toNat < S64x128.size a)
instance k0_chk72.dec : ∀ (v30 : IVec S16 32) (v188 : IVec S16 32), Decidable (k0_chk72 v30 v188) := fun v30 v188 => decidable_of_iff' _ (Iff.of_eq (k0_chk72.eq_1 v30 v188))
theorem k0_idx72_inb : ∀ (v30 : IVec S16 32) (v188 : IVec S16 32) (k0_hw72 : k0_chk72 v30 v188), ∀ a x, ((![v188, v30] : Fin 2 → IVec S16 32) a x).toNat < S64x128.size a := fun v30 v188 k0_hw72 => k0_hw72
def k0_off83 (k0_t4 : Fin k0_t4_loop.trips) : Fin 1 → Nat :=
  let c1250_i32_117 : BitVec 32 := 1250#32
  let c0_i32_30 : BitVec 32 := 0#32
  let c1_i32_32 : BitVec 32 := 1#32
  let arg11 : BitVec 32 := Scf.iv c0_i32_30 c1_i32_32 k0_t4
  let c25_i32_116 : BitVec 32 := 25#32
  let v189 : BitVec 32 := Scalar.muli arg11 c25_i32_116
  let v190 : BitVec 32 := Scalar.addi c1250_i32_117 v189
  let c22_i32 : BitVec 32 := 22#32
  let v191 : BitVec 32 := Scalar.addi v190 c22_i32
  let c16_i32_118 : BitVec 32 := 16#32
  let v192 : BitVec 32 := Scalar.muli v191 c16_i32_118
  let v193 : Index := Scalar.indexCast v192
  ![v193.toNat]

def k0_chk73 (v30 : IVec S16 32) (v194 : IVec S16 32) : Prop :=
  (∀ a x, ((![v194, v30] : Fin 2 → IVec S16 32) a x).toNat < S64x128.size a)
instance k0_chk73.dec : ∀ (v30 : IVec S16 32) (v194 : IVec S16 32), Decidable (k0_chk73 v30 v194) := fun v30 v194 => decidable_of_iff' _ (Iff.of_eq (k0_chk73.eq_1 v30 v194))
theorem k0_idx73_inb : ∀ (v30 : IVec S16 32) (v194 : IVec S16 32) (k0_hw73 : k0_chk73 v30 v194), ∀ a x, ((![v194, v30] : Fin 2 → IVec S16 32) a x).toNat < S64x128.size a := fun v30 v194 k0_hw73 => k0_hw73
def k0_off84 (k0_t4 : Fin k0_t4_loop.trips) : Fin 1 → Nat :=
  let c1250_i32_120 : BitVec 32 := 1250#32
  let c0_i32_30 : BitVec 32 := 0#32
  let c1_i32_32 : BitVec 32 := 1#32
  let arg11 : BitVec 32 := Scf.iv c0_i32_30 c1_i32_32 k0_t4
  let c25_i32_119 : BitVec 32 := 25#32
  let v195 : BitVec 32 := Scalar.muli arg11 c25_i32_119
  let v196 : BitVec 32 := Scalar.addi c1250_i32_120 v195
  let c23_i32 : BitVec 32 := 23#32
  let v197 : BitVec 32 := Scalar.addi v196 c23_i32
  let c16_i32_121 : BitVec 32 := 16#32
  let v198 : BitVec 32 := Scalar.muli v197 c16_i32_121
  let v199 : Index := Scalar.indexCast v198
  ![v199.toNat]

def k0_chk74 (v30 : IVec S16 32) (v200 : IVec S16 32) : Prop :=
  (∀ a x, ((![v200, v30] : Fin 2 → IVec S16 32) a x).toNat < S64x128.size a)
instance k0_chk74.dec : ∀ (v30 : IVec S16 32) (v200 : IVec S16 32), Decidable (k0_chk74 v30 v200) := fun v30 v200 => decidable_of_iff' _ (Iff.of_eq (k0_chk74.eq_1 v30 v200))
theorem k0_idx74_inb : ∀ (v30 : IVec S16 32) (v200 : IVec S16 32) (k0_hw74 : k0_chk74 v30 v200), ∀ a x, ((![v200, v30] : Fin 2 → IVec S16 32) a x).toNat < S64x128.size a := fun v30 v200 k0_hw74 => k0_hw74
def k0_off85 (k0_t4 : Fin k0_t4_loop.trips) : Fin 1 → Nat :=
  let c1250_i32_123 : BitVec 32 := 1250#32
  let c0_i32_30 : BitVec 32 := 0#32
  let c1_i32_32 : BitVec 32 := 1#32
  let arg11 : BitVec 32 := Scf.iv c0_i32_30 c1_i32_32 k0_t4
  let c25_i32_122 : BitVec 32 := 25#32
  let v201 : BitVec 32 := Scalar.muli arg11 c25_i32_122
  let v202 : BitVec 32 := Scalar.addi c1250_i32_123 v201
  let c24_i32 : BitVec 32 := 24#32
  let v203 : BitVec 32 := Scalar.addi v202 c24_i32
  let c16_i32_124 : BitVec 32 := 16#32
  let v204 : BitVec 32 := Scalar.muli v203 c16_i32_124
  let v205 : Index := Scalar.indexCast v204
  ![v205.toNat]

def k0_chk75 (v30 : IVec S16 32) (v206 : IVec S16 32) : Prop :=
  (∀ a x, ((![v206, v30] : Fin 2 → IVec S16 32) a x).toNat < S64x128.size a)
instance k0_chk75.dec : ∀ (v30 : IVec S16 32) (v206 : IVec S16 32), Decidable (k0_chk75 v30 v206) := fun v30 v206 => decidable_of_iff' _ (Iff.of_eq (k0_chk75.eq_1 v30 v206))
theorem k0_idx75_inb : ∀ (v30 : IVec S16 32) (v206 : IVec S16 32) (k0_hw75 : k0_chk75 v30 v206), ∀ a x, ((![v206, v30] : Fin 2 → IVec S16 32) a x).toNat < S64x128.size a := fun v30 v206 k0_hw75 => k0_hw75
@[reducible] def k0_t5_loop : Scf.Loop 32 :=
  let c0_i32_37 : BitVec 32 := 0#32
  let c25_i32_38 : BitVec 32 := 25#32
  let v51 : BitVec 32 := Scalar.addi c0_i32_37 c25_i32_38
  let c1_i32_39 : BitVec 32 := 1#32
  ⟨c0_i32_37, v51, c1_i32_39⟩
def k0_off86 (k0_t5 : Fin k0_t5_loop.trips) : Fin 1 → Nat :=
  let c1875_i32 : BitVec 32 := 1875#32
  let c0_i32_37 : BitVec 32 := 0#32
  let c1_i32_39 : BitVec 32 := 1#32
  let arg11 : BitVec 32 := Scf.iv c0_i32_37 c1_i32_39 k0_t5
  let c25_i32_48 : BitVec 32 := 25#32
  let v57 : BitVec 32 := Scalar.muli arg11 c25_i32_48
  let v58 : BitVec 32 := Scalar.addi c1875_i32 v57
  let c0_i32_49 : BitVec 32 := 0#32
  let v59 : BitVec 32 := Scalar.addi v58 c0_i32_49
  let c16_i32 : BitVec 32 := 16#32
  let v60 : BitVec 32 := Scalar.muli v59 c16_i32
  let v61 : Index := Scalar.indexCast v60
  ![v61.toNat]

def k0_chk76 (v30 : IVec S16 32) (v62 : IVec S16 32) : Prop :=
  (∀ a x, ((![v62, v30] : Fin 2 → IVec S16 32) a x).toNat < S64x128.size a)
instance k0_chk76.dec : ∀ (v30 : IVec S16 32) (v62 : IVec S16 32), Decidable (k0_chk76 v30 v62) := fun v30 v62 => decidable_of_iff' _ (Iff.of_eq (k0_chk76.eq_1 v30 v62))
theorem k0_idx76_inb : ∀ (v30 : IVec S16 32) (v62 : IVec S16 32) (k0_hw76 : k0_chk76 v30 v62), ∀ a x, ((![v62, v30] : Fin 2 → IVec S16 32) a x).toNat < S64x128.size a := fun v30 v62 k0_hw76 => k0_hw76
def k0_off87 (k0_t5 : Fin k0_t5_loop.trips) : Fin 1 → Nat :=
  let c1875_i32_51 : BitVec 32 := 1875#32
  let c0_i32_37 : BitVec 32 := 0#32
  let c1_i32_39 : BitVec 32 := 1#32
  let arg11 : BitVec 32 := Scf.iv c0_i32_37 c1_i32_39 k0_t5
  let c25_i32_50 : BitVec 32 := 25#32
  let v63 : BitVec 32 := Scalar.muli arg11 c25_i32_50
  let v64 : BitVec 32 := Scalar.addi c1875_i32_51 v63
  let c1_i32_52 : BitVec 32 := 1#32
  let v65 : BitVec 32 := Scalar.addi v64 c1_i32_52
  let c16_i32_53 : BitVec 32 := 16#32
  let v66 : BitVec 32 := Scalar.muli v65 c16_i32_53
  let v67 : Index := Scalar.indexCast v66
  ![v67.toNat]

def k0_chk77 (v30 : IVec S16 32) (v68 : IVec S16 32) : Prop :=
  (∀ a x, ((![v68, v30] : Fin 2 → IVec S16 32) a x).toNat < S64x128.size a)
instance k0_chk77.dec : ∀ (v30 : IVec S16 32) (v68 : IVec S16 32), Decidable (k0_chk77 v30 v68) := fun v30 v68 => decidable_of_iff' _ (Iff.of_eq (k0_chk77.eq_1 v30 v68))
theorem k0_idx77_inb : ∀ (v30 : IVec S16 32) (v68 : IVec S16 32) (k0_hw77 : k0_chk77 v30 v68), ∀ a x, ((![v68, v30] : Fin 2 → IVec S16 32) a x).toNat < S64x128.size a := fun v30 v68 k0_hw77 => k0_hw77
def k0_off88 (k0_t5 : Fin k0_t5_loop.trips) : Fin 1 → Nat :=
  let c1875_i32_55 : BitVec 32 := 1875#32
  let c0_i32_37 : BitVec 32 := 0#32
  let c1_i32_39 : BitVec 32 := 1#32
  let arg11 : BitVec 32 := Scf.iv c0_i32_37 c1_i32_39 k0_t5
  let c25_i32_54 : BitVec 32 := 25#32
  let v69 : BitVec 32 := Scalar.muli arg11 c25_i32_54
  let v70 : BitVec 32 := Scalar.addi c1875_i32_55 v69
  let c2_i32_56 : BitVec 32 := 2#32
  let v71 : BitVec 32 := Scalar.addi v70 c2_i32_56
  let c16_i32_57 : BitVec 32 := 16#32
  let v72 : BitVec 32 := Scalar.muli v71 c16_i32_57
  let v73 : Index := Scalar.indexCast v72
  ![v73.toNat]

def k0_chk78 (v30 : IVec S16 32) (v74 : IVec S16 32) : Prop :=
  (∀ a x, ((![v74, v30] : Fin 2 → IVec S16 32) a x).toNat < S64x128.size a)
instance k0_chk78.dec : ∀ (v30 : IVec S16 32) (v74 : IVec S16 32), Decidable (k0_chk78 v30 v74) := fun v30 v74 => decidable_of_iff' _ (Iff.of_eq (k0_chk78.eq_1 v30 v74))
theorem k0_idx78_inb : ∀ (v30 : IVec S16 32) (v74 : IVec S16 32) (k0_hw78 : k0_chk78 v30 v74), ∀ a x, ((![v74, v30] : Fin 2 → IVec S16 32) a x).toNat < S64x128.size a := fun v30 v74 k0_hw78 => k0_hw78
def k0_off89 (k0_t5 : Fin k0_t5_loop.trips) : Fin 1 → Nat :=
  let c1875_i32_59 : BitVec 32 := 1875#32
  let c0_i32_37 : BitVec 32 := 0#32
  let c1_i32_39 : BitVec 32 := 1#32
  let arg11 : BitVec 32 := Scf.iv c0_i32_37 c1_i32_39 k0_t5
  let c25_i32_58 : BitVec 32 := 25#32
  let v75 : BitVec 32 := Scalar.muli arg11 c25_i32_58
  let v76 : BitVec 32 := Scalar.addi c1875_i32_59 v75
  let c3_i32 : BitVec 32 := 3#32
  let v77 : BitVec 32 := Scalar.addi v76 c3_i32
  let c16_i32_60 : BitVec 32 := 16#32
  let v78 : BitVec 32 := Scalar.muli v77 c16_i32_60
  let v79 : Index := Scalar.indexCast v78
  ![v79.toNat]

def k0_chk79 (v30 : IVec S16 32) (v80 : IVec S16 32) : Prop :=
  (∀ a x, ((![v80, v30] : Fin 2 → IVec S16 32) a x).toNat < S64x128.size a)
instance k0_chk79.dec : ∀ (v30 : IVec S16 32) (v80 : IVec S16 32), Decidable (k0_chk79 v30 v80) := fun v30 v80 => decidable_of_iff' _ (Iff.of_eq (k0_chk79.eq_1 v30 v80))
theorem k0_idx79_inb : ∀ (v30 : IVec S16 32) (v80 : IVec S16 32) (k0_hw79 : k0_chk79 v30 v80), ∀ a x, ((![v80, v30] : Fin 2 → IVec S16 32) a x).toNat < S64x128.size a := fun v30 v80 k0_hw79 => k0_hw79
def k0_off90 (k0_t5 : Fin k0_t5_loop.trips) : Fin 1 → Nat :=
  let c1875_i32_62 : BitVec 32 := 1875#32
  let c0_i32_37 : BitVec 32 := 0#32
  let c1_i32_39 : BitVec 32 := 1#32
  let arg11 : BitVec 32 := Scf.iv c0_i32_37 c1_i32_39 k0_t5
  let c25_i32_61 : BitVec 32 := 25#32
  let v81 : BitVec 32 := Scalar.muli arg11 c25_i32_61
  let v82 : BitVec 32 := Scalar.addi c1875_i32_62 v81
  let c4_i32 : BitVec 32 := 4#32
  let v83 : BitVec 32 := Scalar.addi v82 c4_i32
  let c16_i32_63 : BitVec 32 := 16#32
  let v84 : BitVec 32 := Scalar.muli v83 c16_i32_63
  let v85 : Index := Scalar.indexCast v84
  ![v85.toNat]

def k0_chk80 (v30 : IVec S16 32) (v86 : IVec S16 32) : Prop :=
  (∀ a x, ((![v86, v30] : Fin 2 → IVec S16 32) a x).toNat < S64x128.size a)
instance k0_chk80.dec : ∀ (v30 : IVec S16 32) (v86 : IVec S16 32), Decidable (k0_chk80 v30 v86) := fun v30 v86 => decidable_of_iff' _ (Iff.of_eq (k0_chk80.eq_1 v30 v86))
theorem k0_idx80_inb : ∀ (v30 : IVec S16 32) (v86 : IVec S16 32) (k0_hw80 : k0_chk80 v30 v86), ∀ a x, ((![v86, v30] : Fin 2 → IVec S16 32) a x).toNat < S64x128.size a := fun v30 v86 k0_hw80 => k0_hw80
def k0_off91 (k0_t5 : Fin k0_t5_loop.trips) : Fin 1 → Nat :=
  let c1875_i32_65 : BitVec 32 := 1875#32
  let c0_i32_37 : BitVec 32 := 0#32
  let c1_i32_39 : BitVec 32 := 1#32
  let arg11 : BitVec 32 := Scf.iv c0_i32_37 c1_i32_39 k0_t5
  let c25_i32_64 : BitVec 32 := 25#32
  let v87 : BitVec 32 := Scalar.muli arg11 c25_i32_64
  let v88 : BitVec 32 := Scalar.addi c1875_i32_65 v87
  let c5_i32 : BitVec 32 := 5#32
  let v89 : BitVec 32 := Scalar.addi v88 c5_i32
  let c16_i32_66 : BitVec 32 := 16#32
  let v90 : BitVec 32 := Scalar.muli v89 c16_i32_66
  let v91 : Index := Scalar.indexCast v90
  ![v91.toNat]

def k0_chk81 (v30 : IVec S16 32) (v92 : IVec S16 32) : Prop :=
  (∀ a x, ((![v92, v30] : Fin 2 → IVec S16 32) a x).toNat < S64x128.size a)
instance k0_chk81.dec : ∀ (v30 : IVec S16 32) (v92 : IVec S16 32), Decidable (k0_chk81 v30 v92) := fun v30 v92 => decidable_of_iff' _ (Iff.of_eq (k0_chk81.eq_1 v30 v92))
theorem k0_idx81_inb : ∀ (v30 : IVec S16 32) (v92 : IVec S16 32) (k0_hw81 : k0_chk81 v30 v92), ∀ a x, ((![v92, v30] : Fin 2 → IVec S16 32) a x).toNat < S64x128.size a := fun v30 v92 k0_hw81 => k0_hw81
def k0_off92 (k0_t5 : Fin k0_t5_loop.trips) : Fin 1 → Nat :=
  let c1875_i32_68 : BitVec 32 := 1875#32
  let c0_i32_37 : BitVec 32 := 0#32
  let c1_i32_39 : BitVec 32 := 1#32
  let arg11 : BitVec 32 := Scf.iv c0_i32_37 c1_i32_39 k0_t5
  let c25_i32_67 : BitVec 32 := 25#32
  let v93 : BitVec 32 := Scalar.muli arg11 c25_i32_67
  let v94 : BitVec 32 := Scalar.addi c1875_i32_68 v93
  let c6_i32 : BitVec 32 := 6#32
  let v95 : BitVec 32 := Scalar.addi v94 c6_i32
  let c16_i32_69 : BitVec 32 := 16#32
  let v96 : BitVec 32 := Scalar.muli v95 c16_i32_69
  let v97 : Index := Scalar.indexCast v96
  ![v97.toNat]

def k0_chk82 (v30 : IVec S16 32) (v98 : IVec S16 32) : Prop :=
  (∀ a x, ((![v98, v30] : Fin 2 → IVec S16 32) a x).toNat < S64x128.size a)
instance k0_chk82.dec : ∀ (v30 : IVec S16 32) (v98 : IVec S16 32), Decidable (k0_chk82 v30 v98) := fun v30 v98 => decidable_of_iff' _ (Iff.of_eq (k0_chk82.eq_1 v30 v98))
theorem k0_idx82_inb : ∀ (v30 : IVec S16 32) (v98 : IVec S16 32) (k0_hw82 : k0_chk82 v30 v98), ∀ a x, ((![v98, v30] : Fin 2 → IVec S16 32) a x).toNat < S64x128.size a := fun v30 v98 k0_hw82 => k0_hw82
def k0_off93 (k0_t5 : Fin k0_t5_loop.trips) : Fin 1 → Nat :=
  let c1875_i32_71 : BitVec 32 := 1875#32
  let c0_i32_37 : BitVec 32 := 0#32
  let c1_i32_39 : BitVec 32 := 1#32
  let arg11 : BitVec 32 := Scf.iv c0_i32_37 c1_i32_39 k0_t5
  let c25_i32_70 : BitVec 32 := 25#32
  let v99 : BitVec 32 := Scalar.muli arg11 c25_i32_70
  let v100 : BitVec 32 := Scalar.addi c1875_i32_71 v99
  let c7_i32 : BitVec 32 := 7#32
  let v101 : BitVec 32 := Scalar.addi v100 c7_i32
  let c16_i32_72 : BitVec 32 := 16#32
  let v102 : BitVec 32 := Scalar.muli v101 c16_i32_72
  let v103 : Index := Scalar.indexCast v102
  ![v103.toNat]

def k0_chk83 (v30 : IVec S16 32) (v104 : IVec S16 32) : Prop :=
  (∀ a x, ((![v104, v30] : Fin 2 → IVec S16 32) a x).toNat < S64x128.size a)
instance k0_chk83.dec : ∀ (v30 : IVec S16 32) (v104 : IVec S16 32), Decidable (k0_chk83 v30 v104) := fun v30 v104 => decidable_of_iff' _ (Iff.of_eq (k0_chk83.eq_1 v30 v104))
theorem k0_idx83_inb : ∀ (v30 : IVec S16 32) (v104 : IVec S16 32) (k0_hw83 : k0_chk83 v30 v104), ∀ a x, ((![v104, v30] : Fin 2 → IVec S16 32) a x).toNat < S64x128.size a := fun v30 v104 k0_hw83 => k0_hw83
def k0_off94 (k0_t5 : Fin k0_t5_loop.trips) : Fin 1 → Nat :=
  let c1875_i32_74 : BitVec 32 := 1875#32
  let c0_i32_37 : BitVec 32 := 0#32
  let c1_i32_39 : BitVec 32 := 1#32
  let arg11 : BitVec 32 := Scf.iv c0_i32_37 c1_i32_39 k0_t5
  let c25_i32_73 : BitVec 32 := 25#32
  let v105 : BitVec 32 := Scalar.muli arg11 c25_i32_73
  let v106 : BitVec 32 := Scalar.addi c1875_i32_74 v105
  let c8_i32 : BitVec 32 := 8#32
  let v107 : BitVec 32 := Scalar.addi v106 c8_i32
  let c16_i32_75 : BitVec 32 := 16#32
  let v108 : BitVec 32 := Scalar.muli v107 c16_i32_75
  let v109 : Index := Scalar.indexCast v108
  ![v109.toNat]

def k0_chk84 (v30 : IVec S16 32) (v110 : IVec S16 32) : Prop :=
  (∀ a x, ((![v110, v30] : Fin 2 → IVec S16 32) a x).toNat < S64x128.size a)
instance k0_chk84.dec : ∀ (v30 : IVec S16 32) (v110 : IVec S16 32), Decidable (k0_chk84 v30 v110) := fun v30 v110 => decidable_of_iff' _ (Iff.of_eq (k0_chk84.eq_1 v30 v110))
theorem k0_idx84_inb : ∀ (v30 : IVec S16 32) (v110 : IVec S16 32) (k0_hw84 : k0_chk84 v30 v110), ∀ a x, ((![v110, v30] : Fin 2 → IVec S16 32) a x).toNat < S64x128.size a := fun v30 v110 k0_hw84 => k0_hw84
def k0_off95 (k0_t5 : Fin k0_t5_loop.trips) : Fin 1 → Nat :=
  let c1875_i32_77 : BitVec 32 := 1875#32
  let c0_i32_37 : BitVec 32 := 0#32
  let c1_i32_39 : BitVec 32 := 1#32
  let arg11 : BitVec 32 := Scf.iv c0_i32_37 c1_i32_39 k0_t5
  let c25_i32_76 : BitVec 32 := 25#32
  let v111 : BitVec 32 := Scalar.muli arg11 c25_i32_76
  let v112 : BitVec 32 := Scalar.addi c1875_i32_77 v111
  let c9_i32 : BitVec 32 := 9#32
  let v113 : BitVec 32 := Scalar.addi v112 c9_i32
  let c16_i32_78 : BitVec 32 := 16#32
  let v114 : BitVec 32 := Scalar.muli v113 c16_i32_78
  let v115 : Index := Scalar.indexCast v114
  ![v115.toNat]

def k0_chk85 (v30 : IVec S16 32) (v116 : IVec S16 32) : Prop :=
  (∀ a x, ((![v116, v30] : Fin 2 → IVec S16 32) a x).toNat < S64x128.size a)
instance k0_chk85.dec : ∀ (v30 : IVec S16 32) (v116 : IVec S16 32), Decidable (k0_chk85 v30 v116) := fun v30 v116 => decidable_of_iff' _ (Iff.of_eq (k0_chk85.eq_1 v30 v116))
theorem k0_idx85_inb : ∀ (v30 : IVec S16 32) (v116 : IVec S16 32) (k0_hw85 : k0_chk85 v30 v116), ∀ a x, ((![v116, v30] : Fin 2 → IVec S16 32) a x).toNat < S64x128.size a := fun v30 v116 k0_hw85 => k0_hw85
def k0_off96 (k0_t5 : Fin k0_t5_loop.trips) : Fin 1 → Nat :=
  let c1875_i32_80 : BitVec 32 := 1875#32
  let c0_i32_37 : BitVec 32 := 0#32
  let c1_i32_39 : BitVec 32 := 1#32
  let arg11 : BitVec 32 := Scf.iv c0_i32_37 c1_i32_39 k0_t5
  let c25_i32_79 : BitVec 32 := 25#32
  let v117 : BitVec 32 := Scalar.muli arg11 c25_i32_79
  let v118 : BitVec 32 := Scalar.addi c1875_i32_80 v117
  let c10_i32 : BitVec 32 := 10#32
  let v119 : BitVec 32 := Scalar.addi v118 c10_i32
  let c16_i32_81 : BitVec 32 := 16#32
  let v120 : BitVec 32 := Scalar.muli v119 c16_i32_81
  let v121 : Index := Scalar.indexCast v120
  ![v121.toNat]

def k0_chk86 (v30 : IVec S16 32) (v122 : IVec S16 32) : Prop :=
  (∀ a x, ((![v122, v30] : Fin 2 → IVec S16 32) a x).toNat < S64x128.size a)
instance k0_chk86.dec : ∀ (v30 : IVec S16 32) (v122 : IVec S16 32), Decidable (k0_chk86 v30 v122) := fun v30 v122 => decidable_of_iff' _ (Iff.of_eq (k0_chk86.eq_1 v30 v122))
theorem k0_idx86_inb : ∀ (v30 : IVec S16 32) (v122 : IVec S16 32) (k0_hw86 : k0_chk86 v30 v122), ∀ a x, ((![v122, v30] : Fin 2 → IVec S16 32) a x).toNat < S64x128.size a := fun v30 v122 k0_hw86 => k0_hw86
def k0_off97 (k0_t5 : Fin k0_t5_loop.trips) : Fin 1 → Nat :=
  let c1875_i32_83 : BitVec 32 := 1875#32
  let c0_i32_37 : BitVec 32 := 0#32
  let c1_i32_39 : BitVec 32 := 1#32
  let arg11 : BitVec 32 := Scf.iv c0_i32_37 c1_i32_39 k0_t5
  let c25_i32_82 : BitVec 32 := 25#32
  let v123 : BitVec 32 := Scalar.muli arg11 c25_i32_82
  let v124 : BitVec 32 := Scalar.addi c1875_i32_83 v123
  let c11_i32 : BitVec 32 := 11#32
  let v125 : BitVec 32 := Scalar.addi v124 c11_i32
  let c16_i32_84 : BitVec 32 := 16#32
  let v126 : BitVec 32 := Scalar.muli v125 c16_i32_84
  let v127 : Index := Scalar.indexCast v126
  ![v127.toNat]

def k0_chk87 (v30 : IVec S16 32) (v128 : IVec S16 32) : Prop :=
  (∀ a x, ((![v128, v30] : Fin 2 → IVec S16 32) a x).toNat < S64x128.size a)
instance k0_chk87.dec : ∀ (v30 : IVec S16 32) (v128 : IVec S16 32), Decidable (k0_chk87 v30 v128) := fun v30 v128 => decidable_of_iff' _ (Iff.of_eq (k0_chk87.eq_1 v30 v128))
theorem k0_idx87_inb : ∀ (v30 : IVec S16 32) (v128 : IVec S16 32) (k0_hw87 : k0_chk87 v30 v128), ∀ a x, ((![v128, v30] : Fin 2 → IVec S16 32) a x).toNat < S64x128.size a := fun v30 v128 k0_hw87 => k0_hw87
def k0_off98 (k0_t5 : Fin k0_t5_loop.trips) : Fin 1 → Nat :=
  let c1875_i32_86 : BitVec 32 := 1875#32
  let c0_i32_37 : BitVec 32 := 0#32
  let c1_i32_39 : BitVec 32 := 1#32
  let arg11 : BitVec 32 := Scf.iv c0_i32_37 c1_i32_39 k0_t5
  let c25_i32_85 : BitVec 32 := 25#32
  let v129 : BitVec 32 := Scalar.muli arg11 c25_i32_85
  let v130 : BitVec 32 := Scalar.addi c1875_i32_86 v129
  let c12_i32 : BitVec 32 := 12#32
  let v131 : BitVec 32 := Scalar.addi v130 c12_i32
  let c16_i32_87 : BitVec 32 := 16#32
  let v132 : BitVec 32 := Scalar.muli v131 c16_i32_87
  let v133 : Index := Scalar.indexCast v132
  ![v133.toNat]

def k0_chk88 (v30 : IVec S16 32) (v134 : IVec S16 32) : Prop :=
  (∀ a x, ((![v134, v30] : Fin 2 → IVec S16 32) a x).toNat < S64x128.size a)
instance k0_chk88.dec : ∀ (v30 : IVec S16 32) (v134 : IVec S16 32), Decidable (k0_chk88 v30 v134) := fun v30 v134 => decidable_of_iff' _ (Iff.of_eq (k0_chk88.eq_1 v30 v134))
theorem k0_idx88_inb : ∀ (v30 : IVec S16 32) (v134 : IVec S16 32) (k0_hw88 : k0_chk88 v30 v134), ∀ a x, ((![v134, v30] : Fin 2 → IVec S16 32) a x).toNat < S64x128.size a := fun v30 v134 k0_hw88 => k0_hw88
def k0_off99 (k0_t5 : Fin k0_t5_loop.trips) : Fin 1 → Nat :=
  let c1875_i32_89 : BitVec 32 := 1875#32
  let c0_i32_37 : BitVec 32 := 0#32
  let c1_i32_39 : BitVec 32 := 1#32
  let arg11 : BitVec 32 := Scf.iv c0_i32_37 c1_i32_39 k0_t5
  let c25_i32_88 : BitVec 32 := 25#32
  let v135 : BitVec 32 := Scalar.muli arg11 c25_i32_88
  let v136 : BitVec 32 := Scalar.addi c1875_i32_89 v135
  let c13_i32 : BitVec 32 := 13#32
  let v137 : BitVec 32 := Scalar.addi v136 c13_i32
  let c16_i32_90 : BitVec 32 := 16#32
  let v138 : BitVec 32 := Scalar.muli v137 c16_i32_90
  let v139 : Index := Scalar.indexCast v138
  ![v139.toNat]

def k0_chk89 (v30 : IVec S16 32) (v140 : IVec S16 32) : Prop :=
  (∀ a x, ((![v140, v30] : Fin 2 → IVec S16 32) a x).toNat < S64x128.size a)
instance k0_chk89.dec : ∀ (v30 : IVec S16 32) (v140 : IVec S16 32), Decidable (k0_chk89 v30 v140) := fun v30 v140 => decidable_of_iff' _ (Iff.of_eq (k0_chk89.eq_1 v30 v140))
theorem k0_idx89_inb : ∀ (v30 : IVec S16 32) (v140 : IVec S16 32) (k0_hw89 : k0_chk89 v30 v140), ∀ a x, ((![v140, v30] : Fin 2 → IVec S16 32) a x).toNat < S64x128.size a := fun v30 v140 k0_hw89 => k0_hw89
def k0_off100 (k0_t5 : Fin k0_t5_loop.trips) : Fin 1 → Nat :=
  let c1875_i32_92 : BitVec 32 := 1875#32
  let c0_i32_37 : BitVec 32 := 0#32
  let c1_i32_39 : BitVec 32 := 1#32
  let arg11 : BitVec 32 := Scf.iv c0_i32_37 c1_i32_39 k0_t5
  let c25_i32_91 : BitVec 32 := 25#32
  let v141 : BitVec 32 := Scalar.muli arg11 c25_i32_91
  let v142 : BitVec 32 := Scalar.addi c1875_i32_92 v141
  let c14_i32 : BitVec 32 := 14#32
  let v143 : BitVec 32 := Scalar.addi v142 c14_i32
  let c16_i32_93 : BitVec 32 := 16#32
  let v144 : BitVec 32 := Scalar.muli v143 c16_i32_93
  let v145 : Index := Scalar.indexCast v144
  ![v145.toNat]

def k0_chk90 (v30 : IVec S16 32) (v146 : IVec S16 32) : Prop :=
  (∀ a x, ((![v146, v30] : Fin 2 → IVec S16 32) a x).toNat < S64x128.size a)
instance k0_chk90.dec : ∀ (v30 : IVec S16 32) (v146 : IVec S16 32), Decidable (k0_chk90 v30 v146) := fun v30 v146 => decidable_of_iff' _ (Iff.of_eq (k0_chk90.eq_1 v30 v146))
theorem k0_idx90_inb : ∀ (v30 : IVec S16 32) (v146 : IVec S16 32) (k0_hw90 : k0_chk90 v30 v146), ∀ a x, ((![v146, v30] : Fin 2 → IVec S16 32) a x).toNat < S64x128.size a := fun v30 v146 k0_hw90 => k0_hw90
def k0_off101 (k0_t5 : Fin k0_t5_loop.trips) : Fin 1 → Nat :=
  let c1875_i32_95 : BitVec 32 := 1875#32
  let c0_i32_37 : BitVec 32 := 0#32
  let c1_i32_39 : BitVec 32 := 1#32
  let arg11 : BitVec 32 := Scf.iv c0_i32_37 c1_i32_39 k0_t5
  let c25_i32_94 : BitVec 32 := 25#32
  let v147 : BitVec 32 := Scalar.muli arg11 c25_i32_94
  let v148 : BitVec 32 := Scalar.addi c1875_i32_95 v147
  let c15_i32 : BitVec 32 := 15#32
  let v149 : BitVec 32 := Scalar.addi v148 c15_i32
  let c16_i32_96 : BitVec 32 := 16#32
  let v150 : BitVec 32 := Scalar.muli v149 c16_i32_96
  let v151 : Index := Scalar.indexCast v150
  ![v151.toNat]

def k0_chk91 (v30 : IVec S16 32) (v152 : IVec S16 32) : Prop :=
  (∀ a x, ((![v152, v30] : Fin 2 → IVec S16 32) a x).toNat < S64x128.size a)
instance k0_chk91.dec : ∀ (v30 : IVec S16 32) (v152 : IVec S16 32), Decidable (k0_chk91 v30 v152) := fun v30 v152 => decidable_of_iff' _ (Iff.of_eq (k0_chk91.eq_1 v30 v152))
theorem k0_idx91_inb : ∀ (v30 : IVec S16 32) (v152 : IVec S16 32) (k0_hw91 : k0_chk91 v30 v152), ∀ a x, ((![v152, v30] : Fin 2 → IVec S16 32) a x).toNat < S64x128.size a := fun v30 v152 k0_hw91 => k0_hw91
def k0_off102 (k0_t5 : Fin k0_t5_loop.trips) : Fin 1 → Nat :=
  let c1875_i32_98 : BitVec 32 := 1875#32
  let c0_i32_37 : BitVec 32 := 0#32
  let c1_i32_39 : BitVec 32 := 1#32
  let arg11 : BitVec 32 := Scf.iv c0_i32_37 c1_i32_39 k0_t5
  let c25_i32_97 : BitVec 32 := 25#32
  let v153 : BitVec 32 := Scalar.muli arg11 c25_i32_97
  let v154 : BitVec 32 := Scalar.addi c1875_i32_98 v153
  let c16_i32_99 : BitVec 32 := 16#32
  let v155 : BitVec 32 := Scalar.addi v154 c16_i32_99
  let c16_i32_100 : BitVec 32 := 16#32
  let v156 : BitVec 32 := Scalar.muli v155 c16_i32_100
  let v157 : Index := Scalar.indexCast v156
  ![v157.toNat]

def k0_chk92 (v30 : IVec S16 32) (v158 : IVec S16 32) : Prop :=
  (∀ a x, ((![v158, v30] : Fin 2 → IVec S16 32) a x).toNat < S64x128.size a)
instance k0_chk92.dec : ∀ (v30 : IVec S16 32) (v158 : IVec S16 32), Decidable (k0_chk92 v30 v158) := fun v30 v158 => decidable_of_iff' _ (Iff.of_eq (k0_chk92.eq_1 v30 v158))
theorem k0_idx92_inb : ∀ (v30 : IVec S16 32) (v158 : IVec S16 32) (k0_hw92 : k0_chk92 v30 v158), ∀ a x, ((![v158, v30] : Fin 2 → IVec S16 32) a x).toNat < S64x128.size a := fun v30 v158 k0_hw92 => k0_hw92
def k0_off103 (k0_t5 : Fin k0_t5_loop.trips) : Fin 1 → Nat :=
  let c1875_i32_102 : BitVec 32 := 1875#32
  let c0_i32_37 : BitVec 32 := 0#32
  let c1_i32_39 : BitVec 32 := 1#32
  let arg11 : BitVec 32 := Scf.iv c0_i32_37 c1_i32_39 k0_t5
  let c25_i32_101 : BitVec 32 := 25#32
  let v159 : BitVec 32 := Scalar.muli arg11 c25_i32_101
  let v160 : BitVec 32 := Scalar.addi c1875_i32_102 v159
  let c17_i32 : BitVec 32 := 17#32
  let v161 : BitVec 32 := Scalar.addi v160 c17_i32
  let c16_i32_103 : BitVec 32 := 16#32
  let v162 : BitVec 32 := Scalar.muli v161 c16_i32_103
  let v163 : Index := Scalar.indexCast v162
  ![v163.toNat]

def k0_chk93 (v30 : IVec S16 32) (v164 : IVec S16 32) : Prop :=
  (∀ a x, ((![v164, v30] : Fin 2 → IVec S16 32) a x).toNat < S64x128.size a)
instance k0_chk93.dec : ∀ (v30 : IVec S16 32) (v164 : IVec S16 32), Decidable (k0_chk93 v30 v164) := fun v30 v164 => decidable_of_iff' _ (Iff.of_eq (k0_chk93.eq_1 v30 v164))
theorem k0_idx93_inb : ∀ (v30 : IVec S16 32) (v164 : IVec S16 32) (k0_hw93 : k0_chk93 v30 v164), ∀ a x, ((![v164, v30] : Fin 2 → IVec S16 32) a x).toNat < S64x128.size a := fun v30 v164 k0_hw93 => k0_hw93
def k0_off104 (k0_t5 : Fin k0_t5_loop.trips) : Fin 1 → Nat :=
  let c1875_i32_105 : BitVec 32 := 1875#32
  let c0_i32_37 : BitVec 32 := 0#32
  let c1_i32_39 : BitVec 32 := 1#32
  let arg11 : BitVec 32 := Scf.iv c0_i32_37 c1_i32_39 k0_t5
  let c25_i32_104 : BitVec 32 := 25#32
  let v165 : BitVec 32 := Scalar.muli arg11 c25_i32_104
  let v166 : BitVec 32 := Scalar.addi c1875_i32_105 v165
  let c18_i32 : BitVec 32 := 18#32
  let v167 : BitVec 32 := Scalar.addi v166 c18_i32
  let c16_i32_106 : BitVec 32 := 16#32
  let v168 : BitVec 32 := Scalar.muli v167 c16_i32_106
  let v169 : Index := Scalar.indexCast v168
  ![v169.toNat]

def k0_chk94 (v30 : IVec S16 32) (v170 : IVec S16 32) : Prop :=
  (∀ a x, ((![v170, v30] : Fin 2 → IVec S16 32) a x).toNat < S64x128.size a)
instance k0_chk94.dec : ∀ (v30 : IVec S16 32) (v170 : IVec S16 32), Decidable (k0_chk94 v30 v170) := fun v30 v170 => decidable_of_iff' _ (Iff.of_eq (k0_chk94.eq_1 v30 v170))
theorem k0_idx94_inb : ∀ (v30 : IVec S16 32) (v170 : IVec S16 32) (k0_hw94 : k0_chk94 v30 v170), ∀ a x, ((![v170, v30] : Fin 2 → IVec S16 32) a x).toNat < S64x128.size a := fun v30 v170 k0_hw94 => k0_hw94
def k0_off105 (k0_t5 : Fin k0_t5_loop.trips) : Fin 1 → Nat :=
  let c1875_i32_108 : BitVec 32 := 1875#32
  let c0_i32_37 : BitVec 32 := 0#32
  let c1_i32_39 : BitVec 32 := 1#32
  let arg11 : BitVec 32 := Scf.iv c0_i32_37 c1_i32_39 k0_t5
  let c25_i32_107 : BitVec 32 := 25#32
  let v171 : BitVec 32 := Scalar.muli arg11 c25_i32_107
  let v172 : BitVec 32 := Scalar.addi c1875_i32_108 v171
  let c19_i32 : BitVec 32 := 19#32
  let v173 : BitVec 32 := Scalar.addi v172 c19_i32
  let c16_i32_109 : BitVec 32 := 16#32
  let v174 : BitVec 32 := Scalar.muli v173 c16_i32_109
  let v175 : Index := Scalar.indexCast v174
  ![v175.toNat]

def k0_chk95 (v30 : IVec S16 32) (v176 : IVec S16 32) : Prop :=
  (∀ a x, ((![v176, v30] : Fin 2 → IVec S16 32) a x).toNat < S64x128.size a)
instance k0_chk95.dec : ∀ (v30 : IVec S16 32) (v176 : IVec S16 32), Decidable (k0_chk95 v30 v176) := fun v30 v176 => decidable_of_iff' _ (Iff.of_eq (k0_chk95.eq_1 v30 v176))
theorem k0_idx95_inb : ∀ (v30 : IVec S16 32) (v176 : IVec S16 32) (k0_hw95 : k0_chk95 v30 v176), ∀ a x, ((![v176, v30] : Fin 2 → IVec S16 32) a x).toNat < S64x128.size a := fun v30 v176 k0_hw95 => k0_hw95
def k0_off106 (k0_t5 : Fin k0_t5_loop.trips) : Fin 1 → Nat :=
  let c1875_i32_111 : BitVec 32 := 1875#32
  let c0_i32_37 : BitVec 32 := 0#32
  let c1_i32_39 : BitVec 32 := 1#32
  let arg11 : BitVec 32 := Scf.iv c0_i32_37 c1_i32_39 k0_t5
  let c25_i32_110 : BitVec 32 := 25#32
  let v177 : BitVec 32 := Scalar.muli arg11 c25_i32_110
  let v178 : BitVec 32 := Scalar.addi c1875_i32_111 v177
  let c20_i32 : BitVec 32 := 20#32
  let v179 : BitVec 32 := Scalar.addi v178 c20_i32
  let c16_i32_112 : BitVec 32 := 16#32
  let v180 : BitVec 32 := Scalar.muli v179 c16_i32_112
  let v181 : Index := Scalar.indexCast v180
  ![v181.toNat]

def k0_chk96 (v30 : IVec S16 32) (v182 : IVec S16 32) : Prop :=
  (∀ a x, ((![v182, v30] : Fin 2 → IVec S16 32) a x).toNat < S64x128.size a)
instance k0_chk96.dec : ∀ (v30 : IVec S16 32) (v182 : IVec S16 32), Decidable (k0_chk96 v30 v182) := fun v30 v182 => decidable_of_iff' _ (Iff.of_eq (k0_chk96.eq_1 v30 v182))
theorem k0_idx96_inb : ∀ (v30 : IVec S16 32) (v182 : IVec S16 32) (k0_hw96 : k0_chk96 v30 v182), ∀ a x, ((![v182, v30] : Fin 2 → IVec S16 32) a x).toNat < S64x128.size a := fun v30 v182 k0_hw96 => k0_hw96
def k0_off107 (k0_t5 : Fin k0_t5_loop.trips) : Fin 1 → Nat :=
  let c1875_i32_114 : BitVec 32 := 1875#32
  let c0_i32_37 : BitVec 32 := 0#32
  let c1_i32_39 : BitVec 32 := 1#32
  let arg11 : BitVec 32 := Scf.iv c0_i32_37 c1_i32_39 k0_t5
  let c25_i32_113 : BitVec 32 := 25#32
  let v183 : BitVec 32 := Scalar.muli arg11 c25_i32_113
  let v184 : BitVec 32 := Scalar.addi c1875_i32_114 v183
  let c21_i32 : BitVec 32 := 21#32
  let v185 : BitVec 32 := Scalar.addi v184 c21_i32
  let c16_i32_115 : BitVec 32 := 16#32
  let v186 : BitVec 32 := Scalar.muli v185 c16_i32_115
  let v187 : Index := Scalar.indexCast v186
  ![v187.toNat]

def k0_chk97 (v30 : IVec S16 32) (v188 : IVec S16 32) : Prop :=
  (∀ a x, ((![v188, v30] : Fin 2 → IVec S16 32) a x).toNat < S64x128.size a)
instance k0_chk97.dec : ∀ (v30 : IVec S16 32) (v188 : IVec S16 32), Decidable (k0_chk97 v30 v188) := fun v30 v188 => decidable_of_iff' _ (Iff.of_eq (k0_chk97.eq_1 v30 v188))
theorem k0_idx97_inb : ∀ (v30 : IVec S16 32) (v188 : IVec S16 32) (k0_hw97 : k0_chk97 v30 v188), ∀ a x, ((![v188, v30] : Fin 2 → IVec S16 32) a x).toNat < S64x128.size a := fun v30 v188 k0_hw97 => k0_hw97
def k0_off108 (k0_t5 : Fin k0_t5_loop.trips) : Fin 1 → Nat :=
  let c1875_i32_117 : BitVec 32 := 1875#32
  let c0_i32_37 : BitVec 32 := 0#32
  let c1_i32_39 : BitVec 32 := 1#32
  let arg11 : BitVec 32 := Scf.iv c0_i32_37 c1_i32_39 k0_t5
  let c25_i32_116 : BitVec 32 := 25#32
  let v189 : BitVec 32 := Scalar.muli arg11 c25_i32_116
  let v190 : BitVec 32 := Scalar.addi c1875_i32_117 v189
  let c22_i32 : BitVec 32 := 22#32
  let v191 : BitVec 32 := Scalar.addi v190 c22_i32
  let c16_i32_118 : BitVec 32 := 16#32
  let v192 : BitVec 32 := Scalar.muli v191 c16_i32_118
  let v193 : Index := Scalar.indexCast v192
  ![v193.toNat]

def k0_chk98 (v30 : IVec S16 32) (v194 : IVec S16 32) : Prop :=
  (∀ a x, ((![v194, v30] : Fin 2 → IVec S16 32) a x).toNat < S64x128.size a)
instance k0_chk98.dec : ∀ (v30 : IVec S16 32) (v194 : IVec S16 32), Decidable (k0_chk98 v30 v194) := fun v30 v194 => decidable_of_iff' _ (Iff.of_eq (k0_chk98.eq_1 v30 v194))
theorem k0_idx98_inb : ∀ (v30 : IVec S16 32) (v194 : IVec S16 32) (k0_hw98 : k0_chk98 v30 v194), ∀ a x, ((![v194, v30] : Fin 2 → IVec S16 32) a x).toNat < S64x128.size a := fun v30 v194 k0_hw98 => k0_hw98
def k0_off109 (k0_t5 : Fin k0_t5_loop.trips) : Fin 1 → Nat :=
  let c1875_i32_120 : BitVec 32 := 1875#32
  let c0_i32_37 : BitVec 32 := 0#32
  let c1_i32_39 : BitVec 32 := 1#32
  let arg11 : BitVec 32 := Scf.iv c0_i32_37 c1_i32_39 k0_t5
  let c25_i32_119 : BitVec 32 := 25#32
  let v195 : BitVec 32 := Scalar.muli arg11 c25_i32_119
  let v196 : BitVec 32 := Scalar.addi c1875_i32_120 v195
  let c23_i32 : BitVec 32 := 23#32
  let v197 : BitVec 32 := Scalar.addi v196 c23_i32
  let c16_i32_121 : BitVec 32 := 16#32
  let v198 : BitVec 32 := Scalar.muli v197 c16_i32_121
  let v199 : Index := Scalar.indexCast v198
  ![v199.toNat]

def k0_chk99 (v30 : IVec S16 32) (v200 : IVec S16 32) : Prop :=
  (∀ a x, ((![v200, v30] : Fin 2 → IVec S16 32) a x).toNat < S64x128.size a)
instance k0_chk99.dec : ∀ (v30 : IVec S16 32) (v200 : IVec S16 32), Decidable (k0_chk99 v30 v200) := fun v30 v200 => decidable_of_iff' _ (Iff.of_eq (k0_chk99.eq_1 v30 v200))
theorem k0_idx99_inb : ∀ (v30 : IVec S16 32) (v200 : IVec S16 32) (k0_hw99 : k0_chk99 v30 v200), ∀ a x, ((![v200, v30] : Fin 2 → IVec S16 32) a x).toNat < S64x128.size a := fun v30 v200 k0_hw99 => k0_hw99
def k0_off110 (k0_t5 : Fin k0_t5_loop.trips) : Fin 1 → Nat :=
  let c1875_i32_123 : BitVec 32 := 1875#32
  let c0_i32_37 : BitVec 32 := 0#32
  let c1_i32_39 : BitVec 32 := 1#32
  let arg11 : BitVec 32 := Scf.iv c0_i32_37 c1_i32_39 k0_t5
  let c25_i32_122 : BitVec 32 := 25#32
  let v201 : BitVec 32 := Scalar.muli arg11 c25_i32_122
  let v202 : BitVec 32 := Scalar.addi c1875_i32_123 v201
  let c24_i32 : BitVec 32 := 24#32
  let v203 : BitVec 32 := Scalar.addi v202 c24_i32
  let c16_i32_124 : BitVec 32 := 16#32
  let v204 : BitVec 32 := Scalar.muli v203 c16_i32_124
  let v205 : Index := Scalar.indexCast v204
  ![v205.toNat]

def k0_chk100 (v30 : IVec S16 32) (v206 : IVec S16 32) : Prop :=
  (∀ a x, ((![v206, v30] : Fin 2 → IVec S16 32) a x).toNat < S64x128.size a)
instance k0_chk100.dec : ∀ (v30 : IVec S16 32) (v206 : IVec S16 32), Decidable (k0_chk100 v30 v206) := fun v30 v206 => decidable_of_iff' _ (Iff.of_eq (k0_chk100.eq_1 v30 v206))
theorem k0_idx100_inb : ∀ (v30 : IVec S16 32) (v206 : IVec S16 32) (k0_hw100 : k0_chk100 v30 v206), ∀ a x, ((![v206, v30] : Fin 2 → IVec S16 32) a x).toNat < S64x128.size a := fun v30 v206 k0_hw100 => k0_hw100
@[reducible] def k0_t6_loop : Scf.Loop 32 :=
  let c0_i32_44 : BitVec 32 := 0#32
  let c25_i32_45 : BitVec 32 := 25#32
  let v56 : BitVec 32 := Scalar.addi c0_i32_44 c25_i32_45
  let c1_i32_46 : BitVec 32 := 1#32
  ⟨c0_i32_44, v56, c1_i32_46⟩
def k0_off111 (k0_t6 : Fin k0_t6_loop.trips) : Fin 1 → Nat :=
  let c2500_i32 : BitVec 32 := 2500#32
  let c0_i32_44 : BitVec 32 := 0#32
  let c1_i32_46 : BitVec 32 := 1#32
  let arg11 : BitVec 32 := Scf.iv c0_i32_44 c1_i32_46 k0_t6
  let c25_i32_48 : BitVec 32 := 25#32
  let v57 : BitVec 32 := Scalar.muli arg11 c25_i32_48
  let v58 : BitVec 32 := Scalar.addi c2500_i32 v57
  let c0_i32_49 : BitVec 32 := 0#32
  let v59 : BitVec 32 := Scalar.addi v58 c0_i32_49
  let c16_i32 : BitVec 32 := 16#32
  let v60 : BitVec 32 := Scalar.muli v59 c16_i32
  let v61 : Index := Scalar.indexCast v60
  ![v61.toNat]

def k0_chk101 (v30 : IVec S16 32) (v62 : IVec S16 32) : Prop :=
  (∀ a x, ((![v62, v30] : Fin 2 → IVec S16 32) a x).toNat < S64x128.size a)
instance k0_chk101.dec : ∀ (v30 : IVec S16 32) (v62 : IVec S16 32), Decidable (k0_chk101 v30 v62) := fun v30 v62 => decidable_of_iff' _ (Iff.of_eq (k0_chk101.eq_1 v30 v62))
theorem k0_idx101_inb : ∀ (v30 : IVec S16 32) (v62 : IVec S16 32) (k0_hw101 : k0_chk101 v30 v62), ∀ a x, ((![v62, v30] : Fin 2 → IVec S16 32) a x).toNat < S64x128.size a := fun v30 v62 k0_hw101 => k0_hw101
def k0_off112 (k0_t6 : Fin k0_t6_loop.trips) : Fin 1 → Nat :=
  let c2500_i32_51 : BitVec 32 := 2500#32
  let c0_i32_44 : BitVec 32 := 0#32
  let c1_i32_46 : BitVec 32 := 1#32
  let arg11 : BitVec 32 := Scf.iv c0_i32_44 c1_i32_46 k0_t6
  let c25_i32_50 : BitVec 32 := 25#32
  let v63 : BitVec 32 := Scalar.muli arg11 c25_i32_50
  let v64 : BitVec 32 := Scalar.addi c2500_i32_51 v63
  let c1_i32_52 : BitVec 32 := 1#32
  let v65 : BitVec 32 := Scalar.addi v64 c1_i32_52
  let c16_i32_53 : BitVec 32 := 16#32
  let v66 : BitVec 32 := Scalar.muli v65 c16_i32_53
  let v67 : Index := Scalar.indexCast v66
  ![v67.toNat]

def k0_chk102 (v30 : IVec S16 32) (v68 : IVec S16 32) : Prop :=
  (∀ a x, ((![v68, v30] : Fin 2 → IVec S16 32) a x).toNat < S64x128.size a)
instance k0_chk102.dec : ∀ (v30 : IVec S16 32) (v68 : IVec S16 32), Decidable (k0_chk102 v30 v68) := fun v30 v68 => decidable_of_iff' _ (Iff.of_eq (k0_chk102.eq_1 v30 v68))
theorem k0_idx102_inb : ∀ (v30 : IVec S16 32) (v68 : IVec S16 32) (k0_hw102 : k0_chk102 v30 v68), ∀ a x, ((![v68, v30] : Fin 2 → IVec S16 32) a x).toNat < S64x128.size a := fun v30 v68 k0_hw102 => k0_hw102
def k0_off113 (k0_t6 : Fin k0_t6_loop.trips) : Fin 1 → Nat :=
  let c2500_i32_55 : BitVec 32 := 2500#32
  let c0_i32_44 : BitVec 32 := 0#32
  let c1_i32_46 : BitVec 32 := 1#32
  let arg11 : BitVec 32 := Scf.iv c0_i32_44 c1_i32_46 k0_t6
  let c25_i32_54 : BitVec 32 := 25#32
  let v69 : BitVec 32 := Scalar.muli arg11 c25_i32_54
  let v70 : BitVec 32 := Scalar.addi c2500_i32_55 v69
  let c2_i32_56 : BitVec 32 := 2#32
  let v71 : BitVec 32 := Scalar.addi v70 c2_i32_56
  let c16_i32_57 : BitVec 32 := 16#32
  let v72 : BitVec 32 := Scalar.muli v71 c16_i32_57
  let v73 : Index := Scalar.indexCast v72
  ![v73.toNat]

def k0_chk103 (v30 : IVec S16 32) (v74 : IVec S16 32) : Prop :=
  (∀ a x, ((![v74, v30] : Fin 2 → IVec S16 32) a x).toNat < S64x128.size a)
instance k0_chk103.dec : ∀ (v30 : IVec S16 32) (v74 : IVec S16 32), Decidable (k0_chk103 v30 v74) := fun v30 v74 => decidable_of_iff' _ (Iff.of_eq (k0_chk103.eq_1 v30 v74))
theorem k0_idx103_inb : ∀ (v30 : IVec S16 32) (v74 : IVec S16 32) (k0_hw103 : k0_chk103 v30 v74), ∀ a x, ((![v74, v30] : Fin 2 → IVec S16 32) a x).toNat < S64x128.size a := fun v30 v74 k0_hw103 => k0_hw103
def k0_off114 (k0_t6 : Fin k0_t6_loop.trips) : Fin 1 → Nat :=
  let c2500_i32_59 : BitVec 32 := 2500#32
  let c0_i32_44 : BitVec 32 := 0#32
  let c1_i32_46 : BitVec 32 := 1#32
  let arg11 : BitVec 32 := Scf.iv c0_i32_44 c1_i32_46 k0_t6
  let c25_i32_58 : BitVec 32 := 25#32
  let v75 : BitVec 32 := Scalar.muli arg11 c25_i32_58
  let v76 : BitVec 32 := Scalar.addi c2500_i32_59 v75
  let c3_i32 : BitVec 32 := 3#32
  let v77 : BitVec 32 := Scalar.addi v76 c3_i32
  let c16_i32_60 : BitVec 32 := 16#32
  let v78 : BitVec 32 := Scalar.muli v77 c16_i32_60
  let v79 : Index := Scalar.indexCast v78
  ![v79.toNat]

def k0_chk104 (v30 : IVec S16 32) (v80 : IVec S16 32) : Prop :=
  (∀ a x, ((![v80, v30] : Fin 2 → IVec S16 32) a x).toNat < S64x128.size a)
instance k0_chk104.dec : ∀ (v30 : IVec S16 32) (v80 : IVec S16 32), Decidable (k0_chk104 v30 v80) := fun v30 v80 => decidable_of_iff' _ (Iff.of_eq (k0_chk104.eq_1 v30 v80))
theorem k0_idx104_inb : ∀ (v30 : IVec S16 32) (v80 : IVec S16 32) (k0_hw104 : k0_chk104 v30 v80), ∀ a x, ((![v80, v30] : Fin 2 → IVec S16 32) a x).toNat < S64x128.size a := fun v30 v80 k0_hw104 => k0_hw104
def k0_off115 (k0_t6 : Fin k0_t6_loop.trips) : Fin 1 → Nat :=
  let c2500_i32_62 : BitVec 32 := 2500#32
  let c0_i32_44 : BitVec 32 := 0#32
  let c1_i32_46 : BitVec 32 := 1#32
  let arg11 : BitVec 32 := Scf.iv c0_i32_44 c1_i32_46 k0_t6
  let c25_i32_61 : BitVec 32 := 25#32
  let v81 : BitVec 32 := Scalar.muli arg11 c25_i32_61
  let v82 : BitVec 32 := Scalar.addi c2500_i32_62 v81
  let c4_i32 : BitVec 32 := 4#32
  let v83 : BitVec 32 := Scalar.addi v82 c4_i32
  let c16_i32_63 : BitVec 32 := 16#32
  let v84 : BitVec 32 := Scalar.muli v83 c16_i32_63
  let v85 : Index := Scalar.indexCast v84
  ![v85.toNat]

def k0_chk105 (v30 : IVec S16 32) (v86 : IVec S16 32) : Prop :=
  (∀ a x, ((![v86, v30] : Fin 2 → IVec S16 32) a x).toNat < S64x128.size a)
instance k0_chk105.dec : ∀ (v30 : IVec S16 32) (v86 : IVec S16 32), Decidable (k0_chk105 v30 v86) := fun v30 v86 => decidable_of_iff' _ (Iff.of_eq (k0_chk105.eq_1 v30 v86))
theorem k0_idx105_inb : ∀ (v30 : IVec S16 32) (v86 : IVec S16 32) (k0_hw105 : k0_chk105 v30 v86), ∀ a x, ((![v86, v30] : Fin 2 → IVec S16 32) a x).toNat < S64x128.size a := fun v30 v86 k0_hw105 => k0_hw105
def k0_off116 (k0_t6 : Fin k0_t6_loop.trips) : Fin 1 → Nat :=
  let c2500_i32_65 : BitVec 32 := 2500#32
  let c0_i32_44 : BitVec 32 := 0#32
  let c1_i32_46 : BitVec 32 := 1#32
  let arg11 : BitVec 32 := Scf.iv c0_i32_44 c1_i32_46 k0_t6
  let c25_i32_64 : BitVec 32 := 25#32
  let v87 : BitVec 32 := Scalar.muli arg11 c25_i32_64
  let v88 : BitVec 32 := Scalar.addi c2500_i32_65 v87
  let c5_i32 : BitVec 32 := 5#32
  let v89 : BitVec 32 := Scalar.addi v88 c5_i32
  let c16_i32_66 : BitVec 32 := 16#32
  let v90 : BitVec 32 := Scalar.muli v89 c16_i32_66
  let v91 : Index := Scalar.indexCast v90
  ![v91.toNat]

def k0_chk106 (v30 : IVec S16 32) (v92 : IVec S16 32) : Prop :=
  (∀ a x, ((![v92, v30] : Fin 2 → IVec S16 32) a x).toNat < S64x128.size a)
instance k0_chk106.dec : ∀ (v30 : IVec S16 32) (v92 : IVec S16 32), Decidable (k0_chk106 v30 v92) := fun v30 v92 => decidable_of_iff' _ (Iff.of_eq (k0_chk106.eq_1 v30 v92))
theorem k0_idx106_inb : ∀ (v30 : IVec S16 32) (v92 : IVec S16 32) (k0_hw106 : k0_chk106 v30 v92), ∀ a x, ((![v92, v30] : Fin 2 → IVec S16 32) a x).toNat < S64x128.size a := fun v30 v92 k0_hw106 => k0_hw106
def k0_off117 (k0_t6 : Fin k0_t6_loop.trips) : Fin 1 → Nat :=
  let c2500_i32_68 : BitVec 32 := 2500#32
  let c0_i32_44 : BitVec 32 := 0#32
  let c1_i32_46 : BitVec 32 := 1#32
  let arg11 : BitVec 32 := Scf.iv c0_i32_44 c1_i32_46 k0_t6
  let c25_i32_67 : BitVec 32 := 25#32
  let v93 : BitVec 32 := Scalar.muli arg11 c25_i32_67
  let v94 : BitVec 32 := Scalar.addi c2500_i32_68 v93
  let c6_i32 : BitVec 32 := 6#32
  let v95 : BitVec 32 := Scalar.addi v94 c6_i32
  let c16_i32_69 : BitVec 32 := 16#32
  let v96 : BitVec 32 := Scalar.muli v95 c16_i32_69
  let v97 : Index := Scalar.indexCast v96
  ![v97.toNat]

def k0_chk107 (v30 : IVec S16 32) (v98 : IVec S16 32) : Prop :=
  (∀ a x, ((![v98, v30] : Fin 2 → IVec S16 32) a x).toNat < S64x128.size a)
instance k0_chk107.dec : ∀ (v30 : IVec S16 32) (v98 : IVec S16 32), Decidable (k0_chk107 v30 v98) := fun v30 v98 => decidable_of_iff' _ (Iff.of_eq (k0_chk107.eq_1 v30 v98))
theorem k0_idx107_inb : ∀ (v30 : IVec S16 32) (v98 : IVec S16 32) (k0_hw107 : k0_chk107 v30 v98), ∀ a x, ((![v98, v30] : Fin 2 → IVec S16 32) a x).toNat < S64x128.size a := fun v30 v98 k0_hw107 => k0_hw107
def k0_off118 (k0_t6 : Fin k0_t6_loop.trips) : Fin 1 → Nat :=
  let c2500_i32_71 : BitVec 32 := 2500#32
  let c0_i32_44 : BitVec 32 := 0#32
  let c1_i32_46 : BitVec 32 := 1#32
  let arg11 : BitVec 32 := Scf.iv c0_i32_44 c1_i32_46 k0_t6
  let c25_i32_70 : BitVec 32 := 25#32
  let v99 : BitVec 32 := Scalar.muli arg11 c25_i32_70
  let v100 : BitVec 32 := Scalar.addi c2500_i32_71 v99
  let c7_i32 : BitVec 32 := 7#32
  let v101 : BitVec 32 := Scalar.addi v100 c7_i32
  let c16_i32_72 : BitVec 32 := 16#32
  let v102 : BitVec 32 := Scalar.muli v101 c16_i32_72
  let v103 : Index := Scalar.indexCast v102
  ![v103.toNat]

def k0_chk108 (v30 : IVec S16 32) (v104 : IVec S16 32) : Prop :=
  (∀ a x, ((![v104, v30] : Fin 2 → IVec S16 32) a x).toNat < S64x128.size a)
instance k0_chk108.dec : ∀ (v30 : IVec S16 32) (v104 : IVec S16 32), Decidable (k0_chk108 v30 v104) := fun v30 v104 => decidable_of_iff' _ (Iff.of_eq (k0_chk108.eq_1 v30 v104))
theorem k0_idx108_inb : ∀ (v30 : IVec S16 32) (v104 : IVec S16 32) (k0_hw108 : k0_chk108 v30 v104), ∀ a x, ((![v104, v30] : Fin 2 → IVec S16 32) a x).toNat < S64x128.size a := fun v30 v104 k0_hw108 => k0_hw108
def k0_off119 (k0_t6 : Fin k0_t6_loop.trips) : Fin 1 → Nat :=
  let c2500_i32_74 : BitVec 32 := 2500#32
  let c0_i32_44 : BitVec 32 := 0#32
  let c1_i32_46 : BitVec 32 := 1#32
  let arg11 : BitVec 32 := Scf.iv c0_i32_44 c1_i32_46 k0_t6
  let c25_i32_73 : BitVec 32 := 25#32
  let v105 : BitVec 32 := Scalar.muli arg11 c25_i32_73
  let v106 : BitVec 32 := Scalar.addi c2500_i32_74 v105
  let c8_i32 : BitVec 32 := 8#32
  let v107 : BitVec 32 := Scalar.addi v106 c8_i32
  let c16_i32_75 : BitVec 32 := 16#32
  let v108 : BitVec 32 := Scalar.muli v107 c16_i32_75
  let v109 : Index := Scalar.indexCast v108
  ![v109.toNat]

def k0_chk109 (v30 : IVec S16 32) (v110 : IVec S16 32) : Prop :=
  (∀ a x, ((![v110, v30] : Fin 2 → IVec S16 32) a x).toNat < S64x128.size a)
instance k0_chk109.dec : ∀ (v30 : IVec S16 32) (v110 : IVec S16 32), Decidable (k0_chk109 v30 v110) := fun v30 v110 => decidable_of_iff' _ (Iff.of_eq (k0_chk109.eq_1 v30 v110))
theorem k0_idx109_inb : ∀ (v30 : IVec S16 32) (v110 : IVec S16 32) (k0_hw109 : k0_chk109 v30 v110), ∀ a x, ((![v110, v30] : Fin 2 → IVec S16 32) a x).toNat < S64x128.size a := fun v30 v110 k0_hw109 => k0_hw109
def k0_off120 (k0_t6 : Fin k0_t6_loop.trips) : Fin 1 → Nat :=
  let c2500_i32_77 : BitVec 32 := 2500#32
  let c0_i32_44 : BitVec 32 := 0#32
  let c1_i32_46 : BitVec 32 := 1#32
  let arg11 : BitVec 32 := Scf.iv c0_i32_44 c1_i32_46 k0_t6
  let c25_i32_76 : BitVec 32 := 25#32
  let v111 : BitVec 32 := Scalar.muli arg11 c25_i32_76
  let v112 : BitVec 32 := Scalar.addi c2500_i32_77 v111
  let c9_i32 : BitVec 32 := 9#32
  let v113 : BitVec 32 := Scalar.addi v112 c9_i32
  let c16_i32_78 : BitVec 32 := 16#32
  let v114 : BitVec 32 := Scalar.muli v113 c16_i32_78
  let v115 : Index := Scalar.indexCast v114
  ![v115.toNat]

def k0_chk110 (v30 : IVec S16 32) (v116 : IVec S16 32) : Prop :=
  (∀ a x, ((![v116, v30] : Fin 2 → IVec S16 32) a x).toNat < S64x128.size a)
instance k0_chk110.dec : ∀ (v30 : IVec S16 32) (v116 : IVec S16 32), Decidable (k0_chk110 v30 v116) := fun v30 v116 => decidable_of_iff' _ (Iff.of_eq (k0_chk110.eq_1 v30 v116))
theorem k0_idx110_inb : ∀ (v30 : IVec S16 32) (v116 : IVec S16 32) (k0_hw110 : k0_chk110 v30 v116), ∀ a x, ((![v116, v30] : Fin 2 → IVec S16 32) a x).toNat < S64x128.size a := fun v30 v116 k0_hw110 => k0_hw110
def k0_off121 (k0_t6 : Fin k0_t6_loop.trips) : Fin 1 → Nat :=
  let c2500_i32_80 : BitVec 32 := 2500#32
  let c0_i32_44 : BitVec 32 := 0#32
  let c1_i32_46 : BitVec 32 := 1#32
  let arg11 : BitVec 32 := Scf.iv c0_i32_44 c1_i32_46 k0_t6
  let c25_i32_79 : BitVec 32 := 25#32
  let v117 : BitVec 32 := Scalar.muli arg11 c25_i32_79
  let v118 : BitVec 32 := Scalar.addi c2500_i32_80 v117
  let c10_i32 : BitVec 32 := 10#32
  let v119 : BitVec 32 := Scalar.addi v118 c10_i32
  let c16_i32_81 : BitVec 32 := 16#32
  let v120 : BitVec 32 := Scalar.muli v119 c16_i32_81
  let v121 : Index := Scalar.indexCast v120
  ![v121.toNat]

def k0_chk111 (v30 : IVec S16 32) (v122 : IVec S16 32) : Prop :=
  (∀ a x, ((![v122, v30] : Fin 2 → IVec S16 32) a x).toNat < S64x128.size a)
instance k0_chk111.dec : ∀ (v30 : IVec S16 32) (v122 : IVec S16 32), Decidable (k0_chk111 v30 v122) := fun v30 v122 => decidable_of_iff' _ (Iff.of_eq (k0_chk111.eq_1 v30 v122))
theorem k0_idx111_inb : ∀ (v30 : IVec S16 32) (v122 : IVec S16 32) (k0_hw111 : k0_chk111 v30 v122), ∀ a x, ((![v122, v30] : Fin 2 → IVec S16 32) a x).toNat < S64x128.size a := fun v30 v122 k0_hw111 => k0_hw111
def k0_off122 (k0_t6 : Fin k0_t6_loop.trips) : Fin 1 → Nat :=
  let c2500_i32_83 : BitVec 32 := 2500#32
  let c0_i32_44 : BitVec 32 := 0#32
  let c1_i32_46 : BitVec 32 := 1#32
  let arg11 : BitVec 32 := Scf.iv c0_i32_44 c1_i32_46 k0_t6
  let c25_i32_82 : BitVec 32 := 25#32
  let v123 : BitVec 32 := Scalar.muli arg11 c25_i32_82
  let v124 : BitVec 32 := Scalar.addi c2500_i32_83 v123
  let c11_i32 : BitVec 32 := 11#32
  let v125 : BitVec 32 := Scalar.addi v124 c11_i32
  let c16_i32_84 : BitVec 32 := 16#32
  let v126 : BitVec 32 := Scalar.muli v125 c16_i32_84
  let v127 : Index := Scalar.indexCast v126
  ![v127.toNat]

def k0_chk112 (v30 : IVec S16 32) (v128 : IVec S16 32) : Prop :=
  (∀ a x, ((![v128, v30] : Fin 2 → IVec S16 32) a x).toNat < S64x128.size a)
instance k0_chk112.dec : ∀ (v30 : IVec S16 32) (v128 : IVec S16 32), Decidable (k0_chk112 v30 v128) := fun v30 v128 => decidable_of_iff' _ (Iff.of_eq (k0_chk112.eq_1 v30 v128))
theorem k0_idx112_inb : ∀ (v30 : IVec S16 32) (v128 : IVec S16 32) (k0_hw112 : k0_chk112 v30 v128), ∀ a x, ((![v128, v30] : Fin 2 → IVec S16 32) a x).toNat < S64x128.size a := fun v30 v128 k0_hw112 => k0_hw112
def k0_off123 (k0_t6 : Fin k0_t6_loop.trips) : Fin 1 → Nat :=
  let c2500_i32_86 : BitVec 32 := 2500#32
  let c0_i32_44 : BitVec 32 := 0#32
  let c1_i32_46 : BitVec 32 := 1#32
  let arg11 : BitVec 32 := Scf.iv c0_i32_44 c1_i32_46 k0_t6
  let c25_i32_85 : BitVec 32 := 25#32
  let v129 : BitVec 32 := Scalar.muli arg11 c25_i32_85
  let v130 : BitVec 32 := Scalar.addi c2500_i32_86 v129
  let c12_i32 : BitVec 32 := 12#32
  let v131 : BitVec 32 := Scalar.addi v130 c12_i32
  let c16_i32_87 : BitVec 32 := 16#32
  let v132 : BitVec 32 := Scalar.muli v131 c16_i32_87
  let v133 : Index := Scalar.indexCast v132
  ![v133.toNat]

def k0_chk113 (v30 : IVec S16 32) (v134 : IVec S16 32) : Prop :=
  (∀ a x, ((![v134, v30] : Fin 2 → IVec S16 32) a x).toNat < S64x128.size a)
instance k0_chk113.dec : ∀ (v30 : IVec S16 32) (v134 : IVec S16 32), Decidable (k0_chk113 v30 v134) := fun v30 v134 => decidable_of_iff' _ (Iff.of_eq (k0_chk113.eq_1 v30 v134))
theorem k0_idx113_inb : ∀ (v30 : IVec S16 32) (v134 : IVec S16 32) (k0_hw113 : k0_chk113 v30 v134), ∀ a x, ((![v134, v30] : Fin 2 → IVec S16 32) a x).toNat < S64x128.size a := fun v30 v134 k0_hw113 => k0_hw113
def k0_off124 (k0_t6 : Fin k0_t6_loop.trips) : Fin 1 → Nat :=
  let c2500_i32_89 : BitVec 32 := 2500#32
  let c0_i32_44 : BitVec 32 := 0#32
  let c1_i32_46 : BitVec 32 := 1#32
  let arg11 : BitVec 32 := Scf.iv c0_i32_44 c1_i32_46 k0_t6
  let c25_i32_88 : BitVec 32 := 25#32
  let v135 : BitVec 32 := Scalar.muli arg11 c25_i32_88
  let v136 : BitVec 32 := Scalar.addi c2500_i32_89 v135
  let c13_i32 : BitVec 32 := 13#32
  let v137 : BitVec 32 := Scalar.addi v136 c13_i32
  let c16_i32_90 : BitVec 32 := 16#32
  let v138 : BitVec 32 := Scalar.muli v137 c16_i32_90
  let v139 : Index := Scalar.indexCast v138
  ![v139.toNat]

def k0_chk114 (v30 : IVec S16 32) (v140 : IVec S16 32) : Prop :=
  (∀ a x, ((![v140, v30] : Fin 2 → IVec S16 32) a x).toNat < S64x128.size a)
instance k0_chk114.dec : ∀ (v30 : IVec S16 32) (v140 : IVec S16 32), Decidable (k0_chk114 v30 v140) := fun v30 v140 => decidable_of_iff' _ (Iff.of_eq (k0_chk114.eq_1 v30 v140))
theorem k0_idx114_inb : ∀ (v30 : IVec S16 32) (v140 : IVec S16 32) (k0_hw114 : k0_chk114 v30 v140), ∀ a x, ((![v140, v30] : Fin 2 → IVec S16 32) a x).toNat < S64x128.size a := fun v30 v140 k0_hw114 => k0_hw114
def k0_off125 (k0_t6 : Fin k0_t6_loop.trips) : Fin 1 → Nat :=
  let c2500_i32_92 : BitVec 32 := 2500#32
  let c0_i32_44 : BitVec 32 := 0#32
  let c1_i32_46 : BitVec 32 := 1#32
  let arg11 : BitVec 32 := Scf.iv c0_i32_44 c1_i32_46 k0_t6
  let c25_i32_91 : BitVec 32 := 25#32
  let v141 : BitVec 32 := Scalar.muli arg11 c25_i32_91
  let v142 : BitVec 32 := Scalar.addi c2500_i32_92 v141
  let c14_i32 : BitVec 32 := 14#32
  let v143 : BitVec 32 := Scalar.addi v142 c14_i32
  let c16_i32_93 : BitVec 32 := 16#32
  let v144 : BitVec 32 := Scalar.muli v143 c16_i32_93
  let v145 : Index := Scalar.indexCast v144
  ![v145.toNat]

def k0_chk115 (v30 : IVec S16 32) (v146 : IVec S16 32) : Prop :=
  (∀ a x, ((![v146, v30] : Fin 2 → IVec S16 32) a x).toNat < S64x128.size a)
instance k0_chk115.dec : ∀ (v30 : IVec S16 32) (v146 : IVec S16 32), Decidable (k0_chk115 v30 v146) := fun v30 v146 => decidable_of_iff' _ (Iff.of_eq (k0_chk115.eq_1 v30 v146))
theorem k0_idx115_inb : ∀ (v30 : IVec S16 32) (v146 : IVec S16 32) (k0_hw115 : k0_chk115 v30 v146), ∀ a x, ((![v146, v30] : Fin 2 → IVec S16 32) a x).toNat < S64x128.size a := fun v30 v146 k0_hw115 => k0_hw115
def k0_off126 (k0_t6 : Fin k0_t6_loop.trips) : Fin 1 → Nat :=
  let c2500_i32_95 : BitVec 32 := 2500#32
  let c0_i32_44 : BitVec 32 := 0#32
  let c1_i32_46 : BitVec 32 := 1#32
  let arg11 : BitVec 32 := Scf.iv c0_i32_44 c1_i32_46 k0_t6
  let c25_i32_94 : BitVec 32 := 25#32
  let v147 : BitVec 32 := Scalar.muli arg11 c25_i32_94
  let v148 : BitVec 32 := Scalar.addi c2500_i32_95 v147
  let c15_i32 : BitVec 32 := 15#32
  let v149 : BitVec 32 := Scalar.addi v148 c15_i32
  let c16_i32_96 : BitVec 32 := 16#32
  let v150 : BitVec 32 := Scalar.muli v149 c16_i32_96
  let v151 : Index := Scalar.indexCast v150
  ![v151.toNat]

def k0_chk116 (v30 : IVec S16 32) (v152 : IVec S16 32) : Prop :=
  (∀ a x, ((![v152, v30] : Fin 2 → IVec S16 32) a x).toNat < S64x128.size a)
instance k0_chk116.dec : ∀ (v30 : IVec S16 32) (v152 : IVec S16 32), Decidable (k0_chk116 v30 v152) := fun v30 v152 => decidable_of_iff' _ (Iff.of_eq (k0_chk116.eq_1 v30 v152))
theorem k0_idx116_inb : ∀ (v30 : IVec S16 32) (v152 : IVec S16 32) (k0_hw116 : k0_chk116 v30 v152), ∀ a x, ((![v152, v30] : Fin 2 → IVec S16 32) a x).toNat < S64x128.size a := fun v30 v152 k0_hw116 => k0_hw116
def k0_off127 (k0_t6 : Fin k0_t6_loop.trips) : Fin 1 → Nat :=
  let c2500_i32_98 : BitVec 32 := 2500#32
  let c0_i32_44 : BitVec 32 := 0#32
  let c1_i32_46 : BitVec 32 := 1#32
  let arg11 : BitVec 32 := Scf.iv c0_i32_44 c1_i32_46 k0_t6
  let c25_i32_97 : BitVec 32 := 25#32
  let v153 : BitVec 32 := Scalar.muli arg11 c25_i32_97
  let v154 : BitVec 32 := Scalar.addi c2500_i32_98 v153
  let c16_i32_99 : BitVec 32 := 16#32
  let v155 : BitVec 32 := Scalar.addi v154 c16_i32_99
  let c16_i32_100 : BitVec 32 := 16#32
  let v156 : BitVec 32 := Scalar.muli v155 c16_i32_100
  let v157 : Index := Scalar.indexCast v156
  ![v157.toNat]

def k0_chk117 (v30 : IVec S16 32) (v158 : IVec S16 32) : Prop :=
  (∀ a x, ((![v158, v30] : Fin 2 → IVec S16 32) a x).toNat < S64x128.size a)
instance k0_chk117.dec : ∀ (v30 : IVec S16 32) (v158 : IVec S16 32), Decidable (k0_chk117 v30 v158) := fun v30 v158 => decidable_of_iff' _ (Iff.of_eq (k0_chk117.eq_1 v30 v158))
theorem k0_idx117_inb : ∀ (v30 : IVec S16 32) (v158 : IVec S16 32) (k0_hw117 : k0_chk117 v30 v158), ∀ a x, ((![v158, v30] : Fin 2 → IVec S16 32) a x).toNat < S64x128.size a := fun v30 v158 k0_hw117 => k0_hw117
def k0_off128 (k0_t6 : Fin k0_t6_loop.trips) : Fin 1 → Nat :=
  let c2500_i32_102 : BitVec 32 := 2500#32
  let c0_i32_44 : BitVec 32 := 0#32
  let c1_i32_46 : BitVec 32 := 1#32
  let arg11 : BitVec 32 := Scf.iv c0_i32_44 c1_i32_46 k0_t6
  let c25_i32_101 : BitVec 32 := 25#32
  let v159 : BitVec 32 := Scalar.muli arg11 c25_i32_101
  let v160 : BitVec 32 := Scalar.addi c2500_i32_102 v159
  let c17_i32 : BitVec 32 := 17#32
  let v161 : BitVec 32 := Scalar.addi v160 c17_i32
  let c16_i32_103 : BitVec 32 := 16#32
  let v162 : BitVec 32 := Scalar.muli v161 c16_i32_103
  let v163 : Index := Scalar.indexCast v162
  ![v163.toNat]

def k0_chk118 (v30 : IVec S16 32) (v164 : IVec S16 32) : Prop :=
  (∀ a x, ((![v164, v30] : Fin 2 → IVec S16 32) a x).toNat < S64x128.size a)
instance k0_chk118.dec : ∀ (v30 : IVec S16 32) (v164 : IVec S16 32), Decidable (k0_chk118 v30 v164) := fun v30 v164 => decidable_of_iff' _ (Iff.of_eq (k0_chk118.eq_1 v30 v164))
theorem k0_idx118_inb : ∀ (v30 : IVec S16 32) (v164 : IVec S16 32) (k0_hw118 : k0_chk118 v30 v164), ∀ a x, ((![v164, v30] : Fin 2 → IVec S16 32) a x).toNat < S64x128.size a := fun v30 v164 k0_hw118 => k0_hw118
def k0_off129 (k0_t6 : Fin k0_t6_loop.trips) : Fin 1 → Nat :=
  let c2500_i32_105 : BitVec 32 := 2500#32
  let c0_i32_44 : BitVec 32 := 0#32
  let c1_i32_46 : BitVec 32 := 1#32
  let arg11 : BitVec 32 := Scf.iv c0_i32_44 c1_i32_46 k0_t6
  let c25_i32_104 : BitVec 32 := 25#32
  let v165 : BitVec 32 := Scalar.muli arg11 c25_i32_104
  let v166 : BitVec 32 := Scalar.addi c2500_i32_105 v165
  let c18_i32 : BitVec 32 := 18#32
  let v167 : BitVec 32 := Scalar.addi v166 c18_i32
  let c16_i32_106 : BitVec 32 := 16#32
  let v168 : BitVec 32 := Scalar.muli v167 c16_i32_106
  let v169 : Index := Scalar.indexCast v168
  ![v169.toNat]

def k0_chk119 (v30 : IVec S16 32) (v170 : IVec S16 32) : Prop :=
  (∀ a x, ((![v170, v30] : Fin 2 → IVec S16 32) a x).toNat < S64x128.size a)
instance k0_chk119.dec : ∀ (v30 : IVec S16 32) (v170 : IVec S16 32), Decidable (k0_chk119 v30 v170) := fun v30 v170 => decidable_of_iff' _ (Iff.of_eq (k0_chk119.eq_1 v30 v170))
theorem k0_idx119_inb : ∀ (v30 : IVec S16 32) (v170 : IVec S16 32) (k0_hw119 : k0_chk119 v30 v170), ∀ a x, ((![v170, v30] : Fin 2 → IVec S16 32) a x).toNat < S64x128.size a := fun v30 v170 k0_hw119 => k0_hw119
def k0_off130 (k0_t6 : Fin k0_t6_loop.trips) : Fin 1 → Nat :=
  let c2500_i32_108 : BitVec 32 := 2500#32
  let c0_i32_44 : BitVec 32 := 0#32
  let c1_i32_46 : BitVec 32 := 1#32
  let arg11 : BitVec 32 := Scf.iv c0_i32_44 c1_i32_46 k0_t6
  let c25_i32_107 : BitVec 32 := 25#32
  let v171 : BitVec 32 := Scalar.muli arg11 c25_i32_107
  let v172 : BitVec 32 := Scalar.addi c2500_i32_108 v171
  let c19_i32 : BitVec 32 := 19#32
  let v173 : BitVec 32 := Scalar.addi v172 c19_i32
  let c16_i32_109 : BitVec 32 := 16#32
  let v174 : BitVec 32 := Scalar.muli v173 c16_i32_109
  let v175 : Index := Scalar.indexCast v174
  ![v175.toNat]

def k0_chk120 (v30 : IVec S16 32) (v176 : IVec S16 32) : Prop :=
  (∀ a x, ((![v176, v30] : Fin 2 → IVec S16 32) a x).toNat < S64x128.size a)
instance k0_chk120.dec : ∀ (v30 : IVec S16 32) (v176 : IVec S16 32), Decidable (k0_chk120 v30 v176) := fun v30 v176 => decidable_of_iff' _ (Iff.of_eq (k0_chk120.eq_1 v30 v176))
theorem k0_idx120_inb : ∀ (v30 : IVec S16 32) (v176 : IVec S16 32) (k0_hw120 : k0_chk120 v30 v176), ∀ a x, ((![v176, v30] : Fin 2 → IVec S16 32) a x).toNat < S64x128.size a := fun v30 v176 k0_hw120 => k0_hw120
def k0_off131 (k0_t6 : Fin k0_t6_loop.trips) : Fin 1 → Nat :=
  let c2500_i32_111 : BitVec 32 := 2500#32
  let c0_i32_44 : BitVec 32 := 0#32
  let c1_i32_46 : BitVec 32 := 1#32
  let arg11 : BitVec 32 := Scf.iv c0_i32_44 c1_i32_46 k0_t6
  let c25_i32_110 : BitVec 32 := 25#32
  let v177 : BitVec 32 := Scalar.muli arg11 c25_i32_110
  let v178 : BitVec 32 := Scalar.addi c2500_i32_111 v177
  let c20_i32 : BitVec 32 := 20#32
  let v179 : BitVec 32 := Scalar.addi v178 c20_i32
  let c16_i32_112 : BitVec 32 := 16#32
  let v180 : BitVec 32 := Scalar.muli v179 c16_i32_112
  let v181 : Index := Scalar.indexCast v180
  ![v181.toNat]

def k0_chk121 (v30 : IVec S16 32) (v182 : IVec S16 32) : Prop :=
  (∀ a x, ((![v182, v30] : Fin 2 → IVec S16 32) a x).toNat < S64x128.size a)
instance k0_chk121.dec : ∀ (v30 : IVec S16 32) (v182 : IVec S16 32), Decidable (k0_chk121 v30 v182) := fun v30 v182 => decidable_of_iff' _ (Iff.of_eq (k0_chk121.eq_1 v30 v182))
theorem k0_idx121_inb : ∀ (v30 : IVec S16 32) (v182 : IVec S16 32) (k0_hw121 : k0_chk121 v30 v182), ∀ a x, ((![v182, v30] : Fin 2 → IVec S16 32) a x).toNat < S64x128.size a := fun v30 v182 k0_hw121 => k0_hw121
def k0_off132 (k0_t6 : Fin k0_t6_loop.trips) : Fin 1 → Nat :=
  let c2500_i32_114 : BitVec 32 := 2500#32
  let c0_i32_44 : BitVec 32 := 0#32
  let c1_i32_46 : BitVec 32 := 1#32
  let arg11 : BitVec 32 := Scf.iv c0_i32_44 c1_i32_46 k0_t6
  let c25_i32_113 : BitVec 32 := 25#32
  let v183 : BitVec 32 := Scalar.muli arg11 c25_i32_113
  let v184 : BitVec 32 := Scalar.addi c2500_i32_114 v183
  let c21_i32 : BitVec 32 := 21#32
  let v185 : BitVec 32 := Scalar.addi v184 c21_i32
  let c16_i32_115 : BitVec 32 := 16#32
  let v186 : BitVec 32 := Scalar.muli v185 c16_i32_115
  let v187 : Index := Scalar.indexCast v186
  ![v187.toNat]

def k0_chk122 (v30 : IVec S16 32) (v188 : IVec S16 32) : Prop :=
  (∀ a x, ((![v188, v30] : Fin 2 → IVec S16 32) a x).toNat < S64x128.size a)
instance k0_chk122.dec : ∀ (v30 : IVec S16 32) (v188 : IVec S16 32), Decidable (k0_chk122 v30 v188) := fun v30 v188 => decidable_of_iff' _ (Iff.of_eq (k0_chk122.eq_1 v30 v188))
theorem k0_idx122_inb : ∀ (v30 : IVec S16 32) (v188 : IVec S16 32) (k0_hw122 : k0_chk122 v30 v188), ∀ a x, ((![v188, v30] : Fin 2 → IVec S16 32) a x).toNat < S64x128.size a := fun v30 v188 k0_hw122 => k0_hw122
def k0_off133 (k0_t6 : Fin k0_t6_loop.trips) : Fin 1 → Nat :=
  let c2500_i32_117 : BitVec 32 := 2500#32
  let c0_i32_44 : BitVec 32 := 0#32
  let c1_i32_46 : BitVec 32 := 1#32
  let arg11 : BitVec 32 := Scf.iv c0_i32_44 c1_i32_46 k0_t6
  let c25_i32_116 : BitVec 32 := 25#32
  let v189 : BitVec 32 := Scalar.muli arg11 c25_i32_116
  let v190 : BitVec 32 := Scalar.addi c2500_i32_117 v189
  let c22_i32 : BitVec 32 := 22#32
  let v191 : BitVec 32 := Scalar.addi v190 c22_i32
  let c16_i32_118 : BitVec 32 := 16#32
  let v192 : BitVec 32 := Scalar.muli v191 c16_i32_118
  let v193 : Index := Scalar.indexCast v192
  ![v193.toNat]

def k0_chk123 (v30 : IVec S16 32) (v194 : IVec S16 32) : Prop :=
  (∀ a x, ((![v194, v30] : Fin 2 → IVec S16 32) a x).toNat < S64x128.size a)
instance k0_chk123.dec : ∀ (v30 : IVec S16 32) (v194 : IVec S16 32), Decidable (k0_chk123 v30 v194) := fun v30 v194 => decidable_of_iff' _ (Iff.of_eq (k0_chk123.eq_1 v30 v194))
theorem k0_idx123_inb : ∀ (v30 : IVec S16 32) (v194 : IVec S16 32) (k0_hw123 : k0_chk123 v30 v194), ∀ a x, ((![v194, v30] : Fin 2 → IVec S16 32) a x).toNat < S64x128.size a := fun v30 v194 k0_hw123 => k0_hw123
def k0_off134 (k0_t6 : Fin k0_t6_loop.trips) : Fin 1 → Nat :=
  let c2500_i32_120 : BitVec 32 := 2500#32
  let c0_i32_44 : BitVec 32 := 0#32
  let c1_i32_46 : BitVec 32 := 1#32
  let arg11 : BitVec 32 := Scf.iv c0_i32_44 c1_i32_46 k0_t6
  let c25_i32_119 : BitVec 32 := 25#32
  let v195 : BitVec 32 := Scalar.muli arg11 c25_i32_119
  let v196 : BitVec 32 := Scalar.addi c2500_i32_120 v195
  let c23_i32 : BitVec 32 := 23#32
  let v197 : BitVec 32 := Scalar.addi v196 c23_i32
  let c16_i32_121 : BitVec 32 := 16#32
  let v198 : BitVec 32 := Scalar.muli v197 c16_i32_121
  let v199 : Index := Scalar.indexCast v198
  ![v199.toNat]

def k0_chk124 (v30 : IVec S16 32) (v200 : IVec S16 32) : Prop :=
  (∀ a x, ((![v200, v30] : Fin 2 → IVec S16 32) a x).toNat < S64x128.size a)
instance k0_chk124.dec : ∀ (v30 : IVec S16 32) (v200 : IVec S16 32), Decidable (k0_chk124 v30 v200) := fun v30 v200 => decidable_of_iff' _ (Iff.of_eq (k0_chk124.eq_1 v30 v200))
theorem k0_idx124_inb : ∀ (v30 : IVec S16 32) (v200 : IVec S16 32) (k0_hw124 : k0_chk124 v30 v200), ∀ a x, ((![v200, v30] : Fin 2 → IVec S16 32) a x).toNat < S64x128.size a := fun v30 v200 k0_hw124 => k0_hw124
def k0_off135 (k0_t6 : Fin k0_t6_loop.trips) : Fin 1 → Nat :=
  let c2500_i32_123 : BitVec 32 := 2500#32
  let c0_i32_44 : BitVec 32 := 0#32
  let c1_i32_46 : BitVec 32 := 1#32
  let arg11 : BitVec 32 := Scf.iv c0_i32_44 c1_i32_46 k0_t6
  let c25_i32_122 : BitVec 32 := 25#32
  let v201 : BitVec 32 := Scalar.muli arg11 c25_i32_122
  let v202 : BitVec 32 := Scalar.addi c2500_i32_123 v201
  let c24_i32 : BitVec 32 := 24#32
  let v203 : BitVec 32 := Scalar.addi v202 c24_i32
  let c16_i32_124 : BitVec 32 := 16#32
  let v204 : BitVec 32 := Scalar.muli v203 c16_i32_124
  let v205 : Index := Scalar.indexCast v204
  ![v205.toNat]

def k0_chk125 (v30 : IVec S16 32) (v206 : IVec S16 32) : Prop :=
  (∀ a x, ((![v206, v30] : Fin 2 → IVec S16 32) a x).toNat < S64x128.size a)
instance k0_chk125.dec : ∀ (v30 : IVec S16 32) (v206 : IVec S16 32), Decidable (k0_chk125 v30 v206) := fun v30 v206 => decidable_of_iff' _ (Iff.of_eq (k0_chk125.eq_1 v30 v206))
theorem k0_idx125_inb : ∀ (v30 : IVec S16 32) (v206 : IVec S16 32) (k0_hw125 : k0_chk125 v30 v206), ∀ a x, ((![v206, v30] : Fin 2 → IVec S16 32) a x).toNat < S64x128.size a := fun v30 v206 k0_hw125 => k0_hw125
def k0_off136 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_48_r0 : BitVec 32 := 0#32
  let c0_i32_49_r0 : BitVec 32 := 0#32
  ![v1.toNat, 0, 0]
abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x5000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S50000_S10000_0 : ∀ a, (![0] : Fin 1 → Nat) a + S10000.size a ≤ S50000.size a
  inb_S50000_S10000_10000 : ∀ a, (![10000] : Fin 1 → Nat) a + S10000.size a ≤ S50000.size a
  inb_S50000_S10000_20000 : ∀ a, (![20000] : Fin 1 → Nat) a + S10000.size a ≤ S50000.size a
  inb_S50000_S10000_30000 : ∀ a, (![30000] : Fin 1 → Nat) a + S10000.size a ≤ S50000.size a
  inb_S50000_S10000_40000 : ∀ a, (![40000] : Fin 1 → Nat) a + S10000.size a ≤ S50000.size a
  h_S1x16 : 0 < S1x16.numel
  shapeCasts_S1x16_S16 : S1x16.ShapeCasts S16
  shapeCasts_S16_S1x16 : S16.ShapeCasts S1x16
  iota_S16_d0_w32_scVector : S16.Iotas .scVector 32 [0]
  h_S16 : 0 < S16.numel
  h_S64x128 : 0 < S64x128.numel
  squeezes_S1x64x128_S64x128 : S1x64x128.Squeezes S64x128
  bitsLt_bf16_f32 : FTy.bits .bf16 < FTy.bits .f32
  shapeCasts_S100000_S20x1x5000 : S100000.ShapeCasts S20x1x5000
  natLt_1_32 : 1 < 32
  inb_S32x64x128_S32x64x128_0_0_0 : ∀ a, (![0, 0, 0] : Fin 3 → Nat) a + S32x64x128.size a ≤ S32x64x128.size a
  h_S32x64x128 : 0 < S32x64x128.numel
  shapeCasts_S32x64x128_S32x64x128 : S32x64x128.ShapeCasts S32x64x128
  reduces_S32x64x128_S64x128 : S32x64x128.Reduces [0] S64x128
  reduces_S64x128_S64 : S64x128.Reduces [1] S64
  shapeCasts_S64_S64x1 : S64.ShapeCasts S64x1
  shapeCasts_S64x1_S1x64x1 : S64x1.ShapeCasts S1x64x1
  reduces_S1x64x1_S1 : S1x64x1.Reduces [1, 2] S1
  shapeCasts_S1_S1x1x1 : S1.ShapeCasts S1x1x1
  inpos_S1x1x1_p0_0_0 : ∀ a, (![0, 0, 0] : Fin 3 → Nat) a < S1x1x1.size a
  shapeCasts_S64x1_S64x1x1 : S64x1.ShapeCasts S64x1x1
  inb_S64x64x512_S64x64x512_0_0_0 : ∀ a, (![0, 0, 0] : Fin 3 → Nat) a + S64x64x512.size a ≤ S64x64x512.size a
  h_S64x64x512 : 0 < S64x64x512.numel
  shapeCasts_S64x64x512_S64x64x512 : S64x64x512.ShapeCasts S64x64x512
  broadcasts_S64x1x1_S64x64x512 : S64x1x1.Broadcasts S64x64x512
  reduces_S64x64x512_S64x512 : S64x64x512.Reduces [0] S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  packedbf16_S64x512_S64x512_0_0 : (Rect.unit (s := S64x512) ![0, 0] S64x512.size inb_S64x512_S64x512_0_0).PackedRows (EltTy.packing .bf16)
  inb_S5000x512_S5000x512_0_0 : ∀ a, (![0, 0] : Fin 2 → Nat) a + S5000x512.size a ≤ S5000x512.size a
  h_S5000x512 : 0 < S5000x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  transposes_S1x5000_p1_0_S5000x1 : S1x5000.Transposes [1, 0] S5000x1
  broadcasts_S5000x1_S5000x64 : S5000x1.Broadcasts S5000x64
  dot_S5000x512_S512x64_S5000x64_1_0_0_1_n_n_wf : DotDims.WF S5000x512 S512x64 S5000x64 [1] [0] [0] [1] [] []
  dot_S5000x64_S64x512_S5000x512_1_0_0_1_n_n_wf : DotDims.WF S5000x64 S64x512 S5000x512 [1] [0] [0] [1] [] []
  hcc0_scratch2 : 0 + S_.numel ≤ 15
  hcc0_scratch3 : 1 + S_.numel ≤ 15
  hcc0_scratch4 : 2 + S_.numel ≤ 15
  hcc0_scratch5 : 3 + S_.numel ≤ 15
  hcc0_scratch6 : 4 + S_.numel ≤ 15
  hcc0_scoped0 : 5 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 5), ∀ a, (k0_off1 i (BitVec.ofNat 32 (10000 * r.val))) a + S10000.size a ≤ S1600000.size a
  k0_t1_ok : k0_t1_loop.OK
  k0_off2_inb : ∀ k0_t1 : Fin k0_t1_loop.trips, ∀ a, (k0_off2 k0_t1) a + S1x16.size a ≤ S64x128.size a
  k0_off3_inb : ∀ k0_t1 : Fin k0_t1_loop.trips, ∀ a, (k0_off3 k0_t1) a + S1x16.size a ≤ S64x128.size a
  k0_off4_inb : ∀ k0_t1 : Fin k0_t1_loop.trips, ∀ a, (k0_off4 k0_t1) a + S1x16.size a ≤ S64x128.size a
  k0_off5_inb : ∀ k0_t1 : Fin k0_t1_loop.trips, ∀ a, (k0_off5 k0_t1) a + S1x16.size a ≤ S64x128.size a
  k0_off6_inb : ∀ k0_t1 : Fin k0_t1_loop.trips, ∀ a, (k0_off6 k0_t1) a + S1x16.size a ≤ S64x128.size a
  k0_off7_inb : ∀ k0_t1 : Fin k0_t1_loop.trips, ∀ a, (k0_off7 k0_t1) a + S1x16.size a ≤ S64x128.size a
  k0_off8_inb : ∀ k0_t1 : Fin k0_t1_loop.trips, ∀ a, (k0_off8 k0_t1) a + S1x16.size a ≤ S64x128.size a
  k0_off9_inb : ∀ k0_t1 : Fin k0_t1_loop.trips, ∀ a, (k0_off9 k0_t1) a + S1x16.size a ≤ S64x128.size a
  k0_t2_ok : k0_t2_loop.OK
  k0_off10_inb : ∀ k0_t2 : Fin k0_t2_loop.trips, ∀ a, (k0_off10 k0_t2) a + S16.size a ≤ S50000.size a
  k0_off11_inb : ∀ k0_t2 : Fin k0_t2_loop.trips, ∀ a, (k0_off11 k0_t2) a + S16.size a ≤ S50000.size a
  k0_off12_inb : ∀ k0_t2 : Fin k0_t2_loop.trips, ∀ a, (k0_off12 k0_t2) a + S16.size a ≤ S50000.size a
  k0_off13_inb : ∀ k0_t2 : Fin k0_t2_loop.trips, ∀ a, (k0_off13 k0_t2) a + S16.size a ≤ S50000.size a
  k0_off14_inb : ∀ k0_t2 : Fin k0_t2_loop.trips, ∀ a, (k0_off14 k0_t2) a + S16.size a ≤ S50000.size a
  k0_off15_inb : ∀ k0_t2 : Fin k0_t2_loop.trips, ∀ a, (k0_off15 k0_t2) a + S16.size a ≤ S50000.size a
  k0_off16_inb : ∀ k0_t2 : Fin k0_t2_loop.trips, ∀ a, (k0_off16 k0_t2) a + S16.size a ≤ S50000.size a
  k0_off17_inb : ∀ k0_t2 : Fin k0_t2_loop.trips, ∀ a, (k0_off17 k0_t2) a + S16.size a ≤ S50000.size a
  k0_off18_inb : ∀ k0_t2 : Fin k0_t2_loop.trips, ∀ a, (k0_off18 k0_t2) a + S16.size a ≤ S50000.size a
  k0_off19_inb : ∀ k0_t2 : Fin k0_t2_loop.trips, ∀ a, (k0_off19 k0_t2) a + S16.size a ≤ S50000.size a
  k0_off20_inb : ∀ k0_t2 : Fin k0_t2_loop.trips, ∀ a, (k0_off20 k0_t2) a + S16.size a ≤ S50000.size a
  k0_off21_inb : ∀ k0_t2 : Fin k0_t2_loop.trips, ∀ a, (k0_off21 k0_t2) a + S16.size a ≤ S50000.size a
  k0_off22_inb : ∀ k0_t2 : Fin k0_t2_loop.trips, ∀ a, (k0_off22 k0_t2) a + S16.size a ≤ S50000.size a
  k0_off23_inb : ∀ k0_t2 : Fin k0_t2_loop.trips, ∀ a, (k0_off23 k0_t2) a + S16.size a ≤ S50000.size a
  k0_off24_inb : ∀ k0_t2 : Fin k0_t2_loop.trips, ∀ a, (k0_off24 k0_t2) a + S16.size a ≤ S50000.size a
  k0_off25_inb : ∀ k0_t2 : Fin k0_t2_loop.trips, ∀ a, (k0_off25 k0_t2) a + S16.size a ≤ S50000.size a
  k0_off26_inb : ∀ k0_t2 : Fin k0_t2_loop.trips, ∀ a, (k0_off26 k0_t2) a + S16.size a ≤ S50000.size a
  k0_off27_inb : ∀ k0_t2 : Fin k0_t2_loop.trips, ∀ a, (k0_off27 k0_t2) a + S16.size a ≤ S50000.size a
  k0_off28_inb : ∀ k0_t2 : Fin k0_t2_loop.trips, ∀ a, (k0_off28 k0_t2) a + S16.size a ≤ S50000.size a
  k0_off29_inb : ∀ k0_t2 : Fin k0_t2_loop.trips, ∀ a, (k0_off29 k0_t2) a + S16.size a ≤ S50000.size a
  k0_off30_inb : ∀ k0_t2 : Fin k0_t2_loop.trips, ∀ a, (k0_off30 k0_t2) a + S16.size a ≤ S50000.size a
  k0_off31_inb : ∀ k0_t2 : Fin k0_t2_loop.trips, ∀ a, (k0_off31 k0_t2) a + S16.size a ≤ S50000.size a
  k0_off32_inb : ∀ k0_t2 : Fin k0_t2_loop.trips, ∀ a, (k0_off32 k0_t2) a + S16.size a ≤ S50000.size a
  k0_off33_inb : ∀ k0_t2 : Fin k0_t2_loop.trips, ∀ a, (k0_off33 k0_t2) a + S16.size a ≤ S50000.size a
  k0_off34_inb : ∀ k0_t2 : Fin k0_t2_loop.trips, ∀ a, (k0_off34 k0_t2) a + S16.size a ≤ S50000.size a
  k0_off35_inb : ∀ i : grid0.Coords, ∀ (r : Fin 4), ∀ a, (k0_off35 i (BitVec.ofNat 32 (10000 + 10000 * r.val))) a + S10000.size a ≤ S1600000.size a
  k0_t3_ok : k0_t3_loop.OK
  k0_off36_inb : ∀ k0_t3 : Fin k0_t3_loop.trips, ∀ a, (k0_off36 k0_t3) a + S16.size a ≤ S50000.size a
  k0_off37_inb : ∀ k0_t3 : Fin k0_t3_loop.trips, ∀ a, (k0_off37 k0_t3) a + S16.size a ≤ S50000.size a
  k0_off38_inb : ∀ k0_t3 : Fin k0_t3_loop.trips, ∀ a, (k0_off38 k0_t3) a + S16.size a ≤ S50000.size a
  k0_off39_inb : ∀ k0_t3 : Fin k0_t3_loop.trips, ∀ a, (k0_off39 k0_t3) a + S16.size a ≤ S50000.size a
  k0_off40_inb : ∀ k0_t3 : Fin k0_t3_loop.trips, ∀ a, (k0_off40 k0_t3) a + S16.size a ≤ S50000.size a
  k0_off41_inb : ∀ k0_t3 : Fin k0_t3_loop.trips, ∀ a, (k0_off41 k0_t3) a + S16.size a ≤ S50000.size a
  k0_off42_inb : ∀ k0_t3 : Fin k0_t3_loop.trips, ∀ a, (k0_off42 k0_t3) a + S16.size a ≤ S50000.size a
  k0_off43_inb : ∀ k0_t3 : Fin k0_t3_loop.trips, ∀ a, (k0_off43 k0_t3) a + S16.size a ≤ S50000.size a
  k0_off44_inb : ∀ k0_t3 : Fin k0_t3_loop.trips, ∀ a, (k0_off44 k0_t3) a + S16.size a ≤ S50000.size a
  k0_off45_inb : ∀ k0_t3 : Fin k0_t3_loop.trips, ∀ a, (k0_off45 k0_t3) a + S16.size a ≤ S50000.size a
  k0_off46_inb : ∀ k0_t3 : Fin k0_t3_loop.trips, ∀ a, (k0_off46 k0_t3) a + S16.size a ≤ S50000.size a
  k0_off47_inb : ∀ k0_t3 : Fin k0_t3_loop.trips, ∀ a, (k0_off47 k0_t3) a + S16.size a ≤ S50000.size a
  k0_off48_inb : ∀ k0_t3 : Fin k0_t3_loop.trips, ∀ a, (k0_off48 k0_t3) a + S16.size a ≤ S50000.size a
  k0_off49_inb : ∀ k0_t3 : Fin k0_t3_loop.trips, ∀ a, (k0_off49 k0_t3) a + S16.size a ≤ S50000.size a
  k0_off50_inb : ∀ k0_t3 : Fin k0_t3_loop.trips, ∀ a, (k0_off50 k0_t3) a + S16.size a ≤ S50000.size a
  k0_off51_inb : ∀ k0_t3 : Fin k0_t3_loop.trips, ∀ a, (k0_off51 k0_t3) a + S16.size a ≤ S50000.size a
  k0_off52_inb : ∀ k0_t3 : Fin k0_t3_loop.trips, ∀ a, (k0_off52 k0_t3) a + S16.size a ≤ S50000.size a
  k0_off53_inb : ∀ k0_t3 : Fin k0_t3_loop.trips, ∀ a, (k0_off53 k0_t3) a + S16.size a ≤ S50000.size a
  k0_off54_inb : ∀ k0_t3 : Fin k0_t3_loop.trips, ∀ a, (k0_off54 k0_t3) a + S16.size a ≤ S50000.size a
  k0_off55_inb : ∀ k0_t3 : Fin k0_t3_loop.trips, ∀ a, (k0_off55 k0_t3) a + S16.size a ≤ S50000.size a
  k0_off56_inb : ∀ k0_t3 : Fin k0_t3_loop.trips, ∀ a, (k0_off56 k0_t3) a + S16.size a ≤ S50000.size a
  k0_off57_inb : ∀ k0_t3 : Fin k0_t3_loop.trips, ∀ a, (k0_off57 k0_t3) a + S16.size a ≤ S50000.size a
  k0_off58_inb : ∀ k0_t3 : Fin k0_t3_loop.trips, ∀ a, (k0_off58 k0_t3) a + S16.size a ≤ S50000.size a
  k0_off59_inb : ∀ k0_t3 : Fin k0_t3_loop.trips, ∀ a, (k0_off59 k0_t3) a + S16.size a ≤ S50000.size a
  k0_off60_inb : ∀ k0_t3 : Fin k0_t3_loop.trips, ∀ a, (k0_off60 k0_t3) a + S16.size a ≤ S50000.size a
  k0_t4_ok : k0_t4_loop.OK
  k0_off61_inb : ∀ k0_t4 : Fin k0_t4_loop.trips, ∀ a, (k0_off61 k0_t4) a + S16.size a ≤ S50000.size a
  k0_off62_inb : ∀ k0_t4 : Fin k0_t4_loop.trips, ∀ a, (k0_off62 k0_t4) a + S16.size a ≤ S50000.size a
  k0_off63_inb : ∀ k0_t4 : Fin k0_t4_loop.trips, ∀ a, (k0_off63 k0_t4) a + S16.size a ≤ S50000.size a
  k0_off64_inb : ∀ k0_t4 : Fin k0_t4_loop.trips, ∀ a, (k0_off64 k0_t4) a + S16.size a ≤ S50000.size a
  k0_off65_inb : ∀ k0_t4 : Fin k0_t4_loop.trips, ∀ a, (k0_off65 k0_t4) a + S16.size a ≤ S50000.size a
  k0_off66_inb : ∀ k0_t4 : Fin k0_t4_loop.trips, ∀ a, (k0_off66 k0_t4) a + S16.size a ≤ S50000.size a
  k0_off67_inb : ∀ k0_t4 : Fin k0_t4_loop.trips, ∀ a, (k0_off67 k0_t4) a + S16.size a ≤ S50000.size a
  k0_off68_inb : ∀ k0_t4 : Fin k0_t4_loop.trips, ∀ a, (k0_off68 k0_t4) a + S16.size a ≤ S50000.size a
  k0_off69_inb : ∀ k0_t4 : Fin k0_t4_loop.trips, ∀ a, (k0_off69 k0_t4) a + S16.size a ≤ S50000.size a
  k0_off70_inb : ∀ k0_t4 : Fin k0_t4_loop.trips, ∀ a, (k0_off70 k0_t4) a + S16.size a ≤ S50000.size a
  k0_off71_inb : ∀ k0_t4 : Fin k0_t4_loop.trips, ∀ a, (k0_off71 k0_t4) a + S16.size a ≤ S50000.size a
  k0_off72_inb : ∀ k0_t4 : Fin k0_t4_loop.trips, ∀ a, (k0_off72 k0_t4) a + S16.size a ≤ S50000.size a
  k0_off73_inb : ∀ k0_t4 : Fin k0_t4_loop.trips, ∀ a, (k0_off73 k0_t4) a + S16.size a ≤ S50000.size a
  k0_off74_inb : ∀ k0_t4 : Fin k0_t4_loop.trips, ∀ a, (k0_off74 k0_t4) a + S16.size a ≤ S50000.size a
  k0_off75_inb : ∀ k0_t4 : Fin k0_t4_loop.trips, ∀ a, (k0_off75 k0_t4) a + S16.size a ≤ S50000.size a
  k0_off76_inb : ∀ k0_t4 : Fin k0_t4_loop.trips, ∀ a, (k0_off76 k0_t4) a + S16.size a ≤ S50000.size a
  k0_off77_inb : ∀ k0_t4 : Fin k0_t4_loop.trips, ∀ a, (k0_off77 k0_t4) a + S16.size a ≤ S50000.size a
  k0_off78_inb : ∀ k0_t4 : Fin k0_t4_loop.trips, ∀ a, (k0_off78 k0_t4) a + S16.size a ≤ S50000.size a
  k0_off79_inb : ∀ k0_t4 : Fin k0_t4_loop.trips, ∀ a, (k0_off79 k0_t4) a + S16.size a ≤ S50000.size a
  k0_off80_inb : ∀ k0_t4 : Fin k0_t4_loop.trips, ∀ a, (k0_off80 k0_t4) a + S16.size a ≤ S50000.size a
  k0_off81_inb : ∀ k0_t4 : Fin k0_t4_loop.trips, ∀ a, (k0_off81 k0_t4) a + S16.size a ≤ S50000.size a
  k0_off82_inb : ∀ k0_t4 : Fin k0_t4_loop.trips, ∀ a, (k0_off82 k0_t4) a + S16.size a ≤ S50000.size a
  k0_off83_inb : ∀ k0_t4 : Fin k0_t4_loop.trips, ∀ a, (k0_off83 k0_t4) a + S16.size a ≤ S50000.size a
  k0_off84_inb : ∀ k0_t4 : Fin k0_t4_loop.trips, ∀ a, (k0_off84 k0_t4) a + S16.size a ≤ S50000.size a
  k0_off85_inb : ∀ k0_t4 : Fin k0_t4_loop.trips, ∀ a, (k0_off85 k0_t4) a + S16.size a ≤ S50000.size a
  k0_t5_ok : k0_t5_loop.OK
  k0_off86_inb : ∀ k0_t5 : Fin k0_t5_loop.trips, ∀ a, (k0_off86 k0_t5) a + S16.size a ≤ S50000.size a
  k0_off87_inb : ∀ k0_t5 : Fin k0_t5_loop.trips, ∀ a, (k0_off87 k0_t5) a + S16.size a ≤ S50000.size a
  k0_off88_inb : ∀ k0_t5 : Fin k0_t5_loop.trips, ∀ a, (k0_off88 k0_t5) a + S16.size a ≤ S50000.size a
  k0_off89_inb : ∀ k0_t5 : Fin k0_t5_loop.trips, ∀ a, (k0_off89 k0_t5) a + S16.size a ≤ S50000.size a
  k0_off90_inb : ∀ k0_t5 : Fin k0_t5_loop.trips, ∀ a, (k0_off90 k0_t5) a + S16.size a ≤ S50000.size a
  k0_off91_inb : ∀ k0_t5 : Fin k0_t5_loop.trips, ∀ a, (k0_off91 k0_t5) a + S16.size a ≤ S50000.size a
  k0_off92_inb : ∀ k0_t5 : Fin k0_t5_loop.trips, ∀ a, (k0_off92 k0_t5) a + S16.size a ≤ S50000.size a
  k0_off93_inb : ∀ k0_t5 : Fin k0_t5_loop.trips, ∀ a, (k0_off93 k0_t5) a + S16.size a ≤ S50000.size a
  k0_off94_inb : ∀ k0_t5 : Fin k0_t5_loop.trips, ∀ a, (k0_off94 k0_t5) a + S16.size a ≤ S50000.size a
  k0_off95_inb : ∀ k0_t5 : Fin k0_t5_loop.trips, ∀ a, (k0_off95 k0_t5) a + S16.size a ≤ S50000.size a
  k0_off96_inb : ∀ k0_t5 : Fin k0_t5_loop.trips, ∀ a, (k0_off96 k0_t5) a + S16.size a ≤ S50000.size a
  k0_off97_inb : ∀ k0_t5 : Fin k0_t5_loop.trips, ∀ a, (k0_off97 k0_t5) a + S16.size a ≤ S50000.size a
  k0_off98_inb : ∀ k0_t5 : Fin k0_t5_loop.trips, ∀ a, (k0_off98 k0_t5) a + S16.size a ≤ S50000.size a
  k0_off99_inb : ∀ k0_t5 : Fin k0_t5_loop.trips, ∀ a, (k0_off99 k0_t5) a + S16.size a ≤ S50000.size a
  k0_off100_inb : ∀ k0_t5 : Fin k0_t5_loop.trips, ∀ a, (k0_off100 k0_t5) a + S16.size a ≤ S50000.size a
  k0_off101_inb : ∀ k0_t5 : Fin k0_t5_loop.trips, ∀ a, (k0_off101 k0_t5) a + S16.size a ≤ S50000.size a
  k0_off102_inb : ∀ k0_t5 : Fin k0_t5_loop.trips, ∀ a, (k0_off102 k0_t5) a + S16.size a ≤ S50000.size a
  k0_off103_inb : ∀ k0_t5 : Fin k0_t5_loop.trips, ∀ a, (k0_off103 k0_t5) a + S16.size a ≤ S50000.size a
  k0_off104_inb : ∀ k0_t5 : Fin k0_t5_loop.trips, ∀ a, (k0_off104 k0_t5) a + S16.size a ≤ S50000.size a
  k0_off105_inb : ∀ k0_t5 : Fin k0_t5_loop.trips, ∀ a, (k0_off105 k0_t5) a + S16.size a ≤ S50000.size a
  k0_off106_inb : ∀ k0_t5 : Fin k0_t5_loop.trips, ∀ a, (k0_off106 k0_t5) a + S16.size a ≤ S50000.size a
  k0_off107_inb : ∀ k0_t5 : Fin k0_t5_loop.trips, ∀ a, (k0_off107 k0_t5) a + S16.size a ≤ S50000.size a
  k0_off108_inb : ∀ k0_t5 : Fin k0_t5_loop.trips, ∀ a, (k0_off108 k0_t5) a + S16.size a ≤ S50000.size a
  k0_off109_inb : ∀ k0_t5 : Fin k0_t5_loop.trips, ∀ a, (k0_off109 k0_t5) a + S16.size a ≤ S50000.size a
  k0_off110_inb : ∀ k0_t5 : Fin k0_t5_loop.trips, ∀ a, (k0_off110 k0_t5) a + S16.size a ≤ S50000.size a
  k0_t6_ok : k0_t6_loop.OK
  k0_off111_inb : ∀ k0_t6 : Fin k0_t6_loop.trips, ∀ a, (k0_off111 k0_t6) a + S16.size a ≤ S50000.size a
  k0_off112_inb : ∀ k0_t6 : Fin k0_t6_loop.trips, ∀ a, (k0_off112 k0_t6) a + S16.size a ≤ S50000.size a
  k0_off113_inb : ∀ k0_t6 : Fin k0_t6_loop.trips, ∀ a, (k0_off113 k0_t6) a + S16.size a ≤ S50000.size a
  k0_off114_inb : ∀ k0_t6 : Fin k0_t6_loop.trips, ∀ a, (k0_off114 k0_t6) a + S16.size a ≤ S50000.size a
  k0_off115_inb : ∀ k0_t6 : Fin k0_t6_loop.trips, ∀ a, (k0_off115 k0_t6) a + S16.size a ≤ S50000.size a
  k0_off116_inb : ∀ k0_t6 : Fin k0_t6_loop.trips, ∀ a, (k0_off116 k0_t6) a + S16.size a ≤ S50000.size a
  k0_off117_inb : ∀ k0_t6 : Fin k0_t6_loop.trips, ∀ a, (k0_off117 k0_t6) a + S16.size a ≤ S50000.size a
  k0_off118_inb : ∀ k0_t6 : Fin k0_t6_loop.trips, ∀ a, (k0_off118 k0_t6) a + S16.size a ≤ S50000.size a
  k0_off119_inb : ∀ k0_t6 : Fin k0_t6_loop.trips, ∀ a, (k0_off119 k0_t6) a + S16.size a ≤ S50000.size a
  k0_off120_inb : ∀ k0_t6 : Fin k0_t6_loop.trips, ∀ a, (k0_off120 k0_t6) a + S16.size a ≤ S50000.size a
  k0_off121_inb : ∀ k0_t6 : Fin k0_t6_loop.trips, ∀ a, (k0_off121 k0_t6) a + S16.size a ≤ S50000.size a
  k0_off122_inb : ∀ k0_t6 : Fin k0_t6_loop.trips, ∀ a, (k0_off122 k0_t6) a + S16.size a ≤ S50000.size a
  k0_off123_inb : ∀ k0_t6 : Fin k0_t6_loop.trips, ∀ a, (k0_off123 k0_t6) a + S16.size a ≤ S50000.size a
  k0_off124_inb : ∀ k0_t6 : Fin k0_t6_loop.trips, ∀ a, (k0_off124 k0_t6) a + S16.size a ≤ S50000.size a
  k0_off125_inb : ∀ k0_t6 : Fin k0_t6_loop.trips, ∀ a, (k0_off125 k0_t6) a + S16.size a ≤ S50000.size a
  k0_off126_inb : ∀ k0_t6 : Fin k0_t6_loop.trips, ∀ a, (k0_off126 k0_t6) a + S16.size a ≤ S50000.size a
  k0_off127_inb : ∀ k0_t6 : Fin k0_t6_loop.trips, ∀ a, (k0_off127 k0_t6) a + S16.size a ≤ S50000.size a
  k0_off128_inb : ∀ k0_t6 : Fin k0_t6_loop.trips, ∀ a, (k0_off128 k0_t6) a + S16.size a ≤ S50000.size a
  k0_off129_inb : ∀ k0_t6 : Fin k0_t6_loop.trips, ∀ a, (k0_off129 k0_t6) a + S16.size a ≤ S50000.size a
  k0_off130_inb : ∀ k0_t6 : Fin k0_t6_loop.trips, ∀ a, (k0_off130 k0_t6) a + S16.size a ≤ S50000.size a
  k0_off131_inb : ∀ k0_t6 : Fin k0_t6_loop.trips, ∀ a, (k0_off131 k0_t6) a + S16.size a ≤ S50000.size a
  k0_off132_inb : ∀ k0_t6 : Fin k0_t6_loop.trips, ∀ a, (k0_off132 k0_t6) a + S16.size a ≤ S50000.size a
  k0_off133_inb : ∀ k0_t6 : Fin k0_t6_loop.trips, ∀ a, (k0_off133 k0_t6) a + S16.size a ≤ S50000.size a
  k0_off134_inb : ∀ k0_t6 : Fin k0_t6_loop.trips, ∀ a, (k0_off134 k0_t6) a + S16.size a ≤ S50000.size a
  k0_off135_inb : ∀ k0_t6 : Fin k0_t6_loop.trips, ∀ a, (k0_off135 k0_t6) a + S16.size a ≤ S50000.size a
  k0_off136_inb : ∀ i : grid0.Coords, ∀ a, (k0_off136 i) a + S1x64x128.size a ≤ S32x64x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S100000x512.size a
  hwx1_0 : ∀ i : grid1.Coords, EltTy.bits .f32 = 32 ∨ (Rect.block (s := S100000x512) S5000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x5000.size a ≤ S20x1x5000.size a
  hwx1_1 : ∀ i : grid1.Coords, EltTy.bits .i32 = 32 ∨ (Rect.block (s := S20x1x5000) S1x1x5000.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S512x64.size a
  hwx1_2 : ∀ i : grid1.Coords, EltTy.bits .bf16 = 32 ∨ (Rect.block (s := S512x64) S512x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64x128.size a ≤ S32x64x128.size a
  hwx1_3 : ∀ i : grid1.Coords, EltTy.bits .f32 = 32 ∨ (Rect.block (s := S32x64x128) S32x64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64x512.size a ≤ S64x64x512.size a
  hwx1_4 : ∀ i : grid1.Coords, EltTy.bits .bf16 = 32 ∨ (Rect.block (s := S64x64x512) S64x64x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x512.size a ≤ S100000x512.size a
  hwx1_5 : ∀ i : grid1.Coords, EltTy.bits .f32 = 32 ∨ (Rect.block (s := S100000x512) S5000x512.size (cc1_transform_5 i) (hinb1_5 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scoped0 : DmaSems sig S_ := SemArray.consecutive 5 S_ hcc0_scoped0
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def dot_S5000x64_S64x512_S5000x512_1_0_0_1_n_n : DotDims S5000x64 S64x512 S5000x512 where
  lhsContracting := [1]
  rhsContracting := [0]
  lhsNonContracting := [0]
  rhsNonContracting := [1]
  lhsBatch := []
  rhsBatch := []
  wf := dot_S5000x64_S64x512_S5000x512_1_0_0_1_n_n_wf

abbrev win1_0 : Pipeline.Window sig grid1 :=
  Pipeline.Window.ofSpec (Memref.whole main_arg0) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1x5000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S32x64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S64x64x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S5000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S100000 : Shape := ⟨1, ![100000]⟩
abbrev S1600000 : Shape := ⟨1, ![1600000]⟩
abbrev S512x64 : Shape := ⟨2, ![512, 64]⟩
abbrev S64x64x512 : Shape := ⟨3, ![64, 64, 512]⟩
abbrev S_ : Shape := ⟨0, ![]⟩
abbrev S64 : Shape := ⟨1, ![64]⟩
abbrev S1600000x1 : Shape := ⟨2, ![1600000, 1]⟩
abbrev S64x1x1 : Shape := ⟨3, ![64, 1, 1]⟩
abbrev S64x512 : Shape := ⟨2, ![64, 512]⟩
abbrev S512x512 : Shape := ⟨2, ![512, 512]⟩
abbrev S100000x1 : Shape := ⟨2, ![100000, 1]⟩

abbrev nBuf : Space → Nat
  | .hbm => 52
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i1⟩
  | .hbm, ⟨2, _⟩ => ⟨S1600000, .i32⟩
  | .hbm, ⟨3, _⟩ => ⟨S512x64, .f32⟩
  | .hbm, ⟨4, _⟩ => ⟨S64x64x512, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S1600000, .i1⟩
  | .hbm, ⟨12, _⟩ => ⟨S_, .i32⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S_, .f32⟩
  | .hbm, ⟨17, _⟩ => ⟨S64, .f32⟩
  | .hbm, ⟨18, _⟩ => ⟨S1600000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64x1x1, .f32⟩
  | .hbm, ⟨35, _⟩ => ⟨S64x64x512, .f32⟩
  | .hbm, ⟨36, _⟩ => ⟨S64x64x512, .f32⟩
  | .hbm, ⟨37, _⟩ => ⟨S_, .f32⟩
  | .hbm, ⟨38, _⟩ => ⟨S64x512, .f32⟩
  | .hbm, ⟨39, _⟩ => ⟨S512x512, .f32⟩
  | .hbm, ⟨40, _⟩ => ⟨S512x512, .i32⟩
  | .hbm, ⟨41, _⟩ => ⟨S512x512, .i32⟩
  | .hbm, ⟨42, _⟩ => ⟨S_, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S512x512, .f32⟩
  | .hbm, ⟨47, _⟩ => ⟨S512x512, .f32⟩
  | .hbm, ⟨48, _⟩ => ⟨S100000x512, .f32⟩
  | .hbm, ⟨49, _⟩ => ⟨S100000x1, .i1⟩
  | .hbm, ⟨50, _⟩ => ⟨S100000x512, .i1⟩
  | .hbm, ⟨51, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_v0 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S64 : S_.BroadcastsInDim S64 (![] : Fin 0 → Fin S64.rank)
  bcast_S1600000_S1600000x1_0 : S1600000.BroadcastsInDim S1600000x1 (![0] : Fin 1 → Fin S1600000x1.rank)
  reducesTo_S64_S_d0 : S64.ReducesTo [0] S_
  h_S_ : 0 < S_.numel
  bcast_S64_S64x1x1_0 : S64.BroadcastsInDim S64x1x1 (![0] : Fin 1 → Fin S64x1x1.rank)
  bcast_S64x1x1_S64x64x512_0_1_2 : S64x1x1.BroadcastsInDim S64x64x512 (![0, 1, 2] : Fin 3 → Fin S64x64x512.rank)
  reducesTo_S64x64x512_S64x512_d0 : S64x64x512.ReducesTo [0] S64x512
  bcast_S_S512x512 : S_.BroadcastsInDim S512x512 (![] : Fin 0 → Fin S512x512.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  scatter_S64_S1600000x1_S1600000_n_0_0_1_wf : ScatterDims.WF S64 S1600000x1 S1600000 [] [0] [0] 1
  dot_S512x64_S64x512_S512x512_1_0_0_1_n_n_wf : DotDims.WF S512x64 S64x512 S512x512 [1] [0] [0] [1] [] []
  dot_S100000x512_S512x512_S100000x512_1_0_0_1_n_n_wf : DotDims.WF S100000x512 S512x512 S100000x512 [1] [0] [0] [1] [] []

variable [Facts₀]

def scatter_S64_S1600000x1_S1600000_n_0_0_1 : ScatterDims S64 S1600000x1 S1600000 where
  updateWindowDims := []
  insertedWindowDims := [0]
  scatterDimsToOperandDims := [0]
  indexVectorDim := 1
  wf := scatter_S64_S1600000x1_S1600000_n_0_0_1_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.RefRun.lean ====
/-
  The reference program's run, read back one operation at a time: the generated run of the host program and its
  read-at-an-index lemmas are brought in here, for the modules that state what the reference computes.
-/
import proofs.«210447_g31353261261282_cont_9to1_114_24_alg».proof.Defs
import proofs.«210447_g31353261261282_cont_9to1_114_24_alg».proof.Proof.Gen.ReferenceIdeal
import proofs.«210447_g31353261261282_cont_9to1_114_24_alg».proof.Proof.Gen.ReferenceIdeal.Run
import proofs.«210447_g31353261261282_cont_9to1_114_24_alg».proof.Proof.Gen.ReferenceIdeal.Read
-- ==== Proof.Spec.lean ====
/-
  What the two programs compute, stated once over the extended reals, with no program imported.

  Sixty-four relations; an edge list `e` of 1 600 000 relation ids. `cnt e r` is the number of edges of relation `r`.
  The weight of a relation is its share of the edges, `cnt r / (Σ cnt + ε)` with `ε` the single-precision number nearest
  `1e-8` (its exact binary value: both programs carry the same word). `bavg` is the weight-averaged factor
  `Σ_r B[r] · weight r` (64 × 512). A selected row `n` (mask true) becomes `x[n] + ((x[n] · A) · bavg)`; an unselected one
  is kept. Written with the mask as a number (1 or 0) multiplying the projected row, which is the arrangement in which
  the rows are computed block by block: `out[n,d] = x[n,d] + Σ_k ((Σ_j x[n,j]·A[j,k]) · mask n) · bavg[k,d]`.

  `hist e` is the table of partial counts the counting stage leaves: the edge list is cut into 32 chunks of 50 000, a
  chunk into 3125 vectors of 16 lanes; entry `(w, r, l)` counts the vectors of chunk `w` whose lane `l` holds relation `r`
  (lanes 16 … 127 of the 128-wide table are never touched and stay zero). Summing a relation's entries over chunks and
  lanes gives `cnt e r`: every edge position is `50000·w + 16·v + l` for exactly one `(w, v, l)`.
-/
import Idealize.ShloMosaic.PureOps.Ideal
import Idealize.ShloMosaic.Lib.ValueIdx

noncomputable section

namespace Cert.Spec

open Idealize.ShloMosaic Idealize.ShloMosaic.ValueIdx

abbrev SX : Shape := ⟨2, ![100000, 512]⟩
abbrev SM : Shape := ⟨1, ![100000]⟩
abbrev SE : Shape := ⟨1, ![1600000]⟩
abbrev SA : Shape := ⟨2, ![512, 64]⟩
abbrev SB : Shape := ⟨3, ![64, 64, 512]⟩
abbrev SH : Shape := ⟨3, ![32, 64, 128]⟩

/-- The small number added to the total before dividing: the binary value of the word `0x322BCC77`. -/
def eps : EReal := Ideal.ofBits .f32 0x322BCC77#32

/-- The mask as a number: one on a selected row, zero elsewhere. -/
def mf (mk : IVec SM 1) (n : Fin 100000) : EReal := if mk (ix1 n) = 1#1 then 1 else 0

/-- The number of edges of relation `r`. -/
def cnt (e : IVec SE 32) (r : Fin 64) : ℕ :=
  (Finset.univ.filter fun j : Fin 1600000 => (e (ix1 j)).toNat = r.val).card

/-- The edge at lane `l` of vector `v` of chunk `w`. -/
def edgeAt (e : IVec SE 32) (w : Fin 32) (v : Fin 3125) (l : Fin 16) : BitVec 32 :=
  e (ix1 ⟨50000 * w.val + 16 * v.val + l.val, by have := w.isLt; have := v.isLt; have := l.isLt; omega⟩)

/-- The table of partial counts: entry `(w, r, l)` counts the vectors of chunk `w` whose lane `l` holds relation `r`;
    zero at the lanes no vector has. -/
def hist (e : IVec SE 32) (w : Fin 32) (r : Fin 64) (l : Fin 128) : EReal :=
  if h : l.val < 16 then
    (((Finset.univ.filter fun v : Fin 3125 => (edgeAt e w v ⟨l.val, h⟩).toNat = r.val).card : ℝ) : EReal)
  else 0

/-- A relation's count read off a table of partial counts: summed over chunks, then over lanes. -/
def cntOf (h : Fin 32 → Fin 64 → Fin 128 → EReal) (r : Fin 64) : EReal := ∑ l : Fin 128, ∑ w : Fin 32, h w r l

/-- A relation's weight, from a table of partial counts: its count over the total plus `eps`. -/
def wgtOf (h : Fin 32 → Fin 64 → Fin 128 → EReal) (r : Fin 64) : EReal :=
  Ideal.div (cntOf h r) ((∑ r' : Fin 64, cntOf h r') + eps)

/-- The weight-averaged factor, 64 × 512. -/
def bavgOf (h : Fin 32 → Fin 64 → Fin 128 → EReal) (B : SB.Idx → EReal) (k : Fin 64) (d : Fin 512) : EReal :=
  ∑ r : Fin 64, B (ix3 r k d) * wgtOf h r

/-- Row `n` projected on the rank-64 factor: `(x[n] · A)[k]`. -/
def proj (x : SX.Idx → EReal) (A : SA.Idx → EReal) (n : Fin 100000) (k : Fin 64) : EReal :=
  ∑ j : Fin 512, x (ix2 n j) * A (ix2 j k)

/-- One entry of the result, from a table of partial counts. -/
def outOf (h : Fin 32 → Fin 64 → Fin 128 → EReal) (x : SX.Idx → EReal) (mk : IVec SM 1) (A : SA.Idx → EReal)
    (B : SB.Idx → EReal) (n : Fin 100000) (d : Fin 512) : EReal :=
  x (ix2 n d) + ∑ k : Fin 64, (proj x A n k * mf mk n) * bavgOf h B k d

/-- The result array as one function of the argument arrays. -/
def G (x : SX.Idx → EReal) (mk : IVec SM 1) (e : IVec SE 32) (A : SA.Idx → EReal) (B : SB.Idx → EReal) :
    SX.Idx → EReal :=
  fun i => outOf (hist e) x mk A B (i 0) (i 1)

theorem G_ix2 (x : SX.Idx → EReal) (mk : IVec SM 1) (e : IVec SE 32) (A : SA.Idx → EReal) (B : SB.Idx → EReal)
    (n : Fin 100000) (d : Fin 512) : G x mk e A B (ix2 n d) = outOf (hist e) x mk A B n d := rfl

end Cert.Spec

end
-- ==== Proof.Counts.lean ====
/-
  The table of partial counts adds up to the counts.

  Every edge position below 1 600 000 is `50000·w + 16·v + l` for exactly one chunk `w < 32`, vector `v < 3125` and
  lane `l < 16`. So the number of positions holding relation `r` is the sum, over chunks and lanes, of the number of
  vectors whose lane holds `r`; the lanes 16 … 127 of the table hold zero and add nothing. The statement is first
  proved in the natural numbers and then carried to the extended reals, the coercion of a finite sum of naturals
  being the sum of the coercions.
-/
import proofs.«210447_g31353261261282_cont_9to1_114_24_alg».proof.Proof.Spec
import Mathlib.Algebra.BigOperators.Fin
import Mathlib.Data.Fintype.BigOperators

noncomputable section

namespace Cert.Spec

open Idealize.ShloMosaic Idealize.ShloMosaic.ValueIdx

/-- The position of lane `l` of vector `v` of chunk `w`. -/
def pos (t : Fin 32 × Fin 3125 × Fin 16) : Fin 1600000 :=
  ⟨50000 * t.1.val + 16 * t.2.1.val + t.2.2.val, by
    have := t.1.isLt; have := t.2.1.isLt; have := t.2.2.isLt; omega⟩

/-- Every position is the position of exactly one (chunk, vector, lane). -/
theorem pos_bijective : Function.Bijective pos := by
  constructor
  · rintro ⟨w, v, l⟩ ⟨w', v', l'⟩ h
    have h' : 50000 * w.val + 16 * v.val + l.val = 50000 * w'.val + 16 * v'.val + l'.val := congrArg Fin.val h
    have := w.isLt; have := v.isLt; have := l.isLt; have := w'.isLt; have := v'.isLt; have := l'.isLt
    have hw : w = w' := Fin.ext (by omega)
    have hv : v = v' := Fin.ext (by omega)
    have hl : l = l' := Fin.ext (by omega)
    subst hw hv hl; rfl
  · intro j
    have := j.isLt
    refine ⟨(⟨j.val / 50000, by omega⟩, ⟨(j.val % 50000) / 16, by omega⟩, ⟨j.val % 16, by omega⟩), Fin.ext ?_⟩
    show 50000 * (j.val / 50000) + 16 * ((j.val % 50000) / 16) + j.val % 16 = j.val
    omega

theorem edgeAt_eq (e : IVec SE 32) (w : Fin 32) (v : Fin 3125) (l : Fin 16) :
    edgeAt e w v l = e (ix1 (pos (w, v, l))) := rfl

/-- The table of partial counts as natural numbers. -/
def histN (e : IVec SE 32) (w : Fin 32) (r : Fin 64) (l : Fin 128) : ℕ :=
  if h : l.val < 16 then
    (Finset.univ.filter fun v : Fin 3125 => (edgeAt e w v ⟨l.val, h⟩).toNat = r.val).card
  else 0

theorem hist_eq_histN (e : IVec SE 32) (w : Fin 32) (r : Fin 64) (l : Fin 128) :
    hist e w r l = (((histN e w r l : ℕ) : ℝ) : EReal) := by
  unfold hist histN
  split_ifs
  · rfl
  · simp

/-- The coercion of a finite sum of naturals is the sum of the coercions. -/
theorem coe_nat_sum {ι : Type*} (s : Finset ι) (f : ι → ℕ) :
    ∑ i ∈ s, (((f i : ℕ) : ℝ) : EReal) = (((∑ i ∈ s, f i : ℕ) : ℝ) : EReal) := by
  classical
  induction s using Finset.induction_on with
  | empty => simp
  | insert a s ha ih =>
    rw [Finset.sum_insert ha, Finset.sum_insert ha, ih, Nat.cast_add, EReal.coe_add]

/-- In the natural numbers: the table's entries of a relation add up to its count. -/
theorem sum_histN (e : IVec SE 32) (r : Fin 64) :
    ∑ l : Fin 128, ∑ w : Fin 32, histN e w r l = cnt e r := by
  -- the lanes 0 … 15 and the lanes 16 … 127
  have hsplit : ∑ l : Fin 128, ∑ w : Fin 32, histN e w r l
      = ∑ l : Fin 16, ∑ w : Fin 32, histN e w r (Fin.castAdd 112 l)
        + ∑ l : Fin 112, ∑ w : Fin 32, histN e w r (Fin.natAdd 16 l) :=
    Fin.sum_univ_add (a := 16) (b := 112) (fun l : Fin (16 + 112) => ∑ w : Fin 32, histN e w r l)
  have hhi : ∀ (l : Fin 112) (w : Fin 32), histN e w r (Fin.natAdd 16 l) = 0 := by
    intro l w
    unfold histN
    rw [dif_neg]
    simp [Fin.natAdd]
  have hlo : ∀ (l : Fin 16) (w : Fin 32), histN e w r (Fin.castAdd 112 l)
      = ∑ v : Fin 3125, if (e (ix1 (pos (w, v, l)))).toNat = r.val then 1 else 0 := by
    intro l w
    unfold histN
    rw [dif_pos (show (Fin.castAdd 112 l).val < 16 from l.isLt), Finset.card_filter]
    rfl
  rw [hsplit]
  simp only [hhi, hlo, Finset.sum_const_zero, add_zero]
  unfold cnt
  rw [Finset.card_filter, ← pos_bijective.sum_comp, Fintype.sum_prod_type]
  simp only [Fintype.sum_prod_type]
  rw [Finset.sum_comm]
  refine Finset.sum_congr rfl fun w _ => ?_
  rw [Finset.sum_comm]

theorem cntOf_hist (e : IVec SE 32) (r : Fin 64) : cntOf (hist e) r = (((cnt e r : ℕ) : ℝ) : EReal) := by
  unfold cntOf
  simp only [hist_eq_histN, coe_nat_sum]
  rw [sum_histN]

end Cert.Spec

end
-- ==== Proof.RefValue.lean ====
/-
  The reference program computes the specification's function.

  Read operation by operation, the reference forms: the counts by a scatter-add of ones at the edge ids (all ids are in
  0 … 63, so no id is wrapped, none is masked, and the entry at relation `r` is the number of edges of relation `r`); the
  weights `count r / (Σ counts + ε)`; the weight-averaged factor `Σ_r weight r · B[r]`; the matrix `I + A · bavg`; the
  product `x · (I + A · bavg)`; and keeps `x` where the mask is false. The specification adds to `x[n]` the row
  `((x[n] · A) · mask n) · bavg`. Over the reals the two agree by distributivity and an exchange of two finite sums:
  `Σ_k x[n,k] · (δ_kd + Σ_q A[k,q] · b[q,d]) = x[n,d] + Σ_q (Σ_k x[n,k] · A[k,q]) · b[q,d]`. Over the extended reals
  those laws need every term to be a real number: the entries of `x`, `A`, `B` are so by hypothesis, the counts are
  natural numbers, and the weights are reals because the total plus ε is a positive real (ε is a positive normal
  single-precision number), so the quotient is an ordinary one.
-/
import proofs.«210447_g31353261261282_cont_9to1_114_24_alg».proof.Proof.Spec
import proofs.«210447_g31353261261282_cont_9to1_114_24_alg».proof.Proof.Counts
import proofs.«210447_g31353261261282_cont_9to1_114_24_alg».proof.Proof.Gen.ReferenceIdeal.Read
import Idealize.ShloMosaic.Lib.ValueIdx
import Idealize.ShloMosaic.Lib.Affine
import Idealize.ShloMosaic.PureOps.Ideal.Laws
import Mathlib.Tactic.Ring
import Mathlib.Tactic.Positivity

noncomputable section

namespace Cert.RefValue

open Cert.ReferenceIdeal Cert.ReferenceIdeal.Gen Cert.ReferenceIdeal.Read Idealize.ShloMosaic Idealize.ShloMosaic.ValueIdx

/-- A 32-bit word below 64 as a natural number has that value as a signed integer. -/
theorem toInt_of_lt (w : BitVec 32) (h : w.toNat < 64) : w.toInt = (w.toNat : Int) := by
  rw [BitVec.toInt_eq_toNat_cond]; split_ifs <;> omega

section Ids
variable (e : IVec S1600000 32) (he : ∀ j, (e j).toNat < 64)
include he

theorem v4_one (j : S1600000.Idx) : val_main_v4 (F := Ideal) e j = 1#1 := by
  have h := toInt_of_lt _ (he j)
  rw [val_main_v4_apply, val_main_v1_apply, val_main_v3_apply, val_main_v0_apply, val_main_v2_apply, val_main_c_apply,
    val_main_c_0_apply]
  have h1 : IntOp.cmpi .sge (e j) 0#32 = 1#1 := IntOp.cmpi_sge.2 (by rw [h]; simp)
  have h2 : IntOp.cmpi .slt (e j) 64#32 = 1#1 := IntOp.cmpi_slt.2 (by
    rw [h]; have : (64#32 : BitVec 32).toInt = 64 := by decide
    rw [this]; have := he j; omega)
  rw [h1, h2]; rfl

theorem v5_eq (j : S1600000.Idx) : val_main_v5 (F := Ideal) e j = e j := by
  rw [val_main_v5_apply, v4_one e he j, select_one]

theorem v12_eq (j : S1600000.Idx) : val_main_v12 (F := Ideal) e j = e j := by
  have h := toInt_of_lt _ (he j)
  rw [val_main_v12_apply, val_main_v9_apply, v5_eq e he j, val_main_v8_apply, val_main_c_2_apply]
  have h9 : IntOp.cmpi .slt (e j) 0#32 = 0#1 := eq_zero_of_ne_one (fun hc => by
    have := IntOp.cmpi_slt.1 hc
    have h0 : (0#32 : BitVec 32).toInt = 0 := by decide
    rw [h, h0] at this; omega)
  rw [h9, select_zero]

theorem v7_one (j : S1600000.Idx) : val_main_v7 (F := Ideal) e j = 1 := by
  rw [val_main_v7_apply, v4_one e he j]
  show (((1#1 : BitVec 1).toNat : ℝ) : EReal) = 1
  simp

theorem v13_eq (j : Fin 1600000) : val_main_v13 (F := Ideal) e (ix2 j (0 : Fin 1)) = e (ix1 j) := by
  rw [val_main_v13_apply, v12_eq e he]
  refine congrArg e ?_
  funext a; match a with | ⟨0, _⟩ => rfl

end Ids

abbrev SD := scatter_S64_S1600000x1_S1600000_n_0_0_1

theorem sd_start (j : S1600000.Idx) (idx : IVec S1600000x1 32) (a : Fin S64.rank) :
    SD.start j idx a = (idx (ix2 (j 0) (0 : Fin 1))).toInt := by
  match a with
  | ⟨0, _⟩ =>
    unfold ScatterDims.start
    rw [dif_pos (show (⟨0, by decide⟩ : Fin S64.rank) ∈ SD.scatterDimsToOperandDims from List.mem_singleton.mpr rfl)]
    refine congrArg (fun t => (idx t).toInt) ?_
    funext b; refine Fin.ext ?_
    match b with
    | ⟨0, _⟩ => rfl
    | ⟨1, _⟩ => rfl

theorem sd_window (j : S1600000.Idx) (a : Fin S64.rank) : SD.window j a = 0 := by
  match a with
  | ⟨0, _⟩ =>
    unfold ScatterDims.window
    rw [dif_neg (show ¬ (⟨0, by decide⟩ : Fin S64.rank) ∈ SD.sKept by decide)]

theorem sd_result (j : S1600000.Idx) (idx : IVec S1600000x1 32) (h : (idx (ix2 (j 0) (0 : Fin 1))).toNat < 64) (r : Fin 64) :
    SD.resultIdx? j idx = some (ix1 r) ↔ (idx (ix2 (j 0) (0 : Fin 1))).toNat = r.val := by
  have hI : (idx (ix2 (j 0) (0 : Fin 1))).toInt = ((idx (ix2 (j 0) (0 : Fin 1))).toNat : Int) := by
    rw [BitVec.toInt_eq_toNat_cond]; split_ifs <;> omega
  unfold ScatterDims.resultIdx?
  have hc : ∀ a, 0 ≤ SD.start j idx a + SD.window j a ∧ SD.start j idx a + SD.window j a < S64.size a := by
    intro a
    rw [sd_start, sd_window, hI]
    match a with
    | ⟨0, _⟩ => exact ⟨by omega, by show _ < ((64 : ℕ) : Int); omega⟩
  rw [dif_pos hc, Option.some.injEq]
  constructor
  · intro hh
    have := congrArg (fun f => (f 0).val) hh
    simp only [sd_start, sd_window, hI] at this
    have h2 : ((ix1 r : S64.Idx) 0).val = r.val := rfl
    omega
  · intro hh
    funext a
    match a with
    | ⟨0, _⟩ =>
      refine Fin.ext ?_
      show (SD.start j idx _ + SD.window j _).toNat = r.val
      rw [sd_start, sd_window, hI]; omega

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's scatter-add read at an index. -/
theorem scatterAdd_apply {s si su : Shape} (d : ScatterDims s si su) {w : Nat} (x : FVec Ideal s .f32) (idx : IVec si w)
    (upd : FVec Ideal su .f32) (i : s.Idx) :
    Host.scatterAdd (F := Ideal) d x idx upd i
      = x i + ∑ j ∈ Finset.univ.filter (fun j => d.resultIdx? j idx = some i), upd j := rfl

/-- The count of a relation as a sum of ones over the positions holding it. -/
theorem cnt_as_sum (e : IVec S1600000 32) (r : Fin 64) :
    (((Cert.Spec.cnt e r : ℕ) : ℝ) : EReal) = ∑ j : Fin 1600000, if (e (ix1 j)).toNat = r.val then (1 : EReal) else 0 := by
  unfold Cert.Spec.cnt
  rw [Finset.card_filter, ← Cert.Spec.coe_nat_sum]
  refine Finset.sum_congr rfl fun j _ => ?_
  split_ifs <;> simp

/-- A scatter-add of ones into zeros at start indices that are the edge ids, all in range, leaves at relation `r` the
    number of edges of relation `r`. -/
theorem scatter_count (e : IVec S1600000 32) (he : ∀ j, (e j).toNat < 64) (x : FVec Ideal S64 .f32)
    (idx : IVec S1600000x1 32) (upd : FVec Ideal S1600000 .f32) (hx : ∀ i, x i = 0) (hu : ∀ j, upd j = 1)
    (hidx : ∀ j : Fin 1600000, idx (ix2 j (0 : Fin 1)) = e (ix1 j)) (r : Fin 64) :
    Host.scatterAdd (F := Ideal) SD x idx upd (ix1 r) = (((Cert.Spec.cnt e r : ℕ) : ℝ) : EReal) := by
  rw [scatterAdd_apply, hx, zero_add, Finset.sum_filter, sum_idx1, cnt_as_sum]
  refine Finset.sum_congr rfl fun j _ => ?_
  have hv : idx (ix2 ((ix1 j : S1600000.Idx) 0) (0 : Fin 1)) = e (ix1 j) := hidx j
  have hl := sd_result (ix1 j) idx (by rw [hv]; exact he _) r
  rw [hv] at hl
  rw [hu]
  simp only [hl]

/-- With every edge id in range, the reference's scatter leaves the counts. -/
theorem v14_count (e : IVec S1600000 32) (he : ∀ j, (e j).toNat < 64) (r : Fin 64) :
    val_main_v14 (F := Ideal) e (ix1 r) = (((Cert.Spec.cnt e r : ℕ) : ℝ) : EReal) := by
  have h6 : ∀ i, val_main_v6 (F := Ideal) i = 0 := by
    intro i; rw [val_main_v6_apply, val_main_cst_apply]; exact Ideal.ofBits_zero_f32
  unfold val_main_v14
  exact scatter_count e he _ _ _ h6 (v7_one e he) (v13_eq e he) r

/-! ## The later stages read at an index -/

/-- The reference's weight of relation `r` is the specification's. -/
theorem v18_read (e : IVec S1600000 32) (he : ∀ j, (e j).toNat < 64) (r : Fin 64) :
    val_main_v18 (F := Ideal) e (ix1 r) = Cert.Spec.wgtOf (Cert.Spec.hist e) r := by
  rw [val_main_v18_apply, val_main_v17_apply, val_main_v16_apply, val_main_v15_apply, val_main_cst_4_apply,
    val_main_cst_5_apply, sum_idx1]
  simp only [v14_count e he]
  unfold Cert.Spec.wgtOf
  simp only [Cert.Spec.cntOf_hist]
  show Ideal.div _ ((Ideal.ofBits .f32 0x00000000#32 + _) + Ideal.ofBits .f32 0x322BCC77#32) = _
  rw [Ideal.ofBits_zero_f32, zero_add]
  rfl

theorem v20_read (e : IVec S1600000 32) (r q : Fin 64) (d : Fin 512) :
    val_main_v20 (F := Ideal) e (ix3 r q d) = val_main_v18 (F := Ideal) e (ix1 r) := by
  rw [val_main_v20_apply, val_main_v19_apply]
  refine congrArg (val_main_v18 (F := Ideal) e) ?_
  funext a; match a with | ⟨0, _⟩ => rfl

theorem v22_read (e : IVec S1600000 32) (B : FVec Ideal S64x64x512 .f32) (q : Fin 64) (d : Fin 512) :
    val_main_v22 (F := Ideal) e B (ix2 q d) = ∑ r : Fin 64, B (ix3 r q d) * val_main_v18 (F := Ideal) e (ix1 r) := by
  rw [val_main_v22_apply, val_main_cst_6_apply]
  show Ideal.ofBits .f32 0x00000000#32 + _ = _
  rw [Ideal.ofBits_zero_f32, zero_add]
  refine Finset.sum_congr rfl fun r _ => ?_
  have hi : idx_main_v22 (ix2 q d) r = ix3 r q d := by
    funext a; match a with | ⟨0, _⟩ => rfl | ⟨1, _⟩ => rfl | ⟨2, _⟩ => rfl
  rw [hi, val_main_v21_apply, v20_read]
  exact mul_comm _ _

theorem v23_read (e : IVec S1600000 32) (A : FVec Ideal S512x64 .f32) (B : FVec Ideal S64x64x512 .f32) (k d : Fin 512) :
    val_main_v23 (F := Ideal) e A B (ix2 k d) = ∑ q : Fin 64, A (ix2 k q) * val_main_v22 (F := Ideal) e B (ix2 q d) := by
  rw [val_main_v23_apply]
  refine Finset.sum_congr rfl fun q _ => ?_
  have hl : lidx_main_v23 (ix2 k d) q = ix2 k q := by
    funext a; match a with | ⟨0, _⟩ => rfl | ⟨1, _⟩ => rfl
  have hr : ridx_main_v23 (ix2 k d) q = ix2 q d := by
    funext a; match a with | ⟨0, _⟩ => rfl | ⟨1, _⟩ => rfl
  rw [hl, hr]

theorem v31_read (x : FVec Ideal S100000x512 .f32) (e : IVec S1600000 32) (A : FVec Ideal S512x64 .f32)
    (B : FVec Ideal S64x64x512 .f32) (n : Fin 100000) (d : Fin 512) :
    val_main_v31 (F := Ideal) x e A B (ix2 n d)
      = ∑ k : Fin 512, x (ix2 n k) * (val_main_v29 (F := Ideal) (ix2 k d) + val_main_v23 (F := Ideal) e A B (ix2 k d)) := by
  rw [val_main_v31_apply]
  refine Finset.sum_congr rfl fun k _ => ?_
  have hl : lidx_main_v31 (ix2 n d) k = ix2 n k := by
    funext a; match a with | ⟨0, _⟩ => rfl | ⟨1, _⟩ => rfl
  have hr : ridx_main_v31 (ix2 n d) k = ix2 k d := by
    funext a; match a with | ⟨0, _⟩ => rfl | ⟨1, _⟩ => rfl
  rw [hl, hr, val_main_v30_apply]
  rfl

theorem mask_read (mk : IVec S100000 1) (n : Fin 100000) (d : Fin 512) :
    val_main_call1_v0 (F := Ideal) mk (ix2 n d) = mk (ix1 n) := by
  rw [val_main_call1_v0_apply, val_main_v32_apply]
  refine congrArg mk ?_
  funext a; match a with | ⟨0, _⟩ => rfl

/-! ## The algebraic law -/

/-- The coercion of a finite sum of reals is the sum of the coercions. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals: a row times (identity plus a rank-64 product) is the row plus the row projected and expanded. -/
theorem law_real {ι κ : Type*} [Fintype ι] [Fintype κ] [DecidableEq ι] (xr : ι → ℝ) (Ar : ι → κ → ℝ) (br : κ → ℝ) (d : ι) :
    ∑ k : ι, xr k * ((if k = d then (1 : ℝ) else 0) + ∑ q : κ, Ar k q * br q)
      = xr d + ∑ q : κ, ((∑ j : ι, xr j * Ar j q) * 1) * br q := by
  simp only [mul_add, Finset.sum_add_distrib, mul_ite, mul_one, mul_zero, Finset.sum_ite_eq', Finset.mem_univ, if_true]
  congr 1
  simp only [Finset.mul_sum, Finset.sum_mul]
  rw [Finset.sum_comm]
  refine Finset.sum_congr rfl fun q _ => Finset.sum_congr rfl fun k _ => ?_
  ring

/-- The same over the extended reals, at real entries. -/
theorem law {ι κ : Type*} [Fintype ι] [Fintype κ] [DecidableEq ι] (xr : ι → ℝ) (Ar : ι → κ → ℝ) (br : κ → ℝ) (d : ι) :
    ∑ k : ι, (xr k : EReal) * ((if k = d then (1 : EReal) else 0) + ∑ q : κ, (Ar k q : EReal) * (br q : EReal))
      = (xr d : EReal) + ∑ q : κ, ((∑ j : ι, (xr j : EReal) * (Ar j q : EReal)) * 1) * (br q : EReal) := by
  have hite : ∀ k : ι, (if k = d then (1 : EReal) else 0) = (((if k = d then (1 : ℝ) else 0) : ℝ) : EReal) := by
    intro k; split_ifs <;> simp
  simp only [mul_one]
  simp only [hite]
  simp only [← EReal.coe_mul, coe_sum, ← EReal.coe_add]
  rw [law_real]
  simp only [mul_one]

/-! ## The small number, the weights, the identity matrix -/

/-- The small number is a positive real. -/
theorem eps_pos : ∃ p : ℝ, 0 < p ∧ Cert.Spec.eps = (p : EReal) := by
  have h1 : ((0x322BCC77#32 : BitVec 32).extractLsb' (8 + 23) 1 == 1#1) = false := by decide
  have h2 : ((0x322BCC77#32 : BitVec 32).extractLsb' 23 8).toNat = 100 := by decide
  unfold Cert.Spec.eps Ideal.ofBits Ideal.ieee
  simp only [h1, h2]
  rw [if_neg (by norm_num), if_neg (by norm_num)]
  rw [if_neg (by decide)]
  exact ⟨_, by positivity, rfl⟩

/-- A real count over a nonnegative real total plus the small number is a real. -/
theorem div_real (c t : ℝ) (ht : 0 ≤ t) : ∃ w : ℝ, Ideal.div (c : EReal) ((t : EReal) + Cert.Spec.eps) = (w : EReal) := by
  obtain ⟨p, hp, he⟩ := eps_pos
  rw [he, ← EReal.coe_add, Ideal.div_coe (by positivity : t + p ≠ 0), ← EReal.coe_mul]
  exact ⟨_, rfl⟩

/-- The identity matrix's entry as the comparison of two iotas, converted to a number. -/
theorem delta (k d : Fin 512) :
    (FloatOps.uitofp (F := Ideal) .f32 (IntOp.cmpi .eq (IntOp.addi (BitVec.ofNat 32 k.val) 0#32) (BitVec.ofNat 32 d.val)) : EReal)
      = if k = d then 1 else 0 := by
  have hadd : IntOp.addi (BitVec.ofNat 32 k.val) 0#32 = BitVec.ofNat 32 k.val := by
    simp [IntOp.addi]
  rw [hadd]
  by_cases h : k = d
  · subst h
    rw [if_pos rfl, (IntOp.cmpi_eq.2 rfl)]
    show (((1#1 : BitVec 1).toNat : ℝ) : EReal) = 1
    simp
  · rw [if_neg h]
    have hne : ¬ IntOp.cmpi .eq (BitVec.ofNat 32 k.val) (BitVec.ofNat 32 d.val) = 1#1 := by
      intro hc
      have := congrArg BitVec.toNat (IntOp.cmpi_eq.1 hc)
      simp only [BitVec.toNat_ofNat] at this
      have hk := k.isLt; have hd := d.isLt
      exact h (Fin.ext (by omega))
    rw [eq_zero_of_ne_one hne]
    show (((0#1 : BitVec 1).toNat : ℝ) : EReal) = 0
    simp

/-! ## The reference is the specification -/

/-- A relation's weight is a real number: a real count over a positive real. -/
theorem wgt_real (e : IVec S1600000 32) (r : Fin 64) :
    ∃ w : ℝ, Cert.Spec.wgtOf (Cert.Spec.hist e) r = (w : EReal) := by
  unfold Cert.Spec.wgtOf
  simp only [Cert.Spec.cntOf_hist, Cert.Spec.coe_nat_sum]
  exact div_real _ _ (Nat.cast_nonneg _)

/-- The weight-averaged factor's entries are real numbers. -/
theorem bavg_real (e : IVec S1600000 32) (B : FVec Ideal S64x64x512 .f32) (hB : ∀ i, ∃ r : ℝ, B i = (r : EReal))
    (q : Fin 64) (d : Fin 512) : ∃ b : ℝ, Cert.Spec.bavgOf (Cert.Spec.hist e) B q d = (b : EReal) := by
  choose Br hBr using hB
  choose wr hwr using wgt_real e
  unfold Cert.Spec.bavgOf
  simp only [hBr, hwr, ← EReal.coe_mul, coe_sum]
  exact ⟨_, rfl⟩

/-- The reference's weight-averaged factor is the specification's. -/
theorem v22_spec (e : IVec S1600000 32) (he : ∀ j, (e j).toNat < 64) (B : FVec Ideal S64x64x512 .f32) (q : Fin 64) (d : Fin 512) :
    val_main_v22 (F := Ideal) e B (ix2 q d) = Cert.Spec.bavgOf (Cert.Spec.hist e) B q d := by
  rw [v22_read]
  unfold Cert.Spec.bavgOf
  simp only [v18_read e he]

theorem v29_read (k d : Fin 512) : val_main_v29 (F := Ideal) (ix2 k d) = if k = d then 1 else 0 := by
  rw [val_main_v29_apply, val_main_v28_apply, val_main_v27_apply, val_main_v24_apply, val_main_v25_apply, val_main_v26_apply,
    val_main_c_7_apply]
  exact delta k d

theorem ref_eq_G [Cert.ReferenceIdeal.Facts] (x : FVec Ideal Cert.ReferenceIdeal.S100000x512 .f32) (mk : IVec Cert.ReferenceIdeal.S100000 1)
    (e : IVec Cert.ReferenceIdeal.S1600000 32) (A : FVec Ideal Cert.ReferenceIdeal.S512x64 .f32)
    (B : FVec Ideal Cert.ReferenceIdeal.S64x64x512 .f32)
    (hx : ∀ i, ∃ r : ℝ, x i = (r : EReal)) (hA : ∀ i, ∃ r : ℝ, A i = (r : EReal)) (hB : ∀ i, ∃ r : ℝ, B i = (r : EReal))
    (he : ∀ j, (e j).toNat < 64) :
    Cert.ReferenceIdeal.Read.val_main_v33 (F := Ideal) x mk e A B = Cert.Spec.G x mk e A B := by
  funext i
  obtain ⟨n, d, rfl⟩ : ∃ (n : Fin 100000) (d : Fin 512), i = ix2 n d := ⟨i 0, i 1, eq_ix2 i⟩
  rw [Cert.Spec.G_ix2, val_main_v33_apply, mask_read]
  unfold Cert.Spec.outOf Cert.Spec.mf
  by_cases hmk : mk (ix1 n) = 1#1
  · rw [hmk, select_one, if_pos rfl, v31_read]
    simp only [v29_read, v23_read, v22_spec e he]
    unfold Cert.Spec.proj
    choose xr hxr using hx
    choose Ar hAr using hA
    choose br hbr using fun q => bavg_real e B hB q d
    simp only [hxr, hAr, hbr]
    exact law (fun k => xr (ix2 n k)) (fun k q => Ar (ix2 k q)) br d
  · rw [eq_zero_of_ne_one hmk, select_zero, if_neg (by decide)]
    simp only [mul_zero, zero_mul, Finset.sum_const_zero, add_zero]

end Cert.RefValue
end
-- ==== Proof.PreFacts.lean ====
/-
  What the precondition says of the arguments, read back element by element.

  The precondition is the conjunction of four "for all" statements: every entry of `x`, of `A` and of `B` is smaller in
  absolute value than +∞, and every edge id lies between 0 and 63 as a signed integer. Over the extended reals
  `|v| < +∞` holds exactly of the real numbers (it fails at +∞ and at -∞), and a 32-bit word whose signed value lies in
  0 … 63 has that same unsigned value.
-/
import proofs.«210447_g31353261261282_cont_9to1_114_24_alg».proof.Pre_input_domain
import proofs.«210447_g31353261261282_cont_9to1_114_24_alg».proof.Proof.Gen.Pre_input_domain
import Idealize.ShloMosaic.Lib.ReduceAll
import Idealize.ShloMosaic.Lib.ValueIdx

noncomputable section

namespace Cert.PreFacts

open Cert.Pre_input_domain Idealize.ShloMosaic

instance : Subsingleton S_.Idx := ⟨fun a b => funext fun d => d.elim0⟩

/-- An extended real smaller in absolute value than +∞ is a real number. -/
theorem real_of_abs_lt_top (v : EReal)
    (h : Ideal.cmp .olt (max v (-v)) (Ideal.ofBits .f32 0x7F800000#32) = 1#1) : ∃ r : ℝ, v = (r : EReal) := by
  have htop : Ideal.ofBits .f32 0x7F800000#32 = (⊤ : EReal) := by
    simp [Ideal.ofBits, Ideal.ieee]
  rw [htop] at h
  induction v using EReal.rec with
  | bot => simp [Ideal.cmp] at h
  | coe r => exact ⟨r, rfl⟩
  | top => simp [Ideal.cmp] at h

/-- A 32-bit word between 0 and 63 as a signed integer is below 64 as a natural number. -/
theorem toNat_lt_of_signed (w : BitVec 32) (h0 : (0#32 : BitVec 32).toInt ≤ w.toInt) (h1 : w.toInt ≤ (63#32 : BitVec 32).toInt) :
    w.toNat < 64 := by
  have e0 : (0#32 : BitVec 32).toInt = 0 := by decide
  have e1 : (63#32 : BitVec 32).toInt = 63 := by decide
  rw [e0] at h0; rw [e1] at h1
  rw [BitVec.toInt_eq_toNat_cond] at h0 h1
  have := w.isLt
  split_ifs at h0 h1 <;> omega

/-- The four conjuncts of the precondition. -/
theorem conjuncts {F : FTy → Type} [FloatOps F] [Cert.Pre_input_domain.Facts] (x : FVec F S100000x512 .f32) (mk : IVec S100000 1)
    (e : IVec S1600000 32) (A : FVec F S512x64 .f32) (B : FVec F S64x64x512 .f32)
    (h : Cert.Pre_input_domain.fn (F := F) x mk e A B = fun _ => 1#1) :
    (∀ i, FloatOps.cmpf .olt (FloatOps.hostAbsf (x i)) (FloatOps.ofBits .f32 0x7F800000#32) = 1#1) ∧
    (∀ i, FloatOps.cmpf .olt (FloatOps.hostAbsf (A i)) (FloatOps.ofBits .f32 0x7F800000#32) = 1#1) ∧
    (∀ i, FloatOps.cmpf .olt (FloatOps.hostAbsf (B i)) (FloatOps.ofBits .f32 0x7F800000#32) = 1#1) ∧
    (∀ j, IntOp.cmpi .sge (e j) 0#32 = 1#1 ∧ IntOp.cmpi .sle (e j) 63#32 = 1#1) := by
  have h0 := congrFun h ValueIdx.ix0
  dsimp only [Cert.Pre_input_domain.fn, Cert.Pre_input_domain.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun j => ?_⟩
  · exact Host.reduce_andi_all _ _ _ _ _ h1 i
  · exact Host.reduce_andi_all _ _ _ _ _ h2 i
  · exact Host.reduce_andi_all _ _ _ _ _ h3 i
  · exact IntOp.andi_eq_one.1 (Host.reduce_andi_all _ _ _ _ _ h4 j)

theorem range_of_pre {F : FTy → Type} [FloatOps F] [Cert.Pre_input_domain.Facts] (x : FVec F S100000x512 .f32) (mk : IVec S100000 1)
    (e : IVec S1600000 32) (A : FVec F S512x64 .f32) (B : FVec F S64x64x512 .f32)
    (h : Cert.Pre_input_domain.fn (F := F) x mk e A B = fun _ => 1#1) : ∀ j : S1600000.Idx, (e j).toNat < 64 := by
  intro j
  obtain ⟨hge, hle⟩ := (conjuncts x mk e A B h).2.2.2 j
  exact toNat_lt_of_signed (e j) (IntOp.cmpi_sge.1 hge) (IntOp.cmpi_sle.1 hle)

theorem finite_of_pre [Cert.Pre_input_domain.Facts] (x : FVec Ideal S100000x512 .f32) (mk : IVec S100000 1)
    (e : IVec S1600000 32) (A : FVec Ideal S512x64 .f32) (B : FVec Ideal S64x64x512 .f32)
    (h : Cert.Pre_input_domain.fn (F := Ideal) x mk e A B = fun _ => 1#1) :
    (∀ i, ∃ r : ℝ, x i = (r : EReal)) ∧ (∀ i, ∃ r : ℝ, A i = (r : EReal)) ∧ (∀ i, ∃ r : ℝ, B i = (r : EReal)) := by
  obtain ⟨hx, hA, hB, -⟩ := conjuncts x mk e A B h
  exact ⟨fun i => real_of_abs_lt_top _ (hx i), fun i => real_of_abs_lt_top _ (hA i), fun i => real_of_abs_lt_top _ (hB i)⟩

end Cert.PreFacts

end
-- ==== Proof.Common.lean ====
/-
  The idealized program as the launch theorem reads it, the ghost state the proof runs under, and what the call hands
  each counting task.

  The edge list (1 600 000 ids) is cut into 32 chunks of 50 000, chunk `w` for the task on vector subcore `s` of core
  `c` with `w = 2 s + c`; the table of partial counts (32 × 64 × 128) into its 32 rows, row `w` written by the same
  task. A task is handed its chunk of the edge list (to read) and its row of the table (to overwrite), and hands both
  back, the row at the table `Hf` the counting leaves. The call as a whole takes the two arrays and returns them, the
  table at `Hf`.
-/
import proofs.«210447_g31353261261282_cont_9to1_114_24_alg».proof.KernelIdeal
import proofs.«210447_g31353261261282_cont_9to1_114_24_alg».proof.Proof.Gen.KernelIdeal
import proofs.«210447_g31353261261282_cont_9to1_114_24_alg».proof.Proof.Gen.KernelIdeal.Skeleton
import proofs.«210447_g31353261261282_cont_9to1_114_24_alg».proof.Proof.Gen.KernelIdeal.Launch
import proofs.«210447_g31353261261282_cont_9to1_114_24_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the row pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL

/-- The row pipeline's component (the middle factor). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays and their pieces -/

abbrev eLoc (d : Dev nD) : Loc nD τ sig := (SparseCore.T d).loc main_arg2
abbrev hLoc (d : Dev nD) : Loc nD τ sig := (SparseCore.T d).loc main_v0

/-- The edge list and the table of partial counts as a vector subcore's kernel names them. -/
abbrev eV : Memref sig .scVector .hbm S1600000 .i32 := Memref.whole main_arg2_scv
abbrev hV : Memref sig .scVector .hbm S32x64x128 .f32 := Memref.whole main_v0_scv

theorem hdivE : 32 ∣ S1600000.size 0 := ⟨50000, rfl⟩
theorem hdivH : 32 ∣ S32x64x128.size 0 := ⟨1, rfl⟩

/-- Chunk `w` of the edge list: positions `50000 w … 50000 w + 49999`. -/
abbrev eChunk (w : Fin 32) : Rect S1600000 := Rect.part (s := S1600000) (a₀ := 0) hdivE w
abbrev eSet (w : Fin 32) : Finset S1600000.Idx := ((eV : Memref sig .scVector .hbm S1600000 .i32).view.slice (eChunk w)).set
/-- Row `w` of the table. -/
abbrev hRow (w : Fin 32) : Rect S32x64x128 := Rect.part (s := S32x64x128) (a₀ := 0) hdivH w
abbrev hSet (w : Fin 32) : Finset S32x64x128.Idx := ((hV : Memref sig .scVector .hbm S32x64x128 .f32).view.slice (hRow w)).set

/-- The chunk and row of the task on vector subcore number `i` of core number `c`: `2 i + c` (read modulo 32, which
    changes nothing for `c < 2`, `i < 16`). -/
def wid (c i : ℕ) : Fin 32 := ⟨(2 * i + c) % 32, Nat.mod_lt _ (by decide)⟩

theorem wid_val {c i : ℕ} (hc : c < 2) (hi : i < 16) : (wid c i).val = 2 * i + c := Nat.mod_eq_of_lt (by omega)

variable (m : (ℓ : Loc nD τ sig) → Buf (Elt F) ℓ) (ρ : Dev nD → PrngReg)
-- the table the counting stage leaves, per device, as a function of the launch memory: fixed by the tasks' proof
variable (Hf : (d : Dev nD) → Buf (Elt F) (hLoc d))

abbrev ePts (d : Dev nD) : sProp 𝕄 := eLoc d ↦{fullShare} m (eLoc d)
abbrev hPts (d : Dev nD) (f : Buf (Elt F) (hLoc d)) : sProp 𝕄 := hLoc d ↦{fullShare} f
abbrev eChunkPts (d : Dev nD) (w : Fin 32) : sProp 𝕄 := eLoc d ↦[eSet w]{fullShare} m (eLoc d)
abbrev hRowPts (d : Dev nD) (w : Fin 32) (f : Buf (Elt F) (hLoc d)) : sProp 𝕄 := hLoc d ↦[hSet w]{fullShare} f

/-- What a task is handed, and what it hands back. -/
def goFor (d : Dev nD) (w : Fin 32) : sProp 𝕄 := iprop(eChunkPts m d w ∗ ∃ f, hRowPts d w f)
def tdFor (d : Dev nD) (w : Fin 32) : sProp 𝕄 := iprop(eChunkPts m d w ∗ hRowPts d w (Hf d))

theorem nCore_zero : (K (F := F)).nCore 0 = 2 := rfl
theorem nSub_zero : (K (F := F)).nSub 0 = 16 := rfl

/-- The call's payloads: a core's are its tasks', conjoined. -/
def P : (K (F := F)).Pay (nD := nD) (Val := Elt F) (Name := ℕ) (U := UU) where
  st := fun q d c => bigSep Finset.univ fun i : Fin ((K (F := F)).nSub q) => goFor m d (wid c.val i.val)
  dn := fun q d c => bigSep Finset.univ fun i : Fin ((K (F := F)).nSub q) => tdFor m Hf d (wid c.val i.val)
  go := fun _ d c i => goFor m d (wid c.val i.val)
  td := fun _ d c i => tdFor m Hf d (wid c.val i.val)
  x := fun _ _ => iprop(emp)

instance P_storable : (P (F := F) m Hf).IsStorable where
  st _ d c := by unfold P goFor; infer_instance
  dn _ d c := by unfold P tdFor; infer_instance
  go _ _ _ _ := by unfold P goFor; infer_instance
  td _ _ _ _ := by unfold P tdFor; infer_instance

end Cert.KernelIdeal.Run

end
-- ==== Proof.RegionRuns.lean ====
/-
  The row pipeline's body on any staging buffers, in its two cases. At the first point it reads the whole table of
  partial counts and the whole second factor, leaves the weight-averaged factor (`k1_pay1`) in the carried scratch, and
  writes the block of rows from it; at every later point it reads the scratch as the first point left it. In both the
  block written is `k1_pay2` of the rows' block, the first factor, the mask's block and the scratch.
-/
import proofs.«210447_g31353261261282_cont_9to1_114_24_alg».proof.Proof.Common
import Idealize.ShloMosaic.Lib.Pipeline.FrameBody
import Idealize.ShloMosaic.Lib.Ring

set_option maxRecDepth 16384

noncomputable section

namespace Cert.KernelIdeal.Run

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The body's one branch condition, from the grid coordinate: "this is the first point". -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

set_option maxHeartbeats 1000000 in
/-- A later point: the five inputs and the scratch at their contents, the output buffer at anything; the body runs
    to the continuation holding the inputs and the scratch as they were and the output buffer with its pieces written. -/
noncomputable def bodyRun_B (c : Dev nD) (i : grid1.Coords)
    (arg1 : Memref sig .tc .vmem S5000x512 .f32) (harg1 : arg1.IsWhole) (arg2 : Memref sig .tc .vmem S1x1x5000 .i32) (harg2 : arg2.IsWhole)
    (arg3 : Memref sig .tc .vmem S512x64 .bf16) (harg3 : arg3.IsWhole) (arg4 : Memref sig .tc .vmem S32x64x128 .f32) (harg4 : arg4.IsWhole)
    (arg5 : Memref sig .tc .vmem S64x64x512 .bf16) (harg5 : arg5.IsWhole) (arg6 : Memref sig .tc .vmem S5000x512 .f32) (harg6 : arg6.IsWhole)
    (arg7 : Memref sig .tc .vmem S64x512 .bf16) (harg7 : arg7.IsWhole) (hc0 : ¬cond1 i)
    (x0 : Vec F S5000x512 .f32) (x1 : Vec F S1x1x5000 .i32) (x2 : Vec F S512x64 .bf16) (x3 : Vec F S32x64x128 .f32) (x4 : Vec F S64x64x512 .bf16)
    (xs : Vec F S64x512 .bf16) :
    { L6 : List (View.Piece (Elt F) S5000x512 .f32) //
      ∀ (E : Set ℕ) (Kc : PUnit → sProp 𝕄),
        iprop(owns (T c) arg1 fullShare x0 ∗ owns (T c) arg2 fullShare x1 ∗ owns (T c) arg3 fullShare x2 ∗ owns (T c) arg4 fullShare x3
            ∗ owns (T c) arg5 fullShare x4 ∗ (∃ f, arg6.view.loc (T c) ↦[arg6.view.set]{fullShare} f) ∗ owns (T c) arg7 fullShare xs
            ∗ (iprop(owns (T c) arg1 fullShare x0 ∗ owns (T c) arg2 fullShare x1 ∗ owns (T c) arg3 fullShare x2 ∗ owns (T c) arg4 fullShare x3
                ∗ owns (T c) arg5 fullShare x4 ∗ (∃ f, arg6.view.loc (T c) ↦[arg6.view.set]{fullShare} arg6.view.writes (Elt F) f L6)
                ∗ owns (T c) arg7 fullShare xs) -∗ Kc ⟨⟩))
          ⊢ wp frame (wpE (defs₀ (F := F)) Variants.none (T c) none) E (cc1__main_body i arg1 harg1 arg2 harg2 arg3 harg3 arg4 harg4 arg5 harg5 arg6 harg6 arg7 harg7) Kc } := by
  refine ⟨?_, fun E Kc => ?run⟩
  case run =>
    simp only [cc1__main_body_eq_skeleton]; unfold cc1__main_body_skel
    unfold owns
    iintro ⟨⟨%f0, %hf0, H0⟩, ⟨%f1, %hf1, H1⟩, ⟨%f2, %hf2, H2⟩, ⟨%f3, %hf3, H3⟩, ⟨%f4, %hf4, H4⟩, ⟨%f6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]
    · iexists _; iexact H6
    iexists _; isplitr; · ipureintro; exact harg7.read_unread _
    iexact H7

set_option maxHeartbeats 1000000 in
/-- The first point: the five inputs at their contents, the output buffer and the scratch at anything; the body runs
    to the continuation holding the inputs as they were and the output buffer and the scratch with their pieces written. -/
noncomputable def bodyRun_A (c : Dev nD) (i : grid1.Coords)
    (arg1 : Memref sig .tc .vmem S5000x512 .f32) (harg1 : arg1.IsWhole) (arg2 : Memref sig .tc .vmem S1x1x5000 .i32) (harg2 : arg2.IsWhole)
    (arg3 : Memref sig .tc .vmem S512x64 .bf16) (harg3 : arg3.IsWhole) (arg4 : Memref sig .tc .vmem S32x64x128 .f32) (harg4 : arg4.IsWhole)
    (arg5 : Memref sig .tc .vmem S64x64x512 .bf16) (harg5 : arg5.IsWhole) (arg6 : Memref sig .tc .vmem S5000x512 .f32) (harg6 : arg6.IsWhole)
    (arg7 : Memref sig .tc .vmem S64x512 .bf16) (harg7 : arg7.IsWhole) (hc0 : cond1 i)
    (x0 : Vec F S5000x512 .f32) (x1 : Vec F S1x1x5000 .i32) (x2 : Vec F S512x64 .bf16) (x3 : Vec F S32x64x128 .f32) (x4 : Vec F S64x64x512 .bf16) :
    { L : List (View.Piece (Elt F) S5000x512 .f32) × List (View.Piece (Elt F) S64x512 .bf16) //
      ∀ (E : Set ℕ) (Kc : PUnit → sProp 𝕄),
        iprop(owns (T c) arg1 fullShare x0 ∗ owns (T c) arg2 fullShare x1 ∗ owns (T c) arg3 fullShare x2 ∗ owns (T c) arg4 fullShare x3
            ∗ owns (T c) arg5 fullShare x4 ∗ (∃ f, arg6.view.loc (T c) ↦[arg6.view.set]{fullShare} f) ∗ (∃ f, arg7.view.loc (T c) ↦[arg7.view.set]{fullShare} f)
            ∗ (iprop(owns (T c) arg1 fullShare x0 ∗ owns (T c) arg2 fullShare x1 ∗ owns (T c) arg3 fullShare x2 ∗ owns (T c) arg4 fullShare x3
                ∗ owns (T c) arg5 fullShare x4 ∗ (∃ f, arg6.view.loc (T c) ↦[arg6.view.set]{fullShare} arg6.view.writes (Elt F) f L.1)
                ∗ (∃ f, arg7.view.loc (T c) ↦[arg7.view.set]{fullShare} arg7.view.writes (Elt F) f L.2)) -∗ Kc ⟨⟩))
          ⊢ wp frame (wpE (defs₀ (F := F)) Variants.none (T c) none) E (cc1__main_body i arg1 harg1 arg2 harg2 arg3 harg3 arg4 harg4 arg5 harg5 arg6 harg6 arg7 harg7) Kc } := by
  refine ⟨⟨?_, ?_⟩, fun E Kc => ?run⟩
  case run =>
    simp only [cc1__main_body_eq_skeleton]; unfold cc1__main_body_skel
    unfold owns
    iintro ⟨⟨%f0, %hf0, H0⟩, ⟨%f1, %hf1, H1⟩, ⟨%f2, %hf2, H2⟩, ⟨%f3, %hf3, H3⟩, ⟨%f4, %hf4, H4⟩, ⟨%f6, H6⟩, ⟨%f7, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]
    · iexists _; iexact H6
    iexists _; iexact H7

end Cert.KernelIdeal.Run

end
-- ==== Proof.RegionData.lean ====
/-
  The row pipeline's proof data. The arrays are those the main program holds when the pipeline is entered (a valuation
  `W`). Every input window's buffer holds its block at every point (three of the windows are whole arrays, fetched
  once). The carried scratch holds, from the first point on, what the first point's body left there (`scr`); the output
  window's buffer holds after point `t` what that point's body wrote (`outsAt`): the first point's case at `t = 0`, the
  later points' case, run at the scratch's contents `scr`, elsewhere.
-/
import proofs.«210447_g31353261261282_cont_9to1_114_24_alg».proof.Proof.RegionRuns
import Idealize.ShloMosaic.Lib.Pipeline.Regions
import Idealize.ShloMosaic.Lib.Pipeline.RegionsLoop

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Valuation τ sig (Elt F))

/-- The TensorCore's buffers as the pipeline finds them. -/
abbrev VW (c : Dev nD) (b : Ref sig .tc) : Buf (Elt F) ((c : Thread nD τ).loc b) := W (Proc.devRef .tc b)

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (VW W c (Pipeline.arrRef spec1 w))

/-- One staging buffer of the output window, and the scratch: the views through which what the body wrote is read back. -/
abbrev VO : View sig .tc .vmem S5000x512 .f32 := (Memref.whole cc1_stg5_0 : Memref sig .tc .vmem S5000x512 .f32).view
abbrev VS : View sig .tc .vmem S64x512 .bf16 := (Memref.whole cc1_scratch0 : Memref sig .tc .vmem S64x512 .bf16).view

/-- Each window's current staging memref at point `t`, as the pipeline passes it, and the scratch. -/
abbrev ms1_0 (t : Fin cfg1.N) : Memref sig .tc .vmem S5000x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x5000 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x512 .f32 := win1_5.stage (cfg1.slots t 5)
abbrev hs1_5 (t : Fin cfg1.N) : (ms1_5 t).IsWhole := hstage1_5 ((cfg1.slots t 5).cast nbuf1_5)
abbrev mS : Memref sig .tc .vmem S64x512 .bf16 := Memref.whole cc1_scratch0
abbrev hS : (mS).IsWhole := Memref.isWhole_whole _

theorem N_pos1 : 0 < cfg1.N := by decide
abbrev t0 : Fin cfg1.N := ⟨0, N_pos1⟩

/-- The first point's run, at a point `t` that is the first. -/
abbrev runA (c : Dev nD) (t : Fin cfg1.N) (h : t.val = 0) :=
  bodyRun_A (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) mS hS ((hcond1 t).mpr h) (iblk W c 0 t) (iblk W c 1 t) (iblk W c 2 t) (iblk W c 3 t) (iblk W c 4 t)

/-- What the first point leaves in the scratch: its pieces read back. -/
def scr (c : Dev nD) : Vec F S64x512 .bf16 :=
  VS.read (Elt F) (VS.writes (Elt F) VS.junk (runA W c t0 rfl).1.2)

/-- A later point's run, at the scratch as the first point left it. -/
abbrev runB (c : Dev nD) (t : Fin cfg1.N) (h : ¬t.val = 0) :=
  bodyRun_B (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) mS hS (fun hc => h ((hcond1 t).mp hc)) (iblk W c 0 t) (iblk W c 1 t) (iblk W c 2 t) (iblk W c 3 t) (iblk W c 4 t) (scr W c)

/-- What the body leaves in the output window's buffer at point `t`. -/
def outsAt (c : Dev nD) (t : Fin cfg1.N) : Vec F S5000x512 .f32 :=
  if h : t.val = 0 then VO.read (Elt F) (VO.writes (Elt F) VO.junk (runA W c t h).1.1)
  else VO.read (Elt F) (VO.writes (Elt F) VO.junk (runB W c t h).1)

theorem outsAt_A (c : Dev nD) (t : Fin cfg1.N) (h : t.val = 0) :
    outsAt W c t = VO.read (Elt F) (VO.writes (Elt F) VO.junk (runA W c t h).1.1) := dif_pos h
theorem outsAt_B (c : Dev nD) (t : Fin cfg1.N) (h : ¬t.val = 0) :
    outsAt W c t = VO.read (Elt F) (VO.writes (Elt F) VO.junk (runB W c t h).1) := dif_neg h

/-- The pieces each run found tile the buffer they were written to, so they cover it. -/
theorem coverA_out (c : Dev nD) (t : Fin cfg1.N) (h : t.val = 0) (y : S5000x512.Idx) : ∃ pc ∈ (runA W c t h).1.1, y ∈ pc.1.set :=
  View.cover_of_tiledL (runA W c t h).1.1 S5000x512.size (by sl_kernel_rfl) y
theorem coverA_scr (c : Dev nD) (t : Fin cfg1.N) (h : t.val = 0) (y : S64x512.Idx) : ∃ pc ∈ (runA W c t h).1.2, y ∈ pc.1.set :=
  View.cover_of_tiledL (runA W c t h).1.2 S64x512.size (by sl_kernel_rfl) y
theorem coverB_out (c : Dev nD) (t : Fin cfg1.N) (h : ¬t.val = 0) (y : S5000x512.Idx) : ∃ pc ∈ (runB W c t h).1, y ∈ pc.1.set :=
  View.cover_of_tiledL (runB W c t h).1 S5000x512.size (by sl_kernel_rfl) y

/-- The scratch, before the first point at anything, from then on at `scr`. -/
def ΦS (c : Dev nD) (n : ℕ) : sProp 𝕄 :=
  if n = 0 then Pipeline.scopedRest (Ix := HIx 1) (Name := ℕ) (U := UU) (Lvl := ℕ) (Val := Elt F) spec1 c
  else owns (c : Thread nD τ) mS fullShare (scr W c)

/-- The proof data on core `c`. -/
def dat (c : Dev nD) : Dat τ (Elt F) (HIx 1) ℕ UU ℕ cfg1 c where
  A w := VW W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => outsAt W c t
  Φ t := ΦS W c t.val
  q _ := fullShare
  owed _ := 0

theorem A_eq (c : Dev nD) (w : Fin cfg1.W) : (dat W c).A w = VW W c (Pipeline.arrRef spec1 w) := by dsimp only [dat]
theorem after1_0 (c : Dev nD) (t : Fin cfg1.N) : (dat W c).after 0 t = iblk W c 0 t := by dsimp only [dat]
theorem after1_1 (c : Dev nD) (t : Fin cfg1.N) : (dat W c).after 1 t = iblk W c 1 t := by dsimp only [dat]
theorem after1_2 (c : Dev nD) (t : Fin cfg1.N) : (dat W c).after 2 t = iblk W c 2 t := by dsimp only [dat]
theorem after1_3 (c : Dev nD) (t : Fin cfg1.N) : (dat W c).after 3 t = iblk W c 3 t := by dsimp only [dat]
theorem after1_4 (c : Dev nD) (t : Fin cfg1.N) : (dat W c).after 4 t = iblk W c 4 t := by dsimp only [dat]
theorem after1_5 (c : Dev nD) (t : Fin cfg1.N) : (dat W c).after 5 t = outsAt W c t := by dsimp only [dat]

/-- Each input window's current buffer holds its block at every point, fetched there or not. -/
theorem before1_0 (c : Dev nD) (t : Fin cfg1.N) (d) : (dat W c).before 0 t d = iblk W c 0 t :=
  ((dat W c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat W c).before 1 t d = iblk W c 1 t :=
  ((dat W c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat W c).before 2 t d = iblk W c 2 t :=
  ((dat W c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat W c).before 3 t d = iblk W c 3 t :=
  ((dat W c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dat W c).before 4 t d = iblk W c 4 t :=
  ((dat W c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)

end Cert.KernelIdeal.Run

end
-- ==== Proof.RegionBody.lean ====
/-
  The row pipeline's body obligation: at every point, from the scratch's state and every window's current buffer at what
  it then holds, the body runs to the next point's state. At the first point the scratch is at anything and ends at
  `scr`; at a later point it is at `scr` and stays. The input windows' buffers hold their blocks and are left as found;
  the output window's buffer ends at `outsAt`. What a run wrote is read back through its pieces' cover.
-/
import proofs.«210447_g31353261261282_cont_9to1_114_24_alg».proof.Proof.RegionData

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Valuation τ sig (Elt F))

/-- What the body is called with at point `t`, the windows one by one, -/
def bodyPre (c : Dev nD) (t : Fin cfg1.N) : sProp 𝕄 :=
  iprop((dat W c).Φ t.castSucc ∗ (dat W c).owesAt none t.castSucc
    ∗ (∃ d, owns (c : Thread nD τ) (ms1_0 t) fullShare ((dat W c).before 0 t d))
    ∗ (∃ d, owns (c : Thread nD τ) (ms1_1 t) fullShare ((dat W c).before 1 t d))
    ∗ (∃ d, owns (c : Thread nD τ) (ms1_2 t) fullShare ((dat W c).before 2 t d))
    ∗ (∃ d, owns (c : Thread nD τ) (ms1_3 t) fullShare ((dat W c).before 3 t d))
    ∗ (∃ d, owns (c : Thread nD τ) (ms1_4 t) fullShare ((dat W c).before 4 t d))
    ∗ (∃ d, owns (c : Thread nD τ) (ms1_5 t) fullShare ((dat W c).before 5 t d)))

/-- and what it returns. -/
def bodyPost (c : Dev nD) (t : Fin cfg1.N) : sProp 𝕄 :=
  iprop((dat W c).Φ t.succ ∗ (dat W c).owesAt none t.succ
    ∗ owns (c : Thread nD τ) (ms1_0 t) fullShare ((dat W c).after 0 t)
    ∗ owns (c : Thread nD τ) (ms1_1 t) fullShare ((dat W c).after 1 t)
    ∗ owns (c : Thread nD τ) (ms1_2 t) fullShare ((dat W c).after 2 t)
    ∗ owns (c : Thread nD τ) (ms1_3 t) fullShare ((dat W c).after 3 t)
    ∗ owns (c : Thread nD τ) (ms1_4 t) fullShare ((dat W c).after 4 t)
    ∗ owns (c : Thread nD τ) (ms1_5 t) fullShare ((dat W c).after 5 t))

omit [FloatOps F] in
/-- A buffer held at known contents is held at some contents. -/
theorem owns_forget {Sh : Shape} {e : EltTy} (c : Dev nD) (M : Memref sig .tc .vmem Sh e) (X : Sh.Idx → Elt F e) :
    (owns (c : Thread nD τ) M fullShare X : sProp 𝕄) ⊢ iprop(∃ f, M.view.loc (c : Thread nD τ) ↦[M.view.set]{fullShare} f) := by
  unfold owns; iintro ⟨%f, -, H⟩; iexists f; iexact H

theorem Φ_cast (c : Dev nD) (t : Fin cfg1.N) : (dat W c).Φ t.castSucc = ΦS W c t.val := rfl
theorem Φ_succ (c : Dev nD) (t : Fin cfg1.N) : (dat W c).Φ t.succ = owns (c : Thread nD τ) mS fullShare (scr W c) := by
  show ΦS W c (t.val + 1) = _
  unfold ΦS; rw [if_neg (Nat.succ_ne_zero _)]

set_option maxHeartbeats 1600000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4]
  rw [Φ_cast, Φ_succ, show (dat W c).owesAt none t.succ = (dat W c).owesAt none t.castSucc from rfl,
    after1_0, after1_1, after1_2, after1_3, after1_4, after1_5]
  by_cases h0 : t.val = 0
  · rw [outsAt_A W c t h0]
    unfold ΦS; rw [if_pos h0, scopedRest1_eq]
    iintro ⟨⟨%fs, Hs⟩, Ho, ⟨%d0, H0⟩, ⟨%d1, H1⟩, ⟨%d2, H2⟩, ⟨%d3, H3⟩, ⟨%d4, H4⟩, ⟨%d5, H5⟩⟩
    iapply ((runA W c t h0).2 Set.univ _)
    isplitl [H0]; · iexact H0
    isplitl [H1]; · iexact H1
    isplitl [H2]; · iexact H2
    isplitl [H3]; · iexact H3
    isplitl [H4]; · iexact H4
    isplitl [H5]; · iapply (owns_forget (F := F) _ _ _); iexact H5
    isplitl [Hs]
    · iexists fs; simp only [Memref.view_whole, View.set_whole]; iexact Hs
    iintro ⟨H0, H1, H2, H3, H4, ⟨%e5, H5⟩, ⟨%e7, H7⟩⟩
    isplitl [H7]
    · unfold owns; iexists _; isplitr
      swap; · iexact H7
      ipureintro
      have hs : scr W c = VS.read (Elt F) (VS.writes (Elt F) VS.junk (runA W c t h0).1.2) := by
        have ht : t = t0 := Fin.ext h0
        subst ht; rfl
      rw [hs]
      exact View.read_writes_of_cover _ _ _ _ _ (coverA_scr W c t h0)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA_out W c t h0)
  · rw [outsAt_B W c t h0]
    unfold ΦS; rw [if_neg h0]
    iintro ⟨Hs, Ho, ⟨%d0, H0⟩, ⟨%d1, H1⟩, ⟨%d2, H2⟩, ⟨%d3, H3⟩, ⟨%d4, H4⟩, ⟨%d5, H5⟩⟩
    iapply ((runB W c t h0).2 Set.univ _)
    isplitl [H0]; · iexact H0
    isplitl [H1]; · iexact H1
    isplitl [H2]; · iexact H2
    isplitl [H3]; · iexact H3
    isplitl [H4]; · iexact H4
    isplitl [H5]; · iapply (owns_forget (F := F) _ _ _); iexact H5
    isplitl [Hs]; · iexact Hs
    iintro ⟨H0, H1, H2, H3, H4, ⟨%e5, H5⟩, Hs⟩
    isplitl [Hs]; · iexact Hs
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB_out W c t h0)

/-- The library's body obligation, at every point. -/
theorem body_obligation (c : Dev nD) : BodyObligation (dat (F := F) W c) (defs₀ (F := F)) Variants.none none Set.univ := fun t => by
  rw [bigSep_W1, bigSep_W1]
  exact sound_body W c t

end Cert.KernelIdeal.Run

end
-- ==== Proof.Region.lean ====
/-
  The row pipeline as one step of the main program: entered holding the main program's arrays, it ends with the result
  array at `outArr`, what the pipeline's write-backs leave in it — a function of the five arrays it reads (the rows `x`,
  the mask as 32-bit words in 20 × 1 × 5000, the two factors in the narrow format, the table of partial counts) —, every
  other array as it was. The windows' arrays are split out of the held buffers at the entry and put back at the exit; the
  carried scratch enters the pipeline's state from the scoped buffers no window stages, and returns to them.
-/
import proofs.«210447_g31353261261282_cont_9to1_114_24_alg».proof.Proof.RegionBody
import Idealize.ShloMosaic.Lib.Pipeline.Sound

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat)

variable {F : FTy → Type}

local notation "𝕄" => MT nD τ sig (HIx 1) (Elt F) ℕ UU ℕ

/-! ## The main program's arrays -/

abbrev x' : DevRef τ sig := Proc.devRef .tc (main_arg0 : Ref sig .tc)
abbrev mk' : DevRef τ sig := Proc.devRef .tc (main_arg1 : Ref sig .tc)
abbrev e' : DevRef τ sig := Proc.devRef .tc (main_arg2 : Ref sig .tc)
abbrev A' : DevRef τ sig := Proc.devRef .tc (main_arg3 : Ref sig .tc)
abbrev B' : DevRef τ sig := Proc.devRef .tc (main_arg4 : Ref sig .tc)
abbrev h' : DevRef τ sig := Proc.devRef .tc (main_v0 : Ref sig .tc)
abbrev Ab' : DevRef τ sig := Proc.devRef .tc (main_v1 : Ref sig .tc)
abbrev Bb' : DevRef τ sig := Proc.devRef .tc (main_v2 : Ref sig .tc)
abbrev m3' : DevRef τ sig := Proc.devRef .tc (main_v3 : Ref sig .tc)
abbrev m4' : DevRef τ sig := Proc.devRef .tc (main_v4 : Ref sig .tc)
abbrev o' : DevRef τ sig := Proc.devRef .tc (main_v5 : Ref sig .tc)

/-- The TensorCore's arrays, all unscoped. -/
abbrev Sall : Finset (DevRef τ sig) := {x', mk', e', A', B', h', Ab', Bb', m3', m4', o'}

/-- They are the TensorCore's unscoped references. -/
theorem Sall_unscoped : Sall = (StableHlo.tcRefs τ sig).filter fun b => ¬ b.isScoped := by decide

variable [FloatOps F]

theorem unscopedBufs_held (c : Dev nD) (W : Valuation τ sig (Elt F)) :
    (unscopedBufs c (VW W c) : sProp 𝕄) = held (c : Thread nD τ) Sall W := by
  rw [Sall_unscoped]
  unfold unscopedBufs StableHlo.held StableHlo.tcRefs
  rw [Finset.filter_map, bigSep_map]
  rfl

/-- The result array, from the arrays the pipeline reads: what the write-backs of all twenty points leave. -/
def outArr (d : Dev nD) (W : Valuation τ sig (Elt F)) : Buf (Elt F) ((d, o') : Loc nD τ sig) :=
  (dat W d).arrAt 5 cfg1.N

/-- What the launch deals the main program for the pipeline: its staging cells' ghost state and its duties' tokens. -/
def G (d : Dev nD) : sProp 𝕄 :=
  iprop(Pipeline.cellsGhost cfgs EP 0 d ∗ Pipeline.toksInit cfgs EP 0 d)

/-! ## The region's record -/

abbrev adm : (p : Fin 1) → (pcfgs (F := F) p).Adm := fun p => (cfgs p).toPCfg_adm

variable (W : Valuation τ sig (Elt F))

/-- The proof data of the one pipeline. -/
def dats (_ : Fin 1) (c : Dev nD) : Dat τ (Elt F) (HIx 1) ℕ UU ℕ cfg1 c := dat W c

/-- The valuation the region leaves: the result array at `outArr`. -/
def Wfin (d : Dev nD) : Valuation τ sig (Elt F) := Function.update W o' (outArr d W)

theorem ownSemFacts : Pipeline.OwnSemFacts spec1 (Fin.elim0 : Fin 0 → SemLoc sig) := by decide

/-- An input window's array is never written: after every point it is as found. -/
theorem arrAt_in_w (c : Dev nD) (w : Fin cfg1.W) (hw : (cfg1.win w).isOut = false) (n : ℕ) : (dat W c).arrAt w n = (dat W c).A w :=
  (dat W c).arrAt_in w hw n

set_option backward.isDefEq.respectTransparency.types false in
/-- THE REGION: the launch kit's layout, no semaphore of the kernel's own, the body obligation; entered from the held
    arrays and the core owing nothing — the windows' arrays into the pipeline, the other arrays bypassing, the scratch
    into the pipeline's state from the scoped rest —, left with the arrays put back at the updated valuation. -/
def reg : Pipeline.RegionSeg (pcfgs (F := F)) adm (dats W) none defs₀ 𝒱₀ (K (F := F)).L (K (F := F)).lev 0 where
  win := launch1.win.to₀
  block_pos := launch1.block_pos
  stage_whole := launch1.stage_whole
  K := Fin 0
  osem := Fin.elim0
  ho := ownSemFacts
  hbody c := (body_obligation W c).loose
  hwaits := Pipeline.hwaits_of_owed_zero _ _ _ _ (K (F := F)).L (K (F := F)).lev 0 fun _ _ => rfl
  pre c := iprop(held (c : Thread nD τ) Sall W ∗ ∃ Wt, owes (c : Thread nD τ) (0 : CellTallies nD τ sig (HIx 1)) Wt)
  post c := iprop(held (c : Thread nD τ) Sall (Wfin W c) ∗ ∃ Wt, owes (c : Thread nD τ) (0 : CellTallies nD τ sig (HIx 1)) Wt)
  X _ := iprop(emp)
  Y _ := iprop(emp)
  Z c := Pipeline.unscopedRest spec1 c (VW W c)
  hentry c := by
    rw [← unscopedBufs_held c W]
    have hsplit := Pipeline.arrays_of_unscopedBufs (pcfgs (F := F)) adm (dats W) (p := 0) launch1.win launch1.arr_whole c
      ((dat W c).share_full fun _ => rfl) (VW W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    iexact Hrest
  hin c := by
    rw [show (dats W 0 c).Φ 0 = ΦS W c 0 from rfl]; unfold ΦS; rw [if_pos rfl]
    iintro ⟨-, -, Hr⟩; iexact Hr
  hout c := by
    rw [show (dats W 0 c).Φ (Fin.last cfg1.N) = ΦS W c cfg1.N from rfl]; unfold ΦS; rw [if_neg (by decide), scopedRest1_eq]
    iintro Hs
    isplitr; · iempintro
    isplitr
    · unfold Pipeline.ownSems0; rw [show (Finset.univ : Finset (Fin 0)) = ∅ from rfl, BI.bigSep_empty]; iempintro
    unfold owns
    icases Hs with ⟨%f, -, Hs⟩
    iexists f; simp only [Memref.view_whole, View.set_whole]; iexact Hs
  hexit c := by
    have hjoin := Pipeline.unscopedBufs_of_arrays (pcfgs (F := F)) adm (p := 0) launch1.win launch1.arr_whole c (dats W)
      ((dat W c).share_full fun _ => rfl) (VW W c) (VW (Wfin W c) c) (fun w => (dats W 0 c).arrAt w cfg1.N)
      (fun w => by
        match w with
        | ⟨0, _⟩ => exact (arrAt_in_w W c 0 rfl _).trans (Function.update_of_ne (f := W) (a := x') (a' := o') (by decide) (outArr c W)).symm
        | ⟨1, _⟩ => exact (arrAt_in_w W c 1 rfl _).trans (Function.update_of_ne (f := W) (a := m4') (a' := o') (by decide) (outArr c W)).symm
        | ⟨2, _⟩ => exact (arrAt_in_w W c 2 rfl _).trans (Function.update_of_ne (f := W) (a := Ab') (a' := o') (by decide) (outArr c W)).symm
        | ⟨3, _⟩ => exact (arrAt_in_w W c 3 rfl _).trans (Function.update_of_ne (f := W) (a := h') (a' := o') (by decide) (outArr c W)).symm
        | ⟨4, _⟩ => exact (arrAt_in_w W c 4 rfl _).trans (Function.update_of_ne (f := W) (a := Bb') (a' := o') (by decide) (outArr c W)).symm
        | ⟨5, _⟩ => exact (Function.update_self (f := W) o' (outArr c W)).symm)
      (fun b hb => by
        show Function.update W o' (outArr c W) (Proc.devRef .tc b) = W (Proc.devRef .tc b)
        exact Function.update_of_ne (fun e => hb (Finset.mem_image.mpr ⟨(5 : Fin 6), Finset.mem_univ _, (Proc.devRef_injective _ e).symm⟩)) _ _)
    iintro ⟨Ha, HO, -, HZ⟩
    imodintro
    isplitr [HO]
    · rw [← unscopedBufs_held c (Wfin W c)]
      iapply hjoin
      isplitl [Ha] <;> iassumption
    · unfold Pipeline.Dat.owesAt Pipeline.owesWithin
      icases HO with ⟨%Wt, -, HO⟩; iexists Wt; iexact HO

/-! ## The pipeline's call in the main program -/

/-- The call as the main program spells it is the pipeline's own call, lifted. -/
theorem lift_call :
    (SparseCore.liftProg (Q := 1) (Prog.lift (.customCall (Pipeline.entry 0) ()) : Prog (TpuEff nD τ sig (Elt F) (ΛP (F := F)) .tc) PUnit))
      = Prog.lift (.customCall (SparseCore.inner (Pipeline.entry 0)) ()) := rfl

set_option backward.isDefEq.respectTransparency.types false in
/-- The pipeline's own call, under the pipeline's body table. -/
theorem region_inner [∀ e, Nonempty (Elt F e)] (d : Dev nD) (W : Valuation τ sig (Elt F)) (r : PrngReg) (Wt : Waits sig (HIx 1)) {Φ : PUnit → sProp 𝕄} :
    iprop(levAts (K (F := F)).L (K (F := F)).lev ∗ G d ∗ boundary (T d) ∗ held (T d) Sall W ∗ prngReg d r ∗ owes (T d) 0 Wt
        ∗ ((boundary (T d) ∗ held (T d) Sall (Function.update W o' (outArr d W)) ∗ prngReg d r ∗ ∃ Wt', owes (T d) 0 Wt') -∗ Φ ⟨⟩))
      ⊢ wp frame (wpE (D (F := F)) 𝒱 (T d) none) Set.univ
          (Prog.lift (.customCall (Pipeline.entry 0) ()) : Prog (TpuEff nD τ sig (Elt F) (ΛP (F := F)) .tc) PUnit) Φ := by
  iintro ⟨#Hla, HG, Hbd, Hheld, Hprng, HO, Hk⟩
  unfold G
  icases HG with ⟨Hg, Ht⟩
  iapply (Pipeline.RegionSeg.wp (pcfgs (F := F)) adm (dats W) none cellOf_inj EP defs₀ 𝒱₀ (K (F := F)).L (K (F := F)).lev (reg W) d none
    (fun _ h => nomatch h) (fun _ => .ret ⟨⟩) Φ)
  isplitl [Hk Hprng]
  · iintro Hboth
    icases Hboth with ⟨Hbd, Hpost⟩
    ihave Hpost' := (show (reg W).post d ⊢ iprop(held (T d) Sall (Function.update W o' (outArr d W)) ∗ ∃ Wt', owes (T d) (0 : CellTallies nD τ sig (HIx 1)) Wt') from BI.Entails.refl _) $$ Hpost
    icases Hpost' with ⟨Hheld, HO⟩
    rw [wp_ret]; imodintro
    iapply Hk
    isplitl [Hbd]; · iexact Hbd
    isplitl [Hheld]; · iexact Hheld
    isplitl [Hprng]; · iexact Hprng
    iexact HO
  isplitl [Hbd]; · iexact Hbd
  isplitl [Hheld HO]
  · iapply (show iprop(held (T d) Sall W ∗ ∃ Wt', owes (T d) (0 : CellTallies nD τ sig (HIx 1)) Wt') ⊢ (reg W).pre d from BI.Entails.refl _)
    isplitl [Hheld]; · iexact Hheld
    iexists Wt; iexact HO
  isplitr; · iexact Hla
  isplitl [Hg] <;> iassumption

/-- The pipeline's call in the main program, owing nothing: the result array ends at `outArr`, the other arrays as found. -/
theorem region_wp [∀ e, Nonempty (Elt F e)] (d : Dev nD) (W : Valuation τ sig (Elt F)) (r : PrngReg) (Wt : Waits sig (HIx 1)) {Φ : PUnit → sProp 𝕄} :
    iprop(levAts (K (F := F)).L (K (F := F)).lev ∗ G d ∗ boundary (T d) ∗ held (T d) Sall W ∗ prngReg d r ∗ owes (T d) 0 Wt
        ∗ ((boundary (T d) ∗ held (T d) Sall (Function.update W o' (outArr d W)) ∗ prngReg d r ∗ ∃ Wt', owes (T d) 0 Wt') -∗ Φ ⟨⟩))
      ⊢ wp frame (wpE ((K (F := F)).defs (D (F := F))) 𝒱 (T d) none) Set.univ
          (Prog.lift (.customCall (SparseCore.inner (Pipeline.entry 0)) ())) Φ := by
  have hl := (K (F := F)).wp_liftProg (nD := nD) (Name := ℕ) (U := UU) (D (F := F)) 𝒱 (T d) Set.univ none
    (Prog.lift (.customCall (Pipeline.entry 0) ()) : Prog (TpuEff nD τ sig (Elt F) (ΛP (F := F)) .tc) PUnit) Φ
  rw [lift_call] at hl
  exact (region_inner d W r Wt).trans hl

end Cert.KernelIdeal.Run

end
-- ==== Proof.LaunchMainA.lean ====
/-
  The launch of the program, first part: the ghost state's launch element dealt to the handshakes, the row pipeline's
  staging cells and the tasks; the edge list and the table of partial counts cut into the 32 tasks' chunks and rows and
  joined again; the main program's four host operations and the arrays' contents along the program.
-/
import proofs.«210447_g31353261261282_cont_9to1_114_24_alg».proof.Proof.Common
import proofs.«210447_g31353261261282_cont_9to1_114_24_alg».proof.Proof.Region
import Idealize.ShloMosaic.Lib.SparseCore.Launch
import Idealize.ShloMosaic.Lib.StableHlo.Run
import Idealize.ShloMosaic.Lib.Pipeline.Kit
import Idealize.ShloMosaic.Lib.Pipeline.Sound
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The launch element -/

/-- The launch element: the handshakes' rounds at their start, the row pipeline's staging cells and duties at their
    start, every transfer counter at its unit. -/
def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

variable (m : (ℓ : Loc nD τ sig) → Buf (Elt F) ℓ) (ρ : Dev nD → PrngReg)
variable (Hf : (d : Dev nD) → Buf (Elt F) (hLoc d))

theorem bigSep_emp' {I : Type} (s : Finset I) : (bigSep s fun _ => iprop(emp)) = (iprop(emp) : sProp 𝕄) := bigSep_emp_const s

/-- The right factor's pair, owned through the right embedding, is the middle factor owned through `EP` beside the
    counters. -/
theorem own_right_pair (b : UP) (c : Counters) :
    (BI.own ((embR : Emb (UP × Counters) 𝕄) (b, c)) : sProp 𝕄)
      ⊢ iprop(BI.own ((EP : Emb UP 𝕄) b) ∗ BI.own ((((Emb.inr : Emb Counters (UP × Counters)).trans (embR : Emb (UP × Counters) 𝕄))) c)) :=
  own_pair_emb (embR : Emb (UP × Counters) 𝕄) b c

variable [FloatOps F]

/-- The pipeline's share of the launch element funds, for every device, the staging cells' ghost state and the duties'
    tokens. -/
theorem fund_G :
    (BI.own ((EP : Emb UP 𝕄) (initOf (Pipeline.cells (nD := nD) (τ := τ) cfgs Gen.cellOf_inj) (Pipeline.launchToks (nD := nD) (τ := τ) cfgs Gen.cellOf_inj))) : sProp 𝕄)
      ⊢ iprop(|==> bigSep Finset.univ fun d : Dev nD => G (F := F) d) := by
  refine (Pipeline.fund_ghost (nD := nD) (τ := τ) cfgs (EP : Emb UP 𝕄) Gen.cellOf_inj).trans (bupd_mono ?_)
  unfold G
  rw [bigSep_sep']
  refine sep_mono ?_ ?_
  · exact Entails.of_eq (bigSep_congr fun d _ => bigSep_univ_of_subsingleton (0 : Fin 1))
  · exact Entails.of_eq (bigSep_congr fun d _ => bigSep_univ_of_subsingleton (0 : Fin 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m Hf).x q thr) := by
  unfold u₀
  iintro Hu
  ihave H := (ownU_pair _ _) $$ Hu
  icases H with ⟨HH, HR⟩
  ihave HR' := (own_right_pair _ _) $$ HR
  icases HR' with ⟨HP, -⟩
  ihave HG := (fund_G (F := F)) $$ HP
  iapply bupd_fupd
  imod HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays cut into the tasks' chunks and rows -/

section Pieces

omit [FloatOps F]

theorem eSet_eq (w : Fin 32) : eSet w = (eChunk w).set := by
  show ((View.whole (main_arg2_scv : Ref sig .scVector)).slice (eChunk w)).set = _
  rw [View.set_slice]; exact Finset.map_refl
theorem hSet_eq (w : Fin 32) : hSet w = (hRow w).set := by
  show ((View.whole (main_v0_scv : Ref sig .scVector)).slice (hRow w)).set = _
  rw [View.set_slice]; exact Finset.map_refl

theorem eSets_disjoint : ∀ i ∈ (Finset.univ : Finset (Fin 32)), ∀ j ∈ (Finset.univ : Finset (Fin 32)), i ≠ j → Disjoint (eSet i) (eSet j) :=
  fun i _ j _ h => by rw [eSet_eq, eSet_eq]; exact Rect.part_disjoint hdivE h
theorem eSets_cover : (Finset.univ : Finset (Fin 32)).biUnion eSet = Finset.univ :=
  (Finset.biUnion_congr rfl fun i _ => eSet_eq i).trans (Rect.biUnion_part hdivE)
theorem hSets_disjoint : ∀ i ∈ (Finset.univ : Finset (Fin 32)), ∀ j ∈ (Finset.univ : Finset (Fin 32)), i ≠ j → Disjoint (hSet i) (hSet j) :=
  fun i _ j _ h => by rw [hSet_eq, hSet_eq]; exact Rect.part_disjoint hdivH h
theorem hSets_cover : (Finset.univ : Finset (Fin 32)).biUnion hSet = Finset.univ :=
  (Finset.biUnion_congr rfl fun i _ => hSet_eq i).trans (Rect.biUnion_part hdivH)

/-- The edge list is its 32 chunks. -/
theorem ePts_chunks (d : Dev nD) (f : Buf (Elt F) (eLoc d)) :
    (eLoc d ↦{fullShare} f : sProp 𝕄) = bigSep Finset.univ fun w : Fin 32 => eLoc d ↦[eSet w]{fullShare} f := by
  rw [← pointsTo_biUnion Finset.univ (ℓ := eLoc d) eSet eSets_disjoint, eSets_cover]; try rfl
/-- The table is its 32 rows. -/
theorem hPts_rows (d : Dev nD) (f : Buf (Elt F) (hLoc d)) :
    (hLoc d ↦{fullShare} f : sProp 𝕄) = bigSep Finset.univ fun w : Fin 32 => hLoc d ↦[hSet w]{fullShare} f := by
  rw [← pointsTo_biUnion Finset.univ (ℓ := hLoc d) hSet hSets_disjoint, hSets_cover]; try rfl

/-- Rows held at whatever contents join into the table at some contents. -/
theorem hRows_join [∀ e, Nonempty (Elt F e)] (d : Dev nD) :
    (bigSep Finset.univ fun w : Fin 32 => iprop(∃ f, hRowPts d w f)) ⊢ (iprop(∃ f, hPts d f) : sProp 𝕄) := by
  refine (bigSep_exists_pi Finset.univ (fun w (f : Buf (Elt F) (hLoc d)) => hRowPts d w f)).trans ?_
  iintro ⟨%fs, H⟩
  ihave H' := (pointsTo_biUnion_join Finset.univ hSet fs (fs 0) hSets_disjoint) $$ H
  icases H' with ⟨%g, -, Hg⟩
  rw [hSets_cover]
  iexists g; iexact Hg

/-- The table at some contents is its rows, each at some contents. -/
theorem hRows_split (d : Dev nD) :
    (iprop(∃ f, hPts d f) : sProp 𝕄) ⊢ bigSep Finset.univ fun w : Fin 32 => iprop(∃ f, hRowPts d w f) := by
  have X : ∀ f, (hPts d f : sProp 𝕄) ⊢ bigSep Finset.univ fun w : Fin 32 => iprop(∃ f, hRowPts d w f) := by
    intro f
    unfold hPts; rw [hPts_rows]
    have Y : ∀ w : Fin 32, (hLoc d ↦[hSet w]{fullShare} f : sProp 𝕄) ⊢ iprop(∃ f, hRowPts d w f) := by
      intro w; iintro H; iexists f; iexact H
    exact bigSep_mono fun w _ => Y w
  exact exists_elim fun f => X f

/-- Task `(c, i)` ↦ its chunk number `2 i + c`: the 2 × 16 tasks are the 32 chunks, each once. -/
def widEquiv : Fin 2 × Fin 16 ≃ Fin 32 where
  toFun p := wid p.1.val p.2.val
  invFun w := (⟨w.val % 2, Nat.mod_lt _ (by decide)⟩, ⟨w.val / 2, by have := w.isLt; omega⟩)
  left_inv p := by
    have h := wid_val p.1.isLt p.2.isLt
    refine Prod.ext (Fin.ext ?_) (Fin.ext ?_)
    · show (wid p.1.val p.2.val).val % 2 = p.1.val; rw [h]; have := p.1.isLt; omega
    · show (wid p.1.val p.2.val).val / 2 = p.2.val; rw [h]; have := p.1.isLt; omega
  right_inv w := by
    refine Fin.ext ?_
    have h := wid_val (c := w.val % 2) (i := w.val / 2) (Nat.mod_lt _ (by decide)) (by have := w.isLt; omega)
    show (wid (w.val % 2) (w.val / 2)).val = w.val
    rw [h]; omega

/-- A conjunction over the tasks of the two cores is the conjunction over the 32 chunks. -/
theorem bigSep_tasks (Φ : Fin 32 → sProp 𝕄) :
    (bigSep Finset.univ fun c : Fin ((K (F := F)).nCore 0) => bigSep Finset.univ fun i : Fin ((K (F := F)).nSub 0) => Φ (wid c.val i.val))
      = bigSep Finset.univ Φ := by
  show (bigSep (Finset.univ : Finset (Fin 2)) fun c => bigSep (Finset.univ : Finset (Fin 16)) fun i => Φ (wid c.val i.val)) = _
  rw [bigSep_univ_equiv widEquiv Φ, bigSep_univ_prod]
  rfl

end Pieces

/-- What the call takes for the two cores is the edge list and the table (at whatever it holds), -/
theorem st0_of (d : Dev nD) :
    iprop(ePts m d ∗ ∃ f, hPts d f) ⊢ (bigSep Finset.univ fun c : Fin ((K (F := F)).nCore 0) => (P m Hf).st 0 d c) := by
  show _ ⊢ (bigSep Finset.univ fun c : Fin ((K (F := F)).nCore 0) => bigSep Finset.univ fun i : Fin ((K (F := F)).nSub 0) => goFor m d (wid c.val i.val))
  rw [bigSep_tasks (F := F) (fun w => goFor m d w)]
  unfold goFor
  rw [bigSep_sep']
  unfold ePts eChunkPts
  rw [ePts_chunks]
  exact sep_mono .rfl (hRows_split d)

/-- and what it hands back is the edge list and the table the counting leaves. -/
theorem dn0_to (d : Dev nD) :
    (bigSep Finset.univ fun c : Fin ((K (F := F)).nCore 0) => (P m Hf).dn 0 d c) ⊢ iprop(ePts m d ∗ hPts d (Hf d)) := by
  show (bigSep Finset.univ fun c : Fin ((K (F := F)).nCore 0) => bigSep Finset.univ fun i : Fin ((K (F := F)).nSub 0) => tdFor m Hf d (wid c.val i.val)) ⊢ _
  rw [bigSep_tasks (F := F) (fun w => tdFor m Hf d w)]
  unfold tdFor
  rw [bigSep_sep']
  unfold ePts eChunkPts hPts hRowPts
  rw [ePts_chunks, hPts_rows]

/-- Conversely, what the call takes for the two cores joins into the edge list and the table at some contents. -/
theorem st0_to [∀ e, Nonempty (Elt F e)] (d : Dev nD) :
    (bigSep Finset.univ fun c : Fin ((K (F := F)).nCore 0) => (P m Hf).st 0 d c) ⊢ iprop(ePts m d ∗ ∃ f, hPts d f) := by
  show (bigSep Finset.univ fun c : Fin ((K (F := F)).nCore 0) => bigSep Finset.univ fun i : Fin ((K (F := F)).nSub 0) => goFor m d (wid c.val i.val)) ⊢ _
  rw [bigSep_tasks (F := F) (fun w => goFor m d w)]
  unfold goFor
  rw [bigSep_sep']
  unfold ePts eChunkPts
  rw [ePts_chunks]
  exact sep_mono .rfl (hRows_join d)

/-! ## The main program's host operations and the arrays' contents along it -/

/-- Rounding to the narrow format, of an array of `A`'s shape and of one of `B`'s; the mask's bits widened to 32-bit
    words; the mask laid out as 20 × 1 × 5000. -/
abbrev fA : (⟨S512x64, .f32⟩ : BufTy).Contents (Elt F) → (⟨S512x64, .bf16⟩ : BufTy).Contents (Elt F) :=
  (truncf .bf16 · Facts₀.bitsLt_bf16_f32)
abbrev fB : (⟨S64x64x512, .f32⟩ : BufTy).Contents (Elt F) → (⟨S64x64x512, .bf16⟩ : BufTy).Contents (Elt F) :=
  (truncf .bf16 · Facts₀.bitsLt_bf16_f32)
abbrev fX : (⟨S20x1x5000, .i1⟩ : BufTy).Contents (Elt F) → (⟨S20x1x5000, .i32⟩ : BufTy).Contents (Elt F) :=
  (extui 32 · Facts₀.natLt_1_32)
abbrev fR : (⟨S100000, .i1⟩ : BufTy).Contents (Elt F) → (⟨S20x1x5000, .i1⟩ : BufTy).Contents (Elt F) :=
  fun v i => shapeCast S20x1x5000 v Facts₀.shapeCasts_S100000_S20x1x5000 i

/-- The factor `A` rounded to the narrow format. -/
abbrev opA : HloOp τ sig (Elt F) := StableHlo.unary main_arg3 main_v1 (fA (F := F))
/-- The factor `B` rounded to the narrow format. -/
abbrev opB : HloOp τ sig (Elt F) := StableHlo.unary main_arg4 main_v2 (fB (F := F))
/-- The mask laid out as 20 × 1 × 5000. -/
abbrev opR : HloOp τ sig (Elt F) := StableHlo.reshape main_arg1 main_v3 rfl Facts₀.shapeCasts_S100000_S20x1x5000
/-- The mask's bits widened to 32-bit words. -/
abbrev opX : HloOp τ sig (Elt F) := StableHlo.unary main_v3 main_v4 (fX (F := F))

/-- The launch valuation; -/
def V0 (d : Dev nD) : Valuation τ sig (Elt F) := fun b => m (d, b)
/-- after the counting call, the table at what the counting leaves; -/
def V1 (d : Dev nD) : Valuation τ sig (Elt F) := Function.update (V0 m d) h' (Hf d)
/-- after the four host operations; -/
def Vh (d : Dev nD) : Valuation τ sig (Elt F) :=
  (opX (F := F)).result ((opR (F := F)).result ((opB (F := F)).result ((opA (F := F)).result (V1 m Hf d))))
/-- after the row pipeline. -/
def Vfin (d : Dev nD) : Valuation τ sig (Elt F) := Function.update (Vh m Hf d) o' (outArr d (Vh m Hf d))

section ReadBack

theorem V1_h (d : Dev nD) : V1 m Hf d h' = Hf d := Function.update_self _ _ _
theorem V1_of_ne (d : Dev nD) {b : DevRef τ sig} (hb : b ≠ h') : V1 m Hf d b = V0 m d b := Function.update_of_ne hb _ _

/-- An array none of the four operations writes is, after them, what it was before. -/
theorem Vh_of_not_written (d : Dev nD) {b : DevRef τ sig} (h1 : b ∉ ({Ab'} : Finset (DevRef τ sig))) (h2 : b ∉ ({Bb'} : Finset (DevRef τ sig)))
    (h3 : b ∉ ({m3'} : Finset (DevRef τ sig))) (h4 : b ∉ ({m4'} : Finset (DevRef τ sig))) : Vh m Hf d b = V1 m Hf d b := by
  unfold Vh
  rw [(opX (F := F)).result_of_not_mem _ (b := b) h4, (opR (F := F)).result_of_not_mem _ (b := b) h3,
    (opB (F := F)).result_of_not_mem _ (b := b) h2, (opA (F := F)).result_of_not_mem _ (b := b) h1]

theorem Vh_x (d : Dev nD) : Vh m Hf d x' = m ((SparseCore.T d).loc main_arg0) :=
  (Vh_of_not_written m Hf d (by decide) (by decide) (by decide) (by decide)).trans (V1_of_ne m Hf d (by decide))
theorem Vh_mk (d : Dev nD) : Vh m Hf d mk' = m ((SparseCore.T d).loc main_arg1) :=
  (Vh_of_not_written m Hf d (by decide) (by decide) (by decide) (by decide)).trans (V1_of_ne m Hf d (by decide))
theorem Vh_e (d : Dev nD) : Vh m Hf d e' = m ((SparseCore.T d).loc main_arg2) :=
  (Vh_of_not_written m Hf d (by decide) (by decide) (by decide) (by decide)).trans (V1_of_ne m Hf d (by decide))
theorem Vh_A (d : Dev nD) : Vh m Hf d A' = m ((SparseCore.T d).loc main_arg3) :=
  (Vh_of_not_written m Hf d (by decide) (by decide) (by decide) (by decide)).trans (V1_of_ne m Hf d (by decide))
theorem Vh_B (d : Dev nD) : Vh m Hf d B' = m ((SparseCore.T d).loc main_arg4) :=
  (Vh_of_not_written m Hf d (by decide) (by decide) (by decide) (by decide)).trans (V1_of_ne m Hf d (by decide))
theorem Vh_h (d : Dev nD) : Vh m Hf d h' = Hf d :=
  (Vh_of_not_written m Hf d (by decide) (by decide) (by decide) (by decide)).trans (V1_h m Hf d)

/-- The narrow `A` is the launch `A` rounded. -/
theorem Vh_Ab (d : Dev nD) :
    Vh m Hf d Ab' = fA (F := F) (m ((SparseCore.T d).loc main_arg3)) := by
  unfold Vh
  rw [(opX (F := F)).result_of_not_mem _ (b := Ab') (show Ab' ∉ ({m4'} : Finset (DevRef τ sig)) by decide),
    (opR (F := F)).result_of_not_mem _ (b := Ab') (show Ab' ∉ ({m3'} : Finset (DevRef τ sig)) by decide),
    (opB (F := F)).result_of_not_mem _ (b := Ab') (show Ab' ∉ ({Bb'} : Finset (DevRef τ sig)) by decide)]
  refine (StableHlo.unary_result main_arg3 main_v1 _ _ _ (V1 m Hf d)).trans ?_
  show fA (F := F) (V1 m Hf d A') = _
  rw [V1_of_ne m Hf d (show A' ≠ h' by decide)]; rfl

/-- The narrow `B` is the launch `B` rounded. -/
theorem Vh_Bb (d : Dev nD) :
    Vh m Hf d Bb' = fB (F := F) (m ((SparseCore.T d).loc main_arg4)) := by
  unfold Vh
  rw [(opX (F := F)).result_of_not_mem _ (b := Bb') (show Bb' ∉ ({m4'} : Finset (DevRef τ sig)) by decide),
    (opR (F := F)).result_of_not_mem _ (b := Bb') (show Bb' ∉ ({m3'} : Finset (DevRef τ sig)) by decide)]
  refine (StableHlo.unary_result main_arg4 main_v2 _ _ _ _).trans ?_
  show fB (F := F) ((opA (F := F)).result (V1 m Hf d) B') = _
  rw [(opA (F := F)).result_of_not_mem _ (b := B') (show B' ∉ ({Ab'} : Finset (DevRef τ sig)) by decide),
    V1_of_ne m Hf d (show B' ≠ h' by decide)]; rfl

/-- The mask's words are the launch mask, laid out as 20 × 1 × 5000 and widened. -/
theorem Vh_m4 (d : Dev nD) :
    Vh m Hf d m4' = fX (F := F) (fR (F := F) (m ((SparseCore.T d).loc main_arg1))) := by
  unfold Vh
  refine (StableHlo.unary_result main_v3 main_v4 _ _ _ _).trans ?_
  show fX (F := F) ((opR (F := F)).result ((opB (F := F)).result ((opA (F := F)).result (V1 m Hf d))) m3') = _
  rw [StableHlo.reshape_result main_arg1 main_v3 rfl Facts₀.shapeCasts_S100000_S20x1x5000 _ _ _]
  show fX (F := F) (fR (F := F) ((opB (F := F)).result ((opA (F := F)).result (V1 m Hf d)) mk')) = _
  rw [(opB (F := F)).result_of_not_mem _ (b := mk') (show mk' ∉ ({Bb'} : Finset (DevRef τ sig)) by decide),
    (opA (F := F)).result_of_not_mem _ (b := mk') (show mk' ∉ ({Ab'} : Finset (DevRef τ sig)) by decide),
    V1_of_ne m Hf d (show mk' ≠ h' by decide)]; rfl

theorem Vfin_o (d : Dev nD) : Vfin m Hf d o' = outArr d (Vh m Hf d) := Function.update_self _ _ _
theorem Vfin_of_ne (d : Dev nD) {b : DevRef τ sig} (hb : b ≠ o') : Vfin m Hf d b = Vh m Hf d b := Function.update_of_ne hb _ _

theorem Vfin_x (d : Dev nD) : Vfin m Hf d x' = m ((SparseCore.T d).loc main_arg0) := (Vfin_of_ne m Hf d (by decide)).trans (Vh_x m Hf d)
theorem Vfin_mk (d : Dev nD) : Vfin m Hf d mk' = m ((SparseCore.T d).loc main_arg1) := (Vfin_of_ne m Hf d (by decide)).trans (Vh_mk m Hf d)
theorem Vfin_e (d : Dev nD) : Vfin m Hf d e' = m ((SparseCore.T d).loc main_arg2) := (Vfin_of_ne m Hf d (by decide)).trans (Vh_e m Hf d)
theorem Vfin_A (d : Dev nD) : Vfin m Hf d A' = m ((SparseCore.T d).loc main_arg3) := (Vfin_of_ne m Hf d (by decide)).trans (Vh_A m Hf d)
theorem Vfin_B (d : Dev nD) : Vfin m Hf d B' = m ((SparseCore.T d).loc main_arg4) := (Vfin_of_ne m Hf d (by decide)).trans (Vh_B m Hf d)

end ReadBack

end Cert.KernelIdeal.Run

end
-- ==== Proof.LaunchMain.lean ====
/-
  The launch of the program, second part: the main program on the TensorCore — the counting call, the four
  host operations, the row pipeline — run from the launch memory; how the final memory reads the claim; and the run of
  the whole mesh of threads from the tasks' proof.
-/
import proofs.«210447_g31353261261282_cont_9to1_114_24_alg».proof.Proof.LaunchMainA

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable (Hf : (d : Dev nD) → Buf (Elt F) (hLoc d))

variable [FloatOps F]

/-! ## The main program's arrays, held whole -/

section Held

omit [FloatOps F] in
/-- The main program's arrays are the TensorCore's unscoped buffers. -/
theorem Sall_eq : Sall = (Finset.univ.filter fun b : Ref sig .tc => ¬ b.isScoped).map ⟨Proc.devRef (sig := sig) (.tc : Proc τ), Proc.devRef_injective _⟩ := by
  decide

/-- The launch's unscoped buffers are the eleven arrays at the launch valuation. -/
theorem unscoped_held (d : Dev nD) :
    (unscopedBufs d (fun b => m ((SparseCore.T d).loc b)) : sProp 𝕄) = held (T d) Sall (V0 m d) := by
  unfold unscopedBufs held
  rw [Sall_eq, bigSep_map]
  rfl

/-- The eleven arrays: the edge list, the table, the other nine. -/
theorem held_call (d : Dev nD) (W : Valuation τ sig (Elt F)) :
    (held (T d) Sall W : sProp 𝕄)
      = iprop(((eLoc d ↦{fullShare} W e') ∗ (hLoc d ↦{fullShare} W h')) ∗ held (T d) (Sall \ {e', h'}) W) := by
  rw [held_sub_split (T d) (show ({e', h'} : Finset (DevRef τ sig)) ⊆ Sall by decide) W]
  congr 1
  unfold held
  rw [SparseCore.bigSep_insert' (by decide), bigSep_singleton]

/-- The other nine are the same at the launch valuation and after the counting call. -/
theorem held_rest_V1 (d : Dev nD) :
    (held (T d) (Sall \ {e', h'}) (V1 m Hf d) : sProp 𝕄) = held (T d) (Sall \ {e', h'}) (V0 m d) := by
  unfold held
  refine bigSep_congr fun b hb => ?_
  rw [V1_of_ne m Hf d (b := b) (fun e => by subst e; exact absurd hb (by decide))]

/-- At the launch: the edge list and the table at the launch contents, and the other nine. -/
theorem held_V0 (d : Dev nD) :
    (held (T d) Sall (V0 m d) : sProp 𝕄) = iprop((ePts m d ∗ hPts d (m (hLoc d))) ∗ held (T d) (Sall \ {e', h'}) (V0 m d)) :=
  held_call d (V0 m d)

/-- After the counting call: the table at what the counting leaves. -/
theorem held_V1 (d : Dev nD) :
    (held (T d) Sall (V1 m Hf d) : sProp 𝕄) = iprop((ePts m d ∗ hPts d (Hf d)) ∗ held (T d) (Sall \ {e', h'}) (V0 m d)) := by
  rw [held_call, held_rest_V1, V1_h, V1_of_ne m Hf d (show e' ≠ h' by decide)]
  rfl

end Held

/-- What the main program leaves the claim: its arrays at the final valuation. -/
abbrev FIN (d : Dev nD) : sProp 𝕄 := held (T d) Sall (Vfin m Hf d)

theorem hA : (opA (F := F)).bufs ⊆ Sall := show ({A', Ab'} : Finset (DevRef τ sig)) ⊆ Sall by decide
theorem hB : (opB (F := F)).bufs ⊆ Sall := show ({B', Bb'} : Finset (DevRef τ sig)) ⊆ Sall by decide
theorem hR : (opR (F := F)).bufs ⊆ Sall := show ({mk', m3'} : Finset (DevRef τ sig)) ⊆ Sall by decide
theorem hX : (opX (F := F)).bufs ⊆ Sall := show ({m3', m4'} : Finset (DevRef τ sig)) ⊆ Sall by decide

/-- With one call, every record of waits sits below the bound the TensorCore's state after the call asks. -/
theorem wbelow_all (thr : Thread nD τ) (W : Waits sig (HIx 1)) : (K (F := F)).WBelow thr W (8 * 1) := by
  intro p _
  rcases hp : p.2 with _ | q
  · show (K (F := F)).lev (thr, p.1) none ≤ 8 * 1
    rw [(K (F := F)).lev_none]; omega
  · have h1 := (K (F := F)).lev_some_le (thr, p.1) q
    have h2 := q.isLt
    omega

/-- The row pipeline's call in the main program after the counting call: entered with the arrays at the valuation the
    host operations leave, it ends with them at the final valuation; the TensorCore, which owes nothing after its one
    call, stays in its state after the call. -/
theorem region_step [∀ e, Nonempty (Elt F e)] (κ : GSem nD τ sig → ℕ) (d : Dev nD) {Φ : PUnit → sProp 𝕄} :
    iprop((K (F := F)).ctx EH (P m Hf) κ ∗ (K (F := F)).tcSt EH d 1 ∗ G (F := F) d ∗ boundary (T d) ∗ held (T d) Sall (Vh m Hf d) ∗ prngReg d (ρ d)
        ∗ (((K (F := F)).tcSt EH d 1 ∗ boundary (T d) ∗ held (T d) Sall (Vfin m Hf d) ∗ prngReg d (ρ d)) -∗ Φ ⟨⟩))
      ⊢ wp frame (wpE ((K (F := F)).defs (D (F := F))) 𝒱 (SparseCore.T d) none) Set.univ
          (Prog.lift (.customCall (SparseCore.inner (Pipeline.entry 0)) ())) Φ := by
  unfold SparseCore.Cfg.tcSt
  rw [(K (F := F)).Otc_end d (le_refl 1)]
  iintro ⟨#Hctx, ⟨⟨%W, %hW, HO⟩, Hat, Hrd, Hrs, Htoks⟩, HG, Hb, Hheld, Hprng, Hk⟩
  ihave Hlev := (SparseCore.Cfg.ctx_levAts κ) $$ Hctx
  iapply (region_wp (F := F) d (Vh m Hf d) (ρ d) W) $$ [Hlev HO Hat Hrd Hrs Htoks HG Hb Hheld Hprng Hk]
  isplitl [Hlev]; · iexact Hlev
  isplitl [HG]; · iexact HG
  isplitl [Hb]; · iexact Hb
  isplitl [Hheld]; · iexact Hheld
  isplitl [Hprng]; · iexact Hprng
  isplitl [HO]; · iexact HO
  iintro ⟨Hb, Hheld, Hprng, %W', HO⟩
  iapply Hk
  isplitl [HO Hat Hrd Hrs Htoks]
  · isplitl [HO]
    · iexists W'; isplitr
      · ipureintro; exact wbelow_all _ _
      · iexact HO
    isplitl [Hat]; · iexact Hat
    isplitl [Hrd]; · iexact Hrd
    isplitl [Hrs]; · iexact Hrs
    iexact Htoks
  isplitl [Hb]; · iexact Hb
  isplitl [Hheld]; · iexact Hheld
  iexact Hprng

/-- @main on device `d`'s TensorCore: the counting call (the edge list and the table to the 32 tasks and back, the
    table at what the counting leaves), the four host operations over the eleven arrays held whole, the row pipeline. -/
theorem hmain [∀ e, Nonempty (Elt F e)] (κ : GSem nD τ sig → ℕ) (d : Dev nD) :
    iprop((K (F := F)).ctx EH (P m Hf) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m Hf d) := by
  unfold SparseCore.Cfg.tcRes
  rw [unscoped_held]
  simp only [main, wp_bind, wp_pure]
  iintro ⟨#Hctx, Hst, ⟨Hb, Hheld, -, Hprng⟩, HG⟩
  ihave Hh := (Entails.of_eq (held_V0 (F := F) m d)) $$ Hheld
  icases Hh with ⟨⟨He, Hh⟩, Hrest⟩
  -- the counting call
  iapply ((K (F := F)).wp_run (D (F := F)) 𝒱 (EH := EH) (P := P m Hf) κ d 0) $$ [Hst He Hh Hb Hrest Hprng HG]
  isplitr; · iexact Hctx
  isplitl [Hst]; · iexact Hst
  isplitl [He Hh]
  · iapply (st0_of m Hf d)
    isplitl [He]; · iexact He
    iexists _; iexact Hh
  iintro ⟨Hst, Hdn⟩
  ihave Hdn' := (dn0_to m Hf d) $$ Hdn
  icases Hdn' with ⟨He, Hh⟩
  ihave Hheld := (Entails.of_eq (held_V1 (F := F) m Hf d).symm) $$ [He Hh Hrest]
  · isplitl [He Hh]
    · isplitl [He]; · iexact He
      iexact Hh
    · iexact Hrest
  -- the factor `A` rounded
  iapply (wp_hlo_within 𝒱 (SparseCore.T d) none Set.univ (op := opA (F := F)) (S := Sall) hA (V := V1 m Hf d)) $$ [Hb Hheld]
  · isplitl [Hb]; · iexact Hb
    iexact Hheld
  iintro ⟨Hb, Hheld⟩
  rw [wp_ret]; imodintro
  -- the factor `B` rounded
  iapply (wp_hlo_within 𝒱 (SparseCore.T d) none Set.univ (op := opB (F := F)) (S := Sall) hB (V := (opA (F := F)).result (V1 m Hf d))) $$ [Hb Hheld]
  · isplitl [Hb]; · iexact Hb
    iexact Hheld
  iintro ⟨Hb, Hheld⟩
  rw [wp_ret]; imodintro
  -- the mask laid out anew
  iapply (wp_hlo_within 𝒱 (SparseCore.T d) none Set.univ (op := opR (F := F)) (S := Sall) hR
      (V := (opB (F := F)).result ((opA (F := F)).result (V1 m Hf d)))) $$ [Hb Hheld]
  · isplitl [Hb]; · iexact Hb
    iexact Hheld
  iintro ⟨Hb, Hheld⟩
  rw [wp_ret]; imodintro
  -- the mask widened
  iapply (wp_hlo_within 𝒱 (SparseCore.T d) none Set.univ (op := opX (F := F)) (S := Sall) hX
      (V := (opR (F := F)).result ((opB (F := F)).result ((opA (F := F)).result (V1 m Hf d))))) $$ [Hb Hheld]
  · isplitl [Hb]; · iexact Hb
    iexact Hheld
  iintro ⟨Hb, Hheld⟩
  rw [wp_ret]; imodintro
  -- the row pipeline
  iapply (region_step (F := F) m ρ Hf κ d) $$ [Hst HG Hb Hheld Hprng]
  isplitr; · iexact Hctx
  isplitl [Hst]; · iexact Hst
  isplitl [HG]; · iexact HG
  isplitl [Hb]; · iexact Hb
  isplitl [Hheld]; · iexact Hheld
  isplitl [Hprng]; · iexact Hprng
  iintro ⟨Hst, Hb, Hheld, Hprng⟩
  imodintro
  isplitl [Hst]; · iexact Hst
  iexact Hheld

/-! ## How the final memory reads the claim -/

/-- What the claim reads of device `d`'s final memory: the result array at the pipeline's value on what the host
    operations leave, the five arguments at their launch contents. -/
def fq (d : Dev nD) (s' : Phys nD τ sig (Elt F)) : Prop :=
  s'.mem.mem ((SparseCore.T d).loc main_v5) = outArr d (Vh m Hf d)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)

/-- Each of the eleven arrays, held whole, is what the memory holds. -/
theorem fin_at (d : Dev nD) (s' : Phys nD τ sig (Elt F)) (b : DevRef τ sig) (hb : b ∈ Sall) :
    iprop(FIN m Hf d ∗ SI s') ⊢ (⌜s'.mem.mem ((d, b) : Loc nD τ sig) = Vfin m Hf d b⌝ : sProp 𝕄) := by
  have hx : (FIN m Hf d : sProp 𝕄) ⊢ ((d, b) : Loc nD τ sig) ↦{fullShare} Vfin m Hf d b := by
    unfold FIN held; exact bigSep_elim hb
  iintro ⟨HF, HSI⟩
  ihave Hx := hx $$ HF
  ihave H := (SI_pointsTo_agree (st := s') (ℓ := ((d, b) : Loc nD τ sig)) (I := Finset.univ) (q := fullShare) (f := Vfin m Hf d b)) $$ [HSI Hx]
  · isplitl [HSI] <;> iassumption
  icases H with %hx
  ipureintro; exact funext fun i => hx i (Finset.mem_univ i)

theorem hfin (d : Dev nD) (s' : Phys nD τ sig (Elt F)) : iprop(FIN m Hf d ∗ SI s') ⊢ (⌜fq m Hf d s'⌝ : sProp 𝕄) :=
  Laws.pure_elim _ (fin_at m Hf d s' o' (by decide)) fun ho =>
  Laws.pure_elim _ (fin_at m Hf d s' x' (by decide)) fun hx =>
  Laws.pure_elim _ (fin_at m Hf d s' mk' (by decide)) fun hmk =>
  Laws.pure_elim _ (fin_at m Hf d s' e' (by decide)) fun he =>
  Laws.pure_elim _ (fin_at m Hf d s' A' (by decide)) fun hA =>
  Laws.pure_elim _ (fin_at m Hf d s' B' (by decide)) fun hB =>
  Laws.pure_intro ⟨ho.trans (Vfin_o m Hf d), hx.trans (Vfin_x m Hf d), hmk.trans (Vfin_mk m Hf d), he.trans (Vfin_e m Hf d),
    hA.trans (Vfin_A m Hf d), hB.trans (Vfin_B m Hf d)⟩

/-! ## The program's run -/

/-- The run's post: on every device the result array at the pipeline's value on what the host operations leave, the
    five arguments unchanged. -/
def QC : PUnit × MemSt nD τ sig (Elt F) → Prop := fun r => ∀ c : Dev nD,
  r.2.mem ((c.tc : Thread nD τ).loc main_v5) = outArr c (Vh m Hf c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- The mesh's threads run from the launch memory: from the tasks' proof and the split of a core's payload among its
    tasks, every weakly fair execution terminates, nothing faulting, in a memory that reads `QC`. -/
theorem run_main [∀ e, Nonempty (Elt F e)] (htile : (K (F := F)).TileObl (D (F := F)) 𝒱 (P m Hf) v₀ 0)
    (hvec : (K (F := F)).VecSplit' (P m Hf) 0) :
    θ_run (Cert.KernelIdeal.defs (F := F)) (Cert.KernelIdeal.threads (F := F)) ⟨m, fun _ => 0, ρ⟩ (QC m Hf) :=
  SparseCore.Cfg.θ_run_sc (K := K (F := F)) (D := D (F := F)) (𝒱 := 𝒱) (EH := EH) (P := P m Hf) facts v₀
    (fun q hq => match q with | 0 => nomatch hq)
    (fun q _ => match q with | 0 => htile)
    (fun q _ => match q with | 0 => SparseCore.Cfg.VecSplit.of_plain hvec)
    m ρ main (fun d => G (F := F) d) (FIN m Hf) (u₀ (F := F)) (sep_elim_left.trans (hu₀ m Hf)) (hmain m ρ Hf) (fq m Hf) (hfin m Hf) (QC m Hf) (fun _ h => h)

end Cert.KernelIdeal.Run

end
-- ==== Proof.TaskA.lean ====
import proofs.«210447_g31353261261282_cont_9to1_114_24_alg».proof.Proof.Common
import Idealize.ShloMosaic.Lib.ValueIdx
import Idealize.ShloMosaic.Lib.Writes

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  The counting task: the table of counts as a function of the edge list, the pieces the task's buffers are held by,
  one counting step, and one trip of the zero loop.
-/

/-! ## The table of counts as a function of the edge list -/

/-- The sixteen lane numbers. -/
abbrev lanes : IVec S16 32 := iota .scVector S16 32 [0] iota_S16_d0_w32_scVector

/-- A vector of sixteen ids names rows of the table (and the lanes name columns). -/
def Chk (v : IVec S16 32) : Prop := ∀ a x, ((![v, lanes] : Fin 2 → IVec S16 32) a x).toNat < S64x128.size a

open Classical in
/-- One indexed add: one is added at entry (id of lane x, x) for each of the sixteen lanes. -/
def bump (f : Vec F S64x128 .f32) (v : IVec S16 32) : Vec F S64x128 .f32 :=
  if h : Chk v then storeIdx f ![v, lanes] (k0_pay2 (F := F)) (fun _ => 1#1) true h else f

/-- The sixteen words of chunk w of the edge list from position p of the chunk on. -/
def idsAt (e : IVec S1600000 32) (w : Fin 32) (p : ℕ) : IVec S16 32 :=
  fun x => e (ix1 ⟨(50000 * w.val + p + (x 0).val) % 1600000, Nat.mod_lt _ (by decide)⟩)

/-- Chunk w of the edge list as a function on the positions of the staging buffer. -/
def chunkFn (e : IVec S1600000 32) (w : Fin 32) : IVec S50000 32 :=
  fun j => e (ix1 ⟨(50000 * w.val + (j 0).val) % 1600000, Nat.mod_lt _ (by decide)⟩)

/-- The table of zeros. -/
def zeroTbl : Vec F S64x128 .f32 := fun _ => k0_pay1 (F := F) (ix1 0)

/-- The table after the first n vectors of chunk w have been counted. -/
def tbl (e : IVec S1600000 32) (w : Fin 32) : ℕ → Vec F S64x128 .f32
  | 0 => zeroTbl
  | n + 1 => bump (tbl e w n) (idsAt e w (16 * n))

variable (m : (ℓ : Loc nD τ sig) → Buf (Elt F) ℓ)

def PreOK : Prop := ∀ (d : Dev nD) (j : S1600000.Idx), (m (eLoc d) j).toNat < 64

/-- The table the 32 tasks leave: row w is the table of chunk w after all its 3125 vectors. -/
def histArr (d : Dev nD) : Buf (Elt F) (hLoc d) :=
  fun j => tbl (F := F) (m (eLoc d)) (j 0) 3125 (ix2 (j 1) (j 2))

omit [FloatOps F] in
theorem lanes_val (x : S16.Idx) : (lanes x).toNat = (x 0).val := by
  show (BitVec.ofNat 32 (0 * S16.size 0 + (x 0).val)).toNat = _
  have := (x 0).isLt
  have h16 : (x 0).val < 16 := this
  simp only [BitVec.toNat_ofNat]
  show (0 * 16 + (x 0).val) % 2 ^ 32 = _
  omega

omit [FloatOps F] in
/-- Under the precondition every vector of ids passes the range check. -/
theorem chk_idsAt {e : IVec S1600000 32} (he : ∀ j, (e j).toNat < 64) (w : Fin 32) (p : ℕ) : Chk (idsAt e w p) := by
  intro a x
  match a with
  | ⟨0, _⟩ => exact he _
  | ⟨1, _⟩ =>
    show (lanes x).toNat < 128
    rw [lanes_val]; have : (x 0).val < 16 := (x 0).isLt; omega

/-! ## The task, at a symbolic vector subcore -/

section Tile

variable (d : Dev nD) (L : grid0.Coords)

abbrev cV (L : grid0.Coords) : Fin τ.nSC := (L 0).castLE hcore0
abbrev jV (L : grid0.Coords) : Fin τ.nSub := (L 1).castLE hsub0
/-- The chunk and row of the task at grid coordinates L. -/
abbrev wL (L : grid0.Coords) : Fin 32 := wid (L 0).val (L 1).val

/-- The two scratch buffers as the kernel names them: the staged chunk and the table. -/
abbrev sE : Memref sig .scVector .vmem S50000 .i32 := Memref.whole cc0_scratch0
abbrev sH : Memref sig .scVector .vmem S64x128 .f32 := Memref.whole cc0_scratch1

abbrev cell (d : Dev nD) (L : grid0.Coords) (s : DmaSems sig S_) : GSem nD τ sig := (V d (cV L) (jV L), .dma s.sem)

omit [FloatOps F] in
theorem cell_mem' (s : DmaSems sig S_) (h : (SemLoc.dma s.sem : SemLoc sig).isScoped .scVector = true) :
    cell d L s ∈ ownCells (V d (cV L) (jV L)) := mem_ownCells.mpr ⟨rfl, h⟩
omit [FloatOps F] in
theorem cell_ne (s s' : DmaSems sig S_) (h : (SemLoc.dma s.sem : SemLoc sig) ≠ SemLoc.dma s'.sem) : cell d L s ≠ cell d L s' :=
  fun e => h (congrArg Prod.snd e)

macro "cell_mem" : tactic => `(tactic|
  repeat' first
    | exact cell_mem' _ _ _ (by decide)
    | refine Finset.mem_erase.mpr ⟨cell_ne _ _ _ _ (by decide), ?_⟩)

omit [FloatOps F] in
theorem ownSems0_V :
    (ownSems0 (V d (cV L) (jV L)) : sProp 𝕄)
      = iprop(semVal (cell d L cc0_scratch2) 0 ∗ semVal (cell d L cc0_scratch3) 0 ∗ semVal (cell d L cc0_scratch4) 0
          ∗ semVal (cell d L cc0_scratch5) 0 ∗ semVal (cell d L cc0_scratch6) 0 ∗ semVal (cell d L cc0_scoped0) 0
          ∗ bigSep ((((((((ownCells (V d (cV L) (jV L))).erase (cell d L cc0_scratch2)).erase (cell d L cc0_scratch3)).erase (cell d L cc0_scratch4)).erase
              (cell d L cc0_scratch5)).erase (cell d L cc0_scratch6)).erase (cell d L cc0_scoped0)))
              fun g => semVal g 0) := by
  unfold SparseCore.Cfg.ownSems0
  rw [SparseCore.bigSep_erase' (i := cell d L cc0_scratch2) (by cell_mem),
    SparseCore.bigSep_erase' (i := cell d L cc0_scratch3) (by cell_mem),
    SparseCore.bigSep_erase' (i := cell d L cc0_scratch4) (by cell_mem),
    SparseCore.bigSep_erase' (i := cell d L cc0_scratch5) (by cell_mem),
    SparseCore.bigSep_erase' (i := cell d L cc0_scratch6) (by cell_mem),
    SparseCore.bigSep_erase' (i := cell d L cc0_scoped0) (by cell_mem)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_sE (f : Buf (Elt F) ((V d (cV L) (jV L)).loc cc0_scratch0)) :
    ((sE : Memref sig .scVector .vmem S50000 .i32).view.loc (V d (cV L) (jV L)) ↦{fullShare} f : sProp 𝕄) = (V d (cV L) (jV L)).loc cc0_scratch0 ↦{fullShare} f := rfl
omit [FloatOps F] in
theorem pts_sH (f : Buf (Elt F) ((V d (cV L) (jV L)).loc cc0_scratch1)) :
    ((sH : Memref sig .scVector .vmem S64x128 .f32).view.loc (V d (cV L) (jV L)) ↦{fullShare} f : sProp 𝕄) = (V d (cV L) (jV L)).loc cc0_scratch1 ↦{fullShare} f := rfl

/-- The five pieces of the chunk as the kernel slices them off the edge list: piece k at 50000 w + 10000 k. -/
abbrev srcAt (o : BitVec 32) (h : ∀ a, k0_off1 L o a + S10000.size a ≤ S1600000.size a) : Memref sig .scVector .hbm S10000 .i32 :=
  (eV).slice (Rect.unit (s := S1600000) (k0_off1 L o) S10000.size h) (fun _ => rfl)
abbrev src0 : Memref sig .scVector .hbm S10000 .i32 := srcAt L 0#32 (k0_off1_inb L 0)
abbrev src1 : Memref sig .scVector .hbm S10000 .i32 := srcAt L 10000#32 (k0_off1_inb L 1)
abbrev src2 : Memref sig .scVector .hbm S10000 .i32 := srcAt L 20000#32 (k0_off1_inb L 2)
abbrev src3 : Memref sig .scVector .hbm S10000 .i32 := srcAt L 30000#32 (k0_off1_inb L 3)
abbrev src4 : Memref sig .scVector .hbm S10000 .i32 := srcAt L 40000#32 (k0_off1_inb L 4)

abbrev srcPts (o : BitVec 32) (h : ∀ a, k0_off1 L o a + S10000.size a ≤ S1600000.size a) : sProp 𝕄 :=
  (srcAt L o h).view.loc (V d (cV L) (jV L)) ↦[(srcAt L o h).view.set]{fullShare} m (eLoc d)

/-- Row w of the table as the kernel slices it off the table of partial counts. -/
abbrev dstM : Memref sig .scVector .hbm S64x128 .f32 :=
  ((hV).slice (Rect.unit (s := S32x64x128) (k0_off136 L) S1x64x128.size (k0_off136_inb L)) (fun _ => rfl)).squeeze S64x128 squeezes_S1x64x128_S64x128

/-- The five windows of the staging buffer the pieces land in. -/
abbrev dstAt (c : ℕ) (h : ∀ a, (![c] : Fin 1 → ℕ) a + S10000.size a ≤ S50000.size a) : Memref sig .scVector .vmem S10000 .i32 :=
  (sE).slice (Rect.unit (s := S50000) ![c] S10000.size h) (fun _ => rfl)
abbrev dstPts (c : ℕ) (h : ∀ a, (![c] : Fin 1 → ℕ) a + S10000.size a ≤ S50000.size a) (f : Buf (Elt F) ((V d (cV L) (jV L)).loc cc0_scratch0)) : sProp 𝕄 :=
  (dstAt c h).view.loc (V d (cV L) (jV L)) ↦[(dstAt c h).view.set]{fullShare} f

/-! ## Intervals of a flat array -/

omit [FloatOps F] in
theorem mem_srcAt (o : BitVec 32) (h : ∀ a, k0_off1 L o a + S10000.size a ≤ S1600000.size a) (j : S1600000.Idx) :
    j ∈ (srcAt L o h).view.set ↔ k0_off1 L o 0 ≤ (j 0).val ∧ (j 0).val < k0_off1 L o 0 + 10000 := by
  show j ∈ ((View.whole (main_arg2_scv : Ref sig .scVector)).slice (Rect.unit (s := S1600000) (k0_off1 L o) S10000.size h)).set ↔ _
  rw [View.set_slice_whole, Rect.mem_set_unit]
  exact Fin.forall_fin_one

omit [FloatOps F] in
theorem mem_dstAt (c : ℕ) (h : ∀ a, (![c] : Fin 1 → ℕ) a + S10000.size a ≤ S50000.size a) (j : S50000.Idx) :
    j ∈ (dstAt c h).view.set ↔ c ≤ (j 0).val ∧ (j 0).val < c + 10000 := by
  show j ∈ ((View.whole (cc0_scratch0 : Ref sig .scVector)).slice (Rect.unit (s := S50000) ![c] S10000.size h)).set ↔ _
  rw [View.set_slice_whole, Rect.mem_set_unit]
  exact Fin.forall_fin_one

omit [FloatOps F] in
theorem mem_eSet (w : Fin 32) (j : S1600000.Idx) : j ∈ eSet w ↔ 50000 * w.val ≤ (j 0).val ∧ (j 0).val < 50000 * w.val + 50000 := by
  show j ∈ ((View.whole (main_arg2_scv : Ref sig .scVector)).slice (eChunk w)).set ↔ _
  rw [View.set_slice_whole]
  unfold eChunk Rect.part Rect.block
  rw [Rect.mem_set_unit]
  refine Fin.forall_fin_one.trans ?_
  simp [Shape.partIx, Shape.partSize]
  omega

omit [FloatOps F] in
theorem off1_val (r : Fin 5) : k0_off1 L (BitVec.ofNat 32 (10000 * r.val)) 0 = 50000 * (wL L).val + 10000 * r.val := by
  rw [k0_off1_eq L r]
  have h0 : (L 0).val < 2 := (L 0).isLt
  have h1 : (L 1).val < 16 := (L 1).isLt
  show 100000 * (L 1).val + 50000 * (L 0).val + 10000 * r.val = 50000 * (wid (L 0).val (L 1).val).val + 10000 * r.val
  rw [wid_val h0 h1]; omega

section Five
variable {ℓ : Loc nD τ sig} {A B0 B1 B2 B3 B4 : Finset (Idx ℓ)} {q : PosShare TreeShare} {f : Buf (Elt F) ℓ}

omit [FloatOps F] in
/-- A points-to on a union of five pairwise disjoint sets is the five points-tos. -/
theorem pts_split5 (hA : A = B0 ∪ (B1 ∪ (B2 ∪ (B3 ∪ B4))))
    (h0 : Disjoint B0 (B1 ∪ (B2 ∪ (B3 ∪ B4)))) (h1 : Disjoint B1 (B2 ∪ (B3 ∪ B4))) (h2 : Disjoint B2 (B3 ∪ B4)) (h3 : Disjoint B3 B4) :
    (ℓ ↦[A]{q} f : sProp 𝕄) = iprop((ℓ ↦[B0]{q} f) ∗ (ℓ ↦[B1]{q} f) ∗ (ℓ ↦[B2]{q} f) ∗ (ℓ ↦[B3]{q} f) ∗ (ℓ ↦[B4]{q} f)) := by
  subst hA
  have e0 : (ℓ ↦[B0 ∪ (B1 ∪ (B2 ∪ (B3 ∪ B4)))]{q} f : sProp 𝕄) ⊣⊢ iprop((ℓ ↦[B0]{q} f) ∗ ℓ ↦[B1 ∪ (B2 ∪ (B3 ∪ B4))]{q} f) := pointsTo_union h0
  have e1 : (ℓ ↦[B1 ∪ (B2 ∪ (B3 ∪ B4))]{q} f : sProp 𝕄) ⊣⊢ iprop((ℓ ↦[B1]{q} f) ∗ ℓ ↦[B2 ∪ (B3 ∪ B4)]{q} f) := pointsTo_union h1
  have e2 : (ℓ ↦[B2 ∪ (B3 ∪ B4)]{q} f : sProp 𝕄) ⊣⊢ iprop((ℓ ↦[B2]{q} f) ∗ ℓ ↦[B3 ∪ B4]{q} f) := pointsTo_union h2
  have e3 : (ℓ ↦[B3 ∪ B4]{q} f : sProp 𝕄) ⊣⊢ iprop((ℓ ↦[B3]{q} f) ∗ ℓ ↦[B4]{q} f) := pointsTo_union h3
  rw [BI.equiv_iff.mp ⟨e0.1, e0.2⟩, BI.equiv_iff.mp ⟨e1.1, e1.2⟩, BI.equiv_iff.mp ⟨e2.1, e2.2⟩, BI.equiv_iff.mp ⟨e3.1, e3.2⟩]

omit [FloatOps F] in
/-- The same for five consecutive intervals of a key. -/
theorem pts_split5_key (key : Idx ℓ → ℕ) (a b : ℕ)
    (hA : ∀ j, j ∈ A ↔ a ≤ key j ∧ key j < a + 5 * b)
    (h0 : ∀ j, j ∈ B0 ↔ a ≤ key j ∧ key j < a + b)
    (h1 : ∀ j, j ∈ B1 ↔ a + b ≤ key j ∧ key j < a + b + b)
    (h2 : ∀ j, j ∈ B2 ↔ a + 2 * b ≤ key j ∧ key j < a + 2 * b + b)
    (h3 : ∀ j, j ∈ B3 ↔ a + 3 * b ≤ key j ∧ key j < a + 3 * b + b)
    (h4 : ∀ j, j ∈ B4 ↔ a + 4 * b ≤ key j ∧ key j < a + 4 * b + b) :
    (ℓ ↦[A]{q} f : sProp 𝕄) = iprop((ℓ ↦[B0]{q} f) ∗ (ℓ ↦[B1]{q} f) ∗ (ℓ ↦[B2]{q} f) ∗ (ℓ ↦[B3]{q} f) ∗ (ℓ ↦[B4]{q} f)) := by
  refine pts_split5 ?_ ?_ ?_ ?_ ?_
  · ext j
    simp only [Finset.mem_union, hA, h0, h1, h2, h3, h4]
    omega
  all_goals
    refine Finset.disjoint_left.mpr fun j ha hb => ?_
    simp only [Finset.mem_union, h0, h1, h2, h3, h4] at ha hb
    omega
end Five

omit [FloatOps F] in
theorem chunk_split :
    (eChunkPts m d (wL L) : sProp 𝕄) = iprop(srcPts m d L 0#32 (k0_off1_inb L 0) ∗ srcPts m d L 10000#32 (k0_off1_inb L 1) ∗ srcPts m d L 20000#32 (k0_off1_inb L 2)
        ∗ srcPts m d L 30000#32 (k0_off1_inb L 3) ∗ srcPts m d L 40000#32 (k0_off1_inb L 4)) := by
  have o0 : k0_off1 L 0#32 0 = 50000 * (wL L).val + 10000 * 0 := off1_val L 0
  have o1 : k0_off1 L 10000#32 0 = 50000 * (wL L).val + 10000 * 1 := off1_val L 1
  have o2 : k0_off1 L 20000#32 0 = 50000 * (wL L).val + 10000 * 2 := off1_val L 2
  have o3 : k0_off1 L 30000#32 0 = 50000 * (wL L).val + 10000 * 3 := off1_val L 3
  have o4 : k0_off1 L 40000#32 0 = 50000 * (wL L).val + 10000 * 4 := off1_val L 4
  refine pts_split5_key (ℓ := eLoc d) (fun j => (j 0).val) (50000 * (wL L).val) 10000
    (fun j => (mem_eSet (wL L) j).trans (by omega))
    (fun j => (mem_srcAt L _ _ j).trans (by rw [o0] <;> omega))
    (fun j => (mem_srcAt L _ _ j).trans (by rw [o1] <;> omega))
    (fun j => (mem_srcAt L _ _ j).trans (by rw [o2] <;> omega))
    (fun j => (mem_srcAt L _ _ j).trans (by rw [o3] <;> omega))
    (fun j => (mem_srcAt L _ _ j).trans (by rw [o4] <;> omega))

omit [FloatOps F] in
theorem stage_split (f : Buf (Elt F) ((V d (cV L) (jV L)).loc cc0_scratch0)) :
    ((V d (cV L) (jV L)).loc cc0_scratch0 ↦{fullShare} f : sProp 𝕄) = iprop(dstPts d L 0 inb_S50000_S10000_0 f ∗ dstPts d L 10000 inb_S50000_S10000_10000 f
      ∗ dstPts d L 20000 inb_S50000_S10000_20000 f ∗ dstPts d L 30000 inb_S50000_S10000_30000 f ∗ dstPts d L 40000 inb_S50000_S10000_40000 f) := by
  refine pts_split5_key (ℓ := (V d (cV L) (jV L)).loc cc0_scratch0) (fun j => (j 0).val) 0 10000
    (fun j => ⟨fun _ => ⟨Nat.zero_le _, (show (j 0).val < 50000 from (j 0).isLt).trans_le (by omega)⟩, fun _ => Finset.mem_univ _⟩)
    (fun j => (mem_dstAt _ _ j).trans (by omega))
    (fun j => (mem_dstAt _ _ j).trans (by omega))
    (fun j => (mem_dstAt _ _ j).trans (by omega))
    (fun j => (mem_dstAt _ _ j).trans (by omega))
    (fun j => (mem_dstAt _ _ j).trans (by omega))

/-! ## The task's row of the table of partial counts -/

omit [FloatOps F] in
theorem rowK_eq : Rect.unit (s := S32x64x128) (k0_off136 L) S1x64x128.size (k0_off136_inb L) = hRow (wL L) := by
  have h0 : (L 0).val < 2 := (L 0).isLt
  have h1 : (L 1).val < 16 := (L 1).isLt
  have hw : (wL L).val = 2 * (L 1).val + (L 0).val := wid_val h0 h1
  unfold hRow Rect.part Rect.block
  congr 1 <;> funext a
  · rw [k0_off136_eq]
    match a with
    | 0 => simp [Shape.partIx, Shape.partSize, hw]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_dstM : (dstM L).view.set = hSet (wL L) := by
  show (((hV : Memref sig .scVector .hbm S32x64x128 .f32).view.slice (Rect.unit (s := S32x64x128) (k0_off136 L) S1x64x128.size (k0_off136_inb L))).reshape S64x128
      squeezes_S1x64x128_S64x128.numel_eq).set = ((hV : Memref sig .scVector .hbm S32x64x128 .f32).view.slice (hRow (wL L))).set
  rw [View.set_reshape]
  exact rowK_eq L ▸ rfl

omit [FloatOps F] in
theorem pts_dstM (f : Buf (Elt F) (hLoc d)) :
    ((dstM L).view.loc (V d (cV L) (jV L)) ↦[(dstM L).view.set]{fullShare} f : sProp 𝕄) = hLoc d ↦[hSet (wL L)]{fullShare} f := by
  rw [set_dstM]

/-! ## One counting step -/

omit [FloatOps F] in
/-- Sixteen words read off the staged chunk at position p are the chunk's words from p on. -/
theorem read_chunk (e : IVec S1600000 32) (w : Fin 32) {off : Fin 1 → ℕ} (inb : ∀ a, off a + S16.size a ≤ S50000.size a) :
    (sE : Memref sig .scVector .vmem S50000 .i32).view.readAt (Elt F) (Rect.unit (s := S50000) off S16.size inb).toLoadRect (chunkFn e w)
      = idsAt e w (off 0) := by
  funext x
  show chunkFn e w ((Rect.unit (s := S50000) off S16.size inb).toLoadRect.idx x) = idsAt e w (off 0) x
  unfold chunkFn idsAt
  refine congrArg e (congrArg ix1 (Fin.ext ?_))
  show (50000 * w.val + (off 0 + 1 * (x 0).val)) % 1600000 = (50000 * w.val + off 0 + (x 0).val) % 1600000
  rw [Nat.one_mul, Nat.add_assoc]

theorem wp_site (hpre : PreOK m) {c : ℕ} {hc : ∀ a, (![c] : Fin 1 → ℕ) a + S10000.size a ≤ S50000.size a} {n : ℕ}
    {off : Fin 1 → ℕ} {inb : ∀ a, off a + S16.size a ≤ S50000.size a}
    {hl : (sE : Memref sig .scVector .vmem S50000 .i32).view.LoadsAt (Rect.unit (s := S50000) off S16.size inb).toLoadRect}
    {dec : ∀ v, Decidable (Chk v)} {hs : ((sH : Memref sig .scVector .vmem S64x128 .f32).access (.whole S64x128)).Stores Finset.univ}
    {α : Type} {k : PUnit → Prog (TpuEff nD τ sig (Elt F) Λ₀ (.scVector (cV L) (jV L))) α} {Q : α → sProp 𝕄}
    (hoff : off 0 = 16 * n) (hlo : c ≤ 16 * n) (hhi : 16 * n + 16 ≤ c + 10000) :
    iprop(dstPts d L c hc (chunkFn (m (eLoc d)) (wL L))
        ∗ ((sH : Memref sig .scVector .vmem S64x128 .f32).view.loc (V d (cV L) (jV L)) ↦{fullShare} tbl (F := F) (m (eLoc d)) (wL L) n))
      ⊢ iprop(((dstPts d L c hc (chunkFn (m (eLoc d)) (wL L))
          ∗ ((sH : Memref sig .scVector .vmem S64x128 .f32).view.loc (V d (cV L) (jV L)) ↦{fullShare} tbl (F := F) (m (eLoc d)) (wL L) (n + 1)))
            -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.load sE (Rect.unit (s := S50000) off S16.size inb).toLoadRect hl) fun (v : IVec S16 32) =>
            .op (.assume (Chk v) (dec v)) fun hw =>
              SparseCore.vectorStoreIdx sH ![v, lanes] (k0_pay2 (F := F)) (fun _ => 1#1) true hw.down hs >>= k) Q) := by
  have hv := read_chunk (F := F) (m (eLoc d)) (wL L) inb
  have hchk : Chk (idsAt (m (eLoc d)) (wL L) (off 0)) := chk_idsAt (hpre d) (wL L) (off 0)
  iintro ⟨HE, HT⟩ Hk
  iapply (wp_load 𝒱₀ (V d (cV L) (jV L)) none Set.univ (m := (sE : Memref sig .scVector .vmem S50000 .i32)) (S := (dstAt c hc).view.set) ?hS) $$ HE
  case hS =>
    intro j hj
    obtain ⟨x, hx, rfl⟩ := Finset.mem_map.mp hj
    refine (mem_dstAt c hc _).2 ?_
    have hx' : off 0 ≤ (x 0).val ∧ (x 0).val < off 0 + 16 := (Rect.mem_set_unit.mp hx) 0
    show c ≤ (x 0).val ∧ (x 0).val < c + 10000
    omega
  iintro HE
  rw [hv, wp_assume_of _ _ _ _ hchk]
  ihave HT' := (Entails.of_eq (show (((sH : Memref sig .scVector .vmem S64x128 .f32).view.loc (V d (cV L) (jV L)) ↦{fullShare} tbl (F := F) (m (eLoc d)) (wL L) n : sProp 𝕄))
      = (((sH : Memref sig .scVector .vmem S64x128 .f32).access (.whole S64x128)).loc (V d (cV L) (jV L)) ↦[((sH : Memref sig .scVector .vmem S64x128 .f32).access (.whole S64x128)).set]{fullShare} tbl (F := F) (m (eLoc d)) (wL L) n) from by
        rw [show ((sH : Memref sig .scVector .vmem S64x128 .f32).access (.whole S64x128)).set = Finset.univ from Memref.set_access_whole (cc0_scratch1 : Ref sig .scVector)])) $$ HT
  iapply (SparseCore.wp_vectorStoreIdx 𝒱₀ (V d (cV L) (jV L)) none Set.univ (base := (sH : Memref sig .scVector .vmem S64x128 .f32))) $$ HT'; iintro HT
  iapply Hk
  isplitl [HE]; · iexact HE
  iapply (Entails.of_eq ?_) $$ HT
  rw [show ((sH : Memref sig .scVector .vmem S64x128 .f32).access (.whole S64x128)).set = Finset.univ from Memref.set_access_whole (cc0_scratch1 : Ref sig .scVector)]
  rw [show ((sH : Memref sig .scVector .vmem S64x128 .f32).access (.whole S64x128)).read (Elt F) (tbl (F := F) (m (eLoc d)) (wL L) n) = tbl (F := F) (m (eLoc d)) (wL L) n from Memref.read_access_whole (Elt F) (cc0_scratch1 : Ref sig .scVector) _]
  rw [show ∀ g, ((sH : Memref sig .scVector .vmem S64x128 .f32).access (.whole S64x128)).write (Elt F) (tbl (F := F) (m (eLoc d)) (wL L) n) g Finset.univ = g from
    fun g => Memref.write_access_whole_univ (Elt F) (cc0_scratch1 : Ref sig .scVector) _ g]
  have : tbl (F := F) (m (eLoc d)) (wL L) (n + 1) = storeIdx (tbl (F := F) (m (eLoc d)) (wL L) n) ![idsAt (m (eLoc d)) (wL L) (off 0), lanes] (k0_pay2 (F := F)) (fun _ => 1#1) true hchk := by
    show bump _ _ = _
    rw [← hoff]; exact dif_pos hchk
  rw [this]

/-! ## The zero loop -/

/-- The eight sixteen-word pieces one trip of the zero loop stores, the last first. -/
def zlist (k : Fin k0_t1_loop.trips) : List (View.Piece (Elt F) S64x128 .f32) :=
      [⟨Rect.unit (s := S64x128) (k0_off9 k) S1x16.size (k0_off9_inb k), shapeCast S1x16 (k0_pay1 (F := F)) shapeCasts_S16_S1x16⟩,
        ⟨Rect.unit (s := S64x128) (k0_off8 k) S1x16.size (k0_off8_inb k), shapeCast S1x16 (k0_pay1 (F := F)) shapeCasts_S16_S1x16⟩,
        ⟨Rect.unit (s := S64x128) (k0_off7 k) S1x16.size (k0_off7_inb k), shapeCast S1x16 (k0_pay1 (F := F)) shapeCasts_S16_S1x16⟩,
        ⟨Rect.unit (s := S64x128) (k0_off6 k) S1x16.size (k0_off6_inb k), shapeCast S1x16 (k0_pay1 (F := F)) shapeCasts_S16_S1x16⟩,
        ⟨Rect.unit (s := S64x128) (k0_off5 k) S1x16.size (k0_off5_inb k), shapeCast S1x16 (k0_pay1 (F := F)) shapeCasts_S16_S1x16⟩,
        ⟨Rect.unit (s := S64x128) (k0_off4 k) S1x16.size (k0_off4_inb k), shapeCast S1x16 (k0_pay1 (F := F)) shapeCasts_S16_S1x16⟩,
        ⟨Rect.unit (s := S64x128) (k0_off3 k) S1x16.size (k0_off3_inb k), shapeCast S1x16 (k0_pay1 (F := F)) shapeCasts_S16_S1x16⟩,
        ⟨Rect.unit (s := S64x128) (k0_off2 k) S1x16.size (k0_off2_inb k), shapeCast S1x16 (k0_pay1 (F := F)) shapeCasts_S16_S1x16⟩]

/-- One trip of the zero loop leaves zeros in row k and keeps the rows above. -/
theorem zero_trip (k : Fin k0_t1_loop.trips) (f : Vec F S64x128 .f32) (hf : ∀ j : S64x128.Idx, (j 0).val < k.val → f j = zeroTbl (F := F) j)
    (j : S64x128.Idx) (hj : (j 0).val < k.val + 1) :
    (sH : Memref sig .scVector .vmem S64x128 .f32).view.writes (Elt F) f (zlist (F := F) k) j = zeroTbl (F := F) j := by
  have key : ∀ (off : Fin 2 → ℕ) (inb : ∀ a, off a + S1x16.size a ≤ S64x128.size a) (c : ℕ), off = ![k.val, c] →
      (j ∈ (Rect.unit (s := S64x128) off S1x16.size inb).set ↔ (j 0).val = k.val ∧ c ≤ (j 1).val ∧ (j 1).val < c + 16) := by
    intro off inb c h; subst h; rw [Rect.mem_set_unit]; refine Fin.forall_fin_two.trans ?_
    show (k.val ≤ (j 0).val ∧ (j 0).val < k.val + 1) ∧ (c ≤ (j 1).val ∧ (j 1).val < c + 16) ↔ _
    omega
  refine (show (sH : Memref sig .scVector .vmem S64x128 .f32).view.read (Elt F) ((sH : Memref sig .scVector .vmem S64x128 .f32).view.writes (Elt F) f (zlist (F := F) k)) j = _ from ?_)
  by_cases hk : (j 0).val = k.val
  · have h1 : (j 1).val < 128 := (j 1).isLt
    refine View.read_writes_apply_of_pieces (sH : Memref sig .scVector .vmem S64x128 .f32).view f (zeroTbl (F := F)) (zlist (F := F) k) ?_ j ?_
    · intro p hp x
      simp only [zlist, List.mem_cons, List.mem_nil_iff, _root_.or_false] at hp
      rcases hp with rfl | rfl | rfl | rfl | rfl | rfl | rfl | rfl <;> rfl
    · unfold zlist
      rcases (by omega : (j 1).val < 16 ∨ (16 ≤ (j 1).val ∧ (j 1).val < 32) ∨ (32 ≤ (j 1).val ∧ (j 1).val < 48) ∨ (48 ≤ (j 1).val ∧ (j 1).val < 64)
          ∨ (64 ≤ (j 1).val ∧ (j 1).val < 80) ∨ (80 ≤ (j 1).val ∧ (j 1).val < 96) ∨ (96 ≤ (j 1).val ∧ (j 1).val < 112) ∨ (112 ≤ (j 1).val)) with h | h | h | h | h | h | h | h
      · exact ⟨⟨Rect.unit (s := S64x128) (k0_off2 k) S1x16.size (k0_off2_inb k), shapeCast S1x16 (k0_pay1 (F := F)) shapeCasts_S16_S1x16⟩,
          (by repeat' (first | exact List.mem_cons_self | refine List.mem_cons_of_mem _ ?_)),
          (key (k0_off2 k) (k0_off2_inb k) 0 (k0_off2_eq k)).2 ⟨hk, by omega, by omega⟩⟩
      · exact ⟨⟨Rect.unit (s := S64x128) (k0_off3 k) S1x16.size (k0_off3_inb k), shapeCast S1x16 (k0_pay1 (F := F)) shapeCasts_S16_S1x16⟩,
          (by repeat' (first | exact List.mem_cons_self | refine List.mem_cons_of_mem _ ?_)),
          (key (k0_off3 k) (k0_off3_inb k) 16 (k0_off3_eq k)).2 ⟨hk, by omega, by omega⟩⟩
      · exact ⟨⟨Rect.unit (s := S64x128) (k0_off4 k) S1x16.size (k0_off4_inb k), shapeCast S1x16 (k0_pay1 (F := F)) shapeCasts_S16_S1x16⟩,
          (by repeat' (first | exact List.mem_cons_self | refine List.mem_cons_of_mem _ ?_)),
          (key (k0_off4 k) (k0_off4_inb k) 32 (k0_off4_eq k)).2 ⟨hk, by omega, by omega⟩⟩
      · exact ⟨⟨Rect.unit (s := S64x128) (k0_off5 k) S1x16.size (k0_off5_inb k), shapeCast S1x16 (k0_pay1 (F := F)) shapeCasts_S16_S1x16⟩,
          (by repeat' (first | exact List.mem_cons_self | refine List.mem_cons_of_mem _ ?_)),
          (key (k0_off5 k) (k0_off5_inb k) 48 (k0_off5_eq k)).2 ⟨hk, by omega, by omega⟩⟩
      · exact ⟨⟨Rect.unit (s := S64x128) (k0_off6 k) S1x16.size (k0_off6_inb k), shapeCast S1x16 (k0_pay1 (F := F)) shapeCasts_S16_S1x16⟩,
          (by repeat' (first | exact List.mem_cons_self | refine List.mem_cons_of_mem _ ?_)),
          (key (k0_off6 k) (k0_off6_inb k) 64 (k0_off6_eq k)).2 ⟨hk, by omega, by omega⟩⟩
      · exact ⟨⟨Rect.unit (s := S64x128) (k0_off7 k) S1x16.size (k0_off7_inb k), shapeCast S1x16 (k0_pay1 (F := F)) shapeCasts_S16_S1x16⟩,
          (by repeat' (first | exact List.mem_cons_self | refine List.mem_cons_of_mem _ ?_)),
          (key (k0_off7 k) (k0_off7_inb k) 80 (k0_off7_eq k)).2 ⟨hk, by omega, by omega⟩⟩
      · exact ⟨⟨Rect.unit (s := S64x128) (k0_off8 k) S1x16.size (k0_off8_inb k), shapeCast S1x16 (k0_pay1 (F := F)) shapeCasts_S16_S1x16⟩,
          (by repeat' (first | exact List.mem_cons_self | refine List.mem_cons_of_mem _ ?_)),
          (key (k0_off8 k) (k0_off8_inb k) 96 (k0_off8_eq k)).2 ⟨hk, by omega, by omega⟩⟩
      · exact ⟨⟨Rect.unit (s := S64x128) (k0_off9 k) S1x16.size (k0_off9_inb k), shapeCast S1x16 (k0_pay1 (F := F)) shapeCasts_S16_S1x16⟩,
          (by repeat' (first | exact List.mem_cons_self | refine List.mem_cons_of_mem _ ?_)),
          (key (k0_off9 k) (k0_off9_inb k) 112 (k0_off9_eq k)).2 ⟨hk, by omega, by omega⟩⟩
  · refine (View.read_writes_apply_of_forall_not_mem (sH : Memref sig .scVector .vmem S64x128 .f32).view f j (zlist (F := F) k) ?_).trans (hf j (by omega))
    intro p hp hmem
    simp only [zlist, List.mem_cons, List.mem_nil_iff, _root_.or_false] at hp
    rcases hp with rfl | rfl | rfl | rfl | rfl | rfl | rfl | rfl
    · exact hk ((key (k0_off9 k) (k0_off9_inb k) 112 (k0_off9_eq k)).1 hmem).1
    · exact hk ((key (k0_off8 k) (k0_off8_inb k) 96 (k0_off8_eq k)).1 hmem).1
    · exact hk ((key (k0_off7 k) (k0_off7_inb k) 80 (k0_off7_eq k)).1 hmem).1
    · exact hk ((key (k0_off6 k) (k0_off6_inb k) 64 (k0_off6_eq k)).1 hmem).1
    · exact hk ((key (k0_off5 k) (k0_off5_inb k) 48 (k0_off5_eq k)).1 hmem).1
    · exact hk ((key (k0_off4 k) (k0_off4_inb k) 32 (k0_off4_eq k)).1 hmem).1
    · exact hk ((key (k0_off3 k) (k0_off3_inb k) 16 (k0_off3_eq k)).1 hmem).1
    · exact hk ((key (k0_off2 k) (k0_off2_inb k) 0 (k0_off2_eq k)).1 hmem).1

/-- The zero loop's invariant: the rows before the trip are zero. -/
def zinv (k : Nat) (_ : PUnit) : sProp 𝕄 :=
  iprop(∃ f : Vec F S64x128 .f32, ((sH : Memref sig .scVector .vmem S64x128 .f32).view.loc (V d (cV L) (jV L)) ↦{fullShare} f)
    ∗ ⌜∀ j : S64x128.Idx, (j 0).val < k → f j = zeroTbl (F := F) j⌝)

/-! ## The counting loops -/

/-- A counting loop's invariant: the window of the staging buffer holds its piece of the chunk, the table is the table
    after the vectors counted so far. -/
def sinv (c : ℕ) (hc : ∀ a, (![c] : Fin 1 → ℕ) a + S10000.size a ≤ S50000.size a) (n0 : ℕ) (t : ℕ) (_ : PUnit) : sProp 𝕄 :=
  iprop(dstPts d L c hc (chunkFn (m (eLoc d)) (wL L))
    ∗ ((sH : Memref sig .scVector .vmem S64x128 .f32).view.loc (V d (cV L) (jV L)) ↦{fullShare} tbl (F := F) (m (eLoc d)) (wL L) (n0 + 25 * t)))

end Tile

end Cert.KernelIdeal.Run

end
-- ==== Proof.TaskB0.lean ====
import proofs.«210447_g31353261261282_cont_9to1_114_24_alg».proof.Proof.TaskA

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 0 of the task: twenty-five counting steps.
-/
section Tile

variable (m : (ℓ : Loc nD τ sig) → Buf (Elt F) ℓ) (d : Dev nD) (L : grid0.Coords)

/-- One trip of counting loop 0: the table after 625·0 + 25 t vectors becomes the table after 25 more. -/
theorem trip0 (hpre : PreOK m) (t : Fin k0_t2_loop.trips) :
    sinv m d L 0 inb_S50000_S10000_0 0 t.val ⟨⟩
      ⊢ wp frame (wpE (defs₀ (F := F)) 𝒱₀ (V d (cV L) (jV L)) none) Set.univ
          (k0_t2_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes t ())
          fun _ => sinv m d L 0 inb_S50000_S10000_0 0 (t.val + 1) ⟨⟩ := by
  have ht : t.val < 25 := lt_of_lt_of_le t.isLt k0_t2_abs.2.1
  unfold k0_t2_body sinv
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, Prog.bind_assoc]
  rw [show 0 + 25 * (t.val + 1) = 0 + 25 * t.val + 24 + 1 by omega]
  iintro H
  iapply (wp_site (F := F) m d L hpre (c := 0) (hc := inb_S50000_S10000_0) (n := 0 + 25 * t.val + 0) (off := k0_off10 t)
    (by rw [k0_off10_eq]; show 400 * t.val = 16 * (0 + 25 * t.val + 0); omega) (by omega) (by omega)) $$ H; iintro H
  iapply (wp_site (F := F) m d L hpre (c := 0) (hc := inb_S50000_S10000_0) (n := 0 + 25 * t.val + 1) (off := k0_off11 t)
    (by rw [k0_off11_eq]; show 400 * t.val + 16 = 16 * (0 + 25 * t.val + 1); omega) (by omega) (by omega)) $$ H; iintro H
  iapply (wp_site (F := F) m d L hpre (c := 0) (hc := inb_S50000_S10000_0) (n := 0 + 25 * t.val + 2) (off := k0_off12 t)
    (by rw [k0_off12_eq]; show 400 * t.val + 32 = 16 * (0 + 25 * t.val + 2); omega) (by omega) (by omega)) $$ H; iintro H
  iapply (wp_site (F := F) m d L hpre (c := 0) (hc := inb_S50000_S10000_0) (n := 0 + 25 * t.val + 3) (off := k0_off13 t)
    (by rw [k0_off13_eq]; show 400 * t.val + 48 = 16 * (0 + 25 * t.val + 3); omega) (by omega) (by omega)) $$ H; iintro H
  iapply (wp_site (F := F) m d L hpre (c := 0) (hc := inb_S50000_S10000_0) (n := 0 + 25 * t.val + 4) (off := k0_off14 t)
    (by rw [k0_off14_eq]; show 400 * t.val + 64 = 16 * (0 + 25 * t.val + 4); omega) (by omega) (by omega)) $$ H; iintro H
  iapply (wp_site (F := F) m d L hpre (c := 0) (hc := inb_S50000_S10000_0) (n := 0 + 25 * t.val + 5) (off := k0_off15 t)
    (by rw [k0_off15_eq]; show 400 * t.val + 80 = 16 * (0 + 25 * t.val + 5); omega) (by omega) (by omega)) $$ H; iintro H
  iapply (wp_site (F := F) m d L hpre (c := 0) (hc := inb_S50000_S10000_0) (n := 0 + 25 * t.val + 6) (off := k0_off16 t)
    (by rw [k0_off16_eq]; show 400 * t.val + 96 = 16 * (0 + 25 * t.val + 6); omega) (by omega) (by omega)) $$ H; iintro H
  iapply (wp_site (F := F) m d L hpre (c := 0) (hc := inb_S50000_S10000_0) (n := 0 + 25 * t.val + 7) (off := k0_off17 t)
    (by rw [k0_off17_eq]; show 400 * t.val + 112 = 16 * (0 + 25 * t.val + 7); omega) (by omega) (by omega)) $$ H; iintro H
  iapply (wp_site (F := F) m d L hpre (c := 0) (hc := inb_S50000_S10000_0) (n := 0 + 25 * t.val + 8) (off := k0_off18 t)
    (by rw [k0_off18_eq]; show 400 * t.val + 128 = 16 * (0 + 25 * t.val + 8); omega) (by omega) (by omega)) $$ H; iintro H
  iapply (wp_site (F := F) m d L hpre (c := 0) (hc := inb_S50000_S10000_0) (n := 0 + 25 * t.val + 9) (off := k0_off19 t)
    (by rw [k0_off19_eq]; show 400 * t.val + 144 = 16 * (0 + 25 * t.val + 9); omega) (by omega) (by omega)) $$ H; iintro H
  iapply (wp_site (F := F) m d L hpre (c := 0) (hc := inb_S50000_S10000_0) (n := 0 + 25 * t.val + 10) (off := k0_off20 t)
    (by rw [k0_off20_eq]; show 400 * t.val + 160 = 16 * (0 + 25 * t.val + 10); omega) (by omega) (by omega)) $$ H; iintro H
  iapply (wp_site (F := F) m d L hpre (c := 0) (hc := inb_S50000_S10000_0) (n := 0 + 25 * t.val + 11) (off := k0_off21 t)
    (by rw [k0_off21_eq]; show 400 * t.val + 176 = 16 * (0 + 25 * t.val + 11); omega) (by omega) (by omega)) $$ H; iintro H
  iapply (wp_site (F := F) m d L hpre (c := 0) (hc := inb_S50000_S10000_0) (n := 0 + 25 * t.val + 12) (off := k0_off22 t)
    (by rw [k0_off22_eq]; show 400 * t.val + 192 = 16 * (0 + 25 * t.val + 12); omega) (by omega) (by omega)) $$ H; iintro H
  iapply (wp_site (F := F) m d L hpre (c := 0) (hc := inb_S50000_S10000_0) (n := 0 + 25 * t.val + 13) (off := k0_off23 t)
    (by rw [k0_off23_eq]; show 400 * t.val + 208 = 16 * (0 + 25 * t.val + 13); omega) (by omega) (by omega)) $$ H; iintro H
  iapply (wp_site (F := F) m d L hpre (c := 0) (hc := inb_S50000_S10000_0) (n := 0 + 25 * t.val + 14) (off := k0_off24 t)
    (by rw [k0_off24_eq]; show 400 * t.val + 224 = 16 * (0 + 25 * t.val + 14); omega) (by omega) (by omega)) $$ H; iintro H
  iapply (wp_site (F := F) m d L hpre (c := 0) (hc := inb_S50000_S10000_0) (n := 0 + 25 * t.val + 15) (off := k0_off25 t)
    (by rw [k0_off25_eq]; show 400 * t.val + 240 = 16 * (0 + 25 * t.val + 15); omega) (by omega) (by omega)) $$ H; iintro H
  iapply (wp_site (F := F) m d L hpre (c := 0) (hc := inb_S50000_S10000_0) (n := 0 + 25 * t.val + 16) (off := k0_off26 t)
    (by rw [k0_off26_eq]; show 400 * t.val + 256 = 16 * (0 + 25 * t.val + 16); omega) (by omega) (by omega)) $$ H; iintro H
  iapply (wp_site (F := F) m d L hpre (c := 0) (hc := inb_S50000_S10000_0) (n := 0 + 25 * t.val + 17) (off := k0_off27 t)
    (by rw [k0_off27_eq]; show 400 * t.val + 272 = 16 * (0 + 25 * t.val + 17); omega) (by omega) (by omega)) $$ H; iintro H
  iapply (wp_site (F := F) m d L hpre (c := 0) (hc := inb_S50000_S10000_0) (n := 0 + 25 * t.val + 18) (off := k0_off28 t)
    (by rw [k0_off28_eq]; show 400 * t.val + 288 = 16 * (0 + 25 * t.val + 18); omega) (by omega) (by omega)) $$ H; iintro H
  iapply (wp_site (F := F) m d L hpre (c := 0) (hc := inb_S50000_S10000_0) (n := 0 + 25 * t.val + 19) (off := k0_off29 t)
    (by rw [k0_off29_eq]; show 400 * t.val + 304 = 16 * (0 + 25 * t.val + 19); omega) (by omega) (by omega)) $$ H; iintro H
  iapply (wp_site (F := F) m d L hpre (c := 0) (hc := inb_S50000_S10000_0) (n := 0 + 25 * t.val + 20) (off := k0_off30 t)
    (by rw [k0_off30_eq]; show 400 * t.val + 320 = 16 * (0 + 25 * t.val + 20); omega) (by omega) (by omega)) $$ H; iintro H
  iapply (wp_site (F := F) m d L hpre (c := 0) (hc := inb_S50000_S10000_0) (n := 0 + 25 * t.val + 21) (off := k0_off31 t)
    (by rw [k0_off31_eq]; show 400 * t.val + 336 = 16 * (0 + 25 * t.val + 21); omega) (by omega) (by omega)) $$ H; iintro H
  iapply (wp_site (F := F) m d L hpre (c := 0) (hc := inb_S50000_S10000_0) (n := 0 + 25 * t.val + 22) (off := k0_off32 t)
    (by rw [k0_off32_eq]; show 400 * t.val + 352 = 16 * (0 + 25 * t.val + 22); omega) (by omega) (by omega)) $$ H; iintro H
  iapply (wp_site (F := F) m d L hpre (c := 0) (hc := inb_S50000_S10000_0) (n := 0 + 25 * t.val + 23) (off := k0_off33 t)
    (by rw [k0_off33_eq]; show 400 * t.val + 368 = 16 * (0 + 25 * t.val + 23); omega) (by omega) (by omega)) $$ H; iintro H
  iapply (wp_site (F := F) m d L hpre (c := 0) (hc := inb_S50000_S10000_0) (n := 0 + 25 * t.val + 24) (off := k0_off34 t)
    (by rw [k0_off34_eq]; show 400 * t.val + 384 = 16 * (0 + 25 * t.val + 24); omega) (by omega) (by omega)) $$ H; iintro H
  sl_step
  iexact H

end Tile

end Cert.KernelIdeal.Run

end
-- ==== Proof.TaskB1.lean ====
import proofs.«210447_g31353261261282_cont_9to1_114_24_alg».proof.Proof.TaskA

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 1 of the task: twenty-five counting steps.
-/
section Tile

variable (m : (ℓ : Loc nD τ sig) → Buf (Elt F) ℓ) (d : Dev nD) (L : grid0.Coords)

/-- One trip of counting loop 1: the table after 625·1 + 25 t vectors becomes the table after 25 more. -/
theorem trip1 (hpre : PreOK m) (t : Fin k0_t3_loop.trips) :
    sinv m d L 10000 inb_S50000_S10000_10000 625 t.val ⟨⟩
      ⊢ wp frame (wpE (defs₀ (F := F)) 𝒱₀ (V d (cV L) (jV L)) none) Set.univ
          (k0_t3_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes t ())
          fun _ => sinv m d L 10000 inb_S50000_S10000_10000 625 (t.val + 1) ⟨⟩ := by
  have ht : t.val < 25 := lt_of_lt_of_le t.isLt k0_t3_abs.2.1
  unfold k0_t3_body sinv
  simp only [k0_part6_eq_skeleton, k0_part7_eq_skeleton, k0_part8_eq_skeleton, k0_part9_eq_skeleton, k0_part10_eq_skeleton]
  unfold k0_part6_skel k0_part7_skel k0_part8_skel k0_part9_skel k0_part10_skel
  simp only [Prog.lift, Prog.bind_op, Prog.bind_ret, Prog.pure_eq_ret, Prog.bind_assoc]
  rw [show 625 + 25 * (t.val + 1) = 625 + 25 * t.val + 24 + 1 by omega]
  iintro H
  iapply (wp_site (F := F) m d L hpre (c := 10000) (hc := inb_S50000_S10000_10000) (n := 625 + 25 * t.val + 0) (off := k0_off36 t)
    (by rw [k0_off36_eq]; show 400 * t.val + 10000 = 16 * (625 + 25 * t.val + 0); omega) (by omega) (by omega)) $$ H; iintro H
  iapply (wp_site (F := F) m d L hpre (c := 10000) (hc := inb_S50000_S10000_10000) (n := 625 + 25 * t.val + 1) (off := k0_off37 t)
    (by rw [k0_off37_eq]; show 400 * t.val + 10016 = 16 * (625 + 25 * t.val + 1); omega) (by omega) (by omega)) $$ H; iintro H
  iapply (wp_site (F := F) m d L hpre (c := 10000) (hc := inb_S50000_S10000_10000) (n := 625 + 25 * t.val + 2) (off := k0_off38 t)
    (by rw [k0_off38_eq]; show 400 * t.val + 10032 = 16 * (625 + 25 * t.val + 2); omega) (by omega) (by omega)) $$ H; iintro H
  iapply (wp_site (F := F) m d L hpre (c := 10000) (hc := inb_S50000_S10000_10000) (n := 625 + 25 * t.val + 3) (off := k0_off39 t)
    (by rw [k0_off39_eq]; show 400 * t.val + 10048 = 16 * (625 + 25 * t.val + 3); omega) (by omega) (by omega)) $$ H; iintro H
  iapply (wp_site (F := F) m d L hpre (c := 10000) (hc := inb_S50000_S10000_10000) (n := 625 + 25 * t.val + 4) (off := k0_off40 t)
    (by rw [k0_off40_eq]; show 400 * t.val + 10064 = 16 * (625 + 25 * t.val + 4); omega) (by omega) (by omega)) $$ H; iintro H
  iapply (wp_site (F := F) m d L hpre (c := 10000) (hc := inb_S50000_S10000_10000) (n := 625 + 25 * t.val + 5) (off := k0_off41 t)
    (by rw [k0_off41_eq]; show 400 * t.val + 10080 = 16 * (625 + 25 * t.val + 5); omega) (by omega) (by omega)) $$ H; iintro H
  iapply (wp_site (F := F) m d L hpre (c := 10000) (hc := inb_S50000_S10000_10000) (n := 625 + 25 * t.val + 6) (off := k0_off42 t)
    (by rw [k0_off42_eq]; show 400 * t.val + 10096 = 16 * (625 + 25 * t.val + 6); omega) (by omega) (by omega)) $$ H; iintro H
  iapply (wp_site (F := F) m d L hpre (c := 10000) (hc := inb_S50000_S10000_10000) (n := 625 + 25 * t.val + 7) (off := k0_off43 t)
    (by rw [k0_off43_eq]; show 400 * t.val + 10112 = 16 * (625 + 25 * t.val + 7); omega) (by omega) (by omega)) $$ H; iintro H
  iapply (wp_site (F := F) m d L hpre (c := 10000) (hc := inb_S50000_S10000_10000) (n := 625 + 25 * t.val + 8) (off := k0_off44 t)
    (by rw [k0_off44_eq]; show 400 * t.val + 10128 = 16 * (625 + 25 * t.val + 8); omega) (by omega) (by omega)) $$ H; iintro H
  iapply (wp_site (F := F) m d L hpre (c := 10000) (hc := inb_S50000_S10000_10000) (n := 625 + 25 * t.val + 9) (off := k0_off45 t)
    (by rw [k0_off45_eq]; show 400 * t.val + 10144 = 16 * (625 + 25 * t.val + 9); omega) (by omega) (by omega)) $$ H; iintro H
  iapply (wp_site (F := F) m d L hpre (c := 10000) (hc := inb_S50000_S10000_10000) (n := 625 + 25 * t.val + 10) (off := k0_off46 t)
    (by rw [k0_off46_eq]; show 400 * t.val + 10160 = 16 * (625 + 25 * t.val + 10); omega) (by omega) (by omega)) $$ H; iintro H
  iapply (wp_site (F := F) m d L hpre (c := 10000) (hc := inb_S50000_S10000_10000) (n := 625 + 25 * t.val + 11) (off := k0_off47 t)
    (by rw [k0_off47_eq]; show 400 * t.val + 10176 = 16 * (625 + 25 * t.val + 11); omega) (by omega) (by omega)) $$ H; iintro H
  iapply (wp_site (F := F) m d L hpre (c := 10000) (hc := inb_S50000_S10000_10000) (n := 625 + 25 * t.val + 12) (off := k0_off48 t)
    (by rw [k0_off48_eq]; show 400 * t.val + 10192 = 16 * (625 + 25 * t.val + 12); omega) (by omega) (by omega)) $$ H; iintro H
  iapply (wp_site (F := F) m d L hpre (c := 10000) (hc := inb_S50000_S10000_10000) (n := 625 + 25 * t.val + 13) (off := k0_off49 t)
    (by rw [k0_off49_eq]; show 400 * t.val + 10208 = 16 * (625 + 25 * t.val + 13); omega) (by omega) (by omega)) $$ H; iintro H
  iapply (wp_site (F := F) m d L hpre (c := 10000) (hc := inb_S50000_S10000_10000) (n := 625 + 25 * t.val + 14) (off := k0_off50 t)
    (by rw [k0_off50_eq]; show 400 * t.val + 10224 = 16 * (625 + 25 * t.val + 14); omega) (by omega) (by omega)) $$ H; iintro H
  iapply (wp_site (F := F) m d L hpre (c := 10000) (hc := inb_S50000_S10000_10000) (n := 625 + 25 * t.val + 15) (off := k0_off51 t)
    (by rw [k0_off51_eq]; show 400 * t.val + 10240 = 16 * (625 + 25 * t.val + 15); omega) (by omega) (by omega)) $$ H; iintro H
  iapply (wp_site (F := F) m d L hpre (c := 10000) (hc := inb_S50000_S10000_10000) (n := 625 + 25 * t.val + 16) (off := k0_off52 t)
    (by rw [k0_off52_eq]; show 400 * t.val + 10256 = 16 * (625 + 25 * t.val + 16); omega) (by omega) (by omega)) $$ H; iintro H
  iapply (wp_site (F := F) m d L hpre (c := 10000) (hc := inb_S50000_S10000_10000) (n := 625 + 25 * t.val + 17) (off := k0_off53 t)
    (by rw [k0_off53_eq]; show 400 * t.val + 10272 = 16 * (625 + 25 * t.val + 17); omega) (by omega) (by omega)) $$ H; iintro H
  iapply (wp_site (F := F) m d L hpre (c := 10000) (hc := inb_S50000_S10000_10000) (n := 625 + 25 * t.val + 18) (off := k0_off54 t)
    (by rw [k0_off54_eq]; show 400 * t.val + 10288 = 16 * (625 + 25 * t.val + 18); omega) (by omega) (by omega)) $$ H; iintro H
  iapply (wp_site (F := F) m d L hpre (c := 10000) (hc := inb_S50000_S10000_10000) (n := 625 + 25 * t.val + 19) (off := k0_off55 t)
    (by rw [k0_off55_eq]; show 400 * t.val + 10304 = 16 * (625 + 25 * t.val + 19); omega) (by omega) (by omega)) $$ H; iintro H
  iapply (wp_site (F := F) m d L hpre (c := 10000) (hc := inb_S50000_S10000_10000) (n := 625 + 25 * t.val + 20) (off := k0_off56 t)
    (by rw [k0_off56_eq]; show 400 * t.val + 10320 = 16 * (625 + 25 * t.val + 20); omega) (by omega) (by omega)) $$ H; iintro H
  iapply (wp_site (F := F) m d L hpre (c := 10000) (hc := inb_S50000_S10000_10000) (n := 625 + 25 * t.val + 21) (off := k0_off57 t)
    (by rw [k0_off57_eq]; show 400 * t.val + 10336 = 16 * (625 + 25 * t.val + 21); omega) (by omega) (by omega)) $$ H; iintro H
  iapply (wp_site (F := F) m d L hpre (c := 10000) (hc := inb_S50000_S10000_10000) (n := 625 + 25 * t.val + 22) (off := k0_off58 t)
    (by rw [k0_off58_eq]; show 400 * t.val + 10352 = 16 * (625 + 25 * t.val + 22); omega) (by omega) (by omega)) $$ H; iintro H
  iapply (wp_site (F := F) m d L hpre (c := 10000) (hc := inb_S50000_S10000_10000) (n := 625 + 25 * t.val + 23) (off := k0_off59 t)
    (by rw [k0_off59_eq]; show 400 * t.val + 10368 = 16 * (625 + 25 * t.val + 23); omega) (by omega) (by omega)) $$ H; iintro H
  iapply (wp_site (F := F) m d L hpre (c := 10000) (hc := inb_S50000_S10000_10000) (n := 625 + 25 * t.val + 24) (off := k0_off60 t)
    (by rw [k0_off60_eq]; show 400 * t.val + 10384 = 16 * (625 + 25 * t.val + 24); omega) (by omega) (by omega)) $$ H; iintro H
  sl_step
  iexact H

end Tile

end Cert.KernelIdeal.Run

end
-- ==== Proof.TaskB2.lean ====
import proofs.«210447_g31353261261282_cont_9to1_114_24_alg».proof.Proof.TaskA

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 2 of the task: twenty-five counting steps.
-/
section Tile

variable (m : (ℓ : Loc nD τ sig) → Buf (Elt F) ℓ) (d : Dev nD) (L : grid0.Coords)

/-- One trip of counting loop 2: the table after 625·2 + 25 t vectors becomes the table after 25 more. -/
theorem trip2 (hpre : PreOK m) (t : Fin k0_t4_loop.trips) :
    sinv m d L 20000 inb_S50000_S10000_20000 1250 t.val ⟨⟩
      ⊢ wp frame (wpE (defs₀ (F := F)) 𝒱₀ (V d (cV L) (jV L)) none) Set.univ
          (k0_t4_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes t ())
          fun _ => sinv m d L 20000 inb_S50000_S10000_20000 1250 (t.val + 1) ⟨⟩ := by
  have ht : t.val < 25 := lt_of_lt_of_le t.isLt k0_t4_abs.2.1
  unfold k0_t4_body sinv
  simp only [k0_part11_eq_skeleton, k0_part12_eq_skeleton, k0_part13_eq_skeleton, k0_part14_eq_skeleton, k0_part15_eq_skeleton]
  unfold k0_part11_skel k0_part12_skel k0_part13_skel k0_part14_skel k0_part15_skel
  simp only [Prog.lift, Prog.bind_op, Prog.bind_ret, Prog.pure_eq_ret, Prog.bind_assoc]
  rw [show 1250 + 25 * (t.val + 1) = 1250 + 25 * t.val + 24 + 1 by omega]
  iintro H
  iapply (wp_site (F := F) m d L hpre (c := 20000) (hc := inb_S50000_S10000_20000) (n := 1250 + 25 * t.val + 0) (off := k0_off61 t)
    (by rw [k0_off61_eq]; show 400 * t.val + 20000 = 16 * (1250 + 25 * t.val + 0); omega) (by omega) (by omega)) $$ H; iintro H
  iapply (wp_site (F := F) m d L hpre (c := 20000) (hc := inb_S50000_S10000_20000) (n := 1250 + 25 * t.val + 1) (off := k0_off62 t)
    (by rw [k0_off62_eq]; show 400 * t.val + 20016 = 16 * (1250 + 25 * t.val + 1); omega) (by omega) (by omega)) $$ H; iintro H
  iapply (wp_site (F := F) m d L hpre (c := 20000) (hc := inb_S50000_S10000_20000) (n := 1250 + 25 * t.val + 2) (off := k0_off63 t)
    (by rw [k0_off63_eq]; show 400 * t.val + 20032 = 16 * (1250 + 25 * t.val + 2); omega) (by omega) (by omega)) $$ H; iintro H
  iapply (wp_site (F := F) m d L hpre (c := 20000) (hc := inb_S50000_S10000_20000) (n := 1250 + 25 * t.val + 3) (off := k0_off64 t)
    (by rw [k0_off64_eq]; show 400 * t.val + 20048 = 16 * (1250 + 25 * t.val + 3); omega) (by omega) (by omega)) $$ H; iintro H
  iapply (wp_site (F := F) m d L hpre (c := 20000) (hc := inb_S50000_S10000_20000) (n := 1250 + 25 * t.val + 4) (off := k0_off65 t)
    (by rw [k0_off65_eq]; show 400 * t.val + 20064 = 16 * (1250 + 25 * t.val + 4); omega) (by omega) (by omega)) $$ H; iintro H
  iapply (wp_site (F := F) m d L hpre (c := 20000) (hc := inb_S50000_S10000_20000) (n := 1250 + 25 * t.val + 5) (off := k0_off66 t)
    (by rw [k0_off66_eq]; show 400 * t.val + 20080 = 16 * (1250 + 25 * t.val + 5); omega) (by omega) (by omega)) $$ H; iintro H
  iapply (wp_site (F := F) m d L hpre (c := 20000) (hc := inb_S50000_S10000_20000) (n := 1250 + 25 * t.val + 6) (off := k0_off67 t)
    (by rw [k0_off67_eq]; show 400 * t.val + 20096 = 16 * (1250 + 25 * t.val + 6); omega) (by omega) (by omega)) $$ H; iintro H
  iapply (wp_site (F := F) m d L hpre (c := 20000) (hc := inb_S50000_S10000_20000) (n := 1250 + 25 * t.val + 7) (off := k0_off68 t)
    (by rw [k0_off68_eq]; show 400 * t.val + 20112 = 16 * (1250 + 25 * t.val + 7); omega) (by omega) (by omega)) $$ H; iintro H
  iapply (wp_site (F := F) m d L hpre (c := 20000) (hc := inb_S50000_S10000_20000) (n := 1250 + 25 * t.val + 8) (off := k0_off69 t)
    (by rw [k0_off69_eq]; show 400 * t.val + 20128 = 16 * (1250 + 25 * t.val + 8); omega) (by omega) (by omega)) $$ H; iintro H
  iapply (wp_site (F := F) m d L hpre (c := 20000) (hc := inb_S50000_S10000_20000) (n := 1250 + 25 * t.val + 9) (off := k0_off70 t)
    (by rw [k0_off70_eq]; show 400 * t.val + 20144 = 16 * (1250 + 25 * t.val + 9); omega) (by omega) (by omega)) $$ H; iintro H
  iapply (wp_site (F := F) m d L hpre (c := 20000) (hc := inb_S50000_S10000_20000) (n := 1250 + 25 * t.val + 10) (off := k0_off71 t)
    (by rw [k0_off71_eq]; show 400 * t.val + 20160 = 16 * (1250 + 25 * t.val + 10); omega) (by omega) (by omega)) $$ H; iintro H
  iapply (wp_site (F := F) m d L hpre (c := 20000) (hc := inb_S50000_S10000_20000) (n := 1250 + 25 * t.val + 11) (off := k0_off72 t)
    (by rw [k0_off72_eq]; show 400 * t.val + 20176 = 16 * (1250 + 25 * t.val + 11); omega) (by omega) (by omega)) $$ H; iintro H
  iapply (wp_site (F := F) m d L hpre (c := 20000) (hc := inb_S50000_S10000_20000) (n := 1250 + 25 * t.val + 12) (off := k0_off73 t)
    (by rw [k0_off73_eq]; show 400 * t.val + 20192 = 16 * (1250 + 25 * t.val + 12); omega) (by omega) (by omega)) $$ H; iintro H
  iapply (wp_site (F := F) m d L hpre (c := 20000) (hc := inb_S50000_S10000_20000) (n := 1250 + 25 * t.val + 13) (off := k0_off74 t)
    (by rw [k0_off74_eq]; show 400 * t.val + 20208 = 16 * (1250 + 25 * t.val + 13); omega) (by omega) (by omega)) $$ H; iintro H
  iapply (wp_site (F := F) m d L hpre (c := 20000) (hc := inb_S50000_S10000_20000) (n := 1250 + 25 * t.val + 14) (off := k0_off75 t)
    (by rw [k0_off75_eq]; show 400 * t.val + 20224 = 16 * (1250 + 25 * t.val + 14); omega) (by omega) (by omega)) $$ H; iintro H
  iapply (wp_site (F := F) m d L hpre (c := 20000) (hc := inb_S50000_S10000_20000) (n := 1250 + 25 * t.val + 15) (off := k0_off76 t)
    (by rw [k0_off76_eq]; show 400 * t.val + 20240 = 16 * (1250 + 25 * t.val + 15); omega) (by omega) (by omega)) $$ H; iintro H
  iapply (wp_site (F := F) m d L hpre (c := 20000) (hc := inb_S50000_S10000_20000) (n := 1250 + 25 * t.val + 16) (off := k0_off77 t)
    (by rw [k0_off77_eq]; show 400 * t.val + 20256 = 16 * (1250 + 25 * t.val + 16); omega) (by omega) (by omega)) $$ H; iintro H
  iapply (wp_site (F := F) m d L hpre (c := 20000) (hc := inb_S50000_S10000_20000) (n := 1250 + 25 * t.val + 17) (off := k0_off78 t)
    (by rw [k0_off78_eq]; show 400 * t.val + 20272 = 16 * (1250 + 25 * t.val + 17); omega) (by omega) (by omega)) $$ H; iintro H
  iapply (wp_site (F := F) m d L hpre (c := 20000) (hc := inb_S50000_S10000_20000) (n := 1250 + 25 * t.val + 18) (off := k0_off79 t)
    (by rw [k0_off79_eq]; show 400 * t.val + 20288 = 16 * (1250 + 25 * t.val + 18); omega) (by omega) (by omega)) $$ H; iintro H
  iapply (wp_site (F := F) m d L hpre (c := 20000) (hc := inb_S50000_S10000_20000) (n := 1250 + 25 * t.val + 19) (off := k0_off80 t)
    (by rw [k0_off80_eq]; show 400 * t.val + 20304 = 16 * (1250 + 25 * t.val + 19); omega) (by omega) (by omega)) $$ H; iintro H
  iapply (wp_site (F := F) m d L hpre (c := 20000) (hc := inb_S50000_S10000_20000) (n := 1250 + 25 * t.val + 20) (off := k0_off81 t)
    (by rw [k0_off81_eq]; show 400 * t.val + 20320 = 16 * (1250 + 25 * t.val + 20); omega) (by omega) (by omega)) $$ H; iintro H
  iapply (wp_site (F := F) m d L hpre (c := 20000) (hc := inb_S50000_S10000_20000) (n := 1250 + 25 * t.val + 21) (off := k0_off82 t)
    (by rw [k0_off82_eq]; show 400 * t.val + 20336 = 16 * (1250 + 25 * t.val + 21); omega) (by omega) (by omega)) $$ H; iintro H
  iapply (wp_site (F := F) m d L hpre (c := 20000) (hc := inb_S50000_S10000_20000) (n := 1250 + 25 * t.val + 22) (off := k0_off83 t)
    (by rw [k0_off83_eq]; show 400 * t.val + 20352 = 16 * (1250 + 25 * t.val + 22); omega) (by omega) (by omega)) $$ H; iintro H
  iapply (wp_site (F := F) m d L hpre (c := 20000) (hc := inb_S50000_S10000_20000) (n := 1250 + 25 * t.val + 23) (off := k0_off84 t)
    (by rw [k0_off84_eq]; show 400 * t.val + 20368 = 16 * (1250 + 25 * t.val + 23); omega) (by omega) (by omega)) $$ H; iintro H
  iapply (wp_site (F := F) m d L hpre (c := 20000) (hc := inb_S50000_S10000_20000) (n := 1250 + 25 * t.val + 24) (off := k0_off85 t)
    (by rw [k0_off85_eq]; show 400 * t.val + 20384 = 16 * (1250 + 25 * t.val + 24); omega) (by omega) (by omega)) $$ H; iintro H
  sl_step
  iexact H

end Tile

end Cert.KernelIdeal.Run

end
-- ==== Proof.TaskB3.lean ====
import proofs.«210447_g31353261261282_cont_9to1_114_24_alg».proof.Proof.TaskA

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 3 of the task: twenty-five counting steps.
-/
section Tile

variable (m : (ℓ : Loc nD τ sig) → Buf (Elt F) ℓ) (d : Dev nD) (L : grid0.Coords)

/-- One trip of counting loop 3: the table after 625·3 + 25 t vectors becomes the table after 25 more. -/
theorem trip3 (hpre : PreOK m) (t : Fin k0_t5_loop.trips) :
    sinv m d L 30000 inb_S50000_S10000_30000 1875 t.val ⟨⟩
      ⊢ wp frame (wpE (defs₀ (F := F)) 𝒱₀ (V d (cV L) (jV L)) none) Set.univ
          (k0_t5_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes t ())
          fun _ => sinv m d L 30000 inb_S50000_S10000_30000 1875 (t.val + 1) ⟨⟩ := by
  have ht : t.val < 25 := lt_of_lt_of_le t.isLt k0_t5_abs.2.1
  unfold k0_t5_body sinv
  simp only [k0_part16_eq_skeleton, k0_part17_eq_skeleton, k0_part18_eq_skeleton, k0_part19_eq_skeleton, k0_part20_eq_skeleton]
  unfold k0_part16_skel k0_part17_skel k0_part18_skel k0_part19_skel k0_part20_skel
  simp only [Prog.lift, Prog.bind_op, Prog.bind_ret, Prog.pure_eq_ret, Prog.bind_assoc]
  rw [show 1875 + 25 * (t.val + 1) = 1875 + 25 * t.val + 24 + 1 by omega]
  iintro H
  iapply (wp_site (F := F) m d L hpre (c := 30000) (hc := inb_S50000_S10000_30000) (n := 1875 + 25 * t.val + 0) (off := k0_off86 t)
    (by rw [k0_off86_eq]; show 400 * t.val + 30000 = 16 * (1875 + 25 * t.val + 0); omega) (by omega) (by omega)) $$ H; iintro H
  iapply (wp_site (F := F) m d L hpre (c := 30000) (hc := inb_S50000_S10000_30000) (n := 1875 + 25 * t.val + 1) (off := k0_off87 t)
    (by rw [k0_off87_eq]; show 400 * t.val + 30016 = 16 * (1875 + 25 * t.val + 1); omega) (by omega) (by omega)) $$ H; iintro H
  iapply (wp_site (F := F) m d L hpre (c := 30000) (hc := inb_S50000_S10000_30000) (n := 1875 + 25 * t.val + 2) (off := k0_off88 t)
    (by rw [k0_off88_eq]; show 400 * t.val + 30032 = 16 * (1875 + 25 * t.val + 2); omega) (by omega) (by omega)) $$ H; iintro H
  iapply (wp_site (F := F) m d L hpre (c := 30000) (hc := inb_S50000_S10000_30000) (n := 1875 + 25 * t.val + 3) (off := k0_off89 t)
    (by rw [k0_off89_eq]; show 400 * t.val + 30048 = 16 * (1875 + 25 * t.val + 3); omega) (by omega) (by omega)) $$ H; iintro H
  iapply (wp_site (F := F) m d L hpre (c := 30000) (hc := inb_S50000_S10000_30000) (n := 1875 + 25 * t.val + 4) (off := k0_off90 t)
    (by rw [k0_off90_eq]; show 400 * t.val + 30064 = 16 * (1875 + 25 * t.val + 4); omega) (by omega) (by omega)) $$ H; iintro H
  iapply (wp_site (F := F) m d L hpre (c := 30000) (hc := inb_S50000_S10000_30000) (n := 1875 + 25 * t.val + 5) (off := k0_off91 t)
    (by rw [k0_off91_eq]; show 400 * t.val + 30080 = 16 * (1875 + 25 * t.val + 5); omega) (by omega) (by omega)) $$ H; iintro H
  iapply (wp_site (F := F) m d L hpre (c := 30000) (hc := inb_S50000_S10000_30000) (n := 1875 + 25 * t.val + 6) (off := k0_off92 t)
    (by rw [k0_off92_eq]; show 400 * t.val + 30096 = 16 * (1875 + 25 * t.val + 6); omega) (by omega) (by omega)) $$ H; iintro H
  iapply (wp_site (F := F) m d L hpre (c := 30000) (hc := inb_S50000_S10000_30000) (n := 1875 + 25 * t.val + 7) (off := k0_off93 t)
    (by rw [k0_off93_eq]; show 400 * t.val + 30112 = 16 * (1875 + 25 * t.val + 7); omega) (by omega) (by omega)) $$ H; iintro H
  iapply (wp_site (F := F) m d L hpre (c := 30000) (hc := inb_S50000_S10000_30000) (n := 1875 + 25 * t.val + 8) (off := k0_off94 t)
    (by rw [k0_off94_eq]; show 400 * t.val + 30128 = 16 * (1875 + 25 * t.val + 8); omega) (by omega) (by omega)) $$ H; iintro H
  iapply (wp_site (F := F) m d L hpre (c := 30000) (hc := inb_S50000_S10000_30000) (n := 1875 + 25 * t.val + 9) (off := k0_off95 t)
    (by rw [k0_off95_eq]; show 400 * t.val + 30144 = 16 * (1875 + 25 * t.val + 9); omega) (by omega) (by omega)) $$ H; iintro H
  iapply (wp_site (F := F) m d L hpre (c := 30000) (hc := inb_S50000_S10000_30000) (n := 1875 + 25 * t.val + 10) (off := k0_off96 t)
    (by rw [k0_off96_eq]; show 400 * t.val + 30160 = 16 * (1875 + 25 * t.val + 10); omega) (by omega) (by omega)) $$ H; iintro H
  iapply (wp_site (F := F) m d L hpre (c := 30000) (hc := inb_S50000_S10000_30000) (n := 1875 + 25 * t.val + 11) (off := k0_off97 t)
    (by rw [k0_off97_eq]; show 400 * t.val + 30176 = 16 * (1875 + 25 * t.val + 11); omega) (by omega) (by omega)) $$ H; iintro H
  iapply (wp_site (F := F) m d L hpre (c := 30000) (hc := inb_S50000_S10000_30000) (n := 1875 + 25 * t.val + 12) (off := k0_off98 t)
    (by rw [k0_off98_eq]; show 400 * t.val + 30192 = 16 * (1875 + 25 * t.val + 12); omega) (by omega) (by omega)) $$ H; iintro H
  iapply (wp_site (F := F) m d L hpre (c := 30000) (hc := inb_S50000_S10000_30000) (n := 1875 + 25 * t.val + 13) (off := k0_off99 t)
    (by rw [k0_off99_eq]; show 400 * t.val + 30208 = 16 * (1875 + 25 * t.val + 13); omega) (by omega) (by omega)) $$ H; iintro H
  iapply (wp_site (F := F) m d L hpre (c := 30000) (hc := inb_S50000_S10000_30000) (n := 1875 + 25 * t.val + 14) (off := k0_off100 t)
    (by rw [k0_off100_eq]; show 400 * t.val + 30224 = 16 * (1875 + 25 * t.val + 14); omega) (by omega) (by omega)) $$ H; iintro H
  iapply (wp_site (F := F) m d L hpre (c := 30000) (hc := inb_S50000_S10000_30000) (n := 1875 + 25 * t.val + 15) (off := k0_off101 t)
    (by rw [k0_off101_eq]; show 400 * t.val + 30240 = 16 * (1875 + 25 * t.val + 15); omega) (by omega) (by omega)) $$ H; iintro H
  iapply (wp_site (F := F) m d L hpre (c := 30000) (hc := inb_S50000_S10000_30000) (n := 1875 + 25 * t.val + 16) (off := k0_off102 t)
    (by rw [k0_off102_eq]; show 400 * t.val + 30256 = 16 * (1875 + 25 * t.val + 16); omega) (by omega) (by omega)) $$ H; iintro H
  iapply (wp_site (F := F) m d L hpre (c := 30000) (hc := inb_S50000_S10000_30000) (n := 1875 + 25 * t.val + 17) (off := k0_off103 t)
    (by rw [k0_off103_eq]; show 400 * t.val + 30272 = 16 * (1875 + 25 * t.val + 17); omega) (by omega) (by omega)) $$ H; iintro H
  iapply (wp_site (F := F) m d L hpre (c := 30000) (hc := inb_S50000_S10000_30000) (n := 1875 + 25 * t.val + 18) (off := k0_off104 t)
    (by rw [k0_off104_eq]; show 400 * t.val + 30288 = 16 * (1875 + 25 * t.val + 18); omega) (by omega) (by omega)) $$ H; iintro H
  iapply (wp_site (F := F) m d L hpre (c := 30000) (hc := inb_S50000_S10000_30000) (n := 1875 + 25 * t.val + 19) (off := k0_off105 t)
    (by rw [k0_off105_eq]; show 400 * t.val + 30304 = 16 * (1875 + 25 * t.val + 19); omega) (by omega) (by omega)) $$ H; iintro H
  iapply (wp_site (F := F) m d L hpre (c := 30000) (hc := inb_S50000_S10000_30000) (n := 1875 + 25 * t.val + 20) (off := k0_off106 t)
    (by rw [k0_off106_eq]; show 400 * t.val + 30320 = 16 * (1875 + 25 * t.val + 20); omega) (by omega) (by omega)) $$ H; iintro H
  iapply (wp_site (F := F) m d L hpre (c := 30000) (hc := inb_S50000_S10000_30000) (n := 1875 + 25 * t.val + 21) (off := k0_off107 t)
    (by rw [k0_off107_eq]; show 400 * t.val + 30336 = 16 * (1875 + 25 * t.val + 21); omega) (by omega) (by omega)) $$ H; iintro H
  iapply (wp_site (F := F) m d L hpre (c := 30000) (hc := inb_S50000_S10000_30000) (n := 1875 + 25 * t.val + 22) (off := k0_off108 t)
    (by rw [k0_off108_eq]; show 400 * t.val + 30352 = 16 * (1875 + 25 * t.val + 22); omega) (by omega) (by omega)) $$ H; iintro H
  iapply (wp_site (F := F) m d L hpre (c := 30000) (hc := inb_S50000_S10000_30000) (n := 1875 + 25 * t.val + 23) (off := k0_off109 t)
    (by rw [k0_off109_eq]; show 400 * t.val + 30368 = 16 * (1875 + 25 * t.val + 23); omega) (by omega) (by omega)) $$ H; iintro H
  iapply (wp_site (F := F) m d L hpre (c := 30000) (hc := inb_S50000_S10000_30000) (n := 1875 + 25 * t.val + 24) (off := k0_off110 t)
    (by rw [k0_off110_eq]; show 400 * t.val + 30384 = 16 * (1875 + 25 * t.val + 24); omega) (by omega) (by omega)) $$ H; iintro H
  sl_step
  iexact H

end Tile

end Cert.KernelIdeal.Run

end
-- ==== Proof.TaskB4.lean ====
import proofs.«210447_g31353261261282_cont_9to1_114_24_alg».proof.Proof.TaskA

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 4 of the task: twenty-five counting steps.
-/
section Tile

variable (m : (ℓ : Loc nD τ sig) → Buf (Elt F) ℓ) (d : Dev nD) (L : grid0.Coords)

/-- One trip of counting loop 4: the table after 625·4 + 25 t vectors becomes the table after 25 more. -/
theorem trip4 (hpre : PreOK m) (t : Fin k0_t6_loop.trips) :
    sinv m d L 40000 inb_S50000_S10000_40000 2500 t.val ⟨⟩
      ⊢ wp frame (wpE (defs₀ (F := F)) 𝒱₀ (V d (cV L) (jV L)) none) Set.univ
          (k0_t6_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes (k0_pay2 (F := F)) t ())
          fun _ => sinv m d L 40000 inb_S50000_S10000_40000 2500 (t.val + 1) ⟨⟩ := by
  have ht : t.val < 25 := lt_of_lt_of_le t.isLt k0_t6_abs.2.1
  unfold k0_t6_body sinv
  simp only [k0_part21_eq_skeleton, k0_part22_eq_skeleton, k0_part23_eq_skeleton, k0_part24_eq_skeleton, k0_part25_eq_skeleton]
  unfold k0_part21_skel k0_part22_skel k0_part23_skel k0_part24_skel k0_part25_skel
  simp only [Prog.lift, Prog.bind_op, Prog.bind_ret, Prog.pure_eq_ret, Prog.bind_assoc]
  rw [show 2500 + 25 * (t.val + 1) = 2500 + 25 * t.val + 24 + 1 by omega]
  iintro H
  iapply (wp_site (F := F) m d L hpre (c := 40000) (hc := inb_S50000_S10000_40000) (n := 2500 + 25 * t.val + 0) (off := k0_off111 t)
    (by rw [k0_off111_eq]; show 400 * t.val + 40000 = 16 * (2500 + 25 * t.val + 0); omega) (by omega) (by omega)) $$ H; iintro H
  iapply (wp_site (F := F) m d L hpre (c := 40000) (hc := inb_S50000_S10000_40000) (n := 2500 + 25 * t.val + 1) (off := k0_off112 t)
    (by rw [k0_off112_eq]; show 400 * t.val + 40016 = 16 * (2500 + 25 * t.val + 1); omega) (by omega) (by omega)) $$ H; iintro H
  iapply (wp_site (F := F) m d L hpre (c := 40000) (hc := inb_S50000_S10000_40000) (n := 2500 + 25 * t.val + 2) (off := k0_off113 t)
    (by rw [k0_off113_eq]; show 400 * t.val + 40032 = 16 * (2500 + 25 * t.val + 2); omega) (by omega) (by omega)) $$ H; iintro H
  iapply (wp_site (F := F) m d L hpre (c := 40000) (hc := inb_S50000_S10000_40000) (n := 2500 + 25 * t.val + 3) (off := k0_off114 t)
    (by rw [k0_off114_eq]; show 400 * t.val + 40048 = 16 * (2500 + 25 * t.val + 3); omega) (by omega) (by omega)) $$ H; iintro H
  iapply (wp_site (F := F) m d L hpre (c := 40000) (hc := inb_S50000_S10000_40000) (n := 2500 + 25 * t.val + 4) (off := k0_off115 t)
    (by rw [k0_off115_eq]; show 400 * t.val + 40064 = 16 * (2500 + 25 * t.val + 4); omega) (by omega) (by omega)) $$ H; iintro H
  iapply (wp_site (F := F) m d L hpre (c := 40000) (hc := inb_S50000_S10000_40000) (n := 2500 + 25 * t.val + 5) (off := k0_off116 t)
    (by rw [k0_off116_eq]; show 400 * t.val + 40080 = 16 * (2500 + 25 * t.val + 5); omega) (by omega) (by omega)) $$ H; iintro H
  iapply (wp_site (F := F) m d L hpre (c := 40000) (hc := inb_S50000_S10000_40000) (n := 2500 + 25 * t.val + 6) (off := k0_off117 t)
    (by rw [k0_off117_eq]; show 400 * t.val + 40096 = 16 * (2500 + 25 * t.val + 6); omega) (by omega) (by omega)) $$ H; iintro H
  iapply (wp_site (F := F) m d L hpre (c := 40000) (hc := inb_S50000_S10000_40000) (n := 2500 + 25 * t.val + 7) (off := k0_off118 t)
    (by rw [k0_off118_eq]; show 400 * t.val + 40112 = 16 * (2500 + 25 * t.val + 7); omega) (by omega) (by omega)) $$ H; iintro H
  iapply (wp_site (F := F) m d L hpre (c := 40000) (hc := inb_S50000_S10000_40000) (n := 2500 + 25 * t.val + 8) (off := k0_off119 t)
    (by rw [k0_off119_eq]; show 400 * t.val + 40128 = 16 * (2500 + 25 * t.val + 8); omega) (by omega) (by omega)) $$ H; iintro H
  iapply (wp_site (F := F) m d L hpre (c := 40000) (hc := inb_S50000_S10000_40000) (n := 2500 + 25 * t.val + 9) (off := k0_off120 t)
    (by rw [k0_off120_eq]; show 400 * t.val + 40144 = 16 * (2500 + 25 * t.val + 9); omega) (by omega) (by omega)) $$ H; iintro H
  iapply (wp_site (F := F) m d L hpre (c := 40000) (hc := inb_S50000_S10000_40000) (n := 2500 + 25 * t.val + 10) (off := k0_off121 t)
    (by rw [k0_off121_eq]; show 400 * t.val + 40160 = 16 * (2500 + 25 * t.val + 10); omega) (by omega) (by omega)) $$ H; iintro H
  iapply (wp_site (F := F) m d L hpre (c := 40000) (hc := inb_S50000_S10000_40000) (n := 2500 + 25 * t.val + 11) (off := k0_off122 t)
    (by rw [k0_off122_eq]; show 400 * t.val + 40176 = 16 * (2500 + 25 * t.val + 11); omega) (by omega) (by omega)) $$ H; iintro H
  iapply (wp_site (F := F) m d L hpre (c := 40000) (hc := inb_S50000_S10000_40000) (n := 2500 + 25 * t.val + 12) (off := k0_off123 t)
    (by rw [k0_off123_eq]; show 400 * t.val + 40192 = 16 * (2500 + 25 * t.val + 12); omega) (by omega) (by omega)) $$ H; iintro H
  iapply (wp_site (F := F) m d L hpre (c := 40000) (hc := inb_S50000_S10000_40000) (n := 2500 + 25 * t.val + 13) (off := k0_off124 t)
    (by rw [k0_off124_eq]; show 400 * t.val + 40208 = 16 * (2500 + 25 * t.val + 13); omega) (by omega) (by omega)) $$ H; iintro H
  iapply (wp_site (F := F) m d L hpre (c := 40000) (hc := inb_S50000_S10000_40000) (n := 2500 + 25 * t.val + 14) (off := k0_off125 t)
    (by rw [k0_off125_eq]; show 400 * t.val + 40224 = 16 * (2500 + 25 * t.val + 14); omega) (by omega) (by omega)) $$ H; iintro H
  iapply (wp_site (F := F) m d L hpre (c := 40000) (hc := inb_S50000_S10000_40000) (n := 2500 + 25 * t.val + 15) (off := k0_off126 t)
    (by rw [k0_off126_eq]; show 400 * t.val + 40240 = 16 * (2500 + 25 * t.val + 15); omega) (by omega) (by omega)) $$ H; iintro H
  iapply (wp_site (F := F) m d L hpre (c := 40000) (hc := inb_S50000_S10000_40000) (n := 2500 + 25 * t.val + 16) (off := k0_off127 t)
    (by rw [k0_off127_eq]; show 400 * t.val + 40256 = 16 * (2500 + 25 * t.val + 16); omega) (by omega) (by omega)) $$ H; iintro H
  iapply (wp_site (F := F) m d L hpre (c := 40000) (hc := inb_S50000_S10000_40000) (n := 2500 + 25 * t.val + 17) (off := k0_off128 t)
    (by rw [k0_off128_eq]; show 400 * t.val + 40272 = 16 * (2500 + 25 * t.val + 17); omega) (by omega) (by omega)) $$ H; iintro H
  iapply (wp_site (F := F) m d L hpre (c := 40000) (hc := inb_S50000_S10000_40000) (n := 2500 + 25 * t.val + 18) (off := k0_off129 t)
    (by rw [k0_off129_eq]; show 400 * t.val + 40288 = 16 * (2500 + 25 * t.val + 18); omega) (by omega) (by omega)) $$ H; iintro H
  iapply (wp_site (F := F) m d L hpre (c := 40000) (hc := inb_S50000_S10000_40000) (n := 2500 + 25 * t.val + 19) (off := k0_off130 t)
    (by rw [k0_off130_eq]; show 400 * t.val + 40304 = 16 * (2500 + 25 * t.val + 19); omega) (by omega) (by omega)) $$ H; iintro H
  iapply (wp_site (F := F) m d L hpre (c := 40000) (hc := inb_S50000_S10000_40000) (n := 2500 + 25 * t.val + 20) (off := k0_off131 t)
    (by rw [k0_off131_eq]; show 400 * t.val + 40320 = 16 * (2500 + 25 * t.val + 20); omega) (by omega) (by omega)) $$ H; iintro H
  iapply (wp_site (F := F) m d L hpre (c := 40000) (hc := inb_S50000_S10000_40000) (n := 2500 + 25 * t.val + 21) (off := k0_off132 t)
    (by rw [k0_off132_eq]; show 400 * t.val + 40336 = 16 * (2500 + 25 * t.val + 21); omega) (by omega) (by omega)) $$ H; iintro H
  iapply (wp_site (F := F) m d L hpre (c := 40000) (hc := inb_S50000_S10000_40000) (n := 2500 + 25 * t.val + 22) (off := k0_off133 t)
    (by rw [k0_off133_eq]; show 400 * t.val + 40352 = 16 * (2500 + 25 * t.val + 22); omega) (by omega) (by omega)) $$ H; iintro H
  iapply (wp_site (F := F) m d L hpre (c := 40000) (hc := inb_S50000_S10000_40000) (n := 2500 + 25 * t.val + 23) (off := k0_off134 t)
    (by rw [k0_off134_eq]; show 400 * t.val + 40368 = 16 * (2500 + 25 * t.val + 23); omega) (by omega) (by omega)) $$ H; iintro H
  iapply (wp_site (F := F) m d L hpre (c := 40000) (hc := inb_S50000_S10000_40000) (n := 2500 + 25 * t.val + 24) (off := k0_off135 t)
    (by rw [k0_off135_eq]; show 400 * t.val + 40384 = 16 * (2500 + 25 * t.val + 24); omega) (by omega) (by omega)) $$ H; iintro H
  sl_step
  iexact H

end Tile

end Cert.KernelIdeal.Run

end
-- ==== Proof.TaskC.lean ====
import proofs.«210447_g31353261261282_cont_9to1_114_24_alg».proof.Proof.TaskA
import Idealize.ShloMosaic.Lib.ValueLayout

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  What a landed piece of the chunk leaves in its window of the staging buffer, and what the written-out table leaves in
  the task's row of the table of partial counts.
-/

section Tile

variable (m : (ℓ : Loc nD τ sig) → Buf (Elt F) ℓ) (d : Dev nD) (L : grid0.Coords)

omit [FloatOps F] in
/-- A piece of the chunk landed in its window of the staging buffer: the window holds the chunk's words there. -/
theorem landed (r : Fin 5) {c : ℕ} {o : BitVec 32} (hcr : c = 10000 * r.val) (hor : o = BitVec.ofNat 32 (10000 * r.val))
    (h : ∀ a, k0_off1 L o a + S10000.size a ≤ S1600000.size a)
    (hc : ∀ a, (![c] : Fin 1 → ℕ) a + S10000.size a ≤ S50000.size a) (g : Buf (Elt F) ((V d (cV L) (jV L)).loc cc0_scratch0)) :
    ((dstAt c hc).view.loc (V d (cV L) (jV L)) ↦[(dstAt c hc).view.set]{fullShare}
        (dstAt c hc).view.writes (Elt F) g [⟨Rect.whole S10000, (srcAt L o h).view.read (Elt F) (m (eLoc d))⟩] : sProp 𝕄)
      = dstPts d L c hc (chunkFn (m (eLoc d)) (wL L)) := by
  subst hcr hor
  refine pointsTo_congr fun i hi => ?_
  obtain ⟨x, -, rfl⟩ := Finset.mem_map.mp hi
  have e1 : (dstAt (10000 * r.val) hc).view.writes (Elt F) g [⟨Rect.whole S10000, (srcAt L (BitVec.ofNat 32 (10000 * r.val)) h).view.read (Elt F) (m (eLoc d))⟩]
      ((dstAt (10000 * r.val) hc).view.emb x) = (srcAt L (BitVec.ofNat 32 (10000 * r.val)) h).view.read (Elt F) (m (eLoc d)) x := by
    have := View.read_writes_cons_emb (dstAt (10000 * r.val) hc).view g (Rect.whole S10000)
      ((srcAt L (BitVec.ofNat 32 (10000 * r.val)) h).view.read (Elt F) (m (eLoc d))) [] x
    rw [Rect.emb_whole_apply] at this
    exact ((View.read_apply _ _).trans (cast_eq _ _)).symm.trans this
  rw [e1]
  have hx : (x 0).val < 10000 := (x 0).isLt
  have hw : (wL L).val < 32 := (wL L).isLt
  have hr : r.val < 5 := r.isLt
  show m (eLoc d) ((srcAt L (BitVec.ofNat 32 (10000 * r.val)) h).view.emb x) = chunkFn (m (eLoc d)) (wL L) ((dstAt (10000 * r.val) hc).view.emb x)
  unfold chunkFn
  refine congrArg (m (eLoc d)) ?_
  refine (eq_ix1 (n := 1600000) _).trans ((congrArg ix1 (Fin.ext ?_)).trans (eq_ix1 (n := 1600000) _).symm)
  show k0_off1 L (BitVec.ofNat 32 (10000 * r.val)) 0 + 1 * (x 0).val = (50000 * (wL L).val + (10000 * r.val + 1 * (x 0).val)) % 1600000
  rw [off1_val L r, Nat.mod_eq_of_lt (by omega)]; omega

/-- The table written out to the task's row of the table of partial counts is that row of the array the tasks leave. -/
theorem out_row (f : Buf (Elt F) (hLoc d)) (pay : S64x128.Idx → F .f32)
    (hp : pay = (sH : Memref sig .scVector .vmem S64x128 .f32).view.read (Elt F) (tbl (F := F) (m (eLoc d)) (wL L) 3125)) :
    ((dstM L).view.loc (V d (cV L) (jV L)) ↦[(dstM L).view.set]{fullShare}
        (dstM L).view.writes (Elt F) f [⟨Rect.whole S64x128, pay⟩] : sProp 𝕄)
      = hRowPts d (wL L) (histArr m d) := by
  subst hp
  unfold hRowPts
  rw [← pts_dstM (F := F) d L]
  refine pointsTo_congr fun i hi => ?_
  obtain ⟨x, -, rfl⟩ := Finset.mem_map.mp hi
  have e1 : (dstM L).view.writes (Elt F) f [⟨Rect.whole S64x128, (sH : Memref sig .scVector .vmem S64x128 .f32).view.read (Elt F) (tbl (F := F) (m (eLoc d)) (wL L) 3125)⟩]
      ((dstM L).view.emb x) = tbl (F := F) (m (eLoc d)) (wL L) 3125 x := by
    have := View.read_writes_cons_emb (dstM L).view f (Rect.whole S64x128)
      ((sH : Memref sig .scVector .vmem S64x128 .f32).view.read (Elt F) (tbl (F := F) (m (eLoc d)) (wL L) 3125)) [] x
    rw [Rect.emb_whole_apply] at this
    exact ((View.read_apply _ _).trans (cast_eq _ _)).symm.trans this
  rw [e1]
  obtain ⟨a, b, rfl⟩ : ∃ a b, x = ix2 a b := ⟨x 0, x 1, eq_ix2 x⟩
  have h0 : (L 0).val < 2 := (L 0).isLt
  have h1 : (L 1).val < 16 := (L 1).isLt
  have hw : (wL L).val = 2 * (L 1).val + (L 0).val := wid_val h0 h1
  have hemb : (dstM L).view.emb (ix2 a b) = ix3 (wL L) a b := by
    show (Rect.unit (s := S32x64x128) (k0_off136 L) S1x64x128.size (k0_off136_inb L)).emb
      (Shape.reshapeEquiv squeezes_S1x64x128_S64x128.numel_eq (ix2 a b)) = _
    rw [reshapeEquiv_ix2_1ab]
    funext a'
    apply Fin.ext
    match a' with
    | ⟨0, _⟩ => show k0_off136 L 0 + 1 * 0 = (wL L).val; rw [k0_off136_eq, hw]; rfl
    | ⟨1, _⟩ => show k0_off136 L 1 + 1 * a.val = a.val; rw [k0_off136_eq]; show 0 + 1 * a.val = a.val; omega
    | ⟨2, _⟩ => show k0_off136 L 2 + 1 * b.val = b.val; rw [k0_off136_eq]; show 0 + 1 * b.val = b.val; omega
  rw [hemb]
  rfl

end Tile

end Cert.KernelIdeal.Run

end
-- ==== Proof.Task.lean ====
import proofs.«210447_g31353261261282_cont_9to1_114_24_alg».proof.Proof.TaskA
import proofs.«210447_g31353261261282_cont_9to1_114_24_alg».proof.Proof.TaskB0
import proofs.«210447_g31353261261282_cont_9to1_114_24_alg».proof.Proof.TaskB1
import proofs.«210447_g31353261261282_cont_9to1_114_24_alg».proof.Proof.TaskB2
import proofs.«210447_g31353261261282_cont_9to1_114_24_alg».proof.Proof.TaskB3
import proofs.«210447_g31353261261282_cont_9to1_114_24_alg».proof.Proof.TaskB4
import proofs.«210447_g31353261261282_cont_9to1_114_24_alg».proof.Proof.TaskC

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  The counting task of one vector subcore, whole: its chunk of the edge list fetched in five pieces, the table zeroed,
  each piece counted into the table once it has landed, the table written out to the task's row of the table of partial
  counts; and the launch theorem's two obligations for the call: the task at every vector subcore, and how a core's
  operands are its tasks'.
-/
section Tile

variable (m : (ℓ : Loc nD τ sig) → Buf (Elt F) ℓ) (d : Dev nD) (L : grid0.Coords)

theorem tile_body (hpre : PreOK m) (O : CellTallies nD τ sig (HIx 1)) (W : Waits sig (HIx 1)) (hO : ∀ g, O g none = 0) :
    iprop(levAts (K (F := F)).L (K (F := F)).lev ∗ emp ∗ goFor m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_hist_kernel L eV (Memref.isWhole_whole _) hV (Memref.isWhole_whole _) sE (Memref.isWhole_whole _) sH (Memref.isWhole_whole _)
            cc0_scratch2 cc0_scratch3 cc0_scratch4 cc0_scratch5 cc0_scratch6 cc0_scoped0)
          fun _ => iprop(tdFor m (histArr m) d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  sl_unfold [cc0_hist_kernel]
  rw [(K (F := F)).scopedBufs_V facts d (cV L) (jV L), SparseCore.Cfg.scopedSems0_V (Val := Elt F) d (cV L) (jV L), ownSems0_V, ownBufs_V]
  unfold goFor
  iintro ⟨#Hlv, -, ⟨He, %fh, Hh⟩, ⟨⟨%fs, Hs⟩, ⟨%ft, Ht⟩, Hbufs⟩, ⟨Hm0, Hm1, Hm2, Hm3, Hm4, Hm5, Hsems⟩, HO⟩
  ihave Hmw := ((K (F := F)).mayWaits_none (thr := V d (cV L) (jV L)) hO) $$ Hlv
  ihave He' := (Entails.of_eq (chunk_split m d L)) $$ He
  icases He' with ⟨He0, He1, He2, He3, He4⟩
  ihave Hs' := (Entails.of_eq (stage_split d L fs)) $$ Hs
  icases Hs' with ⟨Hs0, Hs1, Hs2, Hs3, Hs4⟩
  ihave Ht' := (Entails.of_eq (pts_sH (F := F) d L _).symm) $$ Ht
  ihave Hh' := (Entails.of_eq (pts_dstM (F := F) d L _).symm) $$ Hh
  sl_exec
  sl_for (zinv (F := F) d L) $$ [Ht']
  case region =>
    intro k _
    unfold zinv
    iintro ⟨%f, Ht, %hf⟩
    sl_exec
    sl_step
    iexists _
    isplitl [Ht]; · iexact Ht
    ipureintro
    exact zero_trip (F := F) k f hf
  · unfold zinv
    iexists ft
    isplitl [Ht']; · iexact Ht'
    ipureintro
    intro j hj; exact absurd hj (Nat.not_lt_zero _)
  iintro %_ HI
  unfold zinv
  icases HI with ⟨%f0, Ht, %hf0⟩
  have hz : f0 = zeroTbl (F := F) := funext fun j => hf0 j (by
    have h64 : (j 0).val < 64 := (j 0).isLt
    have ht : Scf.trips k0_t1_loop.lb k0_t1_loop.ub k0_t1_loop.st = 64 := by decide
    omega)
  subst hz
  sl_exec
  -- counting loop 0: window 0 has landed
  rw [show tile_body.sl.dma0 m d L = View.read (Elt F) (srcAt L 0#32 (k0_off1_inb L 0)).view (m (eLoc d)) from rfl]
  ihave Hs0 := (Entails.of_eq (landed m d L 0 (c := 0) (o := 0#32) rfl rfl (k0_off1_inb L 0) inb_S50000_S10000_0 _)) $$ Hs0
  sl_for (sinv (F := F) m d L 0 inb_S50000_S10000_0 0) $$ [Hs0 Ht]
  case region =>
    intro k _
    exact trip0 m d L hpre k
  · unfold sinv
    isplitl [Hs0]; · iexact Hs0
    iexact Ht
  iintro %_ HI
  unfold sinv
  rw [show Scf.trips k0_t2_loop.lb k0_t2_loop.ub k0_t2_loop.st = 25 from by decide]
  icases HI with ⟨Hs0, Ht⟩
  sl_exec
  -- counting loop 1: window 1 has landed
  rw [show tile_body.sl.dma0_1 m d L = View.read (Elt F) (srcAt L 10000#32 (k0_off1_inb L 1)).view (m (eLoc d)) from rfl]
  ihave Hs1 := (Entails.of_eq (landed m d L 1 (c := 10000) (o := 10000#32) rfl rfl (k0_off1_inb L 1) inb_S50000_S10000_10000 _)) $$ Hs1
  sl_for (sinv (F := F) m d L 10000 inb_S50000_S10000_10000 625) $$ [Hs1 Ht]
  case region =>
    intro k _
    exact trip1 m d L hpre k
  · unfold sinv
    isplitl [Hs1]; · iexact Hs1
    iexact Ht
  iintro %_ HI
  unfold sinv
  rw [show Scf.trips k0_t3_loop.lb k0_t3_loop.ub k0_t3_loop.st = 25 from by decide]
  icases HI with ⟨Hs1, Ht⟩
  sl_exec
  -- counting loop 2: window 2 has landed
  rw [show tile_body.sl.dma0_2 m d L = View.read (Elt F) (srcAt L 20000#32 (k0_off1_inb L 2)).view (m (eLoc d)) from rfl]
  ihave Hs2 := (Entails.of_eq (landed m d L 2 (c := 20000) (o := 20000#32) rfl rfl (k0_off1_inb L 2) inb_S50000_S10000_20000 _)) $$ Hs2
  sl_for (sinv (F := F) m d L 20000 inb_S50000_S10000_20000 1250) $$ [Hs2 Ht]
  case region =>
    intro k _
    exact trip2 m d L hpre k
  · unfold sinv
    isplitl [Hs2]; · iexact Hs2
    iexact Ht
  iintro %_ HI
  unfold sinv
  rw [show Scf.trips k0_t4_loop.lb k0_t4_loop.ub k0_t4_loop.st = 25 from by decide]
  icases HI with ⟨Hs2, Ht⟩
  sl_exec
  -- counting loop 3: window 3 has landed
  rw [show tile_body.sl.dma0_3 m d L = View.read (Elt F) (srcAt L 30000#32 (k0_off1_inb L 3)).view (m (eLoc d)) from rfl]
  ihave Hs3 := (Entails.of_eq (landed m d L 3 (c := 30000) (o := 30000#32) rfl rfl (k0_off1_inb L 3) inb_S50000_S10000_30000 _)) $$ Hs3
  sl_for (sinv (F := F) m d L 30000 inb_S50000_S10000_30000 1875) $$ [Hs3 Ht]
  case region =>
    intro k _
    exact trip3 m d L hpre k
  · unfold sinv
    isplitl [Hs3]; · iexact Hs3
    iexact Ht
  iintro %_ HI
  unfold sinv
  rw [show Scf.trips k0_t5_loop.lb k0_t5_loop.ub k0_t5_loop.st = 25 from by decide]
  icases HI with ⟨Hs3, Ht⟩
  sl_exec
  -- counting loop 4: window 4 has landed
  rw [show tile_body.sl.dma0_4 m d L = View.read (Elt F) (srcAt L 40000#32 (k0_off1_inb L 4)).view (m (eLoc d)) from rfl]
  ihave Hs4 := (Entails.of_eq (landed m d L 4 (c := 40000) (o := 40000#32) rfl rfl (k0_off1_inb L 4) inb_S50000_S10000_40000 _)) $$ Hs4
  sl_for (sinv (F := F) m d L 40000 inb_S50000_S10000_40000 2500) $$ [Hs4 Ht]
  case region =>
    intro k _
    exact trip4 m d L hpre k
  · unfold sinv
    isplitl [Hs4]; · iexact Hs4
    iexact Ht
  iintro %_ HI
  unfold sinv
  rw [show Scf.trips k0_t6_loop.lb k0_t6_loop.ub k0_t6_loop.st = 25 from by decide]
  icases HI with ⟨Hs4, Ht⟩
  sl_exec
  sl_step
  unfold tdFor
  isplitl [He0 He1 He2 He3 He4 Hh']
  · isplitl [He0 He1 He2 He3 He4]
    · iapply (Entails.of_eq (chunk_split m d L).symm)
      isplitl [He0]; · iexact He0
      isplitl [He1]; · iexact He1
      isplitl [He2]; · iexact He2
      isplitl [He3]; · iexact He3
      iexact He4
    · iapply (Entails.of_eq (out_row m d L _ _ ?hp))
      rotate_left
      · iexact Hh'
      · rfl
  isplitl [Hs0 Hs1 Hs2 Hs3 Hs4 Ht Hbufs]
  · isplitl [Hs0 Hs1 Hs2 Hs3 Hs4]
    · iexists (chunkFn (m (eLoc d)) (wL L))
      iapply (Entails.of_eq (stage_split (F := F) d L _).symm)
      isplitl [Hs0]; · iexact Hs0
      isplitl [Hs1]; · iexact Hs1
      isplitl [Hs2]; · iexact Hs2
      isplitl [Hs3]; · iexact Hs3
      iexact Hs4
    isplitl [Ht]
    · iexists _
      iapply (Entails.of_eq (pts_sH (F := F) d L _))
      iexact Ht
    iexact Hbufs
  isplitl [Hm0 Hm1 Hm2 Hm3 Hm4 Hm5 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    iexact Hsems
  iexists _
  isplitr
  rotate_left
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact .inl hp

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_hist_kernel (coordsV c s)
          eV (Memref.isWhole_whole _) hV (Memref.isWhole_whole _) sE (Memref.isWhole_whole _) sH (Memref.isWhole_whole _)
          cc0_scratch2 cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every vector subcore of the call: its chunk counted into its row. -/
theorem tileObl (hpre : PreOK m) : (K (F := F)).TileObl (D (F := F)) 𝒱 (P m (histArr m)) v₀ 0 := by
  intro d c i O W hO _ _
  simp only [show (P m (histArr m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

omit [FloatOps F] in
/-- A core's operands are its tasks' operands and its results their results: nothing to split. -/
theorem vecSplit (Hf : (d : Dev nD) → Buf (Elt F) (hLoc d)) : (K (F := F)).VecSplit' (P m Hf) 0 := by
  intro d c
  show (bigSep Finset.univ fun i : Fin ((K (F := F)).nSub 0) => goFor m d (wid c.val i.val))
    ⊢ |={Set.univ}=> iprop((bigSep Finset.univ fun i : Fin ((K (F := F)).nSub 0) => goFor m d (wid c.val i.val))
      ∗ ((bigSep Finset.univ fun i : Fin ((K (F := F)).nSub 0) => tdFor m Hf d (wid c.val i.val))
        -∗ (bigSep Finset.univ fun i : Fin ((K (F := F)).nSub 0) => tdFor m Hf d (wid c.val i.val))))
  iintro H; imodintro
  isplitl [H]; · iexact H
  iintro H; iexact H

end Tile

end Cert.KernelIdeal.Run

end
-- ==== Proof.TaskValue.lean ====
/-
  The table the counting stage leaves is the specification's table of partial counts.

  A task counts its chunk of the edge list sixteen ids at a time: for each lane `x` of a vector of ids it adds one at
  entry (id of lane `x`, `x`) of its 64 × 128 table. The sixteen lanes name sixteen different columns, so one such step adds,
  at entry `(r, l)`, one if `l < 16` and lane `l` holds `r`, and nothing otherwise. Starting from the table of zeros, after
  `n` vectors entry `(r, l)` is therefore the number of the first `n` vectors whose lane `l` holds `r` (zero for `l ≥ 16`);
  after all 3125 vectors of the chunk that is the specification's entry.
-/
import proofs.«210447_g31353261261282_cont_9to1_114_24_alg».proof.Proof.TaskA
import proofs.«210447_g31353261261282_cont_9to1_114_24_alg».proof.Proof.Spec
import Idealize.ShloMosaic.PureOps.Ideal.Laws
import Idealize.ShloMosaic.Lib.ValueIdx
import Mathlib.Algebra.BigOperators.Fin

noncomputable section

namespace Cert.KernelIdeal.RunValue

open Cert.KernelIdeal Cert.KernelIdeal.Gen Cert.KernelIdeal.Run Idealize.ShloMosaic Idealize.ShloMosaic.ValueIdx

/-! ## An indexed add, lane by lane -/

section Fold
variable {s : Shape} {d : Fin 1 → Nat}

/-- One lane of an indexed add: the stored lane is added at the entry its indices name. -/
def stepAdd (idxs : Fin s.rank → IVec ⟨1, d⟩ 32) (h : ∀ a x, (idxs a x).toNat < s.size a) (v : (⟨1, d⟩ : Shape).Idx → EReal)
    (g : s.Idx → EReal) (k : Fin (d 0)) : s.Idx → EReal :=
  fun j => if (∀ a, (j a).val = (idxAt idxs h (Shape.ofLane k) a).val) then g (idxAt idxs h (Shape.ofLane k)) + v (Shape.ofLane k) else g j

/-- An unmasked indexed add is the lanes' steps taken in order. -/
theorem storeIdx_eq_foldl (f : Vec Ideal s .f32) (idxs : Fin s.rank → IVec ⟨1, d⟩ 32) (v : Vec Ideal ⟨1, d⟩ .f32)
    (h : ∀ a x, (idxs a x).toNat < s.size a) :
    storeIdx f idxs v (fun _ => 1#1) true h = (List.finRange (d 0)).foldl (stepAdd idxs h v) f := by
  unfold storeIdx
  refine congrArg (fun st => List.foldl st f (List.finRange (d 0))) ?_
  funext g k
  dsimp only
  rw [if_pos (by decide : (1#1 : BitVec 1) = 1)]
  funext j
  unfold stepAdd
  by_cases hc : ∀ a, (j a).val = (idxAt idxs h (Shape.ofLane k) a).val
  · rw [if_pos hc, if_pos hc, if_pos (rfl : true = true)]
    rfl
  · rw [if_neg hc, if_neg hc]

/-- After the steps of a list of lanes an entry has grown by the sum of the lanes that name it. -/
theorem foldl_stepAdd (idxs : Fin s.rank → IVec ⟨1, d⟩ 32) (h : ∀ a x, (idxs a x).toNat < s.size a)
    (v : (⟨1, d⟩ : Shape).Idx → EReal) (j : s.Idx) :
    ∀ (L : List (Fin (d 0))) (g : s.Idx → EReal), L.foldl (stepAdd idxs h v) g j
      = g j + (L.map fun k => if (∀ a, (j a).val = (idxAt idxs h (Shape.ofLane k) a).val) then v (Shape.ofLane k) else 0).sum
  | [], g => by simp
  | k :: L, g => by
    rw [List.foldl_cons, foldl_stepAdd idxs h v j L, List.map_cons, List.sum_cons]
    show (if (∀ a, (j a).val = (idxAt idxs h (Shape.ofLane k) a).val) then g (idxAt idxs h (Shape.ofLane k)) + v (Shape.ofLane k) else g j) + _ = _
    by_cases hc : ∀ a, (j a).val = (idxAt idxs h (Shape.ofLane k) a).val
    · have hj : idxAt idxs h (Shape.ofLane k) = j := funext fun a => Fin.ext (hc a).symm
      rw [if_pos hc, if_pos hc, hj, add_assoc]
    · rw [if_neg hc, if_neg hc, zero_add]

end Fold

/-! ## One counting step -/

/-- The stored lanes are all the real number one. -/
theorem pay2_one (x : S16.Idx) : (k0_pay2 (F := Ideal) x : EReal) = 1 := by
  show Ideal.ofBits .f32 0x3F800000#32 = 1
  have h1 : ((0x3F800000#32 : BitVec 32).extractLsb' (8 + 23) 1 == 1#1) = false := by decide
  have h2 : ((0x3F800000#32 : BitVec 32).extractLsb' 23 8).toNat = 127 := by decide
  have h3 : ((0x3F800000#32 : BitVec 32).extractLsb' 0 23).toNat = 0 := by decide
  unfold Ideal.ofBits Ideal.ieee
  simp only [h1, h2, h3]
  rw [if_neg (by norm_num), if_neg (by norm_num), if_neg (by decide)]
  norm_num

/-- The table of zeros is zero. -/
theorem zeroTbl_apply (j : S64x128.Idx) : (zeroTbl (F := Ideal) j : EReal) = 0 := by
  show Ideal.ofBits .f32 0x00000000#32 = 0
  exact Ideal.ofBits_zero_f32

/-- Lane `k` as an index of the sixteen-lane vector. -/
theorem ofLane_eq (k : Fin 16) : (Shape.ofLane (d := ![16]) k : S16.Idx) = ix1 k := by
  funext a; match a with | ⟨0, _⟩ => rfl

/-- One counting step: at entry `(r, l)` one is added if `l < 16` and lane `l` holds `r`. -/
theorem bump_apply (f : Vec Ideal S64x128 .f32) (v : IVec S16 32) (hv : Chk v) (r : Fin 64) (l : Fin 128) :
    (bump (F := Ideal) f v (ix2 r l) : EReal)
      = f (ix2 r l) + (if h : l.val < 16 then (if (v (ix1 ⟨l.val, h⟩)).toNat = r.val then (1 : EReal) else 0) else 0) := by
  unfold bump
  rw [dif_pos hv]
  have hv' : ∀ a x, ((![v, lanes] : Fin 2 → IVec S16 32) a x).toNat < S64x128.size a := hv
  refine (congrFun (storeIdx_eq_foldl f (![v, lanes] : Fin 2 → IVec S16 32) (k0_pay2 (F := Ideal)) hv') (ix2 r l)).trans ?_
  refine (foldl_stepAdd (![v, lanes] : Fin 2 → IVec S16 32) hv' (k0_pay2 (F := Ideal)) (ix2 r l) _ f).trans ?_
  congr 1
  show ((List.finRange 16).map fun k : Fin 16 => if (∀ a, ((ix2 r l : S64x128.Idx) a).val
      = (idxAt (![v, lanes] : Fin 2 → IVec S16 32) hv' (Shape.ofLane (d := ![16]) k) a).val) then (k0_pay2 (F := Ideal) (Shape.ofLane (d := ![16]) k) : EReal) else 0).sum = _
  rw [← Fin.sum_univ_def]
  have hterm : ∀ k : Fin 16, (if (∀ a, ((ix2 r l : S64x128.Idx) a).val
      = (idxAt (![v, lanes] : Fin 2 → IVec S16 32) hv' (Shape.ofLane (d := ![16]) k) a).val) then (k0_pay2 (F := Ideal) (Shape.ofLane (d := ![16]) k) : EReal) else 0)
      = if (k.val = l.val ∧ (v (ix1 k)).toNat = r.val) then (1 : EReal) else 0 := by
    intro k
    rw [pay2_one, ofLane_eq]
    refine if_congr ?_ rfl rfl
    rw [Fin.forall_fin_two]
    show (r.val = (v (ix1 k)).toNat ∧ l.val = (lanes (ix1 k)).toNat) ↔ _
    rw [lanes_val]
    show (r.val = (v (ix1 k)).toNat ∧ l.val = k.val) ↔ _
    constructor
    · rintro ⟨h1, h2⟩; exact ⟨h2.symm, h1.symm⟩
    · rintro ⟨h1, h2⟩; exact ⟨h2.symm, h1.symm⟩
  simp only [hterm]
  by_cases h : l.val < 16
  · rw [dif_pos h, Finset.sum_eq_single (⟨l.val, h⟩ : Fin 16)]
    · exact if_congr ⟨fun hh => hh.2, fun hh => ⟨rfl, hh⟩⟩ rfl rfl
    · intro k _ hk
      rw [if_neg]
      rintro ⟨h1, -⟩
      exact hk (Fin.ext h1)
    · intro hh; exact absurd (Finset.mem_univ _) hh
  · rw [dif_neg h]
    refine Finset.sum_eq_zero fun k _ => ?_
    rw [if_neg]
    rintro ⟨h1, -⟩
    have := k.isLt
    omega

/-! ## The table after `n` vectors, and after all of them -/

section Table
variable (e : IVec S1600000 32) (he : ∀ j, (e j).toNat < 64) (w : Fin 32) (r : Fin 64) (l : Fin 128)
include he

/-- The columns no lane names stay zero. -/
theorem tbl_high (hl : ¬ l.val < 16) : ∀ n : ℕ, (tbl (F := Ideal) e w n (ix2 r l) : EReal) = 0
  | 0 => zeroTbl_apply _
  | n + 1 => by
    show (bump (F := Ideal) (tbl (F := Ideal) e w n) (idsAt e w (16 * n)) (ix2 r l) : EReal) = 0
    rw [bump_apply _ _ (chk_idsAt he w _), tbl_high hl n, dif_neg hl, add_zero]

/-- After `n` vectors, entry `(r, l)` with `l < 16` is the number of those vectors whose lane `l` holds `r`. -/
theorem tbl_low (hl : l.val < 16) : ∀ n : ℕ, (tbl (F := Ideal) e w n (ix2 r l) : EReal)
    = (((∑ v ∈ Finset.range n, if (idsAt e w (16 * v) (ix1 ⟨l.val, hl⟩)).toNat = r.val then 1 else 0 : ℕ) : ℝ) : EReal)
  | 0 => by
    rw [Finset.range_zero, Finset.sum_empty, Nat.cast_zero, EReal.coe_zero]
    exact zeroTbl_apply _
  | n + 1 => by
    show (bump (F := Ideal) (tbl (F := Ideal) e w n) (idsAt e w (16 * n)) (ix2 r l) : EReal) = _
    rw [bump_apply _ _ (chk_idsAt he w _), tbl_low hl n, dif_pos hl, Finset.sum_range_succ, Nat.cast_add, EReal.coe_add]
    congr 1
    split_ifs <;> simp

omit he in
/-- Within a chunk the position of lane `l` of vector `v` needs no wrapping. -/
theorem idsAt_eq_edgeAt (v : Fin 3125) (l16 : Fin 16) :
    idsAt e w (16 * v.val) (ix1 l16) = Cert.Spec.edgeAt e w v l16 := by
  unfold idsAt Cert.Spec.edgeAt
  refine congrArg e (congrArg ix1 (Fin.ext ?_))
  show (50000 * w.val + 16 * v.val + l16.val) % 1600000 = 50000 * w.val + 16 * v.val + l16.val
  have := w.isLt; have := v.isLt; have := l16.isLt
  exact Nat.mod_eq_of_lt (by omega)

/-- After all 3125 vectors the table of chunk `w` is the specification's. -/
theorem tbl_final : (tbl (F := Ideal) e w 3125 (ix2 r l) : EReal) = Cert.Spec.hist e w r l := by
  unfold Cert.Spec.hist
  by_cases hl : l.val < 16
  · rw [dif_pos hl, tbl_low e he w r l hl 3125, Finset.card_filter, Finset.sum_range]
    refine congrArg (fun t : ℕ => ((t : ℝ) : EReal)) (Finset.sum_congr rfl fun v _ => ?_)
    rw [idsAt_eq_edgeAt e w v ⟨l.val, hl⟩]
  · rw [dif_neg hl, tbl_high e he w r l hl 3125]

end Table

theorem histArr_ideal (m : (ℓ : Loc nD τ sig) → Buf (Elt Ideal) ℓ) (hpre : PreOK (F := Ideal) m) (d : Dev nD) (w : Fin 32) (r : Fin 64)
    (l : Fin 128) :
    (histArr (F := Ideal) m d : S32x64x128.Idx → EReal) (ix3 w r l) = Cert.Spec.hist (m (eLoc d)) w r l :=
  tbl_final (m (eLoc d)) (hpre d) w r l

end Cert.KernelIdeal.RunValue

end
-- ==== Proof.RegionValue.lean ====
/-
  What the row pipeline's body leaves, as its arithmetic: the scratch after the first point is `k1_pay1` of the whole
  table of partial counts and the whole second factor; the output window's buffer after point `t` is `k1_pay2` of the
  rows' block, the first factor, the mask's block and the scratch — at every point, the first included.
-/
import proofs.«210447_g31353261261282_cont_9to1_114_24_alg».proof.Proof.RegionData
import Idealize.ShloMosaic.Lib.Pipeline.Value

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.Sem
open Idealize.ShloMosaic.Pipeline (Dat)

variable {F : FTy → Type} [FloatOps F] [∀ e, Nonempty (Elt F e)]

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- A later point writes `k1_pay2` of what it loaded. -/
theorem runB_val (c : Dev nD) (i : grid1.Coords)
    (a1 : Memref sig .tc .vmem S5000x512 .f32) (h1 : a1.IsWhole) (a2 : Memref sig .tc .vmem S1x1x5000 .i32) (h2 : a2.IsWhole)
    (a3 : Memref sig .tc .vmem S512x64 .bf16) (h3 : a3.IsWhole) (a4 : Memref sig .tc .vmem S32x64x128 .f32) (h4 : a4.IsWhole)
    (a5 : Memref sig .tc .vmem S64x64x512 .bf16) (h5 : a5.IsWhole) (a6 : Memref sig .tc .vmem S5000x512 .f32) (h6 : a6.IsWhole)
    (a7 : Memref sig .tc .vmem S64x512 .bf16) (h7 : a7.IsWhole) (hc : ¬cond1 i)
    (x0 : Vec F S5000x512 .f32) (x1 : Vec F S1x1x5000 .i32) (x2 : Vec F S512x64 .bf16) (x3 : Vec F S32x64x128 .f32) (x4 : Vec F S64x64x512 .bf16)
    (xs : Vec F S64x512 .bf16) :
    VO.read (Elt F) (VO.writes (Elt F) VO.junk (bodyRun_B (F := F) c i a1 h1 a2 h2 a3 h3 a4 h4 a5 h5 a6 h6 a7 h7 hc x0 x1 x2 x3 x4 xs).1)
      = k1_pay2 x0 x2 x1 xs := by
  rw [View.read_writes_eq_canon _ _ _ (fun y => View.cover_of_tiledL _ S5000x512.size (by sl_kernel_rfl) y)]
  unfold bodyRun_B
  dsimp only
  rw [View.canon_unit_zero hz2]
  simp only [View.readAt_eq_ld, h1.read_unread, h2.read_unread, h3.read_unread, h7.read_unread,
    View.ld_unit_zero (S := S5000x512) hz2, View.ld_unit_zero (S := S1x1x5000) hz3, View.ld_unit_zero (S := S512x64) hz2,
    View.ld_unit_zero (S := S64x512) hz2]

set_option maxHeartbeats 1000000 in
/-- The first point leaves `k1_pay1` of the two whole arrays it loaded in the scratch. -/
theorem runA_scr (c : Dev nD) (i : grid1.Coords)
    (a1 : Memref sig .tc .vmem S5000x512 .f32) (h1 : a1.IsWhole) (a2 : Memref sig .tc .vmem S1x1x5000 .i32) (h2 : a2.IsWhole)
    (a3 : Memref sig .tc .vmem S512x64 .bf16) (h3 : a3.IsWhole) (a4 : Memref sig .tc .vmem S32x64x128 .f32) (h4 : a4.IsWhole)
    (a5 : Memref sig .tc .vmem S64x64x512 .bf16) (h5 : a5.IsWhole) (a6 : Memref sig .tc .vmem S5000x512 .f32) (h6 : a6.IsWhole)
    (a7 : Memref sig .tc .vmem S64x512 .bf16) (h7 : a7.IsWhole) (hc : cond1 i)
    (x0 : Vec F S5000x512 .f32) (x1 : Vec F S1x1x5000 .i32) (x2 : Vec F S512x64 .bf16) (x3 : Vec F S32x64x128 .f32) (x4 : Vec F S64x64x512 .bf16) :
    VS.read (Elt F) (VS.writes (Elt F) VS.junk (bodyRun_A (F := F) c i a1 h1 a2 h2 a3 h3 a4 h4 a5 h5 a6 h6 a7 h7 hc x0 x1 x2 x3 x4).1.2)
      = k1_pay1 x3 x4 := by
  rw [View.read_writes_eq_canon _ _ _ (fun y => View.cover_of_tiledL _ S64x512.size (by sl_kernel_rfl) y)]
  unfold bodyRun_A
  dsimp only
  sl_unfold_words
  rw [View.canon_unit_zero hz2]
  simp only [View.readAt_eq_ld, h4.read_unread, h5.read_unread,
    View.ld_unit_zero (S := S32x64x128) hz3, View.ld_unit_zero (S := S64x64x512) hz3]

set_option maxHeartbeats 1000000 in
/-- and writes `k1_pay2` of what it loaded, the scratch read back at what it has just stored there. -/
theorem runA_out (c : Dev nD) (i : grid1.Coords)
    (a1 : Memref sig .tc .vmem S5000x512 .f32) (h1 : a1.IsWhole) (a2 : Memref sig .tc .vmem S1x1x5000 .i32) (h2 : a2.IsWhole)
    (a3 : Memref sig .tc .vmem S512x64 .bf16) (h3 : a3.IsWhole) (a4 : Memref sig .tc .vmem S32x64x128 .f32) (h4 : a4.IsWhole)
    (a5 : Memref sig .tc .vmem S64x64x512 .bf16) (h5 : a5.IsWhole) (a6 : Memref sig .tc .vmem S5000x512 .f32) (h6 : a6.IsWhole)
    (a7 : Memref sig .tc .vmem S64x512 .bf16) (h7 : a7.IsWhole) (hc : cond1 i)
    (x0 : Vec F S5000x512 .f32) (x1 : Vec F S1x1x5000 .i32) (x2 : Vec F S512x64 .bf16) (x3 : Vec F S32x64x128 .f32) (x4 : Vec F S64x64x512 .bf16) :
    VO.read (Elt F) (VO.writes (Elt F) VO.junk (bodyRun_A (F := F) c i a1 h1 a2 h2 a3 h3 a4 h4 a5 h5 a6 h6 a7 h7 hc x0 x1 x2 x3 x4).1.1)
      = k1_pay2 x0 x2 x1 (k1_pay1 x3 x4) := by
  rw [View.read_writes_eq_canon _ _ _ (fun y => View.cover_of_tiledL _ S5000x512.size (by sl_kernel_rfl) y)]
  unfold bodyRun_A
  dsimp only
  sl_unfold_words
  rw [View.canon_unit_zero hz2]
  simp only [View.readAt_eq_ld, h1.read_unread, h2.read_unread, h3.read_unread, h4.read_unread, h5.read_unread,
    View.ld_unit_zero (S := S5000x512) hz2, View.ld_unit_zero (S := S1x1x5000) hz3, View.ld_unit_zero (S := S512x64) hz2,
    View.ld_unit_zero (S := S32x64x128) hz3, View.ld_unit_zero (S := S64x64x512) hz3, View.ld_unit_zero (S := S64x512) hz2,
    View.readCov_unit_zero (S := S64x512) _ hz2]

variable (W : Valuation τ sig (Elt F))

/-- The scratch from the first point on. -/
theorem scr_eq (c : Dev nD) : scr W c = k1_pay1 (iblk W c 3 t0) (iblk W c 4 t0) := by
  unfold scr; exact runA_scr c _ _ _ _ _ _ _ _ _ _ _ _ _ _ _ _ _ _ _ _ _

/-- The output window's buffer after point `t`. -/
theorem outsAt_eq (c : Dev nD) (t : Fin cfg1.N) :
    outsAt W c t = k1_pay2 (iblk W c 0 t) (iblk W c 2 t) (iblk W c 1 t) (scr W c) := by
  by_cases h : t.val = 0
  · rw [outsAt_A W c t h, runA_out, scr_eq]
    obtain rfl : t = t0 := Fin.ext h
    rfl
  · rw [outsAt_B W c t h, runB_val]

end Cert.KernelIdeal.Run

end
-- ==== Proof.PayValue.lean ====
/-
  The two stored values of the second stage, read at an index.

  The first is the weight-averaged factor computed from the table of partial counts `h` (32 × 64 × 128): summing the
  table over the chunks and then over the lanes gives each relation's count, summing those its total; a relation's weight
  is its count over the total plus the small number; entry `(k, d)` is `Σ_r B[r,k,d] · weight r`. The second is a block of
  rows of the result: `x[p,d] + Σ_k ((Σ_j x[p,j]·A[j,k]) · m p) · s[k,d]`, with `m p` one where the mask word of row `p` is
  not zero and zero elsewhere. A change of float format is the identity on extended reals, and a matrix product into a
  zero accumulator is the plain sum of products.
-/
import proofs.«210447_g31353261261282_cont_9to1_114_24_alg».proof.Proof.Spec
import proofs.«210447_g31353261261282_cont_9to1_114_24_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine
import Mathlib.Algebra.BigOperators.Fin
import Mathlib.Data.Fintype.BigOperators

noncomputable section

namespace Cert.KernelIdeal.PayValue

open Cert.KernelIdeal Cert.KernelIdeal.Gen Idealize.ShloMosaic Idealize.ShloMosaic.ValueIdx

/-! ## Sums and layout operations read at an index, over literal coordinates -/

/-- A sum over the leading axis of a rank-3 array. -/
theorem sum_axis0_of3 {n0 n1 n2 : ℕ} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = 0x00000000#32) (a : Fin n1) (b : Fin n2) :
    multiReduction .add [0] ⟨2, ![n1, n2]⟩ src 0x00000000#32 h hφ hacc (ix2 a b) = ∑ k : Fin n0, src (ix3 k a b) :=
  (Ideal.multiReduction_add_single src 0x00000000#32 h hφ hacc (ix2 a b)).trans
    (Finset.sum_congr rfl fun k _ => congrArg src (funext fun c => Fin.ext (by
      match c with
      | ⟨0, _⟩ => rfl
      | ⟨1, _⟩ => rfl
      | ⟨2, _⟩ => rfl)))

/-- A sum over the trailing axis of a rank-2 array. -/
theorem sum_axis1_of2 {n0 n1 : ℕ} (src : FVec Ideal ⟨2, ![n0, n1]⟩ .f32)
    (h : (⟨2, ![n0, n1]⟩ : Shape).Reduces [1] ⟨1, ![n0]⟩) (hφ : FKind.Formats .f32)
    (hacc : (0x00000000#32 : BitVec 32) = 0x00000000#32) (a : Fin n0) :
    multiReduction .add [1] ⟨1, ![n0]⟩ src 0x00000000#32 h hφ hacc (ix1 a) = ∑ k : Fin n1, src (ix2 a k) :=
  (Ideal.multiReduction_add_single src 0x00000000#32 h hφ hacc (ix1 a)).trans
    (Finset.sum_congr rfl fun k _ => congrArg src (funext fun c => Fin.ext (by
      match c with
      | ⟨0, _⟩ => rfl
      | ⟨1, _⟩ => rfl)))

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of a `1 × n × 1` array over its two last axes is the sum of its `n` entries. -/
theorem sum_total_1n1 {n : ℕ} (src : FVec Ideal ⟨3, ![1, n, 1]⟩ .f32)
    (h : (⟨3, ![1, n, 1]⟩ : Shape).Reduces [1, 2] ⟨1, ![1]⟩) (hφ : FKind.Formats .f32)
    (hacc : (0x00000000#32 : BitVec 32) = 0x00000000#32) (j : (⟨1, ![1]⟩ : Shape).Idx) :
    multiReduction .add [1, 2] ⟨1, ![1]⟩ src 0x00000000#32 h hφ hacc j = ∑ r : Fin n, src (ix3 (0 : Fin 1) r (0 : Fin 1)) := by
  refine (Ideal.multiReduction_add_total src 0x00000000#32 h (fun b => by match b with | ⟨0, _⟩ => rfl) hφ hacc j).trans ?_
  rw [sum_idx3]
  simp only [Fin.sum_univ_one]

/-- A vector cast to a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column cast to `a × 1 × 1` reads, at `(i, u, v)`, the column at `(i, 0)`. -/
theorem shapeCast_a1_a11_apply {α : Type} {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    rw [hu, hv]; omega)

/-- The one entry of a `1 × 1 × 1` cast of a one-entry vector. -/
theorem extract_cast_1_111 {α : Type} (x : (⟨1, ![1]⟩ : Shape).Idx → α) (h : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩ x h) hp = x (ix1 (0 : Fin 1)) := by
  unfold extractAt
  refine shapeCast_apply x h _ _ ?_
  rw [Shape.rowMajor_val_three, Shape.rowMajor_val_one]
  rfl

/-- An `a × 1 × 1` array broadcast to `a × b × c` reads, at `(i, j, k)`, the operand at `(i, 0, 0)`. -/
theorem broadcastTo_a11_abc_apply {α : Type} {a b c : ℕ} (x : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ x h (ix3 i j k) = x (ix3 i (0 : Fin 1) (0 : Fin 1)) := by
  refine broadcastTo_apply x h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `a × 1` column broadcast to `a × b` reads, at `(i, j)`, the column at `(i, 0)`. -/
theorem broadcastTo_a1_ab_apply {α : Type} {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- A `1 × 1 × a` array cast to `1 × a` reads, at `(u, i)`, the operand at `(0, 0, i)`. -/
theorem shapeCast_11a_1a_apply {α : Type} {a : ℕ} (x : (⟨3, ![1, 1, a]⟩ : Shape).Idx → α)
    (h : (⟨3, ![1, 1, a]⟩ : Shape).ShapeCasts ⟨2, ![1, a]⟩) (u : Fin 1) (i : Fin a) :
    shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-! ## The weight-averaged factor, stage by stage -/

section Pay1
variable (h : FVec Ideal S32x64x128 .f32) (B : FVec Ideal S64x64x512 .bf16)

/-- The table summed over the chunks. -/
def t23 : FVec Ideal S64x128 .f32 :=
  multiReduction .add [0] S64x128 (shapeCast S32x64x128 h shapeCasts_S32x64x128_S32x64x128) 0x00000000#32
    reduces_S32x64x128_S64x128 (.inl rfl) rfl
/-- … and then over the lanes: the counts. -/
def t24 : FVec Ideal S64 .f32 := multiReduction .add [1] S64 (t23 h) 0x00000000#32 reduces_S64x128_S64 (.inl rfl) rfl
def t25 : FVec Ideal S64x1 .f32 := shapeCast S64x1 (t24 h) shapeCasts_S64_S64x1
/-- The total. -/
def t27 : FVec Ideal S1 .f32 :=
  multiReduction .add [1, 2] S1 (shapeCast S1x64x1 (t25 h) shapeCasts_S64x1_S1x64x1) 0x00000000#32 reduces_S1x64x1_S1 (.inl rfl) rfl
/-- The total plus the small number. -/
def t30 : Ideal .f32 :=
  Scalar.addf (extractAt ![0, 0, 0] (shapeCast S1x1x1 (t27 h) shapeCasts_S1_S1x1x1) inpos_S1x1x1_p0_0_0)
    (Scalar.ofBits .f32 0x322BCC77#32)
/-- The weights. -/
def t32 : FVec Ideal S64x1 .f32 := divf (t25 h) (broadcast S64x1 (t30 h))
def t37 : FVec Ideal S64x64x512 .f32 :=
  broadcastTo S64x64x512 (shapeCast S64x1x1 (t32 h) shapeCasts_S64x1_S64x1x1) broadcasts_S64x1x1_S64x64x512
def t38 : FVec Ideal S64x64x512 .f32 :=
  mulf (extf .f32 (shapeCast S64x64x512 B shapeCasts_S64x64x512_S64x64x512) bitsLt_bf16_f32) (t37 h)
def t43 : FVec Ideal S64x512 .bf16 :=
  shapeCast S64x512 (truncf .bf16 (multiReduction .add [0] S64x512 (t38 h B) 0x00000000#32 reduces_S64x64x512_S64x512 (.inl rfl) rfl)
    bitsLt_bf16_f32) shapeCasts_S64x512_S64x512

theorem pay1_eq : k1_pay1 (F := Ideal) h B = t43 h B := rfl

theorem t23_apply (r : Fin 64) (l : Fin 128) : t23 h (ix2 r l) = ∑ w : Fin 32, h (ix3 w r l) := by
  unfold t23
  rw [shapeCast_self]
  exact sum_axis0_of3 h _ _ _ r l

theorem t24_apply (r : Fin 64) : t24 h (ix1 r) = Cert.Spec.cntOf (fun w r l => h (ix3 w r l)) r := by
  unfold t24 Cert.Spec.cntOf
  refine (sum_axis1_of2 (t23 h) _ _ _ r).trans ?_
  exact Finset.sum_congr rfl fun l _ => t23_apply h r l

theorem t25_apply (r : Fin 64) (u : Fin 1) : t25 h (ix2 r u) = Cert.Spec.cntOf (fun w r l => h (ix3 w r l)) r := by
  unfold t25
  exact (shapeCast_a_a1_apply (t24 h) _ r u).trans (t24_apply h r)

theorem t27_apply (j : S1.Idx) : t27 h j = ∑ r : Fin 64, Cert.Spec.cntOf (fun w r l => h (ix3 w r l)) r := by
  unfold t27
  refine (sum_total_1n1 _ _ _ _ j).trans ?_
  refine Finset.sum_congr rfl fun r _ => ?_
  exact (shapeCast_ab_1ab_apply (t25 h) _ 0 r 0).trans (t25_apply h r 0)

theorem t30_eq : t30 h = (∑ r : Fin 64, Cert.Spec.cntOf (fun w r l => h (ix3 w r l)) r) + Cert.Spec.eps := by
  unfold t30
  rw [extract_cast_1_111, t27_apply]
  rfl

theorem t32_apply (r : Fin 64) (u : Fin 1) : t32 h (ix2 r u) = Cert.Spec.wgtOf (fun w r l => h (ix3 w r l)) r := by
  unfold t32 Cert.Spec.wgtOf
  rw [divf_apply, broadcast_apply, t25_apply, t30_eq]

theorem t37_apply (r k : Fin 64) (d : Fin 512) : t37 h (ix3 r k d) = Cert.Spec.wgtOf (fun w r l => h (ix3 w r l)) r := by
  unfold t37
  refine (broadcastTo_a11_abc_apply _ _ r k d).trans ?_
  exact (shapeCast_a1_a11_apply (t32 h) _ r 0 0).trans (t32_apply h r 0)

theorem t38_apply (r k : Fin 64) (d : Fin 512) :
    t38 h B (ix3 r k d) = B (ix3 r k d) * Cert.Spec.wgtOf (fun w r l => h (ix3 w r l)) r := by
  unfold t38
  rw [mulf_apply, t37_apply, extf_apply, shapeCast_self]

theorem pay1_apply (h : FVec Ideal S32x64x128 .f32) (B : FVec Ideal S64x64x512 .bf16) (k : Fin 64) (d : Fin 512) :
    k1_pay1 (F := Ideal) h B (ix2 k d) = Cert.Spec.bavgOf (fun w r l => h (ix3 w r l)) B k d := by
  rw [pay1_eq]
  unfold t43 Cert.Spec.bavgOf
  rw [shapeCast_self, truncf_apply]
  refine (sum_axis0_of3 (t38 h B) _ _ _ k d).trans ?_
  exact Finset.sum_congr rfl fun r _ => t38_apply h B r k d

end Pay1

/-! ## A block of rows of the result, stage by stage -/

/-- The mask word as a number: one where the word is not zero, zero where it is. -/
theorem mask_number (w : BitVec 32) :
    (FloatOps.sitofp (F := Ideal) .f32 ((IntOp.cmpi .ne w 0#32).setWidth 32) : EReal) = if w ≠ 0#32 then (1 : EReal) else 0 := by
  by_cases hw : w = 0#32
  · rw [if_neg (not_not.2 hw)]
    have hc : IntOp.cmpi .ne w 0#32 = 0#1 := eq_zero_of_ne_one (fun hc => (IntOp.cmpi_ne.1 hc) hw)
    rw [hc]
    show ((((0#1 : BitVec 1).setWidth 32).toInt : ℝ) : EReal) = 0
    have : ((0#1 : BitVec 1).setWidth 32).toInt = 0 := by decide
    rw [this]; simp
  · rw [if_pos hw]
    have hc : IntOp.cmpi .ne w 0#32 = 1#1 := IntOp.cmpi_ne.2 hw
    rw [hc]
    show ((((1#1 : BitVec 1).setWidth 32).toInt : ℝ) : EReal) = 1
    have : ((1#1 : BitVec 1).setWidth 32).toInt = 1 := by decide
    rw [this]; simp

abbrev D1 := dot_S5000x512_S512x64_S5000x64_1_0_0_1_n_n
abbrev D2 := dot_S5000x64_S64x512_S5000x512_1_0_0_1_n_n

theorem D1_lhs0 (i : S5000x64.Idx) (q : D1.contr.Idx) : (D1.lhsIdx i q 0).val = (i 0).val := by
  unfold DotDims.lhsIdx
  rw [dif_neg (show ¬(0 : Fin S5000x512.rank) ∈ D1.lhsBatch by decide),
    dif_pos (show (0 : Fin S5000x512.rank) ∈ D1.lhsNonContracting by decide)]
  rfl
theorem D1_lhs1 (i : S5000x64.Idx) (q : D1.contr.Idx) : (D1.lhsIdx i q 1).val = (q ⟨0, by decide⟩).val :=
  D1.lhsIdx_val_of_single rfl i q
theorem D1_rhs0 (i : S5000x64.Idx) (q : D1.contr.Idx) : (D1.rhsIdx i q 0).val = (q ⟨0, by decide⟩).val :=
  D1.rhsIdx_val_of_single rfl i q
theorem D1_rhs1 (i : S5000x64.Idx) (q : D1.contr.Idx) : (D1.rhsIdx i q 1).val = (i 1).val := by
  unfold DotDims.rhsIdx
  rw [dif_neg (show ¬(1 : Fin S512x64.rank) ∈ D1.rhsBatch by decide),
    dif_pos (show (1 : Fin S512x64.rank) ∈ D1.rhsNonContracting by decide)]
  rfl

/-- The first matrix product into a zero accumulator, at `(p, k)`. -/
theorem D1_apply (lhs : FVec Ideal S5000x512 .bf16) (rhs : FVec Ideal S512x64 .bf16) (p : Fin 5000) (k : Fin 64) :
    matmul D1 none lhs rhs (constant S5000x64 .f32 0x00000000#32) (ix2 p k) = ∑ j : Fin 512, lhs (ix2 p j) * rhs (ix2 j k) := by
  simp only [matmul]
  rw [Ideal.matmul_constant_zero_apply, ← Equiv.sum_comp (contrEquiv1 D1 512 rfl rfl).symm]
  refine Finset.sum_congr rfl fun j _ => ?_
  have hk := contrEquiv1_symm_val D1 512 rfl rfl j
  have el : D1.lhsIdx (ix2 p k) ((contrEquiv1 D1 512 rfl rfl).symm j) = ix2 p j := funext fun a => Fin.ext (by
    match a with
    | ⟨0, _⟩ => exact D1_lhs0 _ _
    | ⟨1, _⟩ => exact (D1_lhs1 _ _).trans hk)
  have er : D1.rhsIdx (ix2 p k) ((contrEquiv1 D1 512 rfl rfl).symm j) = ix2 j k := funext fun a => Fin.ext (by
    match a with
    | ⟨0, _⟩ => exact (D1_rhs0 _ _).trans hk
    | ⟨1, _⟩ => exact D1_rhs1 _ _)
  rw [el, er]

theorem D2_lhs0 (i : S5000x512.Idx) (q : D2.contr.Idx) : (D2.lhsIdx i q 0).val = (i 0).val := by
  unfold DotDims.lhsIdx
  rw [dif_neg (show ¬(0 : Fin S5000x64.rank) ∈ D2.lhsBatch by decide),
    dif_pos (show (0 : Fin S5000x64.rank) ∈ D2.lhsNonContracting by decide)]
  rfl
theorem D2_lhs1 (i : S5000x512.Idx) (q : D2.contr.Idx) : (D2.lhsIdx i q 1).val = (q ⟨0, by decide⟩).val :=
  D2.lhsIdx_val_of_single rfl i q
theorem D2_rhs0 (i : S5000x512.Idx) (q : D2.contr.Idx) : (D2.rhsIdx i q 0).val = (q ⟨0, by decide⟩).val :=
  D2.rhsIdx_val_of_single rfl i q
theorem D2_rhs1 (i : S5000x512.Idx) (q : D2.contr.Idx) : (D2.rhsIdx i q 1).val = (i 1).val := by
  unfold DotDims.rhsIdx
  rw [dif_neg (show ¬(1 : Fin S64x512.rank) ∈ D2.rhsBatch by decide),
    dif_pos (show (1 : Fin S64x512.rank) ∈ D2.rhsNonContracting by decide)]
  rfl

/-- The second matrix product into a zero accumulator, at `(p, d)`. -/
theorem D2_apply (lhs : FVec Ideal S5000x64 .bf16) (rhs : FVec Ideal S64x512 .bf16) (p : Fin 5000) (d : Fin 512) :
    matmul D2 none lhs rhs (constant S5000x512 .f32 0x00000000#32) (ix2 p d) = ∑ k : Fin 64, lhs (ix2 p k) * rhs (ix2 k d) := by
  simp only [matmul]
  rw [Ideal.matmul_constant_zero_apply, ← Equiv.sum_comp (contrEquiv1 D2 64 rfl rfl).symm]
  refine Finset.sum_congr rfl fun k _ => ?_
  have hk := contrEquiv1_symm_val D2 64 rfl rfl k
  have el : D2.lhsIdx (ix2 p d) ((contrEquiv1 D2 64 rfl rfl).symm k) = ix2 p k := funext fun a => Fin.ext (by
    match a with
    | ⟨0, _⟩ => exact D2_lhs0 _ _
    | ⟨1, _⟩ => exact (D2_lhs1 _ _).trans hk)
  have er : D2.rhsIdx (ix2 p d) ((contrEquiv1 D2 64 rfl rfl).symm k) = ix2 k d := funext fun a => Fin.ext (by
    match a with
    | ⟨0, _⟩ => exact (D2_rhs0 _ _).trans hk
    | ⟨1, _⟩ => exact D2_rhs1 _ _)
  rw [el, er]

section Pay2
variable (x : FVec Ideal S5000x512 .f32) (A : FVec Ideal S512x64 .bf16) (mk : IVec S1x1x5000 32) (s : FVec Ideal S64x512 .bf16)

/-- The rows projected on the rank-64 factor. -/
def u7 : FVec Ideal S5000x64 .f32 :=
  matmul D1 none (truncf .bf16 x bitsLt_bf16_f32) (shapeCast S512x64 A shapeCasts_S512x64_S512x64) (constant S5000x64 .f32 0x00000000#32)
/-- The mask as a row of numbers. -/
def u12 : FVec Ideal S1x5000 .f32 :=
  sitofp .f32 (extui 32 (cmpi .ne (shapeCast S1x5000 mk shapeCasts_S1x1x5000_S1x5000) (constantI S1x5000 32 0#32)) natLt_1_32)
/-- … as a column, broadcast over the 64 factors. -/
def u14 : FVec Ideal S5000x64 .f32 :=
  broadcastTo S5000x64 (transpose S5000x1 [1, 0] (u12 mk) transposes_S1x5000_p1_0_S5000x1) broadcasts_S5000x1_S5000x64
def u16 : FVec Ideal S5000x64 .bf16 := truncf .bf16 (mulf (u7 x A) (u14 mk)) bitsLt_bf16_f32
def u19 : FVec Ideal S5000x512 .f32 :=
  addf x (matmul D2 none (u16 x A mk) s (constant S5000x512 .f32 0x00000000#32))

theorem pay2_eq : k1_pay2 (F := Ideal) x A mk s = u19 x A mk s := rfl

theorem u7_apply (p : Fin 5000) (k : Fin 64) : u7 x A (ix2 p k) = ∑ j : Fin 512, x (ix2 p j) * A (ix2 j k) := by
  unfold u7
  rw [D1_apply, shapeCast_self]
  rfl

theorem u12_apply (u : Fin 1) (p : Fin 5000) :
    u12 mk (ix2 u p) = if mk (ix3 (0 : Fin 1) (0 : Fin 1) p) ≠ 0#32 then (1 : EReal) else 0 := by
  unfold u12
  rw [sitofp_apply, extui_apply]
  show FloatOps.sitofp (F := Ideal) .f32 ((IntOp.cmpi .ne (shapeCast S1x5000 mk shapeCasts_S1x1x5000_S1x5000 (ix2 u p)) 0#32).setWidth 32) = _
  rw [shapeCast_11a_1a_apply, mask_number]

theorem u14_apply (p : Fin 5000) (k : Fin 64) :
    u14 mk (ix2 p k) = if mk (ix3 (0 : Fin 1) (0 : Fin 1) p) ≠ 0#32 then (1 : EReal) else 0 := by
  unfold u14
  refine (broadcastTo_a1_ab_apply _ _ p k).trans ?_
  exact (transpose_ix2_apply (u12 mk) _ p 0).trans (u12_apply mk 0 p)

theorem u16_apply (p : Fin 5000) (k : Fin 64) :
    u16 x A mk (ix2 p k) = (∑ j : Fin 512, x (ix2 p j) * A (ix2 j k))
      * (if mk (ix3 (0 : Fin 1) (0 : Fin 1) p) ≠ 0#32 then (1 : EReal) else 0) := by
  unfold u16
  rw [truncf_apply, mulf_apply, u7_apply, u14_apply]

theorem pay2_apply (x : FVec Ideal S5000x512 .f32) (A : FVec Ideal S512x64 .bf16) (mk : IVec S1x1x5000 32) (s : FVec Ideal S64x512 .bf16)
    (p : Fin 5000) (d : Fin 512) :
    k1_pay2 (F := Ideal) x A mk s (ix2 p d) = x (ix2 p d) + ∑ k : Fin 64, ((∑ j : Fin 512, x (ix2 p j) * A (ix2 j k))
      * (if mk (ix3 (0 : Fin 1) (0 : Fin 1) p) ≠ 0#32 then (1 : EReal) else 0)) * s (ix2 k d) := by
  rw [pay2_eq]
  unfold u19
  rw [addf_apply, D2_apply]
  simp only [u16_apply]

end Pay2

end Cert.KernelIdeal.PayValue

end
-- ==== Proof.RegionIdeal.lean ====
/-
  The row pipeline's result array, at the ideal instance, as ONE function of the five arrays the pipeline reads:
  `Gout[n, d] = x[n, d] + Σ_k ((Σ_j x[n, j] · A[j, k]) · mask n) · bavg[k, d]`, `bavg` the weight-averaged second factor
  read off the table of partial counts. Point `t` of the twenty writes back rows `5000 t … 5000 t + 4999`: its block of
  rows and of the mask sit there, the other three windows are whole arrays, so what it writes is block `t` of `Gout`; the
  twenty blocks cover the array (row `r` is in point `r / 5000`'s), so the array ends at `Gout`.
-/
import proofs.«210447_g31353261261282_cont_9to1_114_24_alg».proof.Proof.Region
import proofs.«210447_g31353261261282_cont_9to1_114_24_alg».proof.Proof.RegionValue
import proofs.«210447_g31353261261282_cont_9to1_114_24_alg».proof.Proof.Spec
import proofs.«210447_g31353261261282_cont_9to1_114_24_alg».proof.Proof.PayValue
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Run

open Idealize.ShloMosaic Idealize.ShloMosaic.TcCoe Idealize.ShloMosaic.ValueIdx
open Idealize.SL Idealize.SL.Sem
open Idealize.ShloMosaic.Pipeline (Dat)

open Cert.KernelIdeal.PayValue (pay1_apply pay2_apply)

variable (W : Valuation τ sig (Elt Ideal))

/-- The five arrays the pipeline reads, as functions on their index spaces. -/
abbrev Wx : S100000x512.Idx → EReal := W x'
abbrev WAb : S512x64.Idx → EReal := W Ab'
abbrev Wh : S32x64x128.Idx → EReal := W h'
abbrev WBb : S64x64x512.Idx → EReal := W Bb'
abbrev Wm4 : S20x1x5000.Idx → BitVec 32 := W m4'

/-- The mask word of row `n`: entry `(n / 5000, 0, n % 5000)` of the reshaped mask. -/
def maskW (n : Fin 100000) : BitVec 32 :=
  Wm4 W (ix3 (⟨n.val / 5000, by have := n.isLt; omega⟩ : Fin 20) (0 : Fin 1) (⟨n.val % 5000, Nat.mod_lt _ (by decide)⟩ : Fin 5000))

/-- The result array as one function of the five arrays the pipeline reads. -/
def Gout : S100000x512.Idx → EReal := fun i =>
  Wx W i + ∑ k : Fin 64, ((∑ j : Fin 512, Wx W (ix2 (i 0) j) * WAb W (ix2 j k)) * (if maskW W (i 0) ≠ 0#32 then (1 : EReal) else 0))
    * Cert.Spec.bavgOf (fun w r l => Wh W (ix3 w r l)) (WBb W) k (i 1)

/-- The printed index maps, decided over the twenty points. -/
theorem idx_facts : ∀ t : Fin cfg1.N, win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 2) = t.val ∧ win1_5.index t (1 : Fin 2) = 0 :=
  (by decide +kernel : ∀ t : Fin grid1.N, _)

/-- A row of the array from a point and a row of its block. -/
def rowAt (t : Fin cfg1.N) (p : Fin 5000) : Fin 100000 :=
  ⟨t.val * 5000 + p.val, by have := t.isLt; have := p.isLt; have h : cfg1.N = 20 := N_1; omega⟩

/-- The rows' block at point `t` is rows `5000 t … 5000 t + 4999`. -/
theorem iblk0_apply (c : Dev nD) (t : Fin cfg1.N) (q : Fin 5000) (j : Fin 512) :
    (iblk W c 0 t : S5000x512.Idx → EReal) (ix2 q j) = Wx W (ix2 (rowAt t q) j) := by
  obtain ⟨e00, e01, -⟩ := idx_facts t
  show W x' (((cfg1.win 0).blk t).view.emb (ix2 q j)) = W x' (ix2 (rowAt t q) j)
  congr 1
  funext a; apply Fin.ext
  match a with
  | ⟨0, _⟩ => show win1_0.index t (0 : Fin 2) * 5000 + 1 * q.val = t.val * 5000 + q.val; omega
  | ⟨1, _⟩ => show win1_0.index t (1 : Fin 2) * 512 + 1 * j.val = j.val; omega

/-- The mask's block at point `t` is row `t` of the reshaped mask. -/
theorem iblk1_apply (c : Dev nD) (t : Fin cfg1.N) (q : Fin 5000) :
    (iblk W c 1 t : S1x1x5000.Idx → BitVec 32) (ix3 (0 : Fin 1) (0 : Fin 1) q) = maskW W (rowAt t q) := by
  obtain ⟨-, -, e10, e11, e12, -⟩ := idx_facts t
  show W m4' (((cfg1.win 1).blk t).view.emb (ix3 (0 : Fin 1) (0 : Fin 1) q)) = _
  unfold maskW Wm4
  congr 1
  funext a; apply Fin.ext
  have hq := q.isLt
  match a with
  | ⟨0, _⟩ => show win1_1.index t (0 : Fin 3) * 1 + 1 * 0 = (t.val * 5000 + q.val) / 5000; omega
  | ⟨1, _⟩ => show win1_1.index t (1 : Fin 3) * 1 + 1 * 0 = 0; omega
  | ⟨2, _⟩ => show win1_1.index t (2 : Fin 3) * 5000 + 1 * q.val = (t.val * 5000 + q.val) % 5000; omega

/-- The three windows that are whole arrays. -/
theorem iblk2_eq (c : Dev nD) (t : Fin cfg1.N) : (iblk W c 2 t : S512x64.Idx → EReal) = WAb W := by
  obtain ⟨-, -, -, -, -, e20, e21, -⟩ := idx_facts t
  funext y
  show W Ab' (((cfg1.win 2).blk t).view.emb y) = W Ab' y
  congr 1
  funext a; apply Fin.ext
  match a with
  | ⟨0, _⟩ => show win1_2.index t (0 : Fin 2) * 512 + 1 * (y 0).val = (y 0).val; omega
  | ⟨1, _⟩ => show win1_2.index t (1 : Fin 2) * 64 + 1 * (y 1).val = (y 1).val; omega
theorem iblk3_eq (c : Dev nD) (t : Fin cfg1.N) : (iblk W c 3 t : S32x64x128.Idx → EReal) = Wh W := by
  obtain ⟨-, -, -, -, -, -, -, e30, e31, e32, -⟩ := idx_facts t
  funext y
  show W h' (((cfg1.win 3).blk t).view.emb y) = W h' y
  congr 1
  funext a; apply Fin.ext
  match a with
  | ⟨0, _⟩ => show win1_3.index t (0 : Fin 3) * 32 + 1 * (y 0).val = (y 0).val; omega
  | ⟨1, _⟩ => show win1_3.index t (1 : Fin 3) * 64 + 1 * (y 1).val = (y 1).val; omega
  | ⟨2, _⟩ => show win1_3.index t (2 : Fin 3) * 128 + 1 * (y 2).val = (y 2).val; omega
theorem iblk4_eq (c : Dev nD) (t : Fin cfg1.N) : (iblk W c 4 t : S64x64x512.Idx → EReal) = WBb W := by
  obtain ⟨-, -, -, -, -, -, -, -, -, -, e40, e41, e42, -⟩ := idx_facts t
  funext y
  show W Bb' (((cfg1.win 4).blk t).view.emb y) = W Bb' y
  congr 1
  funext a; apply Fin.ext
  match a with
  | ⟨0, _⟩ => show win1_4.index t (0 : Fin 3) * 64 + 1 * (y 0).val = (y 0).val; omega
  | ⟨1, _⟩ => show win1_4.index t (1 : Fin 3) * 64 + 1 * (y 1).val = (y 1).val; omega
  | ⟨2, _⟩ => show win1_4.index t (2 : Fin 3) * 512 + 1 * (y 2).val = (y 2).val; omega

/-- The output window's block at point `t` sits at rows `5000 t …`. -/
theorem emb5 (t : Fin cfg1.N) (p : Fin 5000) (dd : Fin 512) :
    ((cfg1.win 5).blk t).view.emb (ix2 p dd) = ix2 (rowAt t p) dd := by
  obtain ⟨-, -, -, -, -, -, -, -, -, -, -, -, -, e50, e51⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 512 + 1 * dd.val = dd.val; omega

/-- WHAT POINT `t` WRITES BACK is block `t` of `Gout`. -/
theorem flushed_eq (c : Dev nD) (t : Fin cfg1.N) :
    (dat W c).flushed 5 t = ((cfg1.win 5).blk t).view.read (Elt Ideal) (Gout W) := by
  show (cfg1.win 5).cut (grid1.coords t) ((dat W c).after 5 t) = _
  rw [after1_5, outsAt_eq, scr_eq]
  funext j
  obtain ⟨p, dd, rfl⟩ : ∃ (p : Fin 5000) (dd : Fin 512), j = ix2 p dd := ⟨j 0, j 1, eq_ix2 j⟩
  show k1_pay2 (F := Ideal) (iblk W c 0 t) (iblk W c 2 t) (iblk W c 1 t) (k1_pay1 (iblk W c 3 t0) (iblk W c 4 t0)) (ix2 p dd)
    = Gout W (((cfg1.win 5).blk t).view.emb (ix2 p dd))
  rw [pay2_apply, emb5]
  simp only [pay1_apply, iblk0_apply, iblk1_apply, iblk2_eq, iblk3_eq, iblk4_eq]
  rfl

/-- An index of the result array is in point `t`'s block iff each coordinate is in the block's range on its axis. -/
theorem mem_blk5 (t : Fin cfg1.N) (i : S100000x512.Idx) :
    i ∈ ((cfg1.win 5).blk t).view.set ↔ ∀ a : Fin 2, win1_5.index t a * S5000x512.size a ≤ (i a).val ∧ (i a).val < win1_5.index t a * S5000x512.size a + S5000x512.size a := by
  show i ∈ ((View.whole main_v5).slice (win1_5.rect t)).set ↔ _
  rw [View.set_slice_whole, Rect.mem_set_unit]
  exact Iff.rfl

/-- Every row is in some point's block: row `r` in point `r / 5000`'s. -/
theorem cover5 (i : S100000x512.Idx) : ∃ t : Fin cfg1.N, (cfg1.win 5).flush t = true ∧ i ∈ ((cfg1.win 5).blk t).view.set := by
  have hi0 : (i 0).val < 100000 := (i 0).isLt
  have hi1 : (i 1).val < 512 := (i 1).isLt
  have hN : cfg1.N = 20 := N_1
  have hN' : grid1.N = 20 := N_1
  refine ⟨⟨(i 0).val / 5000, by omega⟩, flush1_5 _, ?_⟩
  rw [mem_blk5]
  obtain ⟨-, -, -, -, -, -, -, -, -, -, -, -, -, e50, e51⟩ := idx_facts ⟨(i 0).val / 5000, by omega⟩
  have e50' : win1_5.index ⟨(i 0).val / 5000, by omega⟩ (0 : Fin 2) = (i 0).val / 5000 := e50
  intro a
  match a with
  | ⟨0, _⟩ => show win1_5.index ⟨(i 0).val / 5000, by omega⟩ (0 : Fin 2) * 5000 ≤ (i 0).val ∧ (i 0).val < win1_5.index ⟨(i 0).val / 5000, by omega⟩ (0 : Fin 2) * 5000 + 5000; omega
  | ⟨1, _⟩ => show win1_5.index ⟨(i 0).val / 5000, by omega⟩ (1 : Fin 2) * 512 ≤ (i 1).val ∧ (i 1).val < win1_5.index ⟨(i 0).val / 5000, by omega⟩ (1 : Fin 2) * 512 + 512; omega

/-- THE RESULT ARRAY after the pipeline: `Gout` of the five arrays it reads. -/
theorem outArr_ideal (d : Dev nD) : outArr d W = Gout W :=
  (dat W d).arrAt_eq_of_cover 5 (Gout W) (fun t _ => flushed_eq W d t) (cover5)

end Cert.KernelIdeal.RunValue

end
-- ==== Proof.KernelValue.lean ====
/-
  The kernel's result array is the specification's function of the argument arrays.

  The row pipeline ends with its result array at `Gout` of the five arrays it reads. Those are: the rows `x` as
  launched; the two factors rounded to the narrow float format, which on extended reals is the identity; the table of
  partial counts the counting stage left, which is the specification's table of the edge list; and the mask, laid out as
  20 × 1 × 5000 (entry `(a, 0, b)` is entry `5000·a + b` of the mask) with each bit widened to a 32-bit word, which is
  not zero exactly when the bit is one.
-/
import proofs.«210447_g31353261261282_cont_9to1_114_24_alg».proof.Proof.RegionIdeal
import proofs.«210447_g31353261261282_cont_9to1_114_24_alg».proof.Proof.LaunchMainA
import proofs.«210447_g31353261261282_cont_9to1_114_24_alg».proof.Proof.Spec
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Run

open Idealize.ShloMosaic Idealize.ShloMosaic.TcCoe Idealize.ShloMosaic.ValueIdx
open Idealize.SL Idealize.SL.Sem

/-- A bit widened to a 32-bit word is not zero exactly when the bit is one. -/
theorem widened_ne_zero (b : BitVec 1) : b.setWidth 32 ≠ 0#32 ↔ b = 1#1 := by
  rcases BitVec.eq_zero_or_eq_one b with h | h <;> subst h <;> decide

/-- The mask laid out as 20 × 1 × 5000: entry `(n / 5000, 0, n % 5000)` is entry `n`. -/
theorem reshape_mask {α : Type} (v : S100000.Idx → α) (h : S100000.ShapeCasts S20x1x5000) (n : Fin 100000) :
    shapeCast S20x1x5000 v h
        (ix3 (⟨n.val / 5000, by have := n.isLt; omega⟩ : Fin 20) (0 : Fin 1) (⟨n.val % 5000, Nat.mod_lt _ (by decide)⟩ : Fin 5000))
      = v (ix1 n) :=
  shapeCast_apply v h _ _ (by
    rw [Shape.rowMajor_val_one, Shape.rowMajor_val_three]
    show n.val = (n.val / 5000 * 1 + 0) * 5000 + n.val % 5000
    omega)

theorem kernel_val (m : (ℓ : Loc nD τ sig) → Buf (Elt Ideal) ℓ) (Hf : (d : Dev nD) → Buf (Elt Ideal) (hLoc d)) (c : Dev nD)
    (hH : ∀ (w : Fin 32) (r : Fin 64) (l : Fin 128), (Hf c : S32x64x128.Idx → EReal) (ix3 w r l) = Cert.Spec.hist (m (eLoc c)) w r l) :
    (outArr c (Vh m Hf c) : S100000x512.Idx → EReal)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [outArr_ideal]
  funext i
  obtain ⟨n, d, rfl⟩ : ∃ (n : Fin 100000) (d : Fin 512), i = ix2 n d := ⟨i 0, i 1, eq_ix2 i⟩
  rw [Cert.Spec.G_ix2]
  have hx : Wx (Vh m Hf c) = m ((c.tc : Thread nD τ).loc main_arg0) := Vh_x m Hf c
  have hA : WAb (Vh m Hf c) = m ((c.tc : Thread nD τ).loc main_arg3) := Vh_Ab m Hf c
  have hB : WBb (Vh m Hf c) = m ((c.tc : Thread nD τ).loc main_arg4) := Vh_Bb m Hf c
  have hh : (fun w r l => Wh (Vh m Hf c) (ix3 w r l)) = Cert.Spec.hist (m ((c.tc : Thread nD τ).loc main_arg2)) := by
    funext w r l
    rw [show Wh (Vh m Hf c) = Hf c from Vh_h m Hf c]
    exact hH w r l
  have hm : (if maskW (Vh m Hf c) n ≠ 0#32 then (1 : EReal) else 0) = Cert.Spec.mf (m ((c.tc : Thread nD τ).loc main_arg1)) n := by
    unfold maskW Cert.Spec.mf
    rw [show Wm4 (Vh m Hf c) = fX (F := Ideal) (fR (F := Ideal) (m ((SparseCore.T c).loc main_arg1))) from Vh_m4 m Hf c]
    show (if (shapeCast S20x1x5000 (m ((SparseCore.T c).loc main_arg1)) Facts₀.shapeCasts_S100000_S20x1x5000 _).setWidth 32 ≠ 0#32 then (1 : EReal) else 0) = _
    rw [reshape_mask]
    exact if_congr (widened_ne_zero _) rfl rfl
  show Wx (Vh m Hf c) (ix2 n d) + ∑ k : Fin 64, ((∑ j : Fin 512, Wx (Vh m Hf c) (ix2 n j) * WAb (Vh m Hf c) (ix2 j k))
      * (if maskW (Vh m Hf c) n ≠ 0#32 then (1 : EReal) else 0))
      * Cert.Spec.bavgOf (fun w r l => Wh (Vh m Hf c) (ix3 w r l)) (WBb (Vh m Hf c)) k d = _
  rw [hx, hA, hB, hh, hm]
  rfl

end Cert.KernelIdeal.RunValue

end
-- ==== Proof.Bits.Common.lean ====
/-
  The program as the launch theorem reads it, the ghost state the proof runs under, and what the call hands
  each counting task.

  The edge list (1 600 000 ids) is cut into 32 chunks of 50 000, chunk `w` for the task on vector subcore `s` of core
  `c` with `w = 2 s + c`; the table of partial counts (32 × 64 × 128) into its 32 rows, row `w` written by the same
  task. A task is handed its chunk of the edge list (to read) and its row of the table (to overwrite), and hands both
  back, the row at the table `Hf` the counting leaves. The call as a whole takes the two arrays and returns them, the
  table at `Hf`.
-/
import proofs.«210447_g31353261261282_cont_9to1_114_24_alg».proof.Kernel
import proofs.«210447_g31353261261282_cont_9to1_114_24_alg».proof.Proof.Gen.Kernel
import proofs.«210447_g31353261261282_cont_9to1_114_24_alg».proof.Proof.Gen.Kernel.Skeleton
import proofs.«210447_g31353261261282_cont_9to1_114_24_alg».proof.Proof.Gen.Kernel.Launch
import proofs.«210447_g31353261261282_cont_9to1_114_24_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the row pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL

/-- The row pipeline's component (the middle factor). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays and their pieces -/

abbrev eLoc (d : Dev nD) : Loc nD τ sig := (SparseCore.T d).loc main_arg2
abbrev hLoc (d : Dev nD) : Loc nD τ sig := (SparseCore.T d).loc main_v0

/-- The edge list and the table of partial counts as a vector subcore's kernel names them. -/
abbrev eV : Memref sig .scVector .hbm S1600000 .i32 := Memref.whole main_arg2_scv
abbrev hV : Memref sig .scVector .hbm S32x64x128 .f32 := Memref.whole main_v0_scv

theorem hdivE : 32 ∣ S1600000.size 0 := ⟨50000, rfl⟩
theorem hdivH : 32 ∣ S32x64x128.size 0 := ⟨1, rfl⟩

/-- Chunk `w` of the edge list: positions `50000 w … 50000 w + 49999`. -/
abbrev eChunk (w : Fin 32) : Rect S1600000 := Rect.part (s := S1600000) (a₀ := 0) hdivE w
abbrev eSet (w : Fin 32) : Finset S1600000.Idx := ((eV : Memref sig .scVector .hbm S1600000 .i32).view.slice (eChunk w)).set
/-- Row `w` of the table. -/
abbrev hRow (w : Fin 32) : Rect S32x64x128 := Rect.part (s := S32x64x128) (a₀ := 0) hdivH w
abbrev hSet (w : Fin 32) : Finset S32x64x128.Idx := ((hV : Memref sig .scVector .hbm S32x64x128 .f32).view.slice (hRow w)).set

/-- The chunk and row of the task on vector subcore number `i` of core number `c`: `2 i + c` (read modulo 32, which
    changes nothing for `c < 2`, `i < 16`). -/
def wid (c i : ℕ) : Fin 32 := ⟨(2 * i + c) % 32, Nat.mod_lt _ (by decide)⟩

theorem wid_val {c i : ℕ} (hc : c < 2) (hi : i < 16) : (wid c i).val = 2 * i + c := Nat.mod_eq_of_lt (by omega)

variable (m : (ℓ : Loc nD τ sig) → Buf (Elt F) ℓ) (ρ : Dev nD → PrngReg)
-- the table the counting stage leaves, per device, as a function of the launch memory: fixed by the tasks' proof
variable (Hf : (d : Dev nD) → Buf (Elt F) (hLoc d))

abbrev ePts (d : Dev nD) : sProp 𝕄 := eLoc d ↦{fullShare} m (eLoc d)
abbrev hPts (d : Dev nD) (f : Buf (Elt F) (hLoc d)) : sProp 𝕄 := hLoc d ↦{fullShare} f
abbrev eChunkPts (d : Dev nD) (w : Fin 32) : sProp 𝕄 := eLoc d ↦[eSet w]{fullShare} m (eLoc d)
abbrev hRowPts (d : Dev nD) (w : Fin 32) (f : Buf (Elt F) (hLoc d)) : sProp 𝕄 := hLoc d ↦[hSet w]{fullShare} f

/-- What a task is handed, and what it hands back. -/
def goFor (d : Dev nD) (w : Fin 32) : sProp 𝕄 := iprop(eChunkPts m d w ∗ ∃ f, hRowPts d w f)
def tdFor (d : Dev nD) (w : Fin 32) : sProp 𝕄 := iprop(eChunkPts m d w ∗ hRowPts d w (Hf d))

theorem nCore_zero : (K (F := F)).nCore 0 = 2 := rfl
theorem nSub_zero : (K (F := F)).nSub 0 = 16 := rfl

/-- The call's payloads: a core's are its tasks', conjoined. -/
def P : (K (F := F)).Pay (nD := nD) (Val := Elt F) (Name := ℕ) (U := UU) where
  st := fun q d c => bigSep Finset.univ fun i : Fin ((K (F := F)).nSub q) => goFor m d (wid c.val i.val)
  dn := fun q d c => bigSep Finset.univ fun i : Fin ((K (F := F)).nSub q) => tdFor m Hf d (wid c.val i.val)
  go := fun _ d c i => goFor m d (wid c.val i.val)
  td := fun _ d c i => tdFor m Hf d (wid c.val i.val)
  x := fun _ _ => iprop(emp)

instance P_storable : (P (F := F) m Hf).IsStorable where
  st _ d c := by unfold P goFor; infer_instance
  dn _ d c := by unfold P tdFor; infer_instance
  go _ _ _ _ := by unfold P goFor; infer_instance
  td _ _ _ _ := by unfold P tdFor; infer_instance

end Cert.Kernel.Run

end
-- ==== Proof.Bits.RegionRuns.lean ====
/-
  The row pipeline's body on any staging buffers, in its two cases. At the first point it reads the whole table of
  partial counts and the whole second factor, leaves the weight-averaged factor (`k1_pay1`) in the carried scratch, and
  writes the block of rows from it; at every later point it reads the scratch as the first point left it. In both the
  block written is `k1_pay2` of the rows' block, the first factor, the mask's block and the scratch.
-/
import proofs.«210447_g31353261261282_cont_9to1_114_24_alg».proof.Proof.Bits.Common
import Idealize.ShloMosaic.Lib.Pipeline.FrameBody
import Idealize.ShloMosaic.Lib.Ring

set_option maxRecDepth 16384

noncomputable section

namespace Cert.Kernel.Run

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The body's one branch condition, from the grid coordinate: "this is the first point". -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

set_option maxHeartbeats 1000000 in
/-- A later point: the five inputs and the scratch at their contents, the output buffer at anything; the body runs
    to the continuation holding the inputs and the scratch as they were and the output buffer with its pieces written. -/
noncomputable def bodyRun_B (c : Dev nD) (i : grid1.Coords)
    (arg1 : Memref sig .tc .vmem S5000x512 .f32) (harg1 : arg1.IsWhole) (arg2 : Memref sig .tc .vmem S1x1x5000 .i32) (harg2 : arg2.IsWhole)
    (arg3 : Memref sig .tc .vmem S512x64 .bf16) (harg3 : arg3.IsWhole) (arg4 : Memref sig .tc .vmem S32x64x128 .f32) (harg4 : arg4.IsWhole)
    (arg5 : Memref sig .tc .vmem S64x64x512 .bf16) (harg5 : arg5.IsWhole) (arg6 : Memref sig .tc .vmem S5000x512 .f32) (harg6 : arg6.IsWhole)
    (arg7 : Memref sig .tc .vmem S64x512 .bf16) (harg7 : arg7.IsWhole) (hc0 : ¬cond1 i)
    (x0 : Vec F S5000x512 .f32) (x1 : Vec F S1x1x5000 .i32) (x2 : Vec F S512x64 .bf16) (x3 : Vec F S32x64x128 .f32) (x4 : Vec F S64x64x512 .bf16)
    (xs : Vec F S64x512 .bf16) :
    { L6 : List (View.Piece (Elt F) S5000x512 .f32) //
      ∀ (E : Set ℕ) (Kc : PUnit → sProp 𝕄),
        iprop(owns (T c) arg1 fullShare x0 ∗ owns (T c) arg2 fullShare x1 ∗ owns (T c) arg3 fullShare x2 ∗ owns (T c) arg4 fullShare x3
            ∗ owns (T c) arg5 fullShare x4 ∗ (∃ f, arg6.view.loc (T c) ↦[arg6.view.set]{fullShare} f) ∗ owns (T c) arg7 fullShare xs
            ∗ (iprop(owns (T c) arg1 fullShare x0 ∗ owns (T c) arg2 fullShare x1 ∗ owns (T c) arg3 fullShare x2 ∗ owns (T c) arg4 fullShare x3
                ∗ owns (T c) arg5 fullShare x4 ∗ (∃ f, arg6.view.loc (T c) ↦[arg6.view.set]{fullShare} arg6.view.writes (Elt F) f L6)
                ∗ owns (T c) arg7 fullShare xs) -∗ Kc ⟨⟩))
          ⊢ wp frame (wpE (defs₀ (F := F)) Variants.none (T c) none) E (cc1__main_body i arg1 harg1 arg2 harg2 arg3 harg3 arg4 harg4 arg5 harg5 arg6 harg6 arg7 harg7) Kc } := by
  refine ⟨?_, fun E Kc => ?run⟩
  case run =>
    simp only [cc1__main_body_eq_skeleton]; unfold cc1__main_body_skel
    unfold owns
    iintro ⟨⟨%f0, %hf0, H0⟩, ⟨%f1, %hf1, H1⟩, ⟨%f2, %hf2, H2⟩, ⟨%f3, %hf3, H3⟩, ⟨%f4, %hf4, H4⟩, ⟨%f6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]
    · iexists _; iexact H6
    iexists _; isplitr; · ipureintro; exact harg7.read_unread _
    iexact H7

set_option maxHeartbeats 1000000 in
/-- The first point: the five inputs at their contents, the output buffer and the scratch at anything; the body runs
    to the continuation holding the inputs as they were and the output buffer and the scratch with their pieces written. -/
noncomputable def bodyRun_A (c : Dev nD) (i : grid1.Coords)
    (arg1 : Memref sig .tc .vmem S5000x512 .f32) (harg1 : arg1.IsWhole) (arg2 : Memref sig .tc .vmem S1x1x5000 .i32) (harg2 : arg2.IsWhole)
    (arg3 : Memref sig .tc .vmem S512x64 .bf16) (harg3 : arg3.IsWhole) (arg4 : Memref sig .tc .vmem S32x64x128 .f32) (harg4 : arg4.IsWhole)
    (arg5 : Memref sig .tc .vmem S64x64x512 .bf16) (harg5 : arg5.IsWhole) (arg6 : Memref sig .tc .vmem S5000x512 .f32) (harg6 : arg6.IsWhole)
    (arg7 : Memref sig .tc .vmem S64x512 .bf16) (harg7 : arg7.IsWhole) (hc0 : cond1 i)
    (x0 : Vec F S5000x512 .f32) (x1 : Vec F S1x1x5000 .i32) (x2 : Vec F S512x64 .bf16) (x3 : Vec F S32x64x128 .f32) (x4 : Vec F S64x64x512 .bf16) :
    { L : List (View.Piece (Elt F) S5000x512 .f32) × List (View.Piece (Elt F) S64x512 .bf16) //
      ∀ (E : Set ℕ) (Kc : PUnit → sProp 𝕄),
        iprop(owns (T c) arg1 fullShare x0 ∗ owns (T c) arg2 fullShare x1 ∗ owns (T c) arg3 fullShare x2 ∗ owns (T c) arg4 fullShare x3
            ∗ owns (T c) arg5 fullShare x4 ∗ (∃ f, arg6.view.loc (T c) ↦[arg6.view.set]{fullShare} f) ∗ (∃ f, arg7.view.loc (T c) ↦[arg7.view.set]{fullShare} f)
            ∗ (iprop(owns (T c) arg1 fullShare x0 ∗ owns (T c) arg2 fullShare x1 ∗ owns (T c) arg3 fullShare x2 ∗ owns (T c) arg4 fullShare x3
                ∗ owns (T c) arg5 fullShare x4 ∗ (∃ f, arg6.view.loc (T c) ↦[arg6.view.set]{fullShare} arg6.view.writes (Elt F) f L.1)
                ∗ (∃ f, arg7.view.loc (T c) ↦[arg7.view.set]{fullShare} arg7.view.writes (Elt F) f L.2)) -∗ Kc ⟨⟩))
          ⊢ wp frame (wpE (defs₀ (F := F)) Variants.none (T c) none) E (cc1__main_body i arg1 harg1 arg2 harg2 arg3 harg3 arg4 harg4 arg5 harg5 arg6 harg6 arg7 harg7) Kc } := by
  refine ⟨⟨?_, ?_⟩, fun E Kc => ?run⟩
  case run =>
    simp only [cc1__main_body_eq_skeleton]; unfold cc1__main_body_skel
    unfold owns
    iintro ⟨⟨%f0, %hf0, H0⟩, ⟨%f1, %hf1, H1⟩, ⟨%f2, %hf2, H2⟩, ⟨%f3, %hf3, H3⟩, ⟨%f4, %hf4, H4⟩, ⟨%f6, H6⟩, ⟨%f7, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]
    · iexists _; iexact H6
    iexists _; iexact H7

end Cert.Kernel.Run

end
-- ==== Proof.Bits.RegionData.lean ====
/-
  The row pipeline's proof data. The arrays are those the main program holds when the pipeline is entered (a valuation
  `W`). Every input window's buffer holds its block at every point (three of the windows are whole arrays, fetched
  once). The carried scratch holds, from the first point on, what the first point's body left there (`scr`); the output
  window's buffer holds after point `t` what that point's body wrote (`outsAt`): the first point's case at `t = 0`, the
  later points' case, run at the scratch's contents `scr`, elsewhere.
-/
import proofs.«210447_g31353261261282_cont_9to1_114_24_alg».proof.Proof.Bits.RegionRuns
import Idealize.ShloMosaic.Lib.Pipeline.Regions
import Idealize.ShloMosaic.Lib.Pipeline.RegionsLoop

set_option maxRecDepth 16384

noncomputable section

namespace Cert.Kernel.Run

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Valuation τ sig (Elt F))

/-- The TensorCore's buffers as the pipeline finds them. -/
abbrev VW (c : Dev nD) (b : Ref sig .tc) : Buf (Elt F) ((c : Thread nD τ).loc b) := W (Proc.devRef .tc b)

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (VW W c (Pipeline.arrRef spec1 w))

/-- One staging buffer of the output window, and the scratch: the views through which what the body wrote is read back. -/
abbrev VO : View sig .tc .vmem S5000x512 .f32 := (Memref.whole cc1_stg5_0 : Memref sig .tc .vmem S5000x512 .f32).view
abbrev VS : View sig .tc .vmem S64x512 .bf16 := (Memref.whole cc1_scratch0 : Memref sig .tc .vmem S64x512 .bf16).view

/-- Each window's current staging memref at point `t`, as the pipeline passes it, and the scratch. -/
abbrev ms1_0 (t : Fin cfg1.N) : Memref sig .tc .vmem S5000x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x5000 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x512 .f32 := win1_5.stage (cfg1.slots t 5)
abbrev hs1_5 (t : Fin cfg1.N) : (ms1_5 t).IsWhole := hstage1_5 ((cfg1.slots t 5).cast nbuf1_5)
abbrev mS : Memref sig .tc .vmem S64x512 .bf16 := Memref.whole cc1_scratch0
abbrev hS : (mS).IsWhole := Memref.isWhole_whole _

theorem N_pos1 : 0 < cfg1.N := by decide
abbrev t0 : Fin cfg1.N := ⟨0, N_pos1⟩

/-- The first point's run, at a point `t` that is the first. -/
abbrev runA (c : Dev nD) (t : Fin cfg1.N) (h : t.val = 0) :=
  bodyRun_A (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) mS hS ((hcond1 t).mpr h) (iblk W c 0 t) (iblk W c 1 t) (iblk W c 2 t) (iblk W c 3 t) (iblk W c 4 t)

/-- What the first point leaves in the scratch: its pieces read back. -/
def scr (c : Dev nD) : Vec F S64x512 .bf16 :=
  VS.read (Elt F) (VS.writes (Elt F) VS.junk (runA W c t0 rfl).1.2)

/-- A later point's run, at the scratch as the first point left it. -/
abbrev runB (c : Dev nD) (t : Fin cfg1.N) (h : ¬t.val = 0) :=
  bodyRun_B (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) mS hS (fun hc => h ((hcond1 t).mp hc)) (iblk W c 0 t) (iblk W c 1 t) (iblk W c 2 t) (iblk W c 3 t) (iblk W c 4 t) (scr W c)

/-- What the body leaves in the output window's buffer at point `t`. -/
def outsAt (c : Dev nD) (t : Fin cfg1.N) : Vec F S5000x512 .f32 :=
  if h : t.val = 0 then VO.read (Elt F) (VO.writes (Elt F) VO.junk (runA W c t h).1.1)
  else VO.read (Elt F) (VO.writes (Elt F) VO.junk (runB W c t h).1)

theorem outsAt_A (c : Dev nD) (t : Fin cfg1.N) (h : t.val = 0) :
    outsAt W c t = VO.read (Elt F) (VO.writes (Elt F) VO.junk (runA W c t h).1.1) := dif_pos h
theorem outsAt_B (c : Dev nD) (t : Fin cfg1.N) (h : ¬t.val = 0) :
    outsAt W c t = VO.read (Elt F) (VO.writes (Elt F) VO.junk (runB W c t h).1) := dif_neg h

/-- The pieces each run found tile the buffer they were written to, so they cover it. -/
theorem coverA_out (c : Dev nD) (t : Fin cfg1.N) (h : t.val = 0) (y : S5000x512.Idx) : ∃ pc ∈ (runA W c t h).1.1, y ∈ pc.1.set :=
  View.cover_of_tiledL (runA W c t h).1.1 S5000x512.size (by sl_kernel_rfl) y
theorem coverA_scr (c : Dev nD) (t : Fin cfg1.N) (h : t.val = 0) (y : S64x512.Idx) : ∃ pc ∈ (runA W c t h).1.2, y ∈ pc.1.set :=
  View.cover_of_tiledL (runA W c t h).1.2 S64x512.size (by sl_kernel_rfl) y
theorem coverB_out (c : Dev nD) (t : Fin cfg1.N) (h : ¬t.val = 0) (y : S5000x512.Idx) : ∃ pc ∈ (runB W c t h).1, y ∈ pc.1.set :=
  View.cover_of_tiledL (runB W c t h).1 S5000x512.size (by sl_kernel_rfl) y

/-- The scratch, before the first point at anything, from then on at `scr`. -/
def ΦS (c : Dev nD) (n : ℕ) : sProp 𝕄 :=
  if n = 0 then Pipeline.scopedRest (Ix := HIx 1) (Name := ℕ) (U := UU) (Lvl := ℕ) (Val := Elt F) spec1 c
  else owns (c : Thread nD τ) mS fullShare (scr W c)

/-- The proof data on core `c`. -/
def dat (c : Dev nD) : Dat τ (Elt F) (HIx 1) ℕ UU ℕ cfg1 c where
  A w := VW W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => outsAt W c t
  Φ t := ΦS W c t.val
  q _ := fullShare
  owed _ := 0

theorem A_eq (c : Dev nD) (w : Fin cfg1.W) : (dat W c).A w = VW W c (Pipeline.arrRef spec1 w) := by dsimp only [dat]
theorem after1_0 (c : Dev nD) (t : Fin cfg1.N) : (dat W c).after 0 t = iblk W c 0 t := by dsimp only [dat]
theorem after1_1 (c : Dev nD) (t : Fin cfg1.N) : (dat W c).after 1 t = iblk W c 1 t := by dsimp only [dat]
theorem after1_2 (c : Dev nD) (t : Fin cfg1.N) : (dat W c).after 2 t = iblk W c 2 t := by dsimp only [dat]
theorem after1_3 (c : Dev nD) (t : Fin cfg1.N) : (dat W c).after 3 t = iblk W c 3 t := by dsimp only [dat]
theorem after1_4 (c : Dev nD) (t : Fin cfg1.N) : (dat W c).after 4 t = iblk W c 4 t := by dsimp only [dat]
theorem after1_5 (c : Dev nD) (t : Fin cfg1.N) : (dat W c).after 5 t = outsAt W c t := by dsimp only [dat]

/-- Each input window's current buffer holds its block at every point, fetched there or not. -/
theorem before1_0 (c : Dev nD) (t : Fin cfg1.N) (d) : (dat W c).before 0 t d = iblk W c 0 t :=
  ((dat W c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat W c).before 1 t d = iblk W c 1 t :=
  ((dat W c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat W c).before 2 t d = iblk W c 2 t :=
  ((dat W c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat W c).before 3 t d = iblk W c 3 t :=
  ((dat W c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dat W c).before 4 t d = iblk W c 4 t :=
  ((dat W c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)

end Cert.Kernel.Run

end
-- ==== Proof.Bits.RegionBody.lean ====
/-
  The row pipeline's body obligation: at every point, from the scratch's state and every window's current buffer at what
  it then holds, the body runs to the next point's state. At the first point the scratch is at anything and ends at
  `scr`; at a later point it is at `scr` and stays. The input windows' buffers hold their blocks and are left as found;
  the output window's buffer ends at `outsAt`. What a run wrote is read back through its pieces' cover.
-/
import proofs.«210447_g31353261261282_cont_9to1_114_24_alg».proof.Proof.Bits.RegionData

set_option maxRecDepth 16384

noncomputable section

namespace Cert.Kernel.Run

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Valuation τ sig (Elt F))

/-- What the body is called with at point `t`, the windows one by one, -/
def bodyPre (c : Dev nD) (t : Fin cfg1.N) : sProp 𝕄 :=
  iprop((dat W c).Φ t.castSucc ∗ (dat W c).owesAt none t.castSucc
    ∗ (∃ d, owns (c : Thread nD τ) (ms1_0 t) fullShare ((dat W c).before 0 t d))
    ∗ (∃ d, owns (c : Thread nD τ) (ms1_1 t) fullShare ((dat W c).before 1 t d))
    ∗ (∃ d, owns (c : Thread nD τ) (ms1_2 t) fullShare ((dat W c).before 2 t d))
    ∗ (∃ d, owns (c : Thread nD τ) (ms1_3 t) fullShare ((dat W c).before 3 t d))
    ∗ (∃ d, owns (c : Thread nD τ) (ms1_4 t) fullShare ((dat W c).before 4 t d))
    ∗ (∃ d, owns (c : Thread nD τ) (ms1_5 t) fullShare ((dat W c).before 5 t d)))

/-- and what it returns. -/
def bodyPost (c : Dev nD) (t : Fin cfg1.N) : sProp 𝕄 :=
  iprop((dat W c).Φ t.succ ∗ (dat W c).owesAt none t.succ
    ∗ owns (c : Thread nD τ) (ms1_0 t) fullShare ((dat W c).after 0 t)
    ∗ owns (c : Thread nD τ) (ms1_1 t) fullShare ((dat W c).after 1 t)
    ∗ owns (c : Thread nD τ) (ms1_2 t) fullShare ((dat W c).after 2 t)
    ∗ owns (c : Thread nD τ) (ms1_3 t) fullShare ((dat W c).after 3 t)
    ∗ owns (c : Thread nD τ) (ms1_4 t) fullShare ((dat W c).after 4 t)
    ∗ owns (c : Thread nD τ) (ms1_5 t) fullShare ((dat W c).after 5 t))

omit [FloatOps F] in
/-- A buffer held at known contents is held at some contents. -/
theorem owns_forget {Sh : Shape} {e : EltTy} (c : Dev nD) (M : Memref sig .tc .vmem Sh e) (X : Sh.Idx → Elt F e) :
    (owns (c : Thread nD τ) M fullShare X : sProp 𝕄) ⊢ iprop(∃ f, M.view.loc (c : Thread nD τ) ↦[M.view.set]{fullShare} f) := by
  unfold owns; iintro ⟨%f, -, H⟩; iexists f; iexact H

theorem Φ_cast (c : Dev nD) (t : Fin cfg1.N) : (dat W c).Φ t.castSucc = ΦS W c t.val := rfl
theorem Φ_succ (c : Dev nD) (t : Fin cfg1.N) : (dat W c).Φ t.succ = owns (c : Thread nD τ) mS fullShare (scr W c) := by
  show ΦS W c (t.val + 1) = _
  unfold ΦS; rw [if_neg (Nat.succ_ne_zero _)]

set_option maxHeartbeats 1600000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4]
  rw [Φ_cast, Φ_succ, show (dat W c).owesAt none t.succ = (dat W c).owesAt none t.castSucc from rfl,
    after1_0, after1_1, after1_2, after1_3, after1_4, after1_5]
  by_cases h0 : t.val = 0
  · rw [outsAt_A W c t h0]
    unfold ΦS; rw [if_pos h0, scopedRest1_eq]
    iintro ⟨⟨%fs, Hs⟩, Ho, ⟨%d0, H0⟩, ⟨%d1, H1⟩, ⟨%d2, H2⟩, ⟨%d3, H3⟩, ⟨%d4, H4⟩, ⟨%d5, H5⟩⟩
    iapply ((runA W c t h0).2 Set.univ _)
    isplitl [H0]; · iexact H0
    isplitl [H1]; · iexact H1
    isplitl [H2]; · iexact H2
    isplitl [H3]; · iexact H3
    isplitl [H4]; · iexact H4
    isplitl [H5]; · iapply (owns_forget (F := F) _ _ _); iexact H5
    isplitl [Hs]
    · iexists fs; simp only [Memref.view_whole, View.set_whole]; iexact Hs
    iintro ⟨H0, H1, H2, H3, H4, ⟨%e5, H5⟩, ⟨%e7, H7⟩⟩
    isplitl [H7]
    · unfold owns; iexists _; isplitr
      swap; · iexact H7
      ipureintro
      have hs : scr W c = VS.read (Elt F) (VS.writes (Elt F) VS.junk (runA W c t h0).1.2) := by
        have ht : t = t0 := Fin.ext h0
        subst ht; rfl
      rw [hs]
      exact View.read_writes_of_cover _ _ _ _ _ (coverA_scr W c t h0)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA_out W c t h0)
  · rw [outsAt_B W c t h0]
    unfold ΦS; rw [if_neg h0]
    iintro ⟨Hs, Ho, ⟨%d0, H0⟩, ⟨%d1, H1⟩, ⟨%d2, H2⟩, ⟨%d3, H3⟩, ⟨%d4, H4⟩, ⟨%d5, H5⟩⟩
    iapply ((runB W c t h0).2 Set.univ _)
    isplitl [H0]; · iexact H0
    isplitl [H1]; · iexact H1
    isplitl [H2]; · iexact H2
    isplitl [H3]; · iexact H3
    isplitl [H4]; · iexact H4
    isplitl [H5]; · iapply (owns_forget (F := F) _ _ _); iexact H5
    isplitl [Hs]; · iexact Hs
    iintro ⟨H0, H1, H2, H3, H4, ⟨%e5, H5⟩, Hs⟩
    isplitl [Hs]; · iexact Hs
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB_out W c t h0)

/-- The library's body obligation, at every point. -/
theorem body_obligation (c : Dev nD) : BodyObligation (dat (F := F) W c) (defs₀ (F := F)) Variants.none none Set.univ := fun t => by
  rw [bigSep_W1, bigSep_W1]
  exact sound_body W c t

end Cert.Kernel.Run

end
-- ==== Proof.Bits.Region.lean ====
/-
  The row pipeline as one step of the main program: entered holding the main program's arrays, it ends with the result
  array at `outArr`, what the pipeline's write-backs leave in it — a function of the five arrays it reads (the rows `x`,
  the mask as 32-bit words in 20 × 1 × 5000, the two factors in the narrow format, the table of partial counts) —, every
  other array as it was. The windows' arrays are split out of the held buffers at the entry and put back at the exit; the
  carried scratch enters the pipeline's state from the scoped buffers no window stages, and returns to them.
-/
import proofs.«210447_g31353261261282_cont_9to1_114_24_alg».proof.Proof.Bits.RegionBody
import Idealize.ShloMosaic.Lib.Pipeline.Sound

set_option maxRecDepth 16384

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat)

variable {F : FTy → Type}

local notation "𝕄" => MT nD τ sig (HIx 1) (Elt F) ℕ UU ℕ

/-! ## The main program's arrays -/

abbrev x' : DevRef τ sig := Proc.devRef .tc (main_arg0 : Ref sig .tc)
abbrev mk' : DevRef τ sig := Proc.devRef .tc (main_arg1 : Ref sig .tc)
abbrev e' : DevRef τ sig := Proc.devRef .tc (main_arg2 : Ref sig .tc)
abbrev A' : DevRef τ sig := Proc.devRef .tc (main_arg3 : Ref sig .tc)
abbrev B' : DevRef τ sig := Proc.devRef .tc (main_arg4 : Ref sig .tc)
abbrev h' : DevRef τ sig := Proc.devRef .tc (main_v0 : Ref sig .tc)
abbrev Ab' : DevRef τ sig := Proc.devRef .tc (main_v1 : Ref sig .tc)
abbrev Bb' : DevRef τ sig := Proc.devRef .tc (main_v2 : Ref sig .tc)
abbrev m3' : DevRef τ sig := Proc.devRef .tc (main_v3 : Ref sig .tc)
abbrev m4' : DevRef τ sig := Proc.devRef .tc (main_v4 : Ref sig .tc)
abbrev o' : DevRef τ sig := Proc.devRef .tc (main_v5 : Ref sig .tc)

/-- The TensorCore's arrays, all unscoped. -/
abbrev Sall : Finset (DevRef τ sig) := {x', mk', e', A', B', h', Ab', Bb', m3', m4', o'}

/-- They are the TensorCore's unscoped references. -/
theorem Sall_unscoped : Sall = (StableHlo.tcRefs τ sig).filter fun b => ¬ b.isScoped := by decide

variable [FloatOps F]

theorem unscopedBufs_held (c : Dev nD) (W : Valuation τ sig (Elt F)) :
    (unscopedBufs c (VW W c) : sProp 𝕄) = held (c : Thread nD τ) Sall W := by
  rw [Sall_unscoped]
  unfold unscopedBufs StableHlo.held StableHlo.tcRefs
  rw [Finset.filter_map, bigSep_map]
  rfl

/-- The result array, from the arrays the pipeline reads: what the write-backs of all twenty points leave. -/
def outArr (d : Dev nD) (W : Valuation τ sig (Elt F)) : Buf (Elt F) ((d, o') : Loc nD τ sig) :=
  (dat W d).arrAt 5 cfg1.N

/-- What the launch deals the main program for the pipeline: its staging cells' ghost state and its duties' tokens. -/
def G (d : Dev nD) : sProp 𝕄 :=
  iprop(Pipeline.cellsGhost cfgs EP 0 d ∗ Pipeline.toksInit cfgs EP 0 d)

/-! ## The region's record -/

abbrev adm : (p : Fin 1) → (pcfgs (F := F) p).Adm := fun p => (cfgs p).toPCfg_adm

variable (W : Valuation τ sig (Elt F))

/-- The proof data of the one pipeline. -/
def dats (_ : Fin 1) (c : Dev nD) : Dat τ (Elt F) (HIx 1) ℕ UU ℕ cfg1 c := dat W c

/-- The valuation the region leaves: the result array at `outArr`. -/
def Wfin (d : Dev nD) : Valuation τ sig (Elt F) := Function.update W o' (outArr d W)

theorem ownSemFacts : Pipeline.OwnSemFacts spec1 (Fin.elim0 : Fin 0 → SemLoc sig) := by decide

/-- An input window's array is never written: after every point it is as found. -/
theorem arrAt_in_w (c : Dev nD) (w : Fin cfg1.W) (hw : (cfg1.win w).isOut = false) (n : ℕ) : (dat W c).arrAt w n = (dat W c).A w :=
  (dat W c).arrAt_in w hw n

set_option backward.isDefEq.respectTransparency.types false in
/-- THE REGION: the launch kit's layout, no semaphore of the kernel's own, the body obligation; entered from the held
    arrays and the core owing nothing — the windows' arrays into the pipeline, the other arrays bypassing, the scratch
    into the pipeline's state from the scoped rest —, left with the arrays put back at the updated valuation. -/
def reg : Pipeline.RegionSeg (pcfgs (F := F)) adm (dats W) none defs₀ 𝒱₀ (K (F := F)).L (K (F := F)).lev 0 where
  win := launch1.win.to₀
  block_pos := launch1.block_pos
  stage_whole := launch1.stage_whole
  K := Fin 0
  osem := Fin.elim0
  ho := ownSemFacts
  hbody c := (body_obligation W c).loose
  hwaits := Pipeline.hwaits_of_owed_zero _ _ _ _ (K (F := F)).L (K (F := F)).lev 0 fun _ _ => rfl
  pre c := iprop(held (c : Thread nD τ) Sall W ∗ ∃ Wt, owes (c : Thread nD τ) (0 : CellTallies nD τ sig (HIx 1)) Wt)
  post c := iprop(held (c : Thread nD τ) Sall (Wfin W c) ∗ ∃ Wt, owes (c : Thread nD τ) (0 : CellTallies nD τ sig (HIx 1)) Wt)
  X _ := iprop(emp)
  Y _ := iprop(emp)
  Z c := Pipeline.unscopedRest spec1 c (VW W c)
  hentry c := by
    rw [← unscopedBufs_held c W]
    have hsplit := Pipeline.arrays_of_unscopedBufs (pcfgs (F := F)) adm (dats W) (p := 0) launch1.win launch1.arr_whole c
      ((dat W c).share_full fun _ => rfl) (VW W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    iexact Hrest
  hin c := by
    rw [show (dats W 0 c).Φ 0 = ΦS W c 0 from rfl]; unfold ΦS; rw [if_pos rfl]
    iintro ⟨-, -, Hr⟩; iexact Hr
  hout c := by
    rw [show (dats W 0 c).Φ (Fin.last cfg1.N) = ΦS W c cfg1.N from rfl]; unfold ΦS; rw [if_neg (by decide), scopedRest1_eq]
    iintro Hs
    isplitr; · iempintro
    isplitr
    · unfold Pipeline.ownSems0; rw [show (Finset.univ : Finset (Fin 0)) = ∅ from rfl, BI.bigSep_empty]; iempintro
    unfold owns
    icases Hs with ⟨%f, -, Hs⟩
    iexists f; simp only [Memref.view_whole, View.set_whole]; iexact Hs
  hexit c := by
    have hjoin := Pipeline.unscopedBufs_of_arrays (pcfgs (F := F)) adm (p := 0) launch1.win launch1.arr_whole c (dats W)
      ((dat W c).share_full fun _ => rfl) (VW W c) (VW (Wfin W c) c) (fun w => (dats W 0 c).arrAt w cfg1.N)
      (fun w => by
        match w with
        | ⟨0, _⟩ => exact (arrAt_in_w W c 0 rfl _).trans (Function.update_of_ne (f := W) (a := x') (a' := o') (by decide) (outArr c W)).symm
        | ⟨1, _⟩ => exact (arrAt_in_w W c 1 rfl _).trans (Function.update_of_ne (f := W) (a := m4') (a' := o') (by decide) (outArr c W)).symm
        | ⟨2, _⟩ => exact (arrAt_in_w W c 2 rfl _).trans (Function.update_of_ne (f := W) (a := Ab') (a' := o') (by decide) (outArr c W)).symm
        | ⟨3, _⟩ => exact (arrAt_in_w W c 3 rfl _).trans (Function.update_of_ne (f := W) (a := h') (a' := o') (by decide) (outArr c W)).symm
        | ⟨4, _⟩ => exact (arrAt_in_w W c 4 rfl _).trans (Function.update_of_ne (f := W) (a := Bb') (a' := o') (by decide) (outArr c W)).symm
        | ⟨5, _⟩ => exact (Function.update_self (f := W) o' (outArr c W)).symm)
      (fun b hb => by
        show Function.update W o' (outArr c W) (Proc.devRef .tc b) = W (Proc.devRef .tc b)
        exact Function.update_of_ne (fun e => hb (Finset.mem_image.mpr ⟨(5 : Fin 6), Finset.mem_univ _, (Proc.devRef_injective _ e).symm⟩)) _ _)
    iintro ⟨Ha, HO, -, HZ⟩
    imodintro
    isplitr [HO]
    · rw [← unscopedBufs_held c (Wfin W c)]
      iapply hjoin
      isplitl [Ha] <;> iassumption
    · unfold Pipeline.Dat.owesAt Pipeline.owesWithin
      icases HO with ⟨%Wt, -, HO⟩; iexists Wt; iexact HO

/-! ## The pipeline's call in the main program -/

/-- The call as the main program spells it is the pipeline's own call, lifted. -/
theorem lift_call :
    (SparseCore.liftProg (Q := 1) (Prog.lift (.customCall (Pipeline.entry 0) ()) : Prog (TpuEff nD τ sig (Elt F) (ΛP (F := F)) .tc) PUnit))
      = Prog.lift (.customCall (SparseCore.inner (Pipeline.entry 0)) ()) := rfl

set_option backward.isDefEq.respectTransparency.types false in
/-- The pipeline's own call, under the pipeline's body table. -/
theorem region_inner [∀ e, Nonempty (Elt F e)] (d : Dev nD) (W : Valuation τ sig (Elt F)) (r : PrngReg) (Wt : Waits sig (HIx 1)) {Φ : PUnit → sProp 𝕄} :
    iprop(levAts (K (F := F)).L (K (F := F)).lev ∗ G d ∗ boundary (T d) ∗ held (T d) Sall W ∗ prngReg d r ∗ owes (T d) 0 Wt
        ∗ ((boundary (T d) ∗ held (T d) Sall (Function.update W o' (outArr d W)) ∗ prngReg d r ∗ ∃ Wt', owes (T d) 0 Wt') -∗ Φ ⟨⟩))
      ⊢ wp frame (wpE (D (F := F)) 𝒱 (T d) none) Set.univ
          (Prog.lift (.customCall (Pipeline.entry 0) ()) : Prog (TpuEff nD τ sig (Elt F) (ΛP (F := F)) .tc) PUnit) Φ := by
  iintro ⟨#Hla, HG, Hbd, Hheld, Hprng, HO, Hk⟩
  unfold G
  icases HG with ⟨Hg, Ht⟩
  iapply (Pipeline.RegionSeg.wp (pcfgs (F := F)) adm (dats W) none cellOf_inj EP defs₀ 𝒱₀ (K (F := F)).L (K (F := F)).lev (reg W) d none
    (fun _ h => nomatch h) (fun _ => .ret ⟨⟩) Φ)
  isplitl [Hk Hprng]
  · iintro Hboth
    icases Hboth with ⟨Hbd, Hpost⟩
    ihave Hpost' := (show (reg W).post d ⊢ iprop(held (T d) Sall (Function.update W o' (outArr d W)) ∗ ∃ Wt', owes (T d) (0 : CellTallies nD τ sig (HIx 1)) Wt') from BI.Entails.refl _) $$ Hpost
    icases Hpost' with ⟨Hheld, HO⟩
    rw [wp_ret]; imodintro
    iapply Hk
    isplitl [Hbd]; · iexact Hbd
    isplitl [Hheld]; · iexact Hheld
    isplitl [Hprng]; · iexact Hprng
    iexact HO
  isplitl [Hbd]; · iexact Hbd
  isplitl [Hheld HO]
  · iapply (show iprop(held (T d) Sall W ∗ ∃ Wt', owes (T d) (0 : CellTallies nD τ sig (HIx 1)) Wt') ⊢ (reg W).pre d from BI.Entails.refl _)
    isplitl [Hheld]; · iexact Hheld
    iexists Wt; iexact HO
  isplitr; · iexact Hla
  isplitl [Hg] <;> iassumption

/-- The pipeline's call in the main program, owing nothing: the result array ends at `outArr`, the other arrays as found. -/
theorem region_wp [∀ e, Nonempty (Elt F e)] (d : Dev nD) (W : Valuation τ sig (Elt F)) (r : PrngReg) (Wt : Waits sig (HIx 1)) {Φ : PUnit → sProp 𝕄} :
    iprop(levAts (K (F := F)).L (K (F := F)).lev ∗ G d ∗ boundary (T d) ∗ held (T d) Sall W ∗ prngReg d r ∗ owes (T d) 0 Wt
        ∗ ((boundary (T d) ∗ held (T d) Sall (Function.update W o' (outArr d W)) ∗ prngReg d r ∗ ∃ Wt', owes (T d) 0 Wt') -∗ Φ ⟨⟩))
      ⊢ wp frame (wpE ((K (F := F)).defs (D (F := F))) 𝒱 (T d) none) Set.univ
          (Prog.lift (.customCall (SparseCore.inner (Pipeline.entry 0)) ())) Φ := by
  have hl := (K (F := F)).wp_liftProg (nD := nD) (Name := ℕ) (U := UU) (D (F := F)) 𝒱 (T d) Set.univ none
    (Prog.lift (.customCall (Pipeline.entry 0) ()) : Prog (TpuEff nD τ sig (Elt F) (ΛP (F := F)) .tc) PUnit) Φ
  rw [lift_call] at hl
  exact (region_inner d W r Wt).trans hl

end Cert.Kernel.Run

end
-- ==== Proof.Bits.LaunchMainA.lean ====
/-
  The launch of the program, first part: the ghost state's launch element dealt to the handshakes, the row pipeline's
  staging cells and the tasks; the edge list and the table of partial counts cut into the 32 tasks' chunks and rows and
  joined again; the main program's four host operations and the arrays' contents along the program.
-/
import proofs.«210447_g31353261261282_cont_9to1_114_24_alg».proof.Proof.Bits.Common
import proofs.«210447_g31353261261282_cont_9to1_114_24_alg».proof.Proof.Bits.Region
import Idealize.ShloMosaic.Lib.SparseCore.Launch
import Idealize.ShloMosaic.Lib.StableHlo.Run
import Idealize.ShloMosaic.Lib.Pipeline.Kit
import Idealize.ShloMosaic.Lib.Pipeline.Sound
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The launch element -/

/-- The launch element: the handshakes' rounds at their start, the row pipeline's staging cells and duties at their
    start, every transfer counter at its unit. -/
def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

variable (m : (ℓ : Loc nD τ sig) → Buf (Elt F) ℓ) (ρ : Dev nD → PrngReg)
variable (Hf : (d : Dev nD) → Buf (Elt F) (hLoc d))

theorem bigSep_emp' {I : Type} (s : Finset I) : (bigSep s fun _ => iprop(emp)) = (iprop(emp) : sProp 𝕄) := bigSep_emp_const s

/-- The right factor's pair, owned through the right embedding, is the middle factor owned through `EP` beside the
    counters. -/
theorem own_right_pair (b : UP) (c : Counters) :
    (BI.own ((embR : Emb (UP × Counters) 𝕄) (b, c)) : sProp 𝕄)
      ⊢ iprop(BI.own ((EP : Emb UP 𝕄) b) ∗ BI.own ((((Emb.inr : Emb Counters (UP × Counters)).trans (embR : Emb (UP × Counters) 𝕄))) c)) :=
  own_pair_emb (embR : Emb (UP × Counters) 𝕄) b c

variable [FloatOps F]

/-- The pipeline's share of the launch element funds, for every device, the staging cells' ghost state and the duties'
    tokens. -/
theorem fund_G :
    (BI.own ((EP : Emb UP 𝕄) (initOf (Pipeline.cells (nD := nD) (τ := τ) cfgs Gen.cellOf_inj) (Pipeline.launchToks (nD := nD) (τ := τ) cfgs Gen.cellOf_inj))) : sProp 𝕄)
      ⊢ iprop(|==> bigSep Finset.univ fun d : Dev nD => G (F := F) d) := by
  refine (Pipeline.fund_ghost (nD := nD) (τ := τ) cfgs (EP : Emb UP 𝕄) Gen.cellOf_inj).trans (bupd_mono ?_)
  unfold G
  rw [bigSep_sep']
  refine sep_mono ?_ ?_
  · exact Entails.of_eq (bigSep_congr fun d _ => bigSep_univ_of_subsingleton (0 : Fin 1))
  · exact Entails.of_eq (bigSep_congr fun d _ => bigSep_univ_of_subsingleton (0 : Fin 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m Hf).x q thr) := by
  unfold u₀
  iintro Hu
  ihave H := (ownU_pair _ _) $$ Hu
  icases H with ⟨HH, HR⟩
  ihave HR' := (own_right_pair _ _) $$ HR
  icases HR' with ⟨HP, -⟩
  ihave HG := (fund_G (F := F)) $$ HP
  iapply bupd_fupd
  imod HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays cut into the tasks' chunks and rows -/

section Pieces

omit [FloatOps F]

theorem eSet_eq (w : Fin 32) : eSet w = (eChunk w).set := by
  show ((View.whole (main_arg2_scv : Ref sig .scVector)).slice (eChunk w)).set = _
  rw [View.set_slice]; exact Finset.map_refl
theorem hSet_eq (w : Fin 32) : hSet w = (hRow w).set := by
  show ((View.whole (main_v0_scv : Ref sig .scVector)).slice (hRow w)).set = _
  rw [View.set_slice]; exact Finset.map_refl

theorem eSets_disjoint : ∀ i ∈ (Finset.univ : Finset (Fin 32)), ∀ j ∈ (Finset.univ : Finset (Fin 32)), i ≠ j → Disjoint (eSet i) (eSet j) :=
  fun i _ j _ h => by rw [eSet_eq, eSet_eq]; exact Rect.part_disjoint hdivE h
theorem eSets_cover : (Finset.univ : Finset (Fin 32)).biUnion eSet = Finset.univ :=
  (Finset.biUnion_congr rfl fun i _ => eSet_eq i).trans (Rect.biUnion_part hdivE)
theorem hSets_disjoint : ∀ i ∈ (Finset.univ : Finset (Fin 32)), ∀ j ∈ (Finset.univ : Finset (Fin 32)), i ≠ j → Disjoint (hSet i) (hSet j) :=
  fun i _ j _ h => by rw [hSet_eq, hSet_eq]; exact Rect.part_disjoint hdivH h
theorem hSets_cover : (Finset.univ : Finset (Fin 32)).biUnion hSet = Finset.univ :=
  (Finset.biUnion_congr rfl fun i _ => hSet_eq i).trans (Rect.biUnion_part hdivH)

/-- The edge list is its 32 chunks. -/
theorem ePts_chunks (d : Dev nD) (f : Buf (Elt F) (eLoc d)) :
    (eLoc d ↦{fullShare} f : sProp 𝕄) = bigSep Finset.univ fun w : Fin 32 => eLoc d ↦[eSet w]{fullShare} f := by
  rw [← pointsTo_biUnion Finset.univ (ℓ := eLoc d) eSet eSets_disjoint, eSets_cover]; try rfl
/-- The table is its 32 rows. -/
theorem hPts_rows (d : Dev nD) (f : Buf (Elt F) (hLoc d)) :
    (hLoc d ↦{fullShare} f : sProp 𝕄) = bigSep Finset.univ fun w : Fin 32 => hLoc d ↦[hSet w]{fullShare} f := by
  rw [← pointsTo_biUnion Finset.univ (ℓ := hLoc d) hSet hSets_disjoint, hSets_cover]; try rfl

/-- Rows held at whatever contents join into the table at some contents. -/
theorem hRows_join [∀ e, Nonempty (Elt F e)] (d : Dev nD) :
    (bigSep Finset.univ fun w : Fin 32 => iprop(∃ f, hRowPts d w f)) ⊢ (iprop(∃ f, hPts d f) : sProp 𝕄) := by
  refine (bigSep_exists_pi Finset.univ (fun w (f : Buf (Elt F) (hLoc d)) => hRowPts d w f)).trans ?_
  iintro ⟨%fs, H⟩
  ihave H' := (pointsTo_biUnion_join Finset.univ hSet fs (fs 0) hSets_disjoint) $$ H
  icases H' with ⟨%g, -, Hg⟩
  rw [hSets_cover]
  iexists g; iexact Hg

/-- The table at some contents is its rows, each at some contents. -/
theorem hRows_split (d : Dev nD) :
    (iprop(∃ f, hPts d f) : sProp 𝕄) ⊢ bigSep Finset.univ fun w : Fin 32 => iprop(∃ f, hRowPts d w f) := by
  have X : ∀ f, (hPts d f : sProp 𝕄) ⊢ bigSep Finset.univ fun w : Fin 32 => iprop(∃ f, hRowPts d w f) := by
    intro f
    unfold hPts; rw [hPts_rows]
    have Y : ∀ w : Fin 32, (hLoc d ↦[hSet w]{fullShare} f : sProp 𝕄) ⊢ iprop(∃ f, hRowPts d w f) := by
      intro w; iintro H; iexists f; iexact H
    exact bigSep_mono fun w _ => Y w
  exact exists_elim fun f => X f

/-- Task `(c, i)` ↦ its chunk number `2 i + c`: the 2 × 16 tasks are the 32 chunks, each once. -/
def widEquiv : Fin 2 × Fin 16 ≃ Fin 32 where
  toFun p := wid p.1.val p.2.val
  invFun w := (⟨w.val % 2, Nat.mod_lt _ (by decide)⟩, ⟨w.val / 2, by have := w.isLt; omega⟩)
  left_inv p := by
    have h := wid_val p.1.isLt p.2.isLt
    refine Prod.ext (Fin.ext ?_) (Fin.ext ?_)
    · show (wid p.1.val p.2.val).val % 2 = p.1.val; rw [h]; have := p.1.isLt; omega
    · show (wid p.1.val p.2.val).val / 2 = p.2.val; rw [h]; have := p.1.isLt; omega
  right_inv w := by
    refine Fin.ext ?_
    have h := wid_val (c := w.val % 2) (i := w.val / 2) (Nat.mod_lt _ (by decide)) (by have := w.isLt; omega)
    show (wid (w.val % 2) (w.val / 2)).val = w.val
    rw [h]; omega

/-- A conjunction over the tasks of the two cores is the conjunction over the 32 chunks. -/
theorem bigSep_tasks (Φ : Fin 32 → sProp 𝕄) :
    (bigSep Finset.univ fun c : Fin ((K (F := F)).nCore 0) => bigSep Finset.univ fun i : Fin ((K (F := F)).nSub 0) => Φ (wid c.val i.val))
      = bigSep Finset.univ Φ := by
  show (bigSep (Finset.univ : Finset (Fin 2)) fun c => bigSep (Finset.univ : Finset (Fin 16)) fun i => Φ (wid c.val i.val)) = _
  rw [bigSep_univ_equiv widEquiv Φ, bigSep_univ_prod]
  rfl

end Pieces

/-- What the call takes for the two cores is the edge list and the table (at whatever it holds), -/
theorem st0_of (d : Dev nD) :
    iprop(ePts m d ∗ ∃ f, hPts d f) ⊢ (bigSep Finset.univ fun c : Fin ((K (F := F)).nCore 0) => (P m Hf).st 0 d c) := by
  show _ ⊢ (bigSep Finset.univ fun c : Fin ((K (F := F)).nCore 0) => bigSep Finset.univ fun i : Fin ((K (F := F)).nSub 0) => goFor m d (wid c.val i.val))
  rw [bigSep_tasks (F := F) (fun w => goFor m d w)]
  unfold goFor
  rw [bigSep_sep']
  unfold ePts eChunkPts
  rw [ePts_chunks]
  exact sep_mono .rfl (hRows_split d)

/-- and what it hands back is the edge list and the table the counting leaves. -/
theorem dn0_to (d : Dev nD) :
    (bigSep Finset.univ fun c : Fin ((K (F := F)).nCore 0) => (P m Hf).dn 0 d c) ⊢ iprop(ePts m d ∗ hPts d (Hf d)) := by
  show (bigSep Finset.univ fun c : Fin ((K (F := F)).nCore 0) => bigSep Finset.univ fun i : Fin ((K (F := F)).nSub 0) => tdFor m Hf d (wid c.val i.val)) ⊢ _
  rw [bigSep_tasks (F := F) (fun w => tdFor m Hf d w)]
  unfold tdFor
  rw [bigSep_sep']
  unfold ePts eChunkPts hPts hRowPts
  rw [ePts_chunks, hPts_rows]

/-- Conversely, what the call takes for the two cores joins into the edge list and the table at some contents. -/
theorem st0_to [∀ e, Nonempty (Elt F e)] (d : Dev nD) :
    (bigSep Finset.univ fun c : Fin ((K (F := F)).nCore 0) => (P m Hf).st 0 d c) ⊢ iprop(ePts m d ∗ ∃ f, hPts d f) := by
  show (bigSep Finset.univ fun c : Fin ((K (F := F)).nCore 0) => bigSep Finset.univ fun i : Fin ((K (F := F)).nSub 0) => goFor m d (wid c.val i.val)) ⊢ _
  rw [bigSep_tasks (F := F) (fun w => goFor m d w)]
  unfold goFor
  rw [bigSep_sep']
  unfold ePts eChunkPts
  rw [ePts_chunks]
  exact sep_mono .rfl (hRows_join d)

/-! ## The main program's host operations and the arrays' contents along it -/

/-- Rounding to the narrow format, of an array of `A`'s shape and of one of `B`'s; the mask's bits widened to 32-bit
    words; the mask laid out as 20 × 1 × 5000. -/
abbrev fA : (⟨S512x64, .f32⟩ : BufTy).Contents (Elt F) → (⟨S512x64, .bf16⟩ : BufTy).Contents (Elt F) :=
  (truncf .bf16 · Facts₀.bitsLt_bf16_f32)
abbrev fB : (⟨S64x64x512, .f32⟩ : BufTy).Contents (Elt F) → (⟨S64x64x512, .bf16⟩ : BufTy).Contents (Elt F) :=
  (truncf .bf16 · Facts₀.bitsLt_bf16_f32)
abbrev fX : (⟨S20x1x5000, .i1⟩ : BufTy).Contents (Elt F) → (⟨S20x1x5000, .i32⟩ : BufTy).Contents (Elt F) :=
  (extui 32 · Facts₀.natLt_1_32)
abbrev fR : (⟨S100000, .i1⟩ : BufTy).Contents (Elt F) → (⟨S20x1x5000, .i1⟩ : BufTy).Contents (Elt F) :=
  fun v i => shapeCast S20x1x5000 v Facts₀.shapeCasts_S100000_S20x1x5000 i

/-- The factor `A` rounded to the narrow format. -/
abbrev opA : HloOp τ sig (Elt F) := StableHlo.unary main_arg3 main_v1 (fA (F := F))
/-- The factor `B` rounded to the narrow format. -/
abbrev opB : HloOp τ sig (Elt F) := StableHlo.unary main_arg4 main_v2 (fB (F := F))
/-- The mask laid out as 20 × 1 × 5000. -/
abbrev opR : HloOp τ sig (Elt F) := StableHlo.reshape main_arg1 main_v3 rfl Facts₀.shapeCasts_S100000_S20x1x5000
/-- The mask's bits widened to 32-bit words. -/
abbrev opX : HloOp τ sig (Elt F) := StableHlo.unary main_v3 main_v4 (fX (F := F))

/-- The launch valuation; -/
def V0 (d : Dev nD) : Valuation τ sig (Elt F) := fun b => m (d, b)
/-- after the counting call, the table at what the counting leaves; -/
def V1 (d : Dev nD) : Valuation τ sig (Elt F) := Function.update (V0 m d) h' (Hf d)
/-- after the four host operations; -/
def Vh (d : Dev nD) : Valuation τ sig (Elt F) :=
  (opX (F := F)).result ((opR (F := F)).result ((opB (F := F)).result ((opA (F := F)).result (V1 m Hf d))))
/-- after the row pipeline. -/
def Vfin (d : Dev nD) : Valuation τ sig (Elt F) := Function.update (Vh m Hf d) o' (outArr d (Vh m Hf d))

section ReadBack

theorem V1_h (d : Dev nD) : V1 m Hf d h' = Hf d := Function.update_self _ _ _
theorem V1_of_ne (d : Dev nD) {b : DevRef τ sig} (hb : b ≠ h') : V1 m Hf d b = V0 m d b := Function.update_of_ne hb _ _

/-- An array none of the four operations writes is, after them, what it was before. -/
theorem Vh_of_not_written (d : Dev nD) {b : DevRef τ sig} (h1 : b ∉ ({Ab'} : Finset (DevRef τ sig))) (h2 : b ∉ ({Bb'} : Finset (DevRef τ sig)))
    (h3 : b ∉ ({m3'} : Finset (DevRef τ sig))) (h4 : b ∉ ({m4'} : Finset (DevRef τ sig))) : Vh m Hf d b = V1 m Hf d b := by
  unfold Vh
  rw [(opX (F := F)).result_of_not_mem _ (b := b) h4, (opR (F := F)).result_of_not_mem _ (b := b) h3,
    (opB (F := F)).result_of_not_mem _ (b := b) h2, (opA (F := F)).result_of_not_mem _ (b := b) h1]

theorem Vh_x (d : Dev nD) : Vh m Hf d x' = m ((SparseCore.T d).loc main_arg0) :=
  (Vh_of_not_written m Hf d (by decide) (by decide) (by decide) (by decide)).trans (V1_of_ne m Hf d (by decide))
theorem Vh_mk (d : Dev nD) : Vh m Hf d mk' = m ((SparseCore.T d).loc main_arg1) :=
  (Vh_of_not_written m Hf d (by decide) (by decide) (by decide) (by decide)).trans (V1_of_ne m Hf d (by decide))
theorem Vh_e (d : Dev nD) : Vh m Hf d e' = m ((SparseCore.T d).loc main_arg2) :=
  (Vh_of_not_written m Hf d (by decide) (by decide) (by decide) (by decide)).trans (V1_of_ne m Hf d (by decide))
theorem Vh_A (d : Dev nD) : Vh m Hf d A' = m ((SparseCore.T d).loc main_arg3) :=
  (Vh_of_not_written m Hf d (by decide) (by decide) (by decide) (by decide)).trans (V1_of_ne m Hf d (by decide))
theorem Vh_B (d : Dev nD) : Vh m Hf d B' = m ((SparseCore.T d).loc main_arg4) :=
  (Vh_of_not_written m Hf d (by decide) (by decide) (by decide) (by decide)).trans (V1_of_ne m Hf d (by decide))
theorem Vh_h (d : Dev nD) : Vh m Hf d h' = Hf d :=
  (Vh_of_not_written m Hf d (by decide) (by decide) (by decide) (by decide)).trans (V1_h m Hf d)

/-- The narrow `A` is the launch `A` rounded. -/
theorem Vh_Ab (d : Dev nD) :
    Vh m Hf d Ab' = fA (F := F) (m ((SparseCore.T d).loc main_arg3)) := by
  unfold Vh
  rw [(opX (F := F)).result_of_not_mem _ (b := Ab') (show Ab' ∉ ({m4'} : Finset (DevRef τ sig)) by decide),
    (opR (F := F)).result_of_not_mem _ (b := Ab') (show Ab' ∉ ({m3'} : Finset (DevRef τ sig)) by decide),
    (opB (F := F)).result_of_not_mem _ (b := Ab') (show Ab' ∉ ({Bb'} : Finset (DevRef τ sig)) by decide)]
  refine (StableHlo.unary_result main_arg3 main_v1 _ _ _ (V1 m Hf d)).trans ?_
  show fA (F := F) (V1 m Hf d A') = _
  rw [V1_of_ne m Hf d (show A' ≠ h' by decide)]; rfl

/-- The narrow `B` is the launch `B` rounded. -/
theorem Vh_Bb (d : Dev nD) :
    Vh m Hf d Bb' = fB (F := F) (m ((SparseCore.T d).loc main_arg4)) := by
  unfold Vh
  rw [(opX (F := F)).result_of_not_mem _ (b := Bb') (show Bb' ∉ ({m4'} : Finset (DevRef τ sig)) by decide),
    (opR (F := F)).result_of_not_mem _ (b := Bb') (show Bb' ∉ ({m3'} : Finset (DevRef τ sig)) by decide)]
  refine (StableHlo.unary_result main_arg4 main_v2 _ _ _ _).trans ?_
  show fB (F := F) ((opA (F := F)).result (V1 m Hf d) B') = _
  rw [(opA (F := F)).result_of_not_mem _ (b := B') (show B' ∉ ({Ab'} : Finset (DevRef τ sig)) by decide),
    V1_of_ne m Hf d (show B' ≠ h' by decide)]; rfl

/-- The mask's words are the launch mask, laid out as 20 × 1 × 5000 and widened. -/
theorem Vh_m4 (d : Dev nD) :
    Vh m Hf d m4' = fX (F := F) (fR (F := F) (m ((SparseCore.T d).loc main_arg1))) := by
  unfold Vh
  refine (StableHlo.unary_result main_v3 main_v4 _ _ _ _).trans ?_
  show fX (F := F) ((opR (F := F)).result ((opB (F := F)).result ((opA (F := F)).result (V1 m Hf d))) m3') = _
  rw [StableHlo.reshape_result main_arg1 main_v3 rfl Facts₀.shapeCasts_S100000_S20x1x5000 _ _ _]
  show fX (F := F) (fR (F := F) ((opB (F := F)).result ((opA (F := F)).result (V1 m Hf d)) mk')) = _
  rw [(opB (F := F)).result_of_not_mem _ (b := mk') (show mk' ∉ ({Bb'} : Finset (DevRef τ sig)) by decide),
    (opA (F := F)).result_of_not_mem _ (b := mk') (show mk' ∉ ({Ab'} : Finset (DevRef τ sig)) by decide),
    V1_of_ne m Hf d (show mk' ≠ h' by decide)]; rfl

theorem Vfin_o (d : Dev nD) : Vfin m Hf d o' = outArr d (Vh m Hf d) := Function.update_self _ _ _
theorem Vfin_of_ne (d : Dev nD) {b : DevRef τ sig} (hb : b ≠ o') : Vfin m Hf d b = Vh m Hf d b := Function.update_of_ne hb _ _

theorem Vfin_x (d : Dev nD) : Vfin m Hf d x' = m ((SparseCore.T d).loc main_arg0) := (Vfin_of_ne m Hf d (by decide)).trans (Vh_x m Hf d)
theorem Vfin_mk (d : Dev nD) : Vfin m Hf d mk' = m ((SparseCore.T d).loc main_arg1) := (Vfin_of_ne m Hf d (by decide)).trans (Vh_mk m Hf d)
theorem Vfin_e (d : Dev nD) : Vfin m Hf d e' = m ((SparseCore.T d).loc main_arg2) := (Vfin_of_ne m Hf d (by decide)).trans (Vh_e m Hf d)
theorem Vfin_A (d : Dev nD) : Vfin m Hf d A' = m ((SparseCore.T d).loc main_arg3) := (Vfin_of_ne m Hf d (by decide)).trans (Vh_A m Hf d)
theorem Vfin_B (d : Dev nD) : Vfin m Hf d B' = m ((SparseCore.T d).loc main_arg4) := (Vfin_of_ne m Hf d (by decide)).trans (Vh_B m Hf d)

end ReadBack

end Cert.Kernel.Run

end
-- ==== Proof.Bits.LaunchMain.lean ====
/-
  The launch of the program, second part: the main program on the TensorCore — the counting call, the four
  host operations, the row pipeline — run from the launch memory; how the final memory reads the claim; and the run of
  the whole mesh of threads from the tasks' proof.
-/
import proofs.«210447_g31353261261282_cont_9to1_114_24_alg».proof.Proof.Bits.LaunchMainA

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable (Hf : (d : Dev nD) → Buf (Elt F) (hLoc d))

variable [FloatOps F]

/-! ## The main program's arrays, held whole -/

section Held

omit [FloatOps F] in
/-- The main program's arrays are the TensorCore's unscoped buffers. -/
theorem Sall_eq : Sall = (Finset.univ.filter fun b : Ref sig .tc => ¬ b.isScoped).map ⟨Proc.devRef (sig := sig) (.tc : Proc τ), Proc.devRef_injective _⟩ := by
  decide

/-- The launch's unscoped buffers are the eleven arrays at the launch valuation. -/
theorem unscoped_held (d : Dev nD) :
    (unscopedBufs d (fun b => m ((SparseCore.T d).loc b)) : sProp 𝕄) = held (T d) Sall (V0 m d) := by
  unfold unscopedBufs held
  rw [Sall_eq, bigSep_map]
  rfl

/-- The eleven arrays: the edge list, the table, the other nine. -/
theorem held_call (d : Dev nD) (W : Valuation τ sig (Elt F)) :
    (held (T d) Sall W : sProp 𝕄)
      = iprop(((eLoc d ↦{fullShare} W e') ∗ (hLoc d ↦{fullShare} W h')) ∗ held (T d) (Sall \ {e', h'}) W) := by
  rw [held_sub_split (T d) (show ({e', h'} : Finset (DevRef τ sig)) ⊆ Sall by decide) W]
  congr 1
  unfold held
  rw [SparseCore.bigSep_insert' (by decide), bigSep_singleton]

/-- The other nine are the same at the launch valuation and after the counting call. -/
theorem held_rest_V1 (d : Dev nD) :
    (held (T d) (Sall \ {e', h'}) (V1 m Hf d) : sProp 𝕄) = held (T d) (Sall \ {e', h'}) (V0 m d) := by
  unfold held
  refine bigSep_congr fun b hb => ?_
  rw [V1_of_ne m Hf d (b := b) (fun e => by subst e; exact absurd hb (by decide))]

/-- At the launch: the edge list and the table at the launch contents, and the other nine. -/
theorem held_V0 (d : Dev nD) :
    (held (T d) Sall (V0 m d) : sProp 𝕄) = iprop((ePts m d ∗ hPts d (m (hLoc d))) ∗ held (T d) (Sall \ {e', h'}) (V0 m d)) :=
  held_call d (V0 m d)

/-- After the counting call: the table at what the counting leaves. -/
theorem held_V1 (d : Dev nD) :
    (held (T d) Sall (V1 m Hf d) : sProp 𝕄) = iprop((ePts m d ∗ hPts d (Hf d)) ∗ held (T d) (Sall \ {e', h'}) (V0 m d)) := by
  rw [held_call, held_rest_V1, V1_h, V1_of_ne m Hf d (show e' ≠ h' by decide)]
  rfl

end Held

/-- What the main program leaves the claim: its arrays at the final valuation. -/
abbrev FIN (d : Dev nD) : sProp 𝕄 := held (T d) Sall (Vfin m Hf d)

theorem hA : (opA (F := F)).bufs ⊆ Sall := show ({A', Ab'} : Finset (DevRef τ sig)) ⊆ Sall by decide
theorem hB : (opB (F := F)).bufs ⊆ Sall := show ({B', Bb'} : Finset (DevRef τ sig)) ⊆ Sall by decide
theorem hR : (opR (F := F)).bufs ⊆ Sall := show ({mk', m3'} : Finset (DevRef τ sig)) ⊆ Sall by decide
theorem hX : (opX (F := F)).bufs ⊆ Sall := show ({m3', m4'} : Finset (DevRef τ sig)) ⊆ Sall by decide

/-- With one call, every record of waits sits below the bound the TensorCore's state after the call asks. -/
theorem wbelow_all (thr : Thread nD τ) (W : Waits sig (HIx 1)) : (K (F := F)).WBelow thr W (8 * 1) := by
  intro p _
  rcases hp : p.2 with _ | q
  · show (K (F := F)).lev (thr, p.1) none ≤ 8 * 1
    rw [(K (F := F)).lev_none]; omega
  · have h1 := (K (F := F)).lev_some_le (thr, p.1) q
    have h2 := q.isLt
    omega

/-- The row pipeline's call in the main program after the counting call: entered with the arrays at the valuation the
    host operations leave, it ends with them at the final valuation; the TensorCore, which owes nothing after its one
    call, stays in its state after the call. -/
theorem region_step [∀ e, Nonempty (Elt F e)] (κ : GSem nD τ sig → ℕ) (d : Dev nD) {Φ : PUnit → sProp 𝕄} :
    iprop((K (F := F)).ctx EH (P m Hf) κ ∗ (K (F := F)).tcSt EH d 1 ∗ G (F := F) d ∗ boundary (T d) ∗ held (T d) Sall (Vh m Hf d) ∗ prngReg d (ρ d)
        ∗ (((K (F := F)).tcSt EH d 1 ∗ boundary (T d) ∗ held (T d) Sall (Vfin m Hf d) ∗ prngReg d (ρ d)) -∗ Φ ⟨⟩))
      ⊢ wp frame (wpE ((K (F := F)).defs (D (F := F))) 𝒱 (SparseCore.T d) none) Set.univ
          (Prog.lift (.customCall (SparseCore.inner (Pipeline.entry 0)) ())) Φ := by
  unfold SparseCore.Cfg.tcSt
  rw [(K (F := F)).Otc_end d (le_refl 1)]
  iintro ⟨#Hctx, ⟨⟨%W, %hW, HO⟩, Hat, Hrd, Hrs, Htoks⟩, HG, Hb, Hheld, Hprng, Hk⟩
  ihave Hlev := (SparseCore.Cfg.ctx_levAts κ) $$ Hctx
  iapply (region_wp (F := F) d (Vh m Hf d) (ρ d) W) $$ [Hlev HO Hat Hrd Hrs Htoks HG Hb Hheld Hprng Hk]
  isplitl [Hlev]; · iexact Hlev
  isplitl [HG]; · iexact HG
  isplitl [Hb]; · iexact Hb
  isplitl [Hheld]; · iexact Hheld
  isplitl [Hprng]; · iexact Hprng
  isplitl [HO]; · iexact HO
  iintro ⟨Hb, Hheld, Hprng, %W', HO⟩
  iapply Hk
  isplitl [HO Hat Hrd Hrs Htoks]
  · isplitl [HO]
    · iexists W'; isplitr
      · ipureintro; exact wbelow_all _ _
      · iexact HO
    isplitl [Hat]; · iexact Hat
    isplitl [Hrd]; · iexact Hrd
    isplitl [Hrs]; · iexact Hrs
    iexact Htoks
  isplitl [Hb]; · iexact Hb
  isplitl [Hheld]; · iexact Hheld
  iexact Hprng

/-- @main on device `d`'s TensorCore: the counting call (the edge list and the table to the 32 tasks and back, the
    table at what the counting leaves), the four host operations over the eleven arrays held whole, the row pipeline. -/
theorem hmain [∀ e, Nonempty (Elt F e)] (κ : GSem nD τ sig → ℕ) (d : Dev nD) :
    iprop((K (F := F)).ctx EH (P m Hf) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m Hf d) := by
  unfold SparseCore.Cfg.tcRes
  rw [unscoped_held]
  simp only [main, wp_bind, wp_pure]
  iintro ⟨#Hctx, Hst, ⟨Hb, Hheld, -, Hprng⟩, HG⟩
  ihave Hh := (Entails.of_eq (held_V0 (F := F) m d)) $$ Hheld
  icases Hh with ⟨⟨He, Hh⟩, Hrest⟩
  -- the counting call
  iapply ((K (F := F)).wp_run (D (F := F)) 𝒱 (EH := EH) (P := P m Hf) κ d 0) $$ [Hst He Hh Hb Hrest Hprng HG]
  isplitr; · iexact Hctx
  isplitl [Hst]; · iexact Hst
  isplitl [He Hh]
  · iapply (st0_of m Hf d)
    isplitl [He]; · iexact He
    iexists _; iexact Hh
  iintro ⟨Hst, Hdn⟩
  ihave Hdn' := (dn0_to m Hf d) $$ Hdn
  icases Hdn' with ⟨He, Hh⟩
  ihave Hheld := (Entails.of_eq (held_V1 (F := F) m Hf d).symm) $$ [He Hh Hrest]
  · isplitl [He Hh]
    · isplitl [He]; · iexact He
      iexact Hh
    · iexact Hrest
  -- the factor `A` rounded
  iapply (wp_hlo_within 𝒱 (SparseCore.T d) none Set.univ (op := opA (F := F)) (S := Sall) hA (V := V1 m Hf d)) $$ [Hb Hheld]
  · isplitl [Hb]; · iexact Hb
    iexact Hheld
  iintro ⟨Hb, Hheld⟩
  rw [wp_ret]; imodintro
  -- the factor `B` rounded
  iapply (wp_hlo_within 𝒱 (SparseCore.T d) none Set.univ (op := opB (F := F)) (S := Sall) hB (V := (opA (F := F)).result (V1 m Hf d))) $$ [Hb Hheld]
  · isplitl [Hb]; · iexact Hb
    iexact Hheld
  iintro ⟨Hb, Hheld⟩
  rw [wp_ret]; imodintro
  -- the mask laid out anew
  iapply (wp_hlo_within 𝒱 (SparseCore.T d) none Set.univ (op := opR (F := F)) (S := Sall) hR
      (V := (opB (F := F)).result ((opA (F := F)).result (V1 m Hf d)))) $$ [Hb Hheld]
  · isplitl [Hb]; · iexact Hb
    iexact Hheld
  iintro ⟨Hb, Hheld⟩
  rw [wp_ret]; imodintro
  -- the mask widened
  iapply (wp_hlo_within 𝒱 (SparseCore.T d) none Set.univ (op := opX (F := F)) (S := Sall) hX
      (V := (opR (F := F)).result ((opB (F := F)).result ((opA (F := F)).result (V1 m Hf d))))) $$ [Hb Hheld]
  · isplitl [Hb]; · iexact Hb
    iexact Hheld
  iintro ⟨Hb, Hheld⟩
  rw [wp_ret]; imodintro
  -- the row pipeline
  iapply (region_step (F := F) m ρ Hf κ d) $$ [Hst HG Hb Hheld Hprng]
  isplitr; · iexact Hctx
  isplitl [Hst]; · iexact Hst
  isplitl [HG]; · iexact HG
  isplitl [Hb]; · iexact Hb
  isplitl [Hheld]; · iexact Hheld
  isplitl [Hprng]; · iexact Hprng
  iintro ⟨Hst, Hb, Hheld, Hprng⟩
  imodintro
  isplitl [Hst]; · iexact Hst
  iexact Hheld

/-! ## How the final memory reads the claim -/

/-- What the claim reads of device `d`'s final memory: the result array at the pipeline's value on what the host
    operations leave, the five arguments at their launch contents. -/
def fq (d : Dev nD) (s' : Phys nD τ sig (Elt F)) : Prop :=
  s'.mem.mem ((SparseCore.T d).loc main_v5) = outArr d (Vh m Hf d)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)

/-- Each of the eleven arrays, held whole, is what the memory holds. -/
theorem fin_at (d : Dev nD) (s' : Phys nD τ sig (Elt F)) (b : DevRef τ sig) (hb : b ∈ Sall) :
    iprop(FIN m Hf d ∗ SI s') ⊢ (⌜s'.mem.mem ((d, b) : Loc nD τ sig) = Vfin m Hf d b⌝ : sProp 𝕄) := by
  have hx : (FIN m Hf d : sProp 𝕄) ⊢ ((d, b) : Loc nD τ sig) ↦{fullShare} Vfin m Hf d b := by
    unfold FIN held; exact bigSep_elim hb
  iintro ⟨HF, HSI⟩
  ihave Hx := hx $$ HF
  ihave H := (SI_pointsTo_agree (st := s') (ℓ := ((d, b) : Loc nD τ sig)) (I := Finset.univ) (q := fullShare) (f := Vfin m Hf d b)) $$ [HSI Hx]
  · isplitl [HSI] <;> iassumption
  icases H with %hx
  ipureintro; exact funext fun i => hx i (Finset.mem_univ i)

theorem hfin (d : Dev nD) (s' : Phys nD τ sig (Elt F)) : iprop(FIN m Hf d ∗ SI s') ⊢ (⌜fq m Hf d s'⌝ : sProp 𝕄) :=
  Laws.pure_elim _ (fin_at m Hf d s' o' (by decide)) fun ho =>
  Laws.pure_elim _ (fin_at m Hf d s' x' (by decide)) fun hx =>
  Laws.pure_elim _ (fin_at m Hf d s' mk' (by decide)) fun hmk =>
  Laws.pure_elim _ (fin_at m Hf d s' e' (by decide)) fun he =>
  Laws.pure_elim _ (fin_at m Hf d s' A' (by decide)) fun hA =>
  Laws.pure_elim _ (fin_at m Hf d s' B' (by decide)) fun hB =>
  Laws.pure_intro ⟨ho.trans (Vfin_o m Hf d), hx.trans (Vfin_x m Hf d), hmk.trans (Vfin_mk m Hf d), he.trans (Vfin_e m Hf d),
    hA.trans (Vfin_A m Hf d), hB.trans (Vfin_B m Hf d)⟩

/-! ## The program's run -/

/-- The run's post: on every device the result array at the pipeline's value on what the host operations leave, the
    five arguments unchanged. -/
def QC : PUnit × MemSt nD τ sig (Elt F) → Prop := fun r => ∀ c : Dev nD,
  r.2.mem ((c.tc : Thread nD τ).loc main_v5) = outArr c (Vh m Hf c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- The mesh's threads run from the launch memory: from the tasks' proof and the split of a core's payload among its
    tasks, every weakly fair execution terminates, nothing faulting, in a memory that reads `QC`. -/
theorem run_main [∀ e, Nonempty (Elt F e)] (htile : (K (F := F)).TileObl (D (F := F)) 𝒱 (P m Hf) v₀ 0)
    (hvec : (K (F := F)).VecSplit' (P m Hf) 0) :
    θ_run (Cert.Kernel.defs (F := F)) (Cert.Kernel.threads (F := F)) ⟨m, fun _ => 0, ρ⟩ (QC m Hf) :=
  SparseCore.Cfg.θ_run_sc (K := K (F := F)) (D := D (F := F)) (𝒱 := 𝒱) (EH := EH) (P := P m Hf) facts v₀
    (fun q hq => match q with | 0 => nomatch hq)
    (fun q _ => match q with | 0 => htile)
    (fun q _ => match q with | 0 => SparseCore.Cfg.VecSplit.of_plain hvec)
    m ρ main (fun d => G (F := F) d) (FIN m Hf) (u₀ (F := F)) (sep_elim_left.trans (hu₀ m Hf)) (hmain m ρ Hf) (fq m Hf) (hfin m Hf) (QC m Hf) (fun _ h => h)

end Cert.Kernel.Run

end
-- ==== Proof.Bits.TaskA.lean ====
import proofs.«210447_g31353261261282_cont_9to1_114_24_alg».proof.Proof.Bits.Common
import Idealize.ShloMosaic.Lib.ValueIdx
import Idealize.ShloMosaic.Lib.Writes

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  The counting task: the table of counts as a function of the edge list, the pieces the task's buffers are held by,
  one counting step, and one trip of the zero loop.
-/

/-! ## The table of counts as a function of the edge list -/

/-- The sixteen lane numbers. -/
abbrev lanes : IVec S16 32 := iota .scVector S16 32 [0] iota_S16_d0_w32_scVector

/-- A vector of sixteen ids names rows of the table (and the lanes name columns). -/
def Chk (v : IVec S16 32) : Prop := ∀ a x, ((![v, lanes] : Fin 2 → IVec S16 32) a x).toNat < S64x128.size a

open Classical in
/-- One indexed add: one is added at entry (id of lane x, x) for each of the sixteen lanes. -/
def bump (f : Vec F S64x128 .f32) (v : IVec S16 32) : Vec F S64x128 .f32 :=
  if h : Chk v then storeIdx f ![v, lanes] (k0_pay2 (F := F)) (fun _ => 1#1) true h else f

/-- The sixteen words of chunk w of the edge list from position p of the chunk on. -/
def idsAt (e : IVec S1600000 32) (w : Fin 32) (p : ℕ) : IVec S16 32 :=
  fun x => e (ix1 ⟨(50000 * w.val + p + (x 0).val) % 1600000, Nat.mod_lt _ (by decide)⟩)

/-- Chunk w of the edge list as a function on the positions of the staging buffer. -/
def chunkFn (e : IVec S1600000 32) (w : Fin 32) : IVec S50000 32 :=
  fun j => e (ix1 ⟨(50000 * w.val + (j 0).val) % 1600000, Nat.mod_lt _ (by decide)⟩)

/-- The table of zeros. -/
def zeroTbl : Vec F S64x128 .f32 := fun _ => k0_pay1 (F := F) (ix1 0)

/-- The table after the first n vectors of chunk w have been counted. -/
def tbl (e : IVec S1600000 32) (w : Fin 32) : ℕ → Vec F S64x128 .f32
  | 0 => zeroTbl
  | n + 1 => bump (tbl e w n) (idsAt e w (16 * n))

variable (m : (ℓ : Loc nD τ sig) → Buf (Elt F) ℓ)

def PreOK : Prop := ∀ (d : Dev nD) (j : S1600000.Idx), (m (eLoc d) j).toNat < 64

/-- The table the 32 tasks leave: row w is the table of chunk w after all its 3125 vectors. -/
def histArr (d : Dev nD) : Buf (Elt F) (hLoc d) :=
  fun j => tbl (F := F) (m (eLoc d)) (j 0) 3125 (ix2 (j 1) (j 2))

omit [FloatOps F] in
theorem lanes_val (x : S16.Idx) : (lanes x).toNat = (x 0).val := by
  show (BitVec.ofNat 32 (0 * S16.size 0 + (x 0).val)).toNat = _
  have := (x 0).isLt
  have h16 : (x 0).val < 16 := this
  simp only [BitVec.toNat_ofNat]
  show (0 * 16 + (x 0).val) % 2 ^ 32 = _
  omega

omit [FloatOps F] in
/-- Under the precondition every vector of ids passes the range check. -/
theorem chk_idsAt {e : IVec S1600000 32} (he : ∀ j, (e j).toNat < 64) (w : Fin 32) (p : ℕ) : Chk (idsAt e w p) := by
  intro a x
  match a with
  | ⟨0, _⟩ => exact he _
  | ⟨1, _⟩ =>
    show (lanes x).toNat < 128
    rw [lanes_val]; have : (x 0).val < 16 := (x 0).isLt; omega

/-! ## The task, at a symbolic vector subcore -/

section Tile

variable (d : Dev nD) (L : grid0.Coords)

abbrev cV (L : grid0.Coords) : Fin τ.nSC := (L 0).castLE hcore0
abbrev jV (L : grid0.Coords) : Fin τ.nSub := (L 1).castLE hsub0
/-- The chunk and row of the task at grid coordinates L. -/
abbrev wL (L : grid0.Coords) : Fin 32 := wid (L 0).val (L 1).val

/-- The two scratch buffers as the kernel names them: the staged chunk and the table. -/
abbrev sE : Memref sig .scVector .vmem S50000 .i32 := Memref.whole cc0_scratch0
abbrev sH : Memref sig .scVector .vmem S64x128 .f32 := Memref.whole cc0_scratch1

abbrev cell (d : Dev nD) (L : grid0.Coords) (s : DmaSems sig S_) : GSem nD τ sig := (V d (cV L) (jV L), .dma s.sem)

omit [FloatOps F] in
theorem cell_mem' (s : DmaSems sig S_) (h : (SemLoc.dma s.sem : SemLoc sig).isScoped .scVector = true) :
    cell d L s ∈ ownCells (V d (cV L) (jV L)) := mem_ownCells.mpr ⟨rfl, h⟩
omit [FloatOps F] in
theorem cell_ne (s s' : DmaSems sig S_) (h : (SemLoc.dma s.sem : SemLoc sig) ≠ SemLoc.dma s'.sem) : cell d L s ≠ cell d L s' :=
  fun e => h (congrArg Prod.snd e)

macro "cell_mem" : tactic => `(tactic|
  repeat' first
    | exact cell_mem' _ _ _ (by decide)
    | refine Finset.mem_erase.mpr ⟨cell_ne _ _ _ _ (by decide), ?_⟩)

omit [FloatOps F] in
theorem ownSems0_V :
    (ownSems0 (V d (cV L) (jV L)) : sProp 𝕄)
      = iprop(semVal (cell d L cc0_scratch2) 0 ∗ semVal (cell d L cc0_scratch3) 0 ∗ semVal (cell d L cc0_scratch4) 0
          ∗ semVal (cell d L cc0_scratch5) 0 ∗ semVal (cell d L cc0_scratch6) 0 ∗ semVal (cell d L cc0_scoped0) 0
          ∗ bigSep ((((((((ownCells (V d (cV L) (jV L))).erase (cell d L cc0_scratch2)).erase (cell d L cc0_scratch3)).erase (cell d L cc0_scratch4)).erase
              (cell d L cc0_scratch5)).erase (cell d L cc0_scratch6)).erase (cell d L cc0_scoped0)))
              fun g => semVal g 0) := by
  unfold SparseCore.Cfg.ownSems0
  rw [SparseCore.bigSep_erase' (i := cell d L cc0_scratch2) (by cell_mem),
    SparseCore.bigSep_erase' (i := cell d L cc0_scratch3) (by cell_mem),
    SparseCore.bigSep_erase' (i := cell d L cc0_scratch4) (by cell_mem),
    SparseCore.bigSep_erase' (i := cell d L cc0_scratch5) (by cell_mem),
    SparseCore.bigSep_erase' (i := cell d L cc0_scratch6) (by cell_mem),
    SparseCore.bigSep_erase' (i := cell d L cc0_scoped0) (by cell_mem)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_sE (f : Buf (Elt F) ((V d (cV L) (jV L)).loc cc0_scratch0)) :
    ((sE : Memref sig .scVector .vmem S50000 .i32).view.loc (V d (cV L) (jV L)) ↦{fullShare} f : sProp 𝕄) = (V d (cV L) (jV L)).loc cc0_scratch0 ↦{fullShare} f := rfl
omit [FloatOps F] in
theorem pts_sH (f : Buf (Elt F) ((V d (cV L) (jV L)).loc cc0_scratch1)) :
    ((sH : Memref sig .scVector .vmem S64x128 .f32).view.loc (V d (cV L) (jV L)) ↦{fullShare} f : sProp 𝕄) = (V d (cV L) (jV L)).loc cc0_scratch1 ↦{fullShare} f := rfl

/-- The five pieces of the chunk as the kernel slices them off the edge list: piece k at 50000 w + 10000 k. -/
abbrev srcAt (o : BitVec 32) (h : ∀ a, k0_off1 L o a + S10000.size a ≤ S1600000.size a) : Memref sig .scVector .hbm S10000 .i32 :=
  (eV).slice (Rect.unit (s := S1600000) (k0_off1 L o) S10000.size h) (fun _ => rfl)
abbrev src0 : Memref sig .scVector .hbm S10000 .i32 := srcAt L 0#32 (k0_off1_inb L 0)
abbrev src1 : Memref sig .scVector .hbm S10000 .i32 := srcAt L 10000#32 (k0_off1_inb L 1)
abbrev src2 : Memref sig .scVector .hbm S10000 .i32 := srcAt L 20000#32 (k0_off1_inb L 2)
abbrev src3 : Memref sig .scVector .hbm S10000 .i32 := srcAt L 30000#32 (k0_off1_inb L 3)
abbrev src4 : Memref sig .scVector .hbm S10000 .i32 := srcAt L 40000#32 (k0_off1_inb L 4)

abbrev srcPts (o : BitVec 32) (h : ∀ a, k0_off1 L o a + S10000.size a ≤ S1600000.size a) : sProp 𝕄 :=
  (srcAt L o h).view.loc (V d (cV L) (jV L)) ↦[(srcAt L o h).view.set]{fullShare} m (eLoc d)

/-- Row w of the table as the kernel slices it off the table of partial counts. -/
abbrev dstM : Memref sig .scVector .hbm S64x128 .f32 :=
  ((hV).slice (Rect.unit (s := S32x64x128) (k0_off136 L) S1x64x128.size (k0_off136_inb L)) (fun _ => rfl)).squeeze S64x128 squeezes_S1x64x128_S64x128

/-- The five windows of the staging buffer the pieces land in. -/
abbrev dstAt (c : ℕ) (h : ∀ a, (![c] : Fin 1 → ℕ) a + S10000.size a ≤ S50000.size a) : Memref sig .scVector .vmem S10000 .i32 :=
  (sE).slice (Rect.unit (s := S50000) ![c] S10000.size h) (fun _ => rfl)
abbrev dstPts (c : ℕ) (h : ∀ a, (![c] : Fin 1 → ℕ) a + S10000.size a ≤ S50000.size a) (f : Buf (Elt F) ((V d (cV L) (jV L)).loc cc0_scratch0)) : sProp 𝕄 :=
  (dstAt c h).view.loc (V d (cV L) (jV L)) ↦[(dstAt c h).view.set]{fullShare} f

/-! ## Intervals of a flat array -/

omit [FloatOps F] in
theorem mem_srcAt (o : BitVec 32) (h : ∀ a, k0_off1 L o a + S10000.size a ≤ S1600000.size a) (j : S1600000.Idx) :
    j ∈ (srcAt L o h).view.set ↔ k0_off1 L o 0 ≤ (j 0).val ∧ (j 0).val < k0_off1 L o 0 + 10000 := by
  show j ∈ ((View.whole (main_arg2_scv : Ref sig .scVector)).slice (Rect.unit (s := S1600000) (k0_off1 L o) S10000.size h)).set ↔ _
  rw [View.set_slice_whole, Rect.mem_set_unit]
  exact Fin.forall_fin_one

omit [FloatOps F] in
theorem mem_dstAt (c : ℕ) (h : ∀ a, (![c] : Fin 1 → ℕ) a + S10000.size a ≤ S50000.size a) (j : S50000.Idx) :
    j ∈ (dstAt c h).view.set ↔ c ≤ (j 0).val ∧ (j 0).val < c + 10000 := by
  show j ∈ ((View.whole (cc0_scratch0 : Ref sig .scVector)).slice (Rect.unit (s := S50000) ![c] S10000.size h)).set ↔ _
  rw [View.set_slice_whole, Rect.mem_set_unit]
  exact Fin.forall_fin_one

omit [FloatOps F] in
theorem mem_eSet (w : Fin 32) (j : S1600000.Idx) : j ∈ eSet w ↔ 50000 * w.val ≤ (j 0).val ∧ (j 0).val < 50000 * w.val + 50000 := by
  show j ∈ ((View.whole (main_arg2_scv : Ref sig .scVector)).slice (eChunk w)).set ↔ _
  rw [View.set_slice_whole]
  unfold eChunk Rect.part Rect.block
  rw [Rect.mem_set_unit]
  refine Fin.forall_fin_one.trans ?_
  simp [Shape.partIx, Shape.partSize]
  omega

omit [FloatOps F] in
theorem off1_val (r : Fin 5) : k0_off1 L (BitVec.ofNat 32 (10000 * r.val)) 0 = 50000 * (wL L).val + 10000 * r.val := by
  rw [k0_off1_eq L r]
  have h0 : (L 0).val < 2 := (L 0).isLt
  have h1 : (L 1).val < 16 := (L 1).isLt
  show 100000 * (L 1).val + 50000 * (L 0).val + 10000 * r.val = 50000 * (wid (L 0).val (L 1).val).val + 10000 * r.val
  rw [wid_val h0 h1]; omega

section Five
variable {ℓ : Loc nD τ sig} {A B0 B1 B2 B3 B4 : Finset (Idx ℓ)} {q : PosShare TreeShare} {f : Buf (Elt F) ℓ}

omit [FloatOps F] in
/-- A points-to on a union of five pairwise disjoint sets is the five points-tos. -/
theorem pts_split5 (hA : A = B0 ∪ (B1 ∪ (B2 ∪ (B3 ∪ B4))))
    (h0 : Disjoint B0 (B1 ∪ (B2 ∪ (B3 ∪ B4)))) (h1 : Disjoint B1 (B2 ∪ (B3 ∪ B4))) (h2 : Disjoint B2 (B3 ∪ B4)) (h3 : Disjoint B3 B4) :
    (ℓ ↦[A]{q} f : sProp 𝕄) = iprop((ℓ ↦[B0]{q} f) ∗ (ℓ ↦[B1]{q} f) ∗ (ℓ ↦[B2]{q} f) ∗ (ℓ ↦[B3]{q} f) ∗ (ℓ ↦[B4]{q} f)) := by
  subst hA
  have e0 : (ℓ ↦[B0 ∪ (B1 ∪ (B2 ∪ (B3 ∪ B4)))]{q} f : sProp 𝕄) ⊣⊢ iprop((ℓ ↦[B0]{q} f) ∗ ℓ ↦[B1 ∪ (B2 ∪ (B3 ∪ B4))]{q} f) := pointsTo_union h0
  have e1 : (ℓ ↦[B1 ∪ (B2 ∪ (B3 ∪ B4))]{q} f : sProp 𝕄) ⊣⊢ iprop((ℓ ↦[B1]{q} f) ∗ ℓ ↦[B2 ∪ (B3 ∪ B4)]{q} f) := pointsTo_union h1
  have e2 : (ℓ ↦[B2 ∪ (B3 ∪ B4)]{q} f : sProp 𝕄) ⊣⊢ iprop((ℓ ↦[B2]{q} f) ∗ ℓ ↦[B3 ∪ B4]{q} f) := pointsTo_union h2
  have e3 : (ℓ ↦[B3 ∪ B4]{q} f : sProp 𝕄) ⊣⊢ iprop((ℓ ↦[B3]{q} f) ∗ ℓ ↦[B4]{q} f) := pointsTo_union h3
  rw [BI.equiv_iff.mp ⟨e0.1, e0.2⟩, BI.equiv_iff.mp ⟨e1.1, e1.2⟩, BI.equiv_iff.mp ⟨e2.1, e2.2⟩, BI.equiv_iff.mp ⟨e3.1, e3.2⟩]

omit [FloatOps F] in
/-- The same for five consecutive intervals of a key. -/
theorem pts_split5_key (key : Idx ℓ → ℕ) (a b : ℕ)
    (hA : ∀ j, j ∈ A ↔ a ≤ key j ∧ key j < a + 5 * b)
    (h0 : ∀ j, j ∈ B0 ↔ a ≤ key j ∧ key j < a + b)
    (h1 : ∀ j, j ∈ B1 ↔ a + b ≤ key j ∧ key j < a + b + b)
    (h2 : ∀ j, j ∈ B2 ↔ a + 2 * b ≤ key j ∧ key j < a + 2 * b + b)
    (h3 : ∀ j, j ∈ B3 ↔ a + 3 * b ≤ key j ∧ key j < a + 3 * b + b)
    (h4 : ∀ j, j ∈ B4 ↔ a + 4 * b ≤ key j ∧ key j < a + 4 * b + b) :
    (ℓ ↦[A]{q} f : sProp 𝕄) = iprop((ℓ ↦[B0]{q} f) ∗ (ℓ ↦[B1]{q} f) ∗ (ℓ ↦[B2]{q} f) ∗ (ℓ ↦[B3]{q} f) ∗ (ℓ ↦[B4]{q} f)) := by
  refine pts_split5 ?_ ?_ ?_ ?_ ?_
  · ext j
    simp only [Finset.mem_union, hA, h0, h1, h2, h3, h4]
    omega
  all_goals
    refine Finset.disjoint_left.mpr fun j ha hb => ?_
    simp only [Finset.mem_union, h0, h1, h2, h3, h4] at ha hb
    omega
end Five

omit [FloatOps F] in
theorem chunk_split :
    (eChunkPts m d (wL L) : sProp 𝕄) = iprop(srcPts m d L 0#32 (k0_off1_inb L 0) ∗ srcPts m d L 10000#32 (k0_off1_inb L 1) ∗ srcPts m d L 20000#32 (k0_off1_inb L 2)
        ∗ srcPts m d L 30000#32 (k0_off1_inb L 3) ∗ srcPts m d L 40000#32 (k0_off1_inb L 4)) := by
  have o0 : k0_off1 L 0#32 0 = 50000 * (wL L).val + 10000 * 0 := off1_val L 0
  have o1 : k0_off1 L 10000#32 0 = 50000 * (wL L).val + 10000 * 1 := off1_val L 1
  have o2 : k0_off1 L 20000#32 0 = 50000 * (wL L).val + 10000 * 2 := off1_val L 2
  have o3 : k0_off1 L 30000#32 0 = 50000 * (wL L).val + 10000 * 3 := off1_val L 3
  have o4 : k0_off1 L 40000#32 0 = 50000 * (wL L).val + 10000 * 4 := off1_val L 4
  refine pts_split5_key (ℓ := eLoc d) (fun j => (j 0).val) (50000 * (wL L).val) 10000
    (fun j => (mem_eSet (wL L) j).trans (by omega))
    (fun j => (mem_srcAt L _ _ j).trans (by rw [o0] <;> omega))
    (fun j => (mem_srcAt L _ _ j).trans (by rw [o1] <;> omega))
    (fun j => (mem_srcAt L _ _ j).trans (by rw [o2] <;> omega))
    (fun j => (mem_srcAt L _ _ j).trans (by rw [o3] <;> omega))
    (fun j => (mem_srcAt L _ _ j).trans (by rw [o4] <;> omega))

omit [FloatOps F] in
theorem stage_split (f : Buf (Elt F) ((V d (cV L) (jV L)).loc cc0_scratch0)) :
    ((V d (cV L) (jV L)).loc cc0_scratch0 ↦{fullShare} f : sProp 𝕄) = iprop(dstPts d L 0 inb_S50000_S10000_0 f ∗ dstPts d L 10000 inb_S50000_S10000_10000 f
      ∗ dstPts d L 20000 inb_S50000_S10000_20000 f ∗ dstPts d L 30000 inb_S50000_S10000_30000 f ∗ dstPts d L 40000 inb_S50000_S10000_40000 f) := by
  refine pts_split5_key (ℓ := (V d (cV L) (jV L)).loc cc0_scratch0) (fun j => (j 0).val) 0 10000
    (fun j => ⟨fun _ => ⟨Nat.zero_le _, (show (j 0).val < 50000 from (j 0).isLt).trans_le (by omega)⟩, fun _ => Finset.mem_univ _⟩)
    (fun j => (mem_dstAt _ _ j).trans (by omega))
    (fun j => (mem_dstAt _ _ j).trans (by omega))
    (fun j => (mem_dstAt _ _ j).trans (by omega))
    (fun j => (mem_dstAt _ _ j).trans (by omega))
    (fun j => (mem_dstAt _ _ j).trans (by omega))

/-! ## The task's row of the table of partial counts -/

omit [FloatOps F] in
theorem rowK_eq : Rect.unit (s := S32x64x128) (k0_off136 L) S1x64x128.size (k0_off136_inb L) = hRow (wL L) := by
  have h0 : (L 0).val < 2 := (L 0).isLt
  have h1 : (L 1).val < 16 := (L 1).isLt
  have hw : (wL L).val = 2 * (L 1).val + (L 0).val := wid_val h0 h1
  unfold hRow Rect.part Rect.block
  congr 1 <;> funext a
  · rw [k0_off136_eq]
    match a with
    | 0 => simp [Shape.partIx, Shape.partSize, hw]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_dstM : (dstM L).view.set = hSet (wL L) := by
  show (((hV : Memref sig .scVector .hbm S32x64x128 .f32).view.slice (Rect.unit (s := S32x64x128) (k0_off136 L) S1x64x128.size (k0_off136_inb L))).reshape S64x128
      squeezes_S1x64x128_S64x128.numel_eq).set = ((hV : Memref sig .scVector .hbm S32x64x128 .f32).view.slice (hRow (wL L))).set
  rw [View.set_reshape]
  exact rowK_eq L ▸ rfl

omit [FloatOps F] in
theorem pts_dstM (f : Buf (Elt F) (hLoc d)) :
    ((dstM L).view.loc (V d (cV L) (jV L)) ↦[(dstM L).view.set]{fullShare} f : sProp 𝕄) = hLoc d ↦[hSet (wL L)]{fullShare} f := by
  rw [set_dstM]

/-! ## One counting step -/

omit [FloatOps F] in
/-- Sixteen words read off the staged chunk at position p are the chunk's words from p on. -/
theorem read_chunk (e : IVec S1600000 32) (w : Fin 32) {off : Fin 1 → ℕ} (inb : ∀ a, off a + S16.size a ≤ S50000.size a) :
    (sE : Memref sig .scVector .vmem S50000 .i32).view.readAt (Elt F) (Rect.unit (s := S50000) off S16.size inb).toLoadRect (chunkFn e w)
      = idsAt e w (off 0) := by
  funext x
  show chunkFn e w ((Rect.unit (s := S50000) off S16.size inb).toLoadRect.idx x) = idsAt e w (off 0) x
  unfold chunkFn idsAt
  refine congrArg e (congrArg ix1 (Fin.ext ?_))
  show (50000 * w.val + (off 0 + 1 * (x 0).val)) % 1600000 = (50000 * w.val + off 0 + (x 0).val) % 1600000
  rw [Nat.one_mul, Nat.add_assoc]

theorem wp_site (hpre : PreOK m) {c : ℕ} {hc : ∀ a, (![c] : Fin 1 → ℕ) a + S10000.size a ≤ S50000.size a} {n : ℕ}
    {off : Fin 1 → ℕ} {inb : ∀ a, off a + S16.size a ≤ S50000.size a}
    {hl : (sE : Memref sig .scVector .vmem S50000 .i32).view.LoadsAt (Rect.unit (s := S50000) off S16.size inb).toLoadRect}
    {dec : ∀ v, Decidable (Chk v)} {hs : ((sH : Memref sig .scVector .vmem S64x128 .f32).access (.whole S64x128)).Stores Finset.univ}
    {α : Type} {k : PUnit → Prog (TpuEff nD τ sig (Elt F) Λ₀ (.scVector (cV L) (jV L))) α} {Q : α → sProp 𝕄}
    (hoff : off 0 = 16 * n) (hlo : c ≤ 16 * n) (hhi : 16 * n + 16 ≤ c + 10000) :
    iprop(dstPts d L c hc (chunkFn (m (eLoc d)) (wL L))
        ∗ ((sH : Memref sig .scVector .vmem S64x128 .f32).view.loc (V d (cV L) (jV L)) ↦{fullShare} tbl (F := F) (m (eLoc d)) (wL L) n))
      ⊢ iprop(((dstPts d L c hc (chunkFn (m (eLoc d)) (wL L))
          ∗ ((sH : Memref sig .scVector .vmem S64x128 .f32).view.loc (V d (cV L) (jV L)) ↦{fullShare} tbl (F := F) (m (eLoc d)) (wL L) (n + 1)))
            -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.load sE (Rect.unit (s := S50000) off S16.size inb).toLoadRect hl) fun (v : IVec S16 32) =>
            .op (.assume (Chk v) (dec v)) fun hw =>
              SparseCore.vectorStoreIdx sH ![v, lanes] (k0_pay2 (F := F)) (fun _ => 1#1) true hw.down hs >>= k) Q) := by
  have hv := read_chunk (F := F) (m (eLoc d)) (wL L) inb
  have hchk : Chk (idsAt (m (eLoc d)) (wL L) (off 0)) := chk_idsAt (hpre d) (wL L) (off 0)
  iintro ⟨HE, HT⟩ Hk
  iapply (wp_load 𝒱₀ (V d (cV L) (jV L)) none Set.univ (m := (sE : Memref sig .scVector .vmem S50000 .i32)) (S := (dstAt c hc).view.set) ?hS) $$ HE
  case hS =>
    intro j hj
    obtain ⟨x, hx, rfl⟩ := Finset.mem_map.mp hj
    refine (mem_dstAt c hc _).2 ?_
    have hx' : off 0 ≤ (x 0).val ∧ (x 0).val < off 0 + 16 := (Rect.mem_set_unit.mp hx) 0
    show c ≤ (x 0).val ∧ (x 0).val < c + 10000
    omega
  iintro HE
  rw [hv, wp_assume_of _ _ _ _ hchk]
  ihave HT' := (Entails.of_eq (show (((sH : Memref sig .scVector .vmem S64x128 .f32).view.loc (V d (cV L) (jV L)) ↦{fullShare} tbl (F := F) (m (eLoc d)) (wL L) n : sProp 𝕄))
      = (((sH : Memref sig .scVector .vmem S64x128 .f32).access (.whole S64x128)).loc (V d (cV L) (jV L)) ↦[((sH : Memref sig .scVector .vmem S64x128 .f32).access (.whole S64x128)).set]{fullShare} tbl (F := F) (m (eLoc d)) (wL L) n) from by
        rw [show ((sH : Memref sig .scVector .vmem S64x128 .f32).access (.whole S64x128)).set = Finset.univ from Memref.set_access_whole (cc0_scratch1 : Ref sig .scVector)])) $$ HT
  iapply (SparseCore.wp_vectorStoreIdx 𝒱₀ (V d (cV L) (jV L)) none Set.univ (base := (sH : Memref sig .scVector .vmem S64x128 .f32))) $$ HT'; iintro HT
  iapply Hk
  isplitl [HE]; · iexact HE
  iapply (Entails.of_eq ?_) $$ HT
  rw [show ((sH : Memref sig .scVector .vmem S64x128 .f32).access (.whole S64x128)).set = Finset.univ from Memref.set_access_whole (cc0_scratch1 : Ref sig .scVector)]
  rw [show ((sH : Memref sig .scVector .vmem S64x128 .f32).access (.whole S64x128)).read (Elt F) (tbl (F := F) (m (eLoc d)) (wL L) n) = tbl (F := F) (m (eLoc d)) (wL L) n from Memref.read_access_whole (Elt F) (cc0_scratch1 : Ref sig .scVector) _]
  rw [show ∀ g, ((sH : Memref sig .scVector .vmem S64x128 .f32).access (.whole S64x128)).write (Elt F) (tbl (F := F) (m (eLoc d)) (wL L) n) g Finset.univ = g from
    fun g => Memref.write_access_whole_univ (Elt F) (cc0_scratch1 : Ref sig .scVector) _ g]
  have : tbl (F := F) (m (eLoc d)) (wL L) (n + 1) = storeIdx (tbl (F := F) (m (eLoc d)) (wL L) n) ![idsAt (m (eLoc d)) (wL L) (off 0), lanes] (k0_pay2 (F := F)) (fun _ => 1#1) true hchk := by
    show bump _ _ = _
    rw [← hoff]; exact dif_pos hchk
  rw [this]

/-! ## The zero loop -/

/-- The eight sixteen-word pieces one trip of the zero loop stores, the last first. -/
def zlist (k : Fin k0_t1_loop.trips) : List (View.Piece (Elt F) S64x128 .f32) :=
      [⟨Rect.unit (s := S64x128) (k0_off9 k) S1x16.size (k0_off9_inb k), shapeCast S1x16 (k0_pay1 (F := F)) shapeCasts_S16_S1x16⟩,
        ⟨Rect.unit (s := S64x128) (k0_off8 k) S1x16.size (k0_off8_inb k), shapeCast S1x16 (k0_pay1 (F := F)) shapeCasts_S16_S1x16⟩,
        ⟨Rect.unit (s := S64x128) (k0_off7 k) S1x16.size (k0_off7_inb k), shapeCast S1x16 (k0_pay1 (F := F)) shapeCasts_S16_S1x16⟩,
        ⟨Rect.unit (s := S64x128) (k0_off6 k) S1x16.size (k0_off6_inb k), shapeCast S1x16 (k0_pay1 (F := F)) shapeCasts_S16_S1x16⟩,
        ⟨Rect.unit (s := S64x128) (k0_off5 k) S1x16.size (k0_off5_inb k), shapeCast S1x16 (k0_pay1 (F := F)) shapeCasts_S16_S1x16⟩,
        ⟨Rect.unit (s := S64x128) (k0_off4 k) S1x16.size (k0_off4_inb k), shapeCast S1x16 (k0_pay1 (F := F)) shapeCasts_S16_S1x16⟩,
        ⟨Rect.unit (s := S64x128) (k0_off3 k) S1x16.size (k0_off3_inb k), shapeCast S1x16 (k0_pay1 (F := F)) shapeCasts_S16_S1x16⟩,
        ⟨Rect.unit (s := S64x128) (k0_off2 k) S1x16.size (k0_off2_inb k), shapeCast S1x16 (k0_pay1 (F := F)) shapeCasts_S16_S1x16⟩]

/-- One trip of the zero loop leaves zeros in row k and keeps the rows above. -/
theorem zero_trip (k : Fin k0_t1_loop.trips) (f : Vec F S64x128 .f32) (hf : ∀ j : S64x128.Idx, (j 0).val < k.val → f j = zeroTbl (F := F) j)
    (j : S64x128.Idx) (hj : (j 0).val < k.val + 1) :
    (sH : Memref sig .scVector .vmem S64x128 .f32).view.writes (Elt F) f (zlist (F := F) k) j = zeroTbl (F := F) j := by
  have key : ∀ (off : Fin 2 → ℕ) (inb : ∀ a, off a + S1x16.size a ≤ S64x128.size a) (c : ℕ), off = ![k.val, c] →
      (j ∈ (Rect.unit (s := S64x128) off S1x16.size inb).set ↔ (j 0).val = k.val ∧ c ≤ (j 1).val ∧ (j 1).val < c + 16) := by
    intro off inb c h; subst h; rw [Rect.mem_set_unit]; refine Fin.forall_fin_two.trans ?_
    show (k.val ≤ (j 0).val ∧ (j 0).val < k.val + 1) ∧ (c ≤ (j 1).val ∧ (j 1).val < c + 16) ↔ _
    omega
  refine (show (sH : Memref sig .scVector .vmem S64x128 .f32).view.read (Elt F) ((sH : Memref sig .scVector .vmem S64x128 .f32).view.writes (Elt F) f (zlist (F := F) k)) j = _ from ?_)
  by_cases hk : (j 0).val = k.val
  · have h1 : (j 1).val < 128 := (j 1).isLt
    refine View.read_writes_apply_of_pieces (sH : Memref sig .scVector .vmem S64x128 .f32).view f (zeroTbl (F := F)) (zlist (F := F) k) ?_ j ?_
    · intro p hp x
      simp only [zlist, List.mem_cons, List.mem_nil_iff, _root_.or_false] at hp
      rcases hp with rfl | rfl | rfl | rfl | rfl | rfl | rfl | rfl <;> rfl
    · unfold zlist
      rcases (by omega : (j 1).val < 16 ∨ (16 ≤ (j 1).val ∧ (j 1).val < 32) ∨ (32 ≤ (j 1).val ∧ (j 1).val < 48) ∨ (48 ≤ (j 1).val ∧ (j 1).val < 64)
          ∨ (64 ≤ (j 1).val ∧ (j 1).val < 80) ∨ (80 ≤ (j 1).val ∧ (j 1).val < 96) ∨ (96 ≤ (j 1).val ∧ (j 1).val < 112) ∨ (112 ≤ (j 1).val)) with h | h | h | h | h | h | h | h
      · exact ⟨⟨Rect.unit (s := S64x128) (k0_off2 k) S1x16.size (k0_off2_inb k), shapeCast S1x16 (k0_pay1 (F := F)) shapeCasts_S16_S1x16⟩,
          (by repeat' (first | exact List.mem_cons_self | refine List.mem_cons_of_mem _ ?_)),
          (key (k0_off2 k) (k0_off2_inb k) 0 (k0_off2_eq k)).2 ⟨hk, by omega, by omega⟩⟩
      · exact ⟨⟨Rect.unit (s := S64x128) (k0_off3 k) S1x16.size (k0_off3_inb k), shapeCast S1x16 (k0_pay1 (F := F)) shapeCasts_S16_S1x16⟩,
          (by repeat' (first | exact List.mem_cons_self | refine List.mem_cons_of_mem _ ?_)),
          (key (k0_off3 k) (k0_off3_inb k) 16 (k0_off3_eq k)).2 ⟨hk, by omega, by omega⟩⟩
      · exact ⟨⟨Rect.unit (s := S64x128) (k0_off4 k) S1x16.size (k0_off4_inb k), shapeCast S1x16 (k0_pay1 (F := F)) shapeCasts_S16_S1x16⟩,
          (by repeat' (first | exact List.mem_cons_self | refine List.mem_cons_of_mem _ ?_)),
          (key (k0_off4 k) (k0_off4_inb k) 32 (k0_off4_eq k)).2 ⟨hk, by omega, by omega⟩⟩
      · exact ⟨⟨Rect.unit (s := S64x128) (k0_off5 k) S1x16.size (k0_off5_inb k), shapeCast S1x16 (k0_pay1 (F := F)) shapeCasts_S16_S1x16⟩,
          (by repeat' (first | exact List.mem_cons_self | refine List.mem_cons_of_mem _ ?_)),
          (key (k0_off5 k) (k0_off5_inb k) 48 (k0_off5_eq k)).2 ⟨hk, by omega, by omega⟩⟩
      · exact ⟨⟨Rect.unit (s := S64x128) (k0_off6 k) S1x16.size (k0_off6_inb k), shapeCast S1x16 (k0_pay1 (F := F)) shapeCasts_S16_S1x16⟩,
          (by repeat' (first | exact List.mem_cons_self | refine List.mem_cons_of_mem _ ?_)),
          (key (k0_off6 k) (k0_off6_inb k) 64 (k0_off6_eq k)).2 ⟨hk, by omega, by omega⟩⟩
      · exact ⟨⟨Rect.unit (s := S64x128) (k0_off7 k) S1x16.size (k0_off7_inb k), shapeCast S1x16 (k0_pay1 (F := F)) shapeCasts_S16_S1x16⟩,
          (by repeat' (first | exact List.mem_cons_self | refine List.mem_cons_of_mem _ ?_)),
          (key (k0_off7 k) (k0_off7_inb k) 80 (k0_off7_eq k)).2 ⟨hk, by omega, by omega⟩⟩
      · exact ⟨⟨Rect.unit (s := S64x128) (k0_off8 k) S1x16.size (k0_off8_inb k), shapeCast S1x16 (k0_pay1 (F := F)) shapeCasts_S16_S1x16⟩,
          (by repeat' (first | exact List.mem_cons_self | refine List.mem_cons_of_mem _ ?_)),
          (key (k0_off8 k) (k0_off8_inb k) 96 (k0_off8_eq k)).2 ⟨hk, by omega, by omega⟩⟩
      · exact ⟨⟨Rect.unit (s := S64x128) (k0_off9 k) S1x16.size (k0_off9_inb k), shapeCast S1x16 (k0_pay1 (F := F)) shapeCasts_S16_S1x16⟩,
          (by repeat' (first | exact List.mem_cons_self | refine List.mem_cons_of_mem _ ?_)),
          (key (k0_off9 k) (k0_off9_inb k) 112 (k0_off9_eq k)).2 ⟨hk, by omega, by omega⟩⟩
  · refine (View.read_writes_apply_of_forall_not_mem (sH : Memref sig .scVector .vmem S64x128 .f32).view f j (zlist (F := F) k) ?_).trans (hf j (by omega))
    intro p hp hmem
    simp only [zlist, List.mem_cons, List.mem_nil_iff, _root_.or_false] at hp
    rcases hp with rfl | rfl | rfl | rfl | rfl | rfl | rfl | rfl
    · exact hk ((key (k0_off9 k) (k0_off9_inb k) 112 (k0_off9_eq k)).1 hmem).1
    · exact hk ((key (k0_off8 k) (k0_off8_inb k) 96 (k0_off8_eq k)).1 hmem).1
    · exact hk ((key (k0_off7 k) (k0_off7_inb k) 80 (k0_off7_eq k)).1 hmem).1
    · exact hk ((key (k0_off6 k) (k0_off6_inb k) 64 (k0_off6_eq k)).1 hmem).1
    · exact hk ((key (k0_off5 k) (k0_off5_inb k) 48 (k0_off5_eq k)).1 hmem).1
    · exact hk ((key (k0_off4 k) (k0_off4_inb k) 32 (k0_off4_eq k)).1 hmem).1
    · exact hk ((key (k0_off3 k) (k0_off3_inb k) 16 (k0_off3_eq k)).1 hmem).1
    · exact hk ((key (k0_off2 k) (k0_off2_inb k) 0 (k0_off2_eq k)).1 hmem).1

/-- The zero loop's invariant: the rows before the trip are zero. -/
def zinv (k : Nat) (_ : PUnit) : sProp 𝕄 :=
  iprop(∃ f : Vec F S64x128 .f32, ((sH : Memref sig .scVector .vmem S64x128 .f32).view.loc (V d (cV L) (jV L)) ↦{fullShare} f)
    ∗ ⌜∀ j : S64x128.Idx, (j 0).val < k → f j = zeroTbl (F := F) j⌝)

/-! ## The counting loops -/

/-- A counting loop's invariant: the window of the staging buffer holds its piece of the chunk, the table is the table
    after the vectors counted so far. -/
def sinv (c : ℕ) (hc : ∀ a, (![c] : Fin 1 → ℕ) a + S10000.size a ≤ S50000.size a) (n0 : ℕ) (t : ℕ) (_ : PUnit) : sProp 𝕄 :=
  iprop(dstPts d L c hc (chunkFn (m (eLoc d)) (wL L))
    ∗ ((sH : Memref sig .scVector .vmem S64x128 .f32).view.loc (V d (cV L) (jV L)) ↦{fullShare} tbl (F := F) (m (eLoc d)) (wL L) (n0 + 25 * t)))

end Tile

end Cert.Kernel.Run

end
-- ==== Proof.Bits.TaskB0.lean ====
import proofs.«210447_g31353261261282_cont_9to1_114_24_alg».proof.Proof.Bits.TaskA

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 0 of the task: twenty-five counting steps.
-/
section Tile

variable (m : (ℓ : Loc nD τ sig) → Buf (Elt F) ℓ) (d : Dev nD) (L : grid0.Coords)

/-- One trip of counting loop 0: the table after 625·0 + 25 t vectors becomes the table after 25 more. -/
theorem trip0 (hpre : PreOK m) (t : Fin k0_t2_loop.trips) :
    sinv m d L 0 inb_S50000_S10000_0 0 t.val ⟨⟩
      ⊢ wp frame (wpE (defs₀ (F := F)) 𝒱₀ (V d (cV L) (jV L)) none) Set.univ
          (k0_t2_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes t ())
          fun _ => sinv m d L 0 inb_S50000_S10000_0 0 (t.val + 1) ⟨⟩ := by
  have ht : t.val < 25 := lt_of_lt_of_le t.isLt k0_t2_abs.2.1
  unfold k0_t2_body sinv
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, Prog.bind_assoc]
  rw [show 0 + 25 * (t.val + 1) = 0 + 25 * t.val + 24 + 1 by omega]
  iintro H
  iapply (wp_site (F := F) m d L hpre (c := 0) (hc := inb_S50000_S10000_0) (n := 0 + 25 * t.val + 0) (off := k0_off10 t)
    (by rw [k0_off10_eq]; show 400 * t.val = 16 * (0 + 25 * t.val + 0); omega) (by omega) (by omega)) $$ H; iintro H
  iapply (wp_site (F := F) m d L hpre (c := 0) (hc := inb_S50000_S10000_0) (n := 0 + 25 * t.val + 1) (off := k0_off11 t)
    (by rw [k0_off11_eq]; show 400 * t.val + 16 = 16 * (0 + 25 * t.val + 1); omega) (by omega) (by omega)) $$ H; iintro H
  iapply (wp_site (F := F) m d L hpre (c := 0) (hc := inb_S50000_S10000_0) (n := 0 + 25 * t.val + 2) (off := k0_off12 t)
    (by rw [k0_off12_eq]; show 400 * t.val + 32 = 16 * (0 + 25 * t.val + 2); omega) (by omega) (by omega)) $$ H; iintro H
  iapply (wp_site (F := F) m d L hpre (c := 0) (hc := inb_S50000_S10000_0) (n := 0 + 25 * t.val + 3) (off := k0_off13 t)
    (by rw [k0_off13_eq]; show 400 * t.val + 48 = 16 * (0 + 25 * t.val + 3); omega) (by omega) (by omega)) $$ H; iintro H
  iapply (wp_site (F := F) m d L hpre (c := 0) (hc := inb_S50000_S10000_0) (n := 0 + 25 * t.val + 4) (off := k0_off14 t)
    (by rw [k0_off14_eq]; show 400 * t.val + 64 = 16 * (0 + 25 * t.val + 4); omega) (by omega) (by omega)) $$ H; iintro H
  iapply (wp_site (F := F) m d L hpre (c := 0) (hc := inb_S50000_S10000_0) (n := 0 + 25 * t.val + 5) (off := k0_off15 t)
    (by rw [k0_off15_eq]; show 400 * t.val + 80 = 16 * (0 + 25 * t.val + 5); omega) (by omega) (by omega)) $$ H; iintro H
  iapply (wp_site (F := F) m d L hpre (c := 0) (hc := inb_S50000_S10000_0) (n := 0 + 25 * t.val + 6) (off := k0_off16 t)
    (by rw [k0_off16_eq]; show 400 * t.val + 96 = 16 * (0 + 25 * t.val + 6); omega) (by omega) (by omega)) $$ H; iintro H
  iapply (wp_site (F := F) m d L hpre (c := 0) (hc := inb_S50000_S10000_0) (n := 0 + 25 * t.val + 7) (off := k0_off17 t)
    (by rw [k0_off17_eq]; show 400 * t.val + 112 = 16 * (0 + 25 * t.val + 7); omega) (by omega) (by omega)) $$ H; iintro H
  iapply (wp_site (F := F) m d L hpre (c := 0) (hc := inb_S50000_S10000_0) (n := 0 + 25 * t.val + 8) (off := k0_off18 t)
    (by rw [k0_off18_eq]; show 400 * t.val + 128 = 16 * (0 + 25 * t.val + 8); omega) (by omega) (by omega)) $$ H; iintro H
  iapply (wp_site (F := F) m d L hpre (c := 0) (hc := inb_S50000_S10000_0) (n := 0 + 25 * t.val + 9) (off := k0_off19 t)
    (by rw [k0_off19_eq]; show 400 * t.val + 144 = 16 * (0 + 25 * t.val + 9); omega) (by omega) (by omega)) $$ H; iintro H
  iapply (wp_site (F := F) m d L hpre (c := 0) (hc := inb_S50000_S10000_0) (n := 0 + 25 * t.val + 10) (off := k0_off20 t)
    (by rw [k0_off20_eq]; show 400 * t.val + 160 = 16 * (0 + 25 * t.val + 10); omega) (by omega) (by omega)) $$ H; iintro H
  iapply (wp_site (F := F) m d L hpre (c := 0) (hc := inb_S50000_S10000_0) (n := 0 + 25 * t.val + 11) (off := k0_off21 t)
    (by rw [k0_off21_eq]; show 400 * t.val + 176 = 16 * (0 + 25 * t.val + 11); omega) (by omega) (by omega)) $$ H; iintro H
  iapply (wp_site (F := F) m d L hpre (c := 0) (hc := inb_S50000_S10000_0) (n := 0 + 25 * t.val + 12) (off := k0_off22 t)
    (by rw [k0_off22_eq]; show 400 * t.val + 192 = 16 * (0 + 25 * t.val + 12); omega) (by omega) (by omega)) $$ H; iintro H
  iapply (wp_site (F := F) m d L hpre (c := 0) (hc := inb_S50000_S10000_0) (n := 0 + 25 * t.val + 13) (off := k0_off23 t)
    (by rw [k0_off23_eq]; show 400 * t.val + 208 = 16 * (0 + 25 * t.val + 13); omega) (by omega) (by omega)) $$ H; iintro H
  iapply (wp_site (F := F) m d L hpre (c := 0) (hc := inb_S50000_S10000_0) (n := 0 + 25 * t.val + 14) (off := k0_off24 t)
    (by rw [k0_off24_eq]; show 400 * t.val + 224 = 16 * (0 + 25 * t.val + 14); omega) (by omega) (by omega)) $$ H; iintro H
  iapply (wp_site (F := F) m d L hpre (c := 0) (hc := inb_S50000_S10000_0) (n := 0 + 25 * t.val + 15) (off := k0_off25 t)
    (by rw [k0_off25_eq]; show 400 * t.val + 240 = 16 * (0 + 25 * t.val + 15); omega) (by omega) (by omega)) $$ H; iintro H
  iapply (wp_site (F := F) m d L hpre (c := 0) (hc := inb_S50000_S10000_0) (n := 0 + 25 * t.val + 16) (off := k0_off26 t)
    (by rw [k0_off26_eq]; show 400 * t.val + 256 = 16 * (0 + 25 * t.val + 16); omega) (by omega) (by omega)) $$ H; iintro H
  iapply (wp_site (F := F) m d L hpre (c := 0) (hc := inb_S50000_S10000_0) (n := 0 + 25 * t.val + 17) (off := k0_off27 t)
    (by rw [k0_off27_eq]; show 400 * t.val + 272 = 16 * (0 + 25 * t.val + 17); omega) (by omega) (by omega)) $$ H; iintro H
  iapply (wp_site (F := F) m d L hpre (c := 0) (hc := inb_S50000_S10000_0) (n := 0 + 25 * t.val + 18) (off := k0_off28 t)
    (by rw [k0_off28_eq]; show 400 * t.val + 288 = 16 * (0 + 25 * t.val + 18); omega) (by omega) (by omega)) $$ H; iintro H
  iapply (wp_site (F := F) m d L hpre (c := 0) (hc := inb_S50000_S10000_0) (n := 0 + 25 * t.val + 19) (off := k0_off29 t)
    (by rw [k0_off29_eq]; show 400 * t.val + 304 = 16 * (0 + 25 * t.val + 19); omega) (by omega) (by omega)) $$ H; iintro H
  iapply (wp_site (F := F) m d L hpre (c := 0) (hc := inb_S50000_S10000_0) (n := 0 + 25 * t.val + 20) (off := k0_off30 t)
    (by rw [k0_off30_eq]; show 400 * t.val + 320 = 16 * (0 + 25 * t.val + 20); omega) (by omega) (by omega)) $$ H; iintro H
  iapply (wp_site (F := F) m d L hpre (c := 0) (hc := inb_S50000_S10000_0) (n := 0 + 25 * t.val + 21) (off := k0_off31 t)
    (by rw [k0_off31_eq]; show 400 * t.val + 336 = 16 * (0 + 25 * t.val + 21); omega) (by omega) (by omega)) $$ H; iintro H
  iapply (wp_site (F := F) m d L hpre (c := 0) (hc := inb_S50000_S10000_0) (n := 0 + 25 * t.val + 22) (off := k0_off32 t)
    (by rw [k0_off32_eq]; show 400 * t.val + 352 = 16 * (0 + 25 * t.val + 22); omega) (by omega) (by omega)) $$ H; iintro H
  iapply (wp_site (F := F) m d L hpre (c := 0) (hc := inb_S50000_S10000_0) (n := 0 + 25 * t.val + 23) (off := k0_off33 t)
    (by rw [k0_off33_eq]; show 400 * t.val + 368 = 16 * (0 + 25 * t.val + 23); omega) (by omega) (by omega)) $$ H; iintro H
  iapply (wp_site (F := F) m d L hpre (c := 0) (hc := inb_S50000_S10000_0) (n := 0 + 25 * t.val + 24) (off := k0_off34 t)
    (by rw [k0_off34_eq]; show 400 * t.val + 384 = 16 * (0 + 25 * t.val + 24); omega) (by omega) (by omega)) $$ H; iintro H
  sl_step
  iexact H

end Tile

end Cert.Kernel.Run

end
-- ==== Proof.Bits.TaskB1.lean ====
import proofs.«210447_g31353261261282_cont_9to1_114_24_alg».proof.Proof.Bits.TaskA

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 1 of the task: twenty-five counting steps.
-/
section Tile

variable (m : (ℓ : Loc nD τ sig) → Buf (Elt F) ℓ) (d : Dev nD) (L : grid0.Coords)

/-- One trip of counting loop 1: the table after 625·1 + 25 t vectors becomes the table after 25 more. -/
theorem trip1 (hpre : PreOK m) (t : Fin k0_t3_loop.trips) :
    sinv m d L 10000 inb_S50000_S10000_10000 625 t.val ⟨⟩
      ⊢ wp frame (wpE (defs₀ (F := F)) 𝒱₀ (V d (cV L) (jV L)) none) Set.univ
          (k0_t3_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes t ())
          fun _ => sinv m d L 10000 inb_S50000_S10000_10000 625 (t.val + 1) ⟨⟩ := by
  have ht : t.val < 25 := lt_of_lt_of_le t.isLt k0_t3_abs.2.1
  unfold k0_t3_body sinv
  simp only [k0_part6_eq_skeleton, k0_part7_eq_skeleton, k0_part8_eq_skeleton, k0_part9_eq_skeleton, k0_part10_eq_skeleton]
  unfold k0_part6_skel k0_part7_skel k0_part8_skel k0_part9_skel k0_part10_skel
  simp only [Prog.lift, Prog.bind_op, Prog.bind_ret, Prog.pure_eq_ret, Prog.bind_assoc]
  rw [show 625 + 25 * (t.val + 1) = 625 + 25 * t.val + 24 + 1 by omega]
  iintro H
  iapply (wp_site (F := F) m d L hpre (c := 10000) (hc := inb_S50000_S10000_10000) (n := 625 + 25 * t.val + 0) (off := k0_off36 t)
    (by rw [k0_off36_eq]; show 400 * t.val + 10000 = 16 * (625 + 25 * t.val + 0); omega) (by omega) (by omega)) $$ H; iintro H
  iapply (wp_site (F := F) m d L hpre (c := 10000) (hc := inb_S50000_S10000_10000) (n := 625 + 25 * t.val + 1) (off := k0_off37 t)
    (by rw [k0_off37_eq]; show 400 * t.val + 10016 = 16 * (625 + 25 * t.val + 1); omega) (by omega) (by omega)) $$ H; iintro H
  iapply (wp_site (F := F) m d L hpre (c := 10000) (hc := inb_S50000_S10000_10000) (n := 625 + 25 * t.val + 2) (off := k0_off38 t)
    (by rw [k0_off38_eq]; show 400 * t.val + 10032 = 16 * (625 + 25 * t.val + 2); omega) (by omega) (by omega)) $$ H; iintro H
  iapply (wp_site (F := F) m d L hpre (c := 10000) (hc := inb_S50000_S10000_10000) (n := 625 + 25 * t.val + 3) (off := k0_off39 t)
    (by rw [k0_off39_eq]; show 400 * t.val + 10048 = 16 * (625 + 25 * t.val + 3); omega) (by omega) (by omega)) $$ H; iintro H
  iapply (wp_site (F := F) m d L hpre (c := 10000) (hc := inb_S50000_S10000_10000) (n := 625 + 25 * t.val + 4) (off := k0_off40 t)
    (by rw [k0_off40_eq]; show 400 * t.val + 10064 = 16 * (625 + 25 * t.val + 4); omega) (by omega) (by omega)) $$ H; iintro H
  iapply (wp_site (F := F) m d L hpre (c := 10000) (hc := inb_S50000_S10000_10000) (n := 625 + 25 * t.val + 5) (off := k0_off41 t)
    (by rw [k0_off41_eq]; show 400 * t.val + 10080 = 16 * (625 + 25 * t.val + 5); omega) (by omega) (by omega)) $$ H; iintro H
  iapply (wp_site (F := F) m d L hpre (c := 10000) (hc := inb_S50000_S10000_10000) (n := 625 + 25 * t.val + 6) (off := k0_off42 t)
    (by rw [k0_off42_eq]; show 400 * t.val + 10096 = 16 * (625 + 25 * t.val + 6); omega) (by omega) (by omega)) $$ H; iintro H
  iapply (wp_site (F := F) m d L hpre (c := 10000) (hc := inb_S50000_S10000_10000) (n := 625 + 25 * t.val + 7) (off := k0_off43 t)
    (by rw [k0_off43_eq]; show 400 * t.val + 10112 = 16 * (625 + 25 * t.val + 7); omega) (by omega) (by omega)) $$ H; iintro H
  iapply (wp_site (F := F) m d L hpre (c := 10000) (hc := inb_S50000_S10000_10000) (n := 625 + 25 * t.val + 8) (off := k0_off44 t)
    (by rw [k0_off44_eq]; show 400 * t.val + 10128 = 16 * (625 + 25 * t.val + 8); omega) (by omega) (by omega)) $$ H; iintro H
  iapply (wp_site (F := F) m d L hpre (c := 10000) (hc := inb_S50000_S10000_10000) (n := 625 + 25 * t.val + 9) (off := k0_off45 t)
    (by rw [k0_off45_eq]; show 400 * t.val + 10144 = 16 * (625 + 25 * t.val + 9); omega) (by omega) (by omega)) $$ H; iintro H
  iapply (wp_site (F := F) m d L hpre (c := 10000) (hc := inb_S50000_S10000_10000) (n := 625 + 25 * t.val + 10) (off := k0_off46 t)
    (by rw [k0_off46_eq]; show 400 * t.val + 10160 = 16 * (625 + 25 * t.val + 10); omega) (by omega) (by omega)) $$ H; iintro H
  iapply (wp_site (F := F) m d L hpre (c := 10000) (hc := inb_S50000_S10000_10000) (n := 625 + 25 * t.val + 11) (off := k0_off47 t)
    (by rw [k0_off47_eq]; show 400 * t.val + 10176 = 16 * (625 + 25 * t.val + 11); omega) (by omega) (by omega)) $$ H; iintro H
  iapply (wp_site (F := F) m d L hpre (c := 10000) (hc := inb_S50000_S10000_10000) (n := 625 + 25 * t.val + 12) (off := k0_off48 t)
    (by rw [k0_off48_eq]; show 400 * t.val + 10192 = 16 * (625 + 25 * t.val + 12); omega) (by omega) (by omega)) $$ H; iintro H
  iapply (wp_site (F := F) m d L hpre (c := 10000) (hc := inb_S50000_S10000_10000) (n := 625 + 25 * t.val + 13) (off := k0_off49 t)
    (by rw [k0_off49_eq]; show 400 * t.val + 10208 = 16 * (625 + 25 * t.val + 13); omega) (by omega) (by omega)) $$ H; iintro H
  iapply (wp_site (F := F) m d L hpre (c := 10000) (hc := inb_S50000_S10000_10000) (n := 625 + 25 * t.val + 14) (off := k0_off50 t)
    (by rw [k0_off50_eq]; show 400 * t.val + 10224 = 16 * (625 + 25 * t.val + 14); omega) (by omega) (by omega)) $$ H; iintro H
  iapply (wp_site (F := F) m d L hpre (c := 10000) (hc := inb_S50000_S10000_10000) (n := 625 + 25 * t.val + 15) (off := k0_off51 t)
    (by rw [k0_off51_eq]; show 400 * t.val + 10240 = 16 * (625 + 25 * t.val + 15); omega) (by omega) (by omega)) $$ H; iintro H
  iapply (wp_site (F := F) m d L hpre (c := 10000) (hc := inb_S50000_S10000_10000) (n := 625 + 25 * t.val + 16) (off := k0_off52 t)
    (by rw [k0_off52_eq]; show 400 * t.val + 10256 = 16 * (625 + 25 * t.val + 16); omega) (by omega) (by omega)) $$ H; iintro H
  iapply (wp_site (F := F) m d L hpre (c := 10000) (hc := inb_S50000_S10000_10000) (n := 625 + 25 * t.val + 17) (off := k0_off53 t)
    (by rw [k0_off53_eq]; show 400 * t.val + 10272 = 16 * (625 + 25 * t.val + 17); omega) (by omega) (by omega)) $$ H; iintro H
  iapply (wp_site (F := F) m d L hpre (c := 10000) (hc := inb_S50000_S10000_10000) (n := 625 + 25 * t.val + 18) (off := k0_off54 t)
    (by rw [k0_off54_eq]; show 400 * t.val + 10288 = 16 * (625 + 25 * t.val + 18); omega) (by omega) (by omega)) $$ H; iintro H
  iapply (wp_site (F := F) m d L hpre (c := 10000) (hc := inb_S50000_S10000_10000) (n := 625 + 25 * t.val + 19) (off := k0_off55 t)
    (by rw [k0_off55_eq]; show 400 * t.val + 10304 = 16 * (625 + 25 * t.val + 19); omega) (by omega) (by omega)) $$ H; iintro H
  iapply (wp_site (F := F) m d L hpre (c := 10000) (hc := inb_S50000_S10000_10000) (n := 625 + 25 * t.val + 20) (off := k0_off56 t)
    (by rw [k0_off56_eq]; show 400 * t.val + 10320 = 16 * (625 + 25 * t.val + 20); omega) (by omega) (by omega)) $$ H; iintro H
  iapply (wp_site (F := F) m d L hpre (c := 10000) (hc := inb_S50000_S10000_10000) (n := 625 + 25 * t.val + 21) (off := k0_off57 t)
    (by rw [k0_off57_eq]; show 400 * t.val + 10336 = 16 * (625 + 25 * t.val + 21); omega) (by omega) (by omega)) $$ H; iintro H
  iapply (wp_site (F := F) m d L hpre (c := 10000) (hc := inb_S50000_S10000_10000) (n := 625 + 25 * t.val + 22) (off := k0_off58 t)
    (by rw [k0_off58_eq]; show 400 * t.val + 10352 = 16 * (625 + 25 * t.val + 22); omega) (by omega) (by omega)) $$ H; iintro H
  iapply (wp_site (F := F) m d L hpre (c := 10000) (hc := inb_S50000_S10000_10000) (n := 625 + 25 * t.val + 23) (off := k0_off59 t)
    (by rw [k0_off59_eq]; show 400 * t.val + 10368 = 16 * (625 + 25 * t.val + 23); omega) (by omega) (by omega)) $$ H; iintro H
  iapply (wp_site (F := F) m d L hpre (c := 10000) (hc := inb_S50000_S10000_10000) (n := 625 + 25 * t.val + 24) (off := k0_off60 t)
    (by rw [k0_off60_eq]; show 400 * t.val + 10384 = 16 * (625 + 25 * t.val + 24); omega) (by omega) (by omega)) $$ H; iintro H
  sl_step
  iexact H

end Tile

end Cert.Kernel.Run

end
-- ==== Proof.Bits.TaskB2.lean ====
import proofs.«210447_g31353261261282_cont_9to1_114_24_alg».proof.Proof.Bits.TaskA

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 2 of the task: twenty-five counting steps.
-/
section Tile

variable (m : (ℓ : Loc nD τ sig) → Buf (Elt F) ℓ) (d : Dev nD) (L : grid0.Coords)

/-- One trip of counting loop 2: the table after 625·2 + 25 t vectors becomes the table after 25 more. -/
theorem trip2 (hpre : PreOK m) (t : Fin k0_t4_loop.trips) :
    sinv m d L 20000 inb_S50000_S10000_20000 1250 t.val ⟨⟩
      ⊢ wp frame (wpE (defs₀ (F := F)) 𝒱₀ (V d (cV L) (jV L)) none) Set.univ
          (k0_t4_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes t ())
          fun _ => sinv m d L 20000 inb_S50000_S10000_20000 1250 (t.val + 1) ⟨⟩ := by
  have ht : t.val < 25 := lt_of_lt_of_le t.isLt k0_t4_abs.2.1
  unfold k0_t4_body sinv
  simp only [k0_part11_eq_skeleton, k0_part12_eq_skeleton, k0_part13_eq_skeleton, k0_part14_eq_skeleton, k0_part15_eq_skeleton]
  unfold k0_part11_skel k0_part12_skel k0_part13_skel k0_part14_skel k0_part15_skel
  simp only [Prog.lift, Prog.bind_op, Prog.bind_ret, Prog.pure_eq_ret, Prog.bind_assoc]
  rw [show 1250 + 25 * (t.val + 1) = 1250 + 25 * t.val + 24 + 1 by omega]
  iintro H
  iapply (wp_site (F := F) m d L hpre (c := 20000) (hc := inb_S50000_S10000_20000) (n := 1250 + 25 * t.val + 0) (off := k0_off61 t)
    (by rw [k0_off61_eq]; show 400 * t.val + 20000 = 16 * (1250 + 25 * t.val + 0); omega) (by omega) (by omega)) $$ H; iintro H
  iapply (wp_site (F := F) m d L hpre (c := 20000) (hc := inb_S50000_S10000_20000) (n := 1250 + 25 * t.val + 1) (off := k0_off62 t)
    (by rw [k0_off62_eq]; show 400 * t.val + 20016 = 16 * (1250 + 25 * t.val + 1); omega) (by omega) (by omega)) $$ H; iintro H
  iapply (wp_site (F := F) m d L hpre (c := 20000) (hc := inb_S50000_S10000_20000) (n := 1250 + 25 * t.val + 2) (off := k0_off63 t)
    (by rw [k0_off63_eq]; show 400 * t.val + 20032 = 16 * (1250 + 25 * t.val + 2); omega) (by omega) (by omega)) $$ H; iintro H
  iapply (wp_site (F := F) m d L hpre (c := 20000) (hc := inb_S50000_S10000_20000) (n := 1250 + 25 * t.val + 3) (off := k0_off64 t)
    (by rw [k0_off64_eq]; show 400 * t.val + 20048 = 16 * (1250 + 25 * t.val + 3); omega) (by omega) (by omega)) $$ H; iintro H
  iapply (wp_site (F := F) m d L hpre (c := 20000) (hc := inb_S50000_S10000_20000) (n := 1250 + 25 * t.val + 4) (off := k0_off65 t)
    (by rw [k0_off65_eq]; show 400 * t.val + 20064 = 16 * (1250 + 25 * t.val + 4); omega) (by omega) (by omega)) $$ H; iintro H
  iapply (wp_site (F := F) m d L hpre (c := 20000) (hc := inb_S50000_S10000_20000) (n := 1250 + 25 * t.val + 5) (off := k0_off66 t)
    (by rw [k0_off66_eq]; show 400 * t.val + 20080 = 16 * (1250 + 25 * t.val + 5); omega) (by omega) (by omega)) $$ H; iintro H
  iapply (wp_site (F := F) m d L hpre (c := 20000) (hc := inb_S50000_S10000_20000) (n := 1250 + 25 * t.val + 6) (off := k0_off67 t)
    (by rw [k0_off67_eq]; show 400 * t.val + 20096 = 16 * (1250 + 25 * t.val + 6); omega) (by omega) (by omega)) $$ H; iintro H
  iapply (wp_site (F := F) m d L hpre (c := 20000) (hc := inb_S50000_S10000_20000) (n := 1250 + 25 * t.val + 7) (off := k0_off68 t)
    (by rw [k0_off68_eq]; show 400 * t.val + 20112 = 16 * (1250 + 25 * t.val + 7); omega) (by omega) (by omega)) $$ H; iintro H
  iapply (wp_site (F := F) m d L hpre (c := 20000) (hc := inb_S50000_S10000_20000) (n := 1250 + 25 * t.val + 8) (off := k0_off69 t)
    (by rw [k0_off69_eq]; show 400 * t.val + 20128 = 16 * (1250 + 25 * t.val + 8); omega) (by omega) (by omega)) $$ H; iintro H
  iapply (wp_site (F := F) m d L hpre (c := 20000) (hc := inb_S50000_S10000_20000) (n := 1250 + 25 * t.val + 9) (off := k0_off70 t)
    (by rw [k0_off70_eq]; show 400 * t.val + 20144 = 16 * (1250 + 25 * t.val + 9); omega) (by omega) (by omega)) $$ H; iintro H
  iapply (wp_site (F := F) m d L hpre (c := 20000) (hc := inb_S50000_S10000_20000) (n := 1250 + 25 * t.val + 10) (off := k0_off71 t)
    (by rw [k0_off71_eq]; show 400 * t.val + 20160 = 16 * (1250 + 25 * t.val + 10); omega) (by omega) (by omega)) $$ H; iintro H
  iapply (wp_site (F := F) m d L hpre (c := 20000) (hc := inb_S50000_S10000_20000) (n := 1250 + 25 * t.val + 11) (off := k0_off72 t)
    (by rw [k0_off72_eq]; show 400 * t.val + 20176 = 16 * (1250 + 25 * t.val + 11); omega) (by omega) (by omega)) $$ H; iintro H
  iapply (wp_site (F := F) m d L hpre (c := 20000) (hc := inb_S50000_S10000_20000) (n := 1250 + 25 * t.val + 12) (off := k0_off73 t)
    (by rw [k0_off73_eq]; show 400 * t.val + 20192 = 16 * (1250 + 25 * t.val + 12); omega) (by omega) (by omega)) $$ H; iintro H
  iapply (wp_site (F := F) m d L hpre (c := 20000) (hc := inb_S50000_S10000_20000) (n := 1250 + 25 * t.val + 13) (off := k0_off74 t)
    (by rw [k0_off74_eq]; show 400 * t.val + 20208 = 16 * (1250 + 25 * t.val + 13); omega) (by omega) (by omega)) $$ H; iintro H
  iapply (wp_site (F := F) m d L hpre (c := 20000) (hc := inb_S50000_S10000_20000) (n := 1250 + 25 * t.val + 14) (off := k0_off75 t)
    (by rw [k0_off75_eq]; show 400 * t.val + 20224 = 16 * (1250 + 25 * t.val + 14); omega) (by omega) (by omega)) $$ H; iintro H
  iapply (wp_site (F := F) m d L hpre (c := 20000) (hc := inb_S50000_S10000_20000) (n := 1250 + 25 * t.val + 15) (off := k0_off76 t)
    (by rw [k0_off76_eq]; show 400 * t.val + 20240 = 16 * (1250 + 25 * t.val + 15); omega) (by omega) (by omega)) $$ H; iintro H
  iapply (wp_site (F := F) m d L hpre (c := 20000) (hc := inb_S50000_S10000_20000) (n := 1250 + 25 * t.val + 16) (off := k0_off77 t)
    (by rw [k0_off77_eq]; show 400 * t.val + 20256 = 16 * (1250 + 25 * t.val + 16); omega) (by omega) (by omega)) $$ H; iintro H
  iapply (wp_site (F := F) m d L hpre (c := 20000) (hc := inb_S50000_S10000_20000) (n := 1250 + 25 * t.val + 17) (off := k0_off78 t)
    (by rw [k0_off78_eq]; show 400 * t.val + 20272 = 16 * (1250 + 25 * t.val + 17); omega) (by omega) (by omega)) $$ H; iintro H
  iapply (wp_site (F := F) m d L hpre (c := 20000) (hc := inb_S50000_S10000_20000) (n := 1250 + 25 * t.val + 18) (off := k0_off79 t)
    (by rw [k0_off79_eq]; show 400 * t.val + 20288 = 16 * (1250 + 25 * t.val + 18); omega) (by omega) (by omega)) $$ H; iintro H
  iapply (wp_site (F := F) m d L hpre (c := 20000) (hc := inb_S50000_S10000_20000) (n := 1250 + 25 * t.val + 19) (off := k0_off80 t)
    (by rw [k0_off80_eq]; show 400 * t.val + 20304 = 16 * (1250 + 25 * t.val + 19); omega) (by omega) (by omega)) $$ H; iintro H
  iapply (wp_site (F := F) m d L hpre (c := 20000) (hc := inb_S50000_S10000_20000) (n := 1250 + 25 * t.val + 20) (off := k0_off81 t)
    (by rw [k0_off81_eq]; show 400 * t.val + 20320 = 16 * (1250 + 25 * t.val + 20); omega) (by omega) (by omega)) $$ H; iintro H
  iapply (wp_site (F := F) m d L hpre (c := 20000) (hc := inb_S50000_S10000_20000) (n := 1250 + 25 * t.val + 21) (off := k0_off82 t)
    (by rw [k0_off82_eq]; show 400 * t.val + 20336 = 16 * (1250 + 25 * t.val + 21); omega) (by omega) (by omega)) $$ H; iintro H
  iapply (wp_site (F := F) m d L hpre (c := 20000) (hc := inb_S50000_S10000_20000) (n := 1250 + 25 * t.val + 22) (off := k0_off83 t)
    (by rw [k0_off83_eq]; show 400 * t.val + 20352 = 16 * (1250 + 25 * t.val + 22); omega) (by omega) (by omega)) $$ H; iintro H
  iapply (wp_site (F := F) m d L hpre (c := 20000) (hc := inb_S50000_S10000_20000) (n := 1250 + 25 * t.val + 23) (off := k0_off84 t)
    (by rw [k0_off84_eq]; show 400 * t.val + 20368 = 16 * (1250 + 25 * t.val + 23); omega) (by omega) (by omega)) $$ H; iintro H
  iapply (wp_site (F := F) m d L hpre (c := 20000) (hc := inb_S50000_S10000_20000) (n := 1250 + 25 * t.val + 24) (off := k0_off85 t)
    (by rw [k0_off85_eq]; show 400 * t.val + 20384 = 16 * (1250 + 25 * t.val + 24); omega) (by omega) (by omega)) $$ H; iintro H
  sl_step
  iexact H

end Tile

end Cert.Kernel.Run

end
-- ==== Proof.Bits.TaskB3.lean ====
import proofs.«210447_g31353261261282_cont_9to1_114_24_alg».proof.Proof.Bits.TaskA

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 3 of the task: twenty-five counting steps.
-/
section Tile

variable (m : (ℓ : Loc nD τ sig) → Buf (Elt F) ℓ) (d : Dev nD) (L : grid0.Coords)

/-- One trip of counting loop 3: the table after 625·3 + 25 t vectors becomes the table after 25 more. -/
theorem trip3 (hpre : PreOK m) (t : Fin k0_t5_loop.trips) :
    sinv m d L 30000 inb_S50000_S10000_30000 1875 t.val ⟨⟩
      ⊢ wp frame (wpE (defs₀ (F := F)) 𝒱₀ (V d (cV L) (jV L)) none) Set.univ
          (k0_t5_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes t ())
          fun _ => sinv m d L 30000 inb_S50000_S10000_30000 1875 (t.val + 1) ⟨⟩ := by
  have ht : t.val < 25 := lt_of_lt_of_le t.isLt k0_t5_abs.2.1
  unfold k0_t5_body sinv
  simp only [k0_part16_eq_skeleton, k0_part17_eq_skeleton, k0_part18_eq_skeleton, k0_part19_eq_skeleton, k0_part20_eq_skeleton]
  unfold k0_part16_skel k0_part17_skel k0_part18_skel k0_part19_skel k0_part20_skel
  simp only [Prog.lift, Prog.bind_op, Prog.bind_ret, Prog.pure_eq_ret, Prog.bind_assoc]
  rw [show 1875 + 25 * (t.val + 1) = 1875 + 25 * t.val + 24 + 1 by omega]
  iintro H
  iapply (wp_site (F := F) m d L hpre (c := 30000) (hc := inb_S50000_S10000_30000) (n := 1875 + 25 * t.val + 0) (off := k0_off86 t)
    (by rw [k0_off86_eq]; show 400 * t.val + 30000 = 16 * (1875 + 25 * t.val + 0); omega) (by omega) (by omega)) $$ H; iintro H
  iapply (wp_site (F := F) m d L hpre (c := 30000) (hc := inb_S50000_S10000_30000) (n := 1875 + 25 * t.val + 1) (off := k0_off87 t)
    (by rw [k0_off87_eq]; show 400 * t.val + 30016 = 16 * (1875 + 25 * t.val + 1); omega) (by omega) (by omega)) $$ H; iintro H
  iapply (wp_site (F := F) m d L hpre (c := 30000) (hc := inb_S50000_S10000_30000) (n := 1875 + 25 * t.val + 2) (off := k0_off88 t)
    (by rw [k0_off88_eq]; show 400 * t.val + 30032 = 16 * (1875 + 25 * t.val + 2); omega) (by omega) (by omega)) $$ H; iintro H
  iapply (wp_site (F := F) m d L hpre (c := 30000) (hc := inb_S50000_S10000_30000) (n := 1875 + 25 * t.val + 3) (off := k0_off89 t)
    (by rw [k0_off89_eq]; show 400 * t.val + 30048 = 16 * (1875 + 25 * t.val + 3); omega) (by omega) (by omega)) $$ H; iintro H
  iapply (wp_site (F := F) m d L hpre (c := 30000) (hc := inb_S50000_S10000_30000) (n := 1875 + 25 * t.val + 4) (off := k0_off90 t)
    (by rw [k0_off90_eq]; show 400 * t.val + 30064 = 16 * (1875 + 25 * t.val + 4); omega) (by omega) (by omega)) $$ H; iintro H
  iapply (wp_site (F := F) m d L hpre (c := 30000) (hc := inb_S50000_S10000_30000) (n := 1875 + 25 * t.val + 5) (off := k0_off91 t)
    (by rw [k0_off91_eq]; show 400 * t.val + 30080 = 16 * (1875 + 25 * t.val + 5); omega) (by omega) (by omega)) $$ H; iintro H
  iapply (wp_site (F := F) m d L hpre (c := 30000) (hc := inb_S50000_S10000_30000) (n := 1875 + 25 * t.val + 6) (off := k0_off92 t)
    (by rw [k0_off92_eq]; show 400 * t.val + 30096 = 16 * (1875 + 25 * t.val + 6); omega) (by omega) (by omega)) $$ H; iintro H
  iapply (wp_site (F := F) m d L hpre (c := 30000) (hc := inb_S50000_S10000_30000) (n := 1875 + 25 * t.val + 7) (off := k0_off93 t)
    (by rw [k0_off93_eq]; show 400 * t.val + 30112 = 16 * (1875 + 25 * t.val + 7); omega) (by omega) (by omega)) $$ H; iintro H
  iapply (wp_site (F := F) m d L hpre (c := 30000) (hc := inb_S50000_S10000_30000) (n := 1875 + 25 * t.val + 8) (off := k0_off94 t)
    (by rw [k0_off94_eq]; show 400 * t.val + 30128 = 16 * (1875 + 25 * t.val + 8); omega) (by omega) (by omega)) $$ H; iintro H
  iapply (wp_site (F := F) m d L hpre (c := 30000) (hc := inb_S50000_S10000_30000) (n := 1875 + 25 * t.val + 9) (off := k0_off95 t)
    (by rw [k0_off95_eq]; show 400 * t.val + 30144 = 16 * (1875 + 25 * t.val + 9); omega) (by omega) (by omega)) $$ H; iintro H
  iapply (wp_site (F := F) m d L hpre (c := 30000) (hc := inb_S50000_S10000_30000) (n := 1875 + 25 * t.val + 10) (off := k0_off96 t)
    (by rw [k0_off96_eq]; show 400 * t.val + 30160 = 16 * (1875 + 25 * t.val + 10); omega) (by omega) (by omega)) $$ H; iintro H
  iapply (wp_site (F := F) m d L hpre (c := 30000) (hc := inb_S50000_S10000_30000) (n := 1875 + 25 * t.val + 11) (off := k0_off97 t)
    (by rw [k0_off97_eq]; show 400 * t.val + 30176 = 16 * (1875 + 25 * t.val + 11); omega) (by omega) (by omega)) $$ H; iintro H
  iapply (wp_site (F := F) m d L hpre (c := 30000) (hc := inb_S50000_S10000_30000) (n := 1875 + 25 * t.val + 12) (off := k0_off98 t)
    (by rw [k0_off98_eq]; show 400 * t.val + 30192 = 16 * (1875 + 25 * t.val + 12); omega) (by omega) (by omega)) $$ H; iintro H
  iapply (wp_site (F := F) m d L hpre (c := 30000) (hc := inb_S50000_S10000_30000) (n := 1875 + 25 * t.val + 13) (off := k0_off99 t)
    (by rw [k0_off99_eq]; show 400 * t.val + 30208 = 16 * (1875 + 25 * t.val + 13); omega) (by omega) (by omega)) $$ H; iintro H
  iapply (wp_site (F := F) m d L hpre (c := 30000) (hc := inb_S50000_S10000_30000) (n := 1875 + 25 * t.val + 14) (off := k0_off100 t)
    (by rw [k0_off100_eq]; show 400 * t.val + 30224 = 16 * (1875 + 25 * t.val + 14); omega) (by omega) (by omega)) $$ H; iintro H
  iapply (wp_site (F := F) m d L hpre (c := 30000) (hc := inb_S50000_S10000_30000) (n := 1875 + 25 * t.val + 15) (off := k0_off101 t)
    (by rw [k0_off101_eq]; show 400 * t.val + 30240 = 16 * (1875 + 25 * t.val + 15); omega) (by omega) (by omega)) $$ H; iintro H
  iapply (wp_site (F := F) m d L hpre (c := 30000) (hc := inb_S50000_S10000_30000) (n := 1875 + 25 * t.val + 16) (off := k0_off102 t)
    (by rw [k0_off102_eq]; show 400 * t.val + 30256 = 16 * (1875 + 25 * t.val + 16); omega) (by omega) (by omega)) $$ H; iintro H
  iapply (wp_site (F := F) m d L hpre (c := 30000) (hc := inb_S50000_S10000_30000) (n := 1875 + 25 * t.val + 17) (off := k0_off103 t)
    (by rw [k0_off103_eq]; show 400 * t.val + 30272 = 16 * (1875 + 25 * t.val + 17); omega) (by omega) (by omega)) $$ H; iintro H
  iapply (wp_site (F := F) m d L hpre (c := 30000) (hc := inb_S50000_S10000_30000) (n := 1875 + 25 * t.val + 18) (off := k0_off104 t)
    (by rw [k0_off104_eq]; show 400 * t.val + 30288 = 16 * (1875 + 25 * t.val + 18); omega) (by omega) (by omega)) $$ H; iintro H
  iapply (wp_site (F := F) m d L hpre (c := 30000) (hc := inb_S50000_S10000_30000) (n := 1875 + 25 * t.val + 19) (off := k0_off105 t)
    (by rw [k0_off105_eq]; show 400 * t.val + 30304 = 16 * (1875 + 25 * t.val + 19); omega) (by omega) (by omega)) $$ H; iintro H
  iapply (wp_site (F := F) m d L hpre (c := 30000) (hc := inb_S50000_S10000_30000) (n := 1875 + 25 * t.val + 20) (off := k0_off106 t)
    (by rw [k0_off106_eq]; show 400 * t.val + 30320 = 16 * (1875 + 25 * t.val + 20); omega) (by omega) (by omega)) $$ H; iintro H
  iapply (wp_site (F := F) m d L hpre (c := 30000) (hc := inb_S50000_S10000_30000) (n := 1875 + 25 * t.val + 21) (off := k0_off107 t)
    (by rw [k0_off107_eq]; show 400 * t.val + 30336 = 16 * (1875 + 25 * t.val + 21); omega) (by omega) (by omega)) $$ H; iintro H
  iapply (wp_site (F := F) m d L hpre (c := 30000) (hc := inb_S50000_S10000_30000) (n := 1875 + 25 * t.val + 22) (off := k0_off108 t)
    (by rw [k0_off108_eq]; show 400 * t.val + 30352 = 16 * (1875 + 25 * t.val + 22); omega) (by omega) (by omega)) $$ H; iintro H
  iapply (wp_site (F := F) m d L hpre (c := 30000) (hc := inb_S50000_S10000_30000) (n := 1875 + 25 * t.val + 23) (off := k0_off109 t)
    (by rw [k0_off109_eq]; show 400 * t.val + 30368 = 16 * (1875 + 25 * t.val + 23); omega) (by omega) (by omega)) $$ H; iintro H
  iapply (wp_site (F := F) m d L hpre (c := 30000) (hc := inb_S50000_S10000_30000) (n := 1875 + 25 * t.val + 24) (off := k0_off110 t)
    (by rw [k0_off110_eq]; show 400 * t.val + 30384 = 16 * (1875 + 25 * t.val + 24); omega) (by omega) (by omega)) $$ H; iintro H
  sl_step
  iexact H

end Tile

end Cert.Kernel.Run

end
-- ==== Proof.Bits.TaskB4.lean ====
import proofs.«210447_g31353261261282_cont_9to1_114_24_alg».proof.Proof.Bits.TaskA

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  One trip of counting loop 4 of the task: twenty-five counting steps.
-/
section Tile

variable (m : (ℓ : Loc nD τ sig) → Buf (Elt F) ℓ) (d : Dev nD) (L : grid0.Coords)

/-- One trip of counting loop 4: the table after 625·4 + 25 t vectors becomes the table after 25 more. -/
theorem trip4 (hpre : PreOK m) (t : Fin k0_t6_loop.trips) :
    sinv m d L 40000 inb_S50000_S10000_40000 2500 t.val ⟨⟩
      ⊢ wp frame (wpE (defs₀ (F := F)) 𝒱₀ (V d (cV L) (jV L)) none) Set.univ
          (k0_t6_body L eV (Memref.isWhole_whole _) hV (Memref.isWhole_whole _) sE (Memref.isWhole_whole _) sH (Memref.isWhole_whole _)
            cc0_scratch2 cc0_scratch3 cc0_scratch4 cc0_scratch5 cc0_scratch6 cc0_scoped0 lanes (k0_pay2 (F := F)) t ())
          fun _ => sinv m d L 40000 inb_S50000_S10000_40000 2500 (t.val + 1) ⟨⟩ := by
  have ht : t.val < 25 := lt_of_lt_of_le t.isLt k0_t6_abs.2.1
  unfold k0_t6_body sinv
  simp only [k0_part21_eq_skeleton, k0_part22_eq_skeleton, k0_part23_eq_skeleton, k0_part24_eq_skeleton, k0_part25_eq_skeleton]
  unfold k0_part21_skel k0_part22_skel k0_part23_skel k0_part24_skel k0_part25_skel
  simp only [Prog.lift, Prog.bind_op, Prog.bind_ret, Prog.pure_eq_ret, Prog.bind_assoc]
  rw [show 2500 + 25 * (t.val + 1) = 2500 + 25 * t.val + 24 + 1 by omega]
  iintro H
  iapply (wp_site (F := F) m d L hpre (c := 40000) (hc := inb_S50000_S10000_40000) (n := 2500 + 25 * t.val + 0) (off := k0_off111 t)
    (by rw [k0_off111_eq]; show 400 * t.val + 40000 = 16 * (2500 + 25 * t.val + 0); omega) (by omega) (by omega)) $$ H; iintro H
  iapply (wp_site (F := F) m d L hpre (c := 40000) (hc := inb_S50000_S10000_40000) (n := 2500 + 25 * t.val + 1) (off := k0_off112 t)
    (by rw [k0_off112_eq]; show 400 * t.val + 40016 = 16 * (2500 + 25 * t.val + 1); omega) (by omega) (by omega)) $$ H; iintro H
  iapply (wp_site (F := F) m d L hpre (c := 40000) (hc := inb_S50000_S10000_40000) (n := 2500 + 25 * t.val + 2) (off := k0_off113 t)
    (by rw [k0_off113_eq]; show 400 * t.val + 40032 = 16 * (2500 + 25 * t.val + 2); omega) (by omega) (by omega)) $$ H; iintro H
  iapply (wp_site (F := F) m d L hpre (c := 40000) (hc := inb_S50000_S10000_40000) (n := 2500 + 25 * t.val + 3) (off := k0_off114 t)
    (by rw [k0_off114_eq]; show 400 * t.val + 40048 = 16 * (2500 + 25 * t.val + 3); omega) (by omega) (by omega)) $$ H; iintro H
  iapply (wp_site (F := F) m d L hpre (c := 40000) (hc := inb_S50000_S10000_40000) (n := 2500 + 25 * t.val + 4) (off := k0_off115 t)
    (by rw [k0_off115_eq]; show 400 * t.val + 40064 = 16 * (2500 + 25 * t.val + 4); omega) (by omega) (by omega)) $$ H; iintro H
  iapply (wp_site (F := F) m d L hpre (c := 40000) (hc := inb_S50000_S10000_40000) (n := 2500 + 25 * t.val + 5) (off := k0_off116 t)
    (by rw [k0_off116_eq]; show 400 * t.val + 40080 = 16 * (2500 + 25 * t.val + 5); omega) (by omega) (by omega)) $$ H; iintro H
  iapply (wp_site (F := F) m d L hpre (c := 40000) (hc := inb_S50000_S10000_40000) (n := 2500 + 25 * t.val + 6) (off := k0_off117 t)
    (by rw [k0_off117_eq]; show 400 * t.val + 40096 = 16 * (2500 + 25 * t.val + 6); omega) (by omega) (by omega)) $$ H; iintro H
  iapply (wp_site (F := F) m d L hpre (c := 40000) (hc := inb_S50000_S10000_40000) (n := 2500 + 25 * t.val + 7) (off := k0_off118 t)
    (by rw [k0_off118_eq]; show 400 * t.val + 40112 = 16 * (2500 + 25 * t.val + 7); omega) (by omega) (by omega)) $$ H; iintro H
  iapply (wp_site (F := F) m d L hpre (c := 40000) (hc := inb_S50000_S10000_40000) (n := 2500 + 25 * t.val + 8) (off := k0_off119 t)
    (by rw [k0_off119_eq]; show 400 * t.val + 40128 = 16 * (2500 + 25 * t.val + 8); omega) (by omega) (by omega)) $$ H; iintro H
  iapply (wp_site (F := F) m d L hpre (c := 40000) (hc := inb_S50000_S10000_40000) (n := 2500 + 25 * t.val + 9) (off := k0_off120 t)
    (by rw [k0_off120_eq]; show 400 * t.val + 40144 = 16 * (2500 + 25 * t.val + 9); omega) (by omega) (by omega)) $$ H; iintro H
  iapply (wp_site (F := F) m d L hpre (c := 40000) (hc := inb_S50000_S10000_40000) (n := 2500 + 25 * t.val + 10) (off := k0_off121 t)
    (by rw [k0_off121_eq]; show 400 * t.val + 40160 = 16 * (2500 + 25 * t.val + 10); omega) (by omega) (by omega)) $$ H; iintro H
  iapply (wp_site (F := F) m d L hpre (c := 40000) (hc := inb_S50000_S10000_40000) (n := 2500 + 25 * t.val + 11) (off := k0_off122 t)
    (by rw [k0_off122_eq]; show 400 * t.val + 40176 = 16 * (2500 + 25 * t.val + 11); omega) (by omega) (by omega)) $$ H; iintro H
  iapply (wp_site (F := F) m d L hpre (c := 40000) (hc := inb_S50000_S10000_40000) (n := 2500 + 25 * t.val + 12) (off := k0_off123 t)
    (by rw [k0_off123_eq]; show 400 * t.val + 40192 = 16 * (2500 + 25 * t.val + 12); omega) (by omega) (by omega)) $$ H; iintro H
  iapply (wp_site (F := F) m d L hpre (c := 40000) (hc := inb_S50000_S10000_40000) (n := 2500 + 25 * t.val + 13) (off := k0_off124 t)
    (by rw [k0_off124_eq]; show 400 * t.val + 40208 = 16 * (2500 + 25 * t.val + 13); omega) (by omega) (by omega)) $$ H; iintro H
  iapply (wp_site (F := F) m d L hpre (c := 40000) (hc := inb_S50000_S10000_40000) (n := 2500 + 25 * t.val + 14) (off := k0_off125 t)
    (by rw [k0_off125_eq]; show 400 * t.val + 40224 = 16 * (2500 + 25 * t.val + 14); omega) (by omega) (by omega)) $$ H; iintro H
  iapply (wp_site (F := F) m d L hpre (c := 40000) (hc := inb_S50000_S10000_40000) (n := 2500 + 25 * t.val + 15) (off := k0_off126 t)
    (by rw [k0_off126_eq]; show 400 * t.val + 40240 = 16 * (2500 + 25 * t.val + 15); omega) (by omega) (by omega)) $$ H; iintro H
  iapply (wp_site (F := F) m d L hpre (c := 40000) (hc := inb_S50000_S10000_40000) (n := 2500 + 25 * t.val + 16) (off := k0_off127 t)
    (by rw [k0_off127_eq]; show 400 * t.val + 40256 = 16 * (2500 + 25 * t.val + 16); omega) (by omega) (by omega)) $$ H; iintro H
  iapply (wp_site (F := F) m d L hpre (c := 40000) (hc := inb_S50000_S10000_40000) (n := 2500 + 25 * t.val + 17) (off := k0_off128 t)
    (by rw [k0_off128_eq]; show 400 * t.val + 40272 = 16 * (2500 + 25 * t.val + 17); omega) (by omega) (by omega)) $$ H; iintro H
  iapply (wp_site (F := F) m d L hpre (c := 40000) (hc := inb_S50000_S10000_40000) (n := 2500 + 25 * t.val + 18) (off := k0_off129 t)
    (by rw [k0_off129_eq]; show 400 * t.val + 40288 = 16 * (2500 + 25 * t.val + 18); omega) (by omega) (by omega)) $$ H; iintro H
  iapply (wp_site (F := F) m d L hpre (c := 40000) (hc := inb_S50000_S10000_40000) (n := 2500 + 25 * t.val + 19) (off := k0_off130 t)
    (by rw [k0_off130_eq]; show 400 * t.val + 40304 = 16 * (2500 + 25 * t.val + 19); omega) (by omega) (by omega)) $$ H; iintro H
  iapply (wp_site (F := F) m d L hpre (c := 40000) (hc := inb_S50000_S10000_40000) (n := 2500 + 25 * t.val + 20) (off := k0_off131 t)
    (by rw [k0_off131_eq]; show 400 * t.val + 40320 = 16 * (2500 + 25 * t.val + 20); omega) (by omega) (by omega)) $$ H; iintro H
  iapply (wp_site (F := F) m d L hpre (c := 40000) (hc := inb_S50000_S10000_40000) (n := 2500 + 25 * t.val + 21) (off := k0_off132 t)
    (by rw [k0_off132_eq]; show 400 * t.val + 40336 = 16 * (2500 + 25 * t.val + 21); omega) (by omega) (by omega)) $$ H; iintro H
  iapply (wp_site (F := F) m d L hpre (c := 40000) (hc := inb_S50000_S10000_40000) (n := 2500 + 25 * t.val + 22) (off := k0_off133 t)
    (by rw [k0_off133_eq]; show 400 * t.val + 40352 = 16 * (2500 + 25 * t.val + 22); omega) (by omega) (by omega)) $$ H; iintro H
  iapply (wp_site (F := F) m d L hpre (c := 40000) (hc := inb_S50000_S10000_40000) (n := 2500 + 25 * t.val + 23) (off := k0_off134 t)
    (by rw [k0_off134_eq]; show 400 * t.val + 40368 = 16 * (2500 + 25 * t.val + 23); omega) (by omega) (by omega)) $$ H; iintro H
  iapply (wp_site (F := F) m d L hpre (c := 40000) (hc := inb_S50000_S10000_40000) (n := 2500 + 25 * t.val + 24) (off := k0_off135 t)
    (by rw [k0_off135_eq]; show 400 * t.val + 40384 = 16 * (2500 + 25 * t.val + 24); omega) (by omega) (by omega)) $$ H; iintro H
  sl_step
  iexact H

end Tile

end Cert.Kernel.Run

end
-- ==== Proof.Bits.TaskC.lean ====
import proofs.«210447_g31353261261282_cont_9to1_114_24_alg».proof.Proof.Bits.TaskA
import Idealize.ShloMosaic.Lib.ValueLayout

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  What a landed piece of the chunk leaves in its window of the staging buffer, and what the written-out table leaves in
  the task's row of the table of partial counts.
-/

section Tile

variable (m : (ℓ : Loc nD τ sig) → Buf (Elt F) ℓ) (d : Dev nD) (L : grid0.Coords)

omit [FloatOps F] in
/-- A piece of the chunk landed in its window of the staging buffer: the window holds the chunk's words there. -/
theorem landed (r : Fin 5) {c : ℕ} {o : BitVec 32} (hcr : c = 10000 * r.val) (hor : o = BitVec.ofNat 32 (10000 * r.val))
    (h : ∀ a, k0_off1 L o a + S10000.size a ≤ S1600000.size a)
    (hc : ∀ a, (![c] : Fin 1 → ℕ) a + S10000.size a ≤ S50000.size a) (g : Buf (Elt F) ((V d (cV L) (jV L)).loc cc0_scratch0)) :
    ((dstAt c hc).view.loc (V d (cV L) (jV L)) ↦[(dstAt c hc).view.set]{fullShare}
        (dstAt c hc).view.writes (Elt F) g [⟨Rect.whole S10000, (srcAt L o h).view.read (Elt F) (m (eLoc d))⟩] : sProp 𝕄)
      = dstPts d L c hc (chunkFn (m (eLoc d)) (wL L)) := by
  subst hcr hor
  refine pointsTo_congr fun i hi => ?_
  obtain ⟨x, -, rfl⟩ := Finset.mem_map.mp hi
  have e1 : (dstAt (10000 * r.val) hc).view.writes (Elt F) g [⟨Rect.whole S10000, (srcAt L (BitVec.ofNat 32 (10000 * r.val)) h).view.read (Elt F) (m (eLoc d))⟩]
      ((dstAt (10000 * r.val) hc).view.emb x) = (srcAt L (BitVec.ofNat 32 (10000 * r.val)) h).view.read (Elt F) (m (eLoc d)) x := by
    have := View.read_writes_cons_emb (dstAt (10000 * r.val) hc).view g (Rect.whole S10000)
      ((srcAt L (BitVec.ofNat 32 (10000 * r.val)) h).view.read (Elt F) (m (eLoc d))) [] x
    rw [Rect.emb_whole_apply] at this
    exact ((View.read_apply _ _).trans (cast_eq _ _)).symm.trans this
  rw [e1]
  have hx : (x 0).val < 10000 := (x 0).isLt
  have hw : (wL L).val < 32 := (wL L).isLt
  have hr : r.val < 5 := r.isLt
  show m (eLoc d) ((srcAt L (BitVec.ofNat 32 (10000 * r.val)) h).view.emb x) = chunkFn (m (eLoc d)) (wL L) ((dstAt (10000 * r.val) hc).view.emb x)
  unfold chunkFn
  refine congrArg (m (eLoc d)) ?_
  refine (eq_ix1 (n := 1600000) _).trans ((congrArg ix1 (Fin.ext ?_)).trans (eq_ix1 (n := 1600000) _).symm)
  show k0_off1 L (BitVec.ofNat 32 (10000 * r.val)) 0 + 1 * (x 0).val = (50000 * (wL L).val + (10000 * r.val + 1 * (x 0).val)) % 1600000
  rw [off1_val L r, Nat.mod_eq_of_lt (by omega)]; omega

/-- The table written out to the task's row of the table of partial counts is that row of the array the tasks leave. -/
theorem out_row (f : Buf (Elt F) (hLoc d)) (pay : S64x128.Idx → F .f32)
    (hp : pay = (sH : Memref sig .scVector .vmem S64x128 .f32).view.read (Elt F) (tbl (F := F) (m (eLoc d)) (wL L) 3125)) :
    ((dstM L).view.loc (V d (cV L) (jV L)) ↦[(dstM L).view.set]{fullShare}
        (dstM L).view.writes (Elt F) f [⟨Rect.whole S64x128, pay⟩] : sProp 𝕄)
      = hRowPts d (wL L) (histArr m d) := by
  subst hp
  unfold hRowPts
  rw [← pts_dstM (F := F) d L]
  refine pointsTo_congr fun i hi => ?_
  obtain ⟨x, -, rfl⟩ := Finset.mem_map.mp hi
  have e1 : (dstM L).view.writes (Elt F) f [⟨Rect.whole S64x128, (sH : Memref sig .scVector .vmem S64x128 .f32).view.read (Elt F) (tbl (F := F) (m (eLoc d)) (wL L) 3125)⟩]
      ((dstM L).view.emb x) = tbl (F := F) (m (eLoc d)) (wL L) 3125 x := by
    have := View.read_writes_cons_emb (dstM L).view f (Rect.whole S64x128)
      ((sH : Memref sig .scVector .vmem S64x128 .f32).view.read (Elt F) (tbl (F := F) (m (eLoc d)) (wL L) 3125)) [] x
    rw [Rect.emb_whole_apply] at this
    exact ((View.read_apply _ _).trans (cast_eq _ _)).symm.trans this
  rw [e1]
  obtain ⟨a, b, rfl⟩ : ∃ a b, x = ix2 a b := ⟨x 0, x 1, eq_ix2 x⟩
  have h0 : (L 0).val < 2 := (L 0).isLt
  have h1 : (L 1).val < 16 := (L 1).isLt
  have hw : (wL L).val = 2 * (L 1).val + (L 0).val := wid_val h0 h1
  have hemb : (dstM L).view.emb (ix2 a b) = ix3 (wL L) a b := by
    show (Rect.unit (s := S32x64x128) (k0_off136 L) S1x64x128.size (k0_off136_inb L)).emb
      (Shape.reshapeEquiv squeezes_S1x64x128_S64x128.numel_eq (ix2 a b)) = _
    rw [reshapeEquiv_ix2_1ab]
    funext a'
    apply Fin.ext
    match a' with
    | ⟨0, _⟩ => show k0_off136 L 0 + 1 * 0 = (wL L).val; rw [k0_off136_eq, hw]; rfl
    | ⟨1, _⟩ => show k0_off136 L 1 + 1 * a.val = a.val; rw [k0_off136_eq]; show 0 + 1 * a.val = a.val; omega
    | ⟨2, _⟩ => show k0_off136 L 2 + 1 * b.val = b.val; rw [k0_off136_eq]; show 0 + 1 * b.val = b.val; omega
  rw [hemb]
  rfl

end Tile

end Cert.Kernel.Run

end
-- ==== Proof.Bits.Task.lean ====
import proofs.«210447_g31353261261282_cont_9to1_114_24_alg».proof.Proof.Bits.TaskA
import proofs.«210447_g31353261261282_cont_9to1_114_24_alg».proof.Proof.Bits.TaskB0
import proofs.«210447_g31353261261282_cont_9to1_114_24_alg».proof.Proof.Bits.TaskB1
import proofs.«210447_g31353261261282_cont_9to1_114_24_alg».proof.Proof.Bits.TaskB2
import proofs.«210447_g31353261261282_cont_9to1_114_24_alg».proof.Proof.Bits.TaskB3
import proofs.«210447_g31353261261282_cont_9to1_114_24_alg».proof.Proof.Bits.TaskB4
import proofs.«210447_g31353261261282_cont_9to1_114_24_alg».proof.Proof.Bits.TaskC

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
/-
  The counting task of one vector subcore, whole: its chunk of the edge list fetched in five pieces, the table zeroed,
  each piece counted into the table once it has landed, the table written out to the task's row of the table of partial
  counts; and the launch theorem's two obligations for the call: the task at every vector subcore, and how a core's
  operands are its tasks'.
-/
section Tile

variable (m : (ℓ : Loc nD τ sig) → Buf (Elt F) ℓ) (d : Dev nD) (L : grid0.Coords)

theorem tile_body (hpre : PreOK m) (O : CellTallies nD τ sig (HIx 1)) (W : Waits sig (HIx 1)) (hO : ∀ g, O g none = 0) :
    iprop(levAts (K (F := F)).L (K (F := F)).lev ∗ emp ∗ goFor m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_hist_kernel L eV (Memref.isWhole_whole _) hV (Memref.isWhole_whole _) sE (Memref.isWhole_whole _) sH (Memref.isWhole_whole _)
            cc0_scratch2 cc0_scratch3 cc0_scratch4 cc0_scratch5 cc0_scratch6 cc0_scoped0)
          fun _ => iprop(tdFor m (histArr m) d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  sl_unfold [cc0_hist_kernel]
  rw [(K (F := F)).scopedBufs_V facts d (cV L) (jV L), SparseCore.Cfg.scopedSems0_V (Val := Elt F) d (cV L) (jV L), ownSems0_V, ownBufs_V]
  unfold goFor
  iintro ⟨#Hlv, -, ⟨He, %fh, Hh⟩, ⟨⟨%fs, Hs⟩, ⟨%ft, Ht⟩, Hbufs⟩, ⟨Hm0, Hm1, Hm2, Hm3, Hm4, Hm5, Hsems⟩, HO⟩
  ihave Hmw := ((K (F := F)).mayWaits_none (thr := V d (cV L) (jV L)) hO) $$ Hlv
  ihave He' := (Entails.of_eq (chunk_split m d L)) $$ He
  icases He' with ⟨He0, He1, He2, He3, He4⟩
  ihave Hs' := (Entails.of_eq (stage_split d L fs)) $$ Hs
  icases Hs' with ⟨Hs0, Hs1, Hs2, Hs3, Hs4⟩
  ihave Ht' := (Entails.of_eq (pts_sH (F := F) d L _).symm) $$ Ht
  ihave Hh' := (Entails.of_eq (pts_dstM (F := F) d L _).symm) $$ Hh
  sl_exec
  sl_for (zinv (F := F) d L) $$ [Ht']
  case region =>
    intro k _
    unfold zinv
    iintro ⟨%f, Ht, %hf⟩
    sl_exec
    sl_step
    iexists _
    isplitl [Ht]; · iexact Ht
    ipureintro
    exact zero_trip (F := F) k f hf
  · unfold zinv
    iexists ft
    isplitl [Ht']; · iexact Ht'
    ipureintro
    intro j hj; exact absurd hj (Nat.not_lt_zero _)
  iintro %_ HI
  unfold zinv
  icases HI with ⟨%f0, Ht, %hf0⟩
  have hz : f0 = zeroTbl (F := F) := funext fun j => hf0 j (by
    have h64 : (j 0).val < 64 := (j 0).isLt
    have ht : Scf.trips k0_t1_loop.lb k0_t1_loop.ub k0_t1_loop.st = 64 := by decide
    omega)
  subst hz
  sl_exec
  -- counting loop 0: window 0 has landed
  rw [show tile_body.sl.dma0 m d L = View.read (Elt F) (srcAt L 0#32 (k0_off1_inb L 0)).view (m (eLoc d)) from rfl]
  ihave Hs0 := (Entails.of_eq (landed m d L 0 (c := 0) (o := 0#32) rfl rfl (k0_off1_inb L 0) inb_S50000_S10000_0 _)) $$ Hs0
  sl_for (sinv (F := F) m d L 0 inb_S50000_S10000_0 0) $$ [Hs0 Ht]
  case region =>
    intro k _
    exact trip0 m d L hpre k
  · unfold sinv
    isplitl [Hs0]; · iexact Hs0
    iexact Ht
  iintro %_ HI
  unfold sinv
  rw [show Scf.trips k0_t2_loop.lb k0_t2_loop.ub k0_t2_loop.st = 25 from by decide]
  icases HI with ⟨Hs0, Ht⟩
  sl_exec
  -- counting loop 1: window 1 has landed
  rw [show tile_body.sl.dma0_1 m d L = View.read (Elt F) (srcAt L 10000#32 (k0_off1_inb L 1)).view (m (eLoc d)) from rfl]
  ihave Hs1 := (Entails.of_eq (landed m d L 1 (c := 10000) (o := 10000#32) rfl rfl (k0_off1_inb L 1) inb_S50000_S10000_10000 _)) $$ Hs1
  sl_for (sinv (F := F) m d L 10000 inb_S50000_S10000_10000 625) $$ [Hs1 Ht]
  case region =>
    intro k _
    exact trip1 m d L hpre k
  · unfold sinv
    isplitl [Hs1]; · iexact Hs1
    iexact Ht
  iintro %_ HI
  unfold sinv
  rw [show Scf.trips k0_t3_loop.lb k0_t3_loop.ub k0_t3_loop.st = 25 from by decide]
  icases HI with ⟨Hs1, Ht⟩
  sl_exec
  -- counting loop 2: window 2 has landed
  rw [show tile_body.sl.dma0_2 m d L = View.read (Elt F) (srcAt L 20000#32 (k0_off1_inb L 2)).view (m (eLoc d)) from rfl]
  ihave Hs2 := (Entails.of_eq (landed m d L 2 (c := 20000) (o := 20000#32) rfl rfl (k0_off1_inb L 2) inb_S50000_S10000_20000 _)) $$ Hs2
  sl_for (sinv (F := F) m d L 20000 inb_S50000_S10000_20000 1250) $$ [Hs2 Ht]
  case region =>
    intro k _
    exact trip2 m d L hpre k
  · unfold sinv
    isplitl [Hs2]; · iexact Hs2
    iexact Ht
  iintro %_ HI
  unfold sinv
  rw [show Scf.trips k0_t4_loop.lb k0_t4_loop.ub k0_t4_loop.st = 25 from by decide]
  icases HI with ⟨Hs2, Ht⟩
  sl_exec
  -- counting loop 3: window 3 has landed
  rw [show tile_body.sl.dma0_3 m d L = View.read (Elt F) (srcAt L 30000#32 (k0_off1_inb L 3)).view (m (eLoc d)) from rfl]
  ihave Hs3 := (Entails.of_eq (landed m d L 3 (c := 30000) (o := 30000#32) rfl rfl (k0_off1_inb L 3) inb_S50000_S10000_30000 _)) $$ Hs3
  sl_for (sinv (F := F) m d L 30000 inb_S50000_S10000_30000 1875) $$ [Hs3 Ht]
  case region =>
    intro k _
    exact trip3 m d L hpre k
  · unfold sinv
    isplitl [Hs3]; · iexact Hs3
    iexact Ht
  iintro %_ HI
  unfold sinv
  rw [show Scf.trips k0_t5_loop.lb k0_t5_loop.ub k0_t5_loop.st = 25 from by decide]
  icases HI with ⟨Hs3, Ht⟩
  sl_exec
  -- counting loop 4: window 4 has landed
  rw [show tile_body.sl.dma0_4 m d L = View.read (Elt F) (srcAt L 40000#32 (k0_off1_inb L 4)).view (m (eLoc d)) from rfl]
  ihave Hs4 := (Entails.of_eq (landed m d L 4 (c := 40000) (o := 40000#32) rfl rfl (k0_off1_inb L 4) inb_S50000_S10000_40000 _)) $$ Hs4
  sl_for (sinv (F := F) m d L 40000 inb_S50000_S10000_40000 2500) $$ [Hs4 Ht]
  case region =>
    intro k _
    exact trip4 m d L hpre k
  · unfold sinv
    isplitl [Hs4]; · iexact Hs4
    iexact Ht
  iintro %_ HI
  unfold sinv
  rw [show Scf.trips k0_t6_loop.lb k0_t6_loop.ub k0_t6_loop.st = 25 from by decide]
  icases HI with ⟨Hs4, Ht⟩
  sl_exec
  sl_step
  unfold tdFor
  isplitl [He0 He1 He2 He3 He4 Hh']
  · isplitl [He0 He1 He2 He3 He4]
    · iapply (Entails.of_eq (chunk_split m d L).symm)
      isplitl [He0]; · iexact He0
      isplitl [He1]; · iexact He1
      isplitl [He2]; · iexact He2
      isplitl [He3]; · iexact He3
      iexact He4
    · iapply (Entails.of_eq (out_row m d L _ _ ?hp))
      rotate_left
      · iexact Hh'
      · rfl
  isplitl [Hs0 Hs1 Hs2 Hs3 Hs4 Ht Hbufs]
  · isplitl [Hs0 Hs1 Hs2 Hs3 Hs4]
    · iexists (chunkFn (m (eLoc d)) (wL L))
      iapply (Entails.of_eq (stage_split (F := F) d L _).symm)
      isplitl [Hs0]; · iexact Hs0
      isplitl [Hs1]; · iexact Hs1
      isplitl [Hs2]; · iexact Hs2
      isplitl [Hs3]; · iexact Hs3
      iexact Hs4
    isplitl [Ht]
    · iexists _
      iapply (Entails.of_eq (pts_sH (F := F) d L _))
      iexact Ht
    iexact Hbufs
  isplitl [Hm0 Hm1 Hm2 Hm3 Hm4 Hm5 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    iexact Hsems
  iexists _
  isplitr
  rotate_left
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact .inl hp

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_hist_kernel (coordsV c s)
          eV (Memref.isWhole_whole _) hV (Memref.isWhole_whole _) sE (Memref.isWhole_whole _) sH (Memref.isWhole_whole _)
          cc0_scratch2 cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every vector subcore of the call: its chunk counted into its row. -/
theorem tileObl (hpre : PreOK m) : (K (F := F)).TileObl (D (F := F)) 𝒱 (P m (histArr m)) v₀ 0 := by
  intro d c i O W hO _ _
  simp only [show (P m (histArr m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

omit [FloatOps F] in
/-- A core's operands are its tasks' operands and its results their results: nothing to split. -/
theorem vecSplit (Hf : (d : Dev nD) → Buf (Elt F) (hLoc d)) : (K (F := F)).VecSplit' (P m Hf) 0 := by
  intro d c
  show (bigSep Finset.univ fun i : Fin ((K (F := F)).nSub 0) => goFor m d (wid c.val i.val))
    ⊢ |={Set.univ}=> iprop((bigSep Finset.univ fun i : Fin ((K (F := F)).nSub 0) => goFor m d (wid c.val i.val))
      ∗ ((bigSep Finset.univ fun i : Fin ((K (F := F)).nSub 0) => tdFor m Hf d (wid c.val i.val))
        -∗ (bigSep Finset.univ fun i : Fin ((K (F := F)).nSub 0) => tdFor m Hf d (wid c.val i.val))))
  iintro H; imodintro
  isplitl [H]; · iexact H
  iintro H; iexact H

end Tile

end Cert.Kernel.Run

end
-- ==== Proof.lean ====
/-
  The certificate's five claims, assembled.

  Both kernel programs run the same way: thirty-two counting tasks, one per vector subcore, each leave a row of the
  table of partial counts; four host operations recast the factors and the mask; a row pipeline of twenty points writes
  the result, `x + ((x · A) · mask) · bavg` block by block, `bavg` the weight-averaged second factor read off the
  table. Each program's run ends with its arguments unchanged and its result at that function of the arguments; the
  frames are those runs with the result forgotten. The run needs every edge's relation id below 64 (a task adds at
  row `id` of a 64-row table), which the precondition states.

  The idealized kernel and the idealized reference agree: at the ideal instance the kernel's result is `G` of the
  arguments (the table's partial counts sum to the relations' counts), and so is the reference's — its scatter-add
  counts the same relations, and `x · (I + A · bavg) = x + (x · A) · bavg` for finite entries, which the precondition
  gives. The idealization rewrote nothing, so there is nothing to preserve.
-/
import proofs.«210447_g31353261261282_cont_9to1_114_24_alg».proof.Defs
import proofs.«210447_g31353261261282_cont_9to1_114_24_alg».proof.Proof.Gen.Kernel
import proofs.«210447_g31353261261282_cont_9to1_114_24_alg».proof.Proof.Gen.KernelIdeal
import proofs.«210447_g31353261261282_cont_9to1_114_24_alg».proof.Proof.Gen.ReferenceIdeal
import proofs.«210447_g31353261261282_cont_9to1_114_24_alg».proof.Proof.Gen.Pre_input_domain
import proofs.«210447_g31353261261282_cont_9to1_114_24_alg».proof.Proof.RefRun
import proofs.«210447_g31353261261282_cont_9to1_114_24_alg».proof.Proof.RefValue
import proofs.«210447_g31353261261282_cont_9to1_114_24_alg».proof.Proof.PreFacts
import proofs.«210447_g31353261261282_cont_9to1_114_24_alg».proof.Proof.LaunchMain
import proofs.«210447_g31353261261282_cont_9to1_114_24_alg».proof.Proof.Task
import proofs.«210447_g31353261261282_cont_9to1_114_24_alg».proof.Proof.TaskValue
import proofs.«210447_g31353261261282_cont_9to1_114_24_alg».proof.Proof.KernelValue
import proofs.«210447_g31353261261282_cont_9to1_114_24_alg».proof.Proof.Bits.LaunchMain
import proofs.«210447_g31353261261282_cont_9to1_114_24_alg».proof.Proof.Bits.Task
import Idealize.ShloMosaic.Adequacy
import Idealize.ShloMosaic.Init

noncomputable section

namespace Cert.Proof

open Idealize.ShloMosaic Idealize.ShloMosaic.TcCoe Idealize.SL.Sem

/-! ## Every edge's relation id is below 64, from the precondition -/

theorem preOK_K (m : (ℓ : Loc Cert.Kernel.nD Cert.Kernel.τ Cert.Kernel.sig) → Buf (Elt Bits) ℓ) (h : Cert.Pre_Kernel m) :
    Cert.Kernel.Run.PreOK (F := Bits) m :=
  fun d j => Cert.PreFacts.range_of_pre (F := Bits) _ _ _ _ _ (h d) j

theorem preOK_KI (m : (ℓ : Loc Cert.KernelIdeal.nD Cert.KernelIdeal.τ Cert.KernelIdeal.sig) → Buf (Elt Ideal) ℓ) (h : Cert.Pre_KernelIdeal m) :
    Cert.KernelIdeal.Run.PreOK (F := Ideal) m :=
  fun d j => Cert.PreFacts.range_of_pre (F := Ideal) _ _ _ _ _ (h d) j

/-! ## The frames -/

theorem frame_K : Cert.frame_Kernel := fun m ρ hpre =>
  (θ_run Cert.Kernel.defs _ _).mono (fun _ h c => (h c).2)
    (Cert.Kernel.Run.run_main (F := Bits) m ρ (Cert.Kernel.Run.histArr m) (Cert.Kernel.Run.tileObl m (preOK_K m hpre)) (Cert.Kernel.Run.vecSplit m _))

theorem frame_KI : Cert.frame_KernelIdeal := fun m ρ hpre =>
  (θ_run Cert.KernelIdeal.defs _ _).mono (fun _ h c => (h c).2)
    (Cert.KernelIdeal.Run.run_main (F := Ideal) m ρ (Cert.KernelIdeal.Run.histArr m) (Cert.KernelIdeal.Run.tileObl m (preOK_KI m hpre)) (Cert.KernelIdeal.Run.vecSplit m _))

theorem frame_RI : Cert.frame_ReferenceIdeal := fun m ρ _ =>
  (θ_run Cert.ReferenceIdeal.defs _ _).mono (fun _ h c => (h c).2) (Cert.ReferenceIdeal.Value.run (F := Ideal) m ρ)

/-! ## The two idealized programs compute one function -/

theorem algebraic : Cert.algebraic_KernelIdeal_ReferenceIdeal := by
  intro m ρ m' ρ' hpre hagree
  have hok := preOK_KI m hpre
  refine ⟨fun c => Cert.KernelIdeal.Run.outArr c (Cert.KernelIdeal.Run.Vh m (Cert.KernelIdeal.Run.histArr m) c),
    Cert.KernelIdeal.Run.run_main (F := Ideal) m ρ (Cert.KernelIdeal.Run.histArr m) (Cert.KernelIdeal.Run.tileObl m hok) (Cert.KernelIdeal.Run.vecSplit m _), ?_⟩
  refine (θ_run Cert.ReferenceIdeal.defs _ _).mono (fun _ h c => ⟨(h c).1.trans ?_, (h c).2⟩)
    (Cert.ReferenceIdeal.Value.run (F := Ideal) m' ρ')
  obtain ⟨hx, hA, hB⟩ := Cert.PreFacts.finite_of_pre _ _ _ _ _ (hpre c)
  rw [Cert.ReferenceIdeal.Read.val_main_v33_eq, (hagree c).1, (hagree c).2.1, (hagree c).2.2.1, (hagree c).2.2.2.1, (hagree c).2.2.2.2,
    Cert.RefValue.ref_eq_G _ _ _ _ _ hx hA hB (fun j => hok c j)]
  exact (Cert.KernelIdeal.RunValue.kernel_val m (Cert.KernelIdeal.Run.histArr m) c
    (fun w r l => Cert.KernelIdeal.RunValue.histArr_ideal m hok c w r l)).symm

/-! ## The claim -/

theorem claim : Cert.Claim :=
  ⟨Cert.Kernel.Gen.facts, Cert.KernelIdeal.Gen.facts, Cert.ReferenceIdeal.Gen.facts, Cert.Pre_input_domain.Gen.facts,
    frame_K, frame_KI, frame_RI, trivial, algebraic⟩

end Cert.Proof

end
